-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S9 : Shape := ⟨1, ![9]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S9 : S_.BroadcastsInDim S9 (![] : Fin 0 → Fin S9.rank)
  reducesTo_S9_S_d0 : S9.ReducesTo [0] S_
  reducesTo_S8192x512_S8192_d1 : S8192x512.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x512 .f32) (main_arg1 : IVec S8192 32) (main_arg2 : FVec F S9 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S9 .f32 := Host.absf main_arg2
  let main_cst_0 : FVec F S_ .f32 := constant S_ .f32 0x7F800000#32
  let main_v5 : FVec F S9 .f32 := broadcastInDim S9 ![] bcast_S_S9 main_cst_0
  let main_v6 : IVec S9 1 := cmpf .olt main_v4 main_v5
  let main_c_1 : IVec S_ 1 := constantI S_ 1 1#1
  let main_v7 : IVec S_ 1 := (fun x v => Host.reduce IntOp.andi x v reducesTo_S9_S_d0 h_S_) main_v6 main_c_1
  let main_v8 : IVec S_ 1 := andi main_v3 main_v7
  let main_v9 : FVec F S8192x512 .f32 := mulf main_arg0 main_arg0
  let main_cst_2 : FVec F S_ .f32 := constant S_ .f32 0x00000000#32
  let main_v10 : FVec F S8192 .f32 := (fun x v => Host.reduceAdd x v reducesTo_S8192x512_S8192_d1 h_S_) main_v9 main_cst_2
  let main_cst_3 : FVec F S_ .f32 := constant S_ .f32 0x00000000#32
  let main_v11 : FVec F S8192 .f32 := broadcastInDim S8192 ![] bcast_S_S8192 main_cst_3
  let main_v12 : IVec S8192 1 := cmpf .ogt main_v10 main_v11
  let main_c_4 : IVec S_ 1 := constantI S_ 1 1#1
  let main_v13 : IVec S_ 1 := (fun x v => Host.reduce IntOp.andi x v reducesTo_S8192_S_d0 h_S_) main_v12 main_c_4
  let main_v14 : IVec S_ 1 := andi main_v8 main_v13
  main_v14
-- ==== Kernel.lean ====
abbrev S8192x512 : Shape := ⟨2, ![8192, 512]⟩
abbrev S8192 : Shape := ⟨1, ![8192]⟩
abbrev S9 : Shape := ⟨1, ![9]⟩
abbrev S_ : Shape := ⟨0, ![]⟩
abbrev S8192x1 : Shape := ⟨2, ![8192, 1]⟩
abbrev S1x8192 : Shape := ⟨2, ![1, 8192]⟩
abbrev S2048x512 : Shape := ⟨2, ![2048, 512]⟩
abbrev S512x512 : Shape := ⟨2, ![512, 512]⟩
abbrev S2048x1 : Shape := ⟨2, ![2048, 1]⟩
abbrev S2048 : Shape := ⟨1, ![2048]⟩
abbrev S1x512 : Shape := ⟨2, ![1, 512]⟩

abbrev nBuf : Space → Nat
  | .hbm => 45
  | .vmem => 28
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S9, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x512, .f32⟩
  | .hbm, ⟨9, _⟩ => ⟨S8192x512, .f32⟩
  | .hbm, ⟨10, _⟩ => ⟨S8192x512, .bf16⟩
  | .hbm, ⟨11, _⟩ => ⟨S8192x1, .i32⟩
  | .hbm, ⟨12, _⟩ => ⟨S1x8192, .i32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S8192, .i32⟩
  | .hbm, ⟨30, _⟩ => ⟨S8192x1, .i32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .i1⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x512, .bf16⟩
  | .local _ .vmem, ⟨11, _⟩ => ⟨S2048x512, .bf16⟩
  | .local _ .vmem, ⟨12, _⟩ => ⟨S512x512, .bf16⟩
  | .local _ .vmem, ⟨13, _⟩ => ⟨S512x512, .bf16⟩
  | .local _ .vmem, ⟨14, _⟩ => ⟨S2048x1, .i32⟩
  | .local _ .vmem, ⟨15, _⟩ => ⟨S2048x1, .i32⟩
  | .local _ .vmem, ⟨16, _⟩ => ⟨S1x512, .i32⟩
  | .local _ .vmem, ⟨17, _⟩ => ⟨S1x512, .i32⟩
  | .local _ .vmem, ⟨18, _⟩ => ⟨S2048x1, .f32⟩
  | .local _ .vmem, ⟨19, _⟩ => ⟨S2048x1, .f32⟩
  | .local _ .vmem, ⟨20, _⟩ => ⟨S2048x1, .f32⟩
  | .local _ .vmem, ⟨21, _⟩ => ⟨S2048x1, .f32⟩
  | .local _ .vmem, ⟨22, _⟩ => ⟨S2048x1, .f32⟩
  | .local _ .vmem, ⟨23, _⟩ => ⟨S2048x1, .f32⟩
  | .local _ .vmem, ⟨24, _⟩ => ⟨S2048x1, .f32⟩
  | .local _ .vmem, ⟨25, _⟩ => ⟨S2048x1, .f32⟩
  | .local _ .vmem, ⟨26, _⟩ => ⟨S2048x1, .f32⟩
  | .local _ .vmem, ⟨27, _⟩ => ⟨S2048x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_scratch0 : Ref sig .tc := ⟨.vmem, 26, rfl⟩
abbrev cc1_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v43 : BitVec 1 := Scalar.cmpi .eq arg1 c15_i32
  let v44 : BitVec 32 := Scalar.extui v43
  let c0_i32_18 : BitVec 32 := 0#32
  let v45 : BitVec 1 := Scalar.cmpi .ne v44 c0_i32_18
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v62 : BitVec 1 := Scalar.cmpi .eq arg1 c15_i32
  let v63 : BitVec 32 := Scalar.extui v62
  let c0_i32_27 : BitVec 32 := 0#32
  let v64 : BitVec 1 := Scalar.cmpi .ne v63 c0_i32_27
  v64

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2048x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S2048x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S2048x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bitsLt_bf16_f32 : FTy.bits .bf16 < FTy.bits .f32
  shapeCasts_S8192_S8192x1 : S8192.ShapeCasts S8192x1
  shapeCasts_S8192_S1x8192 : S8192.ShapeCasts S1x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  iota_S2048x512_d0_w32 : S2048x512.Iotas .tc 32 [0]
  iota_S2048x512_d1_w32 : S2048x512.Iotas .tc 32 [1]
  reduces_S2048x512_S2048 : S2048x512.Reduces [1] S2048
  shapeCasts_S2048_S2048x1 : S2048.ShapeCasts S2048x1
  broadcasts_S2048x1_S2048x512 : S2048x1.Broadcasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  natLt_1_32 : 1 < 32
  shapeCasts_S8192x1_S8192 : S8192x1.ShapeCasts S8192
  bcast_S_S8192 : S_.BroadcastsInDim S8192 (![] : Fin 0 → Fin S8192.rank)
  reducesTo_S8192_S_d0 : S8192.ReducesTo [0] S_
  dot_S2048x512_S512x512_S2048x512_1_0_0_1_n_n_wf : DotDims.WF S2048x512 S512x512 S2048x512 [1] [0] [0] [1] [] []
  gather_S9_S8192x1_S8192_n_0_n_n_0_1_1_wf : GatherDims.WF S9 S8192x1 S8192 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S8192x1.size a
  hwx0_3 : ∀ i : grid0.Coords, EltTy.bits .f32 = 32 ∨ (Rect.block (s := S8192x1) S2048x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x512.size a
  hwx1_0 : ∀ i : grid1.Coords, EltTy.bits .bf16 = 32 ∨ (Rect.block (s := S8192x512) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x512.size a
  hwx1_1 : ∀ i : grid1.Coords, EltTy.bits .bf16 = 32 ∨ (Rect.block (s := S8192x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .i32 = 32 ∨ (Rect.block (s := S8192x1) S2048x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .i32 = 32 ∨ (Rect.block (s := S1x8192) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S8192x1.size a
  hwx1_4 : ∀ i : grid1.Coords, EltTy.bits .f32 = 32 ∨ (Rect.block (s := S8192x1) S2048x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x1.size a ≤ S8192x1.size a
  hwx1_5 : ∀ i : grid1.Coords, EltTy.bits .f32 = 32 ∨ (Rect.block (s := S8192x1) S2048x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x1.size a ≤ S8192x1.size a
  hwx1_6 : ∀ i : grid1.Coords, EltTy.bits .f32 = 32 ∨ (Rect.block (s := S8192x1) S2048x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x1.size a ≤ S8192x1.size a
  hwx1_7 : ∀ i : grid1.Coords, EltTy.bits .f32 = 32 ∨ (Rect.block (s := S8192x1) S2048x1.size (cc1_transform_7 i) (hinb1_7 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def gather_S9_S8192x1_S8192_n_0_n_n_0_1_1 : GatherDims S9 S8192x1 S8192 where
  offsetDims := []
  collapsedSliceDims := [0]
  operandBatchingDims := []
  startIndicesBatchingDims := []
  startIndexMap := [0]
  indexVectorDim := 1
  sliceSizes := ![1]
  wf := gather_S9_S8192x1_S8192_n_0_n_n_0_1_1_wf

abbrev win0_0 : Pipeline.Window sig grid0 :=
  Pipeline.Window.ofSpec (Memref.whole main_v3) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6_0) S2048x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6_1) S2048x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7_0) S2048x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v7_1) S2048x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S9 : Shape := ⟨1, ![9]⟩
abbrev S_ : Shape := ⟨0, ![]⟩
abbrev S8192x1 : Shape := ⟨2, ![8192, 1]⟩
abbrev S512x8192 : Shape := ⟨2, ![512, 8192]⟩
abbrev S8192x8192 : Shape := ⟨2, ![8192, 8192]⟩
abbrev S1x8192 : Shape := ⟨2, ![1, 8192]⟩

abbrev nBuf : Space → Nat
  | .hbm => 91
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S9, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x512, .f32⟩
  | .hbm, ⟨9, _⟩ => ⟨S8192x512, .f32⟩
  | .hbm, ⟨10, _⟩ => ⟨S512x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .i32⟩
  | .hbm, ⟨16, _⟩ => ⟨S8192x8192, .i32⟩
  | .hbm, ⟨17, _⟩ => ⟨S_, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x1, .i32⟩
  | .hbm, ⟨42, _⟩ => ⟨S1x8192, .i32⟩
  | .hbm, ⟨43, _⟩ => ⟨S8192x8192, .i32⟩
  | .hbm, ⟨44, _⟩ => ⟨S8192x8192, .i32⟩
  | .hbm, ⟨45, _⟩ => ⟨S8192x8192, .i1⟩
  | .hbm, ⟨46, _⟩ => ⟨S8192x8192, .i1⟩
  | .hbm, ⟨47, _⟩ => ⟨S8192x8192, .i1⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S8192x8192, .i32⟩
  | .hbm, ⟨56, _⟩ => ⟨S_, .i32⟩
  | .hbm, ⟨57, _⟩ => ⟨S8192, .i32⟩
  | .hbm, ⟨58, _⟩ => ⟨S_, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192, .f32⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .f32⟩
  | .hbm, ⟨68, _⟩ => ⟨S8192, .f32⟩
  | .hbm, ⟨69, _⟩ => ⟨S_, .i32⟩
  | .hbm, ⟨70, _⟩ => ⟨S8192, .i32⟩
  | .hbm, ⟨71, _⟩ => ⟨S8192, .i1⟩
  | .hbm, ⟨72, _⟩ => ⟨S_, .i32⟩
  | .hbm, ⟨73, _⟩ => ⟨S8192, .i32⟩
  | .hbm, ⟨74, _⟩ => ⟨S8192, .i32⟩
  | .hbm, ⟨75, _⟩ => ⟨S8192, .i32⟩
  | .hbm, ⟨76, _⟩ => ⟨S8192x1, .i32⟩
  | .hbm, ⟨77, _⟩ => ⟨S8192, .f32⟩
  | .hbm, ⟨78, _⟩ => ⟨S_, .i32⟩
  | .hbm, ⟨79, _⟩ => ⟨S8192, .i32⟩
  | .hbm, ⟨80, _⟩ => ⟨S8192, .i1⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S8192, .f32⟩
  | .hbm, ⟨85, _⟩ => ⟨S8192, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_call1_v0 : Ref sig .tc := ⟨.hbm, 22, rfl⟩
abbrev main_call1_v1 : Ref sig .tc := ⟨.hbm, 23, rfl⟩
abbrev main_v12 : Ref sig .tc := ⟨.hbm, 24, rfl⟩
abbrev main_call2_cst : Ref sig .tc := ⟨.hbm, 25, rfl⟩
abbrev main_call2_v0 : Ref sig .tc := ⟨.hbm, 26, rfl⟩
abbrev main_call2_cst_0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_v6 : Ref sig .tc := ⟨.hbm, 33, rfl⟩
abbrev main_call2_cst_1 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_1 : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_3 : Ref sig .tc := ⟨.hbm, 56, rfl⟩
abbrev main_v28 : Ref sig .tc := ⟨.hbm, 57, rfl⟩
abbrev main_cst_4 : Ref sig .tc := ⟨.hbm, 58, rfl⟩
abbrev main_call3_v0 : Ref sig .tc := ⟨.hbm, 59, rfl⟩
abbrev main_call3_v1 : Ref sig .tc := ⟨.hbm, 60, rfl⟩
abbrev main_v29 : Ref sig .tc := ⟨.hbm, 61, rfl⟩
abbrev main_cst_5 : Ref sig .tc := ⟨.hbm, 62, rfl⟩
abbrev main_v30 : Ref sig .tc := ⟨.hbm, 63, rfl⟩
abbrev main_c_6 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_c_7 : Ref sig .tc := ⟨.hbm, 69, rfl⟩
abbrev main_v35 : Ref sig .tc := ⟨.hbm, 70, rfl⟩
abbrev main_v36 : Ref sig .tc := ⟨.hbm, 71, rfl⟩
abbrev main_c_8 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_c_9 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_10 : Ref sig .tc := ⟨.hbm, 82, rfl⟩
abbrev main_call4_v0 : Ref sig .tc := ⟨.hbm, 83, rfl⟩
abbrev main_call4_v1 : Ref sig .tc := ⟨.hbm, 84, rfl⟩
abbrev main_v45 : Ref sig .tc := ⟨.hbm, 85, rfl⟩
abbrev main_cst_11 : Ref sig .tc := ⟨.hbm, 86, rfl⟩
abbrev main_v46 : Ref sig .tc := ⟨.hbm, 87, rfl⟩
abbrev main_v47 : Ref sig .tc := ⟨.hbm, 88, rfl⟩
abbrev main_cst_12 : Ref sig .tc := ⟨.hbm, 89, rfl⟩
abbrev main_v48 : Ref sig .tc := ⟨.hbm, 90, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  natLt_1_32 : 1 < 32
  reducesTo_S8192_S_d0 : S8192.ReducesTo [0] S_
  dot_S8192x512_S512x8192_S8192x8192_1_0_0_1_n_n_wf : DotDims.WF S8192x512 S512x8192 S8192x8192 [1] [0] [0] [1] [] []
  gather_S9_S8192x1_S8192_n_0_n_n_0_1_1_wf : GatherDims.WF S9 S8192x1 S8192 [] [0] [] [0] [] 1 ![1]

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S9_S8192x1_S8192_n_0_n_n_0_1_1 : GatherDims S9 S8192x1 S8192 where
  offsetDims := []
  collapsedSliceDims := [0]
  operandBatchingDims := []
  startIndicesBatchingDims := []
  startIndexMap := [0]
  indexVectorDim := 1
  sliceSizes := ![1]
  wf := gather_S9_S8192x1_S8192_n_0_n_n_0_1_1_wf

class Facts : Prop extends Facts₀ where

variable [Facts]
-- ==== Proof.BK0Runs.lean ====
/-
  The first kernel region (the running row maximum and rescaled row sum of exponentials over sixteen column
  blocks): what its per-point runs are stated over.  The region's entry contents are a variable V, so that nothing
  here depends on the host operations before the region.  A grid point is (row block, column block); the body
  re-initialises both carried buffers at column block 0 and copies them to the two output blocks at column block 15.
-/
import proofs.«113668_j72095321030692_1_alg».proof.Proof.Gen.Kernel.Launch
import proofs.«113668_j72095321030692_1_alg».proof.Proof.Gen.Kernel.Skeleton
import proofs.«113668_j72095321030692_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional: the column block is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional: the column block is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_2 : View sig .tc .vmem S2048x1 .f32 := (Memref.whole cc0_stg2_0 : Memref sig .tc .vmem S2048x1 .f32).view
abbrev VO0_3 : View sig .tc .vmem S2048x1 .f32 := (Memref.whole cc0_stg3_0 : Memref sig .tc .vmem S2048x1 .f32).view
abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
/-- The two buffers the kernel carries between points: the running maximum and the running sum. -/
abbrev scM0_0 : Memref sig .tc .vmem S2048x1 .f32 := Memref.whole cc0_scratch0
abbrev scM0_1 : Memref sig .tc .vmem S2048x1 .f32 := Memref.whole cc0_scratch1
abbrev VS0_0 : View sig .tc .vmem S2048x1 .f32 := scM0_0.view
abbrev VS0_1 : View sig .tc .vmem S2048x1 .f32 := scM0_1.view

/-- The scoped buffers of the other region, which this region never touches: each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region's plain invariant with the two carried buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 (F := F) c) ∗ (∃ r, prngReg c r)) := by
  unfold Pipeline.ΦA Rest0; rw [scopedRest0_eq]; simp only [scM0_0, scM0_1, owns_whole]; try rfl

end Cert.Kernel.Hand0

end
-- ==== Proof.BK0RunA.lean ====
/-
  The first kernel's body at a first column block (and not the last): both carried buffers are re-initialised, then updated from the two input blocks; the output blocks are not touched.
-/
import proofs.«113668_j72095321030692_1_alg».proof.Proof.BK0Runs

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output blocks and the two carried buffers in this case, with the
    proof that on whole memrefs the body runs to a continuation holding them. -/
noncomputable def kernelRun0_A (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x512 .bf16) (x1 : Vec F S512x512 .bf16) :
    Σ' (L2 : List (View.Piece (Elt F) S2048x1 .f32)) (L3 : List (View.Piece (Elt F) S2048x1 .f32)) (LS0 : List (View.Piece (Elt F) S2048x1 .f32)), { LS1 : List (View.Piece (Elt F) S2048x1 .f32) //
      ∀ (xi2 xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__k1_kernel i arg2 harg2 arg3 harg3 arg4 harg4 arg5 harg5 arg6 harg6 arg7 harg7) K } := by
  refine ⟨[], [], ?_, ?_, fun xi2 xi3 E K => ?run⟩
  case run =>
    simp only [cc0__k1_kernel_eq_skeleton]; unfold cc0__k1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand0

end
-- ==== Proof.BK0RunB.lean ====
/-
  The first kernel's body at a middle column block: both carried buffers are updated from what the point before left and the two input blocks; the output blocks are not touched.
-/
import proofs.«113668_j72095321030692_1_alg».proof.Proof.BK0Runs

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output blocks and the two carried buffers in this case, with the
    proof that on whole memrefs the body runs to a continuation holding them. -/
noncomputable def kernelRun0_B (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x512 .bf16) (x1 : Vec F S512x512 .bf16) (xs0 xs1 : Vec F S2048x1 .f32) :
    Σ' (L2 : List (View.Piece (Elt F) S2048x1 .f32)) (L3 : List (View.Piece (Elt F) S2048x1 .f32)) (LS0 : List (View.Piece (Elt F) S2048x1 .f32)), { LS1 : List (View.Piece (Elt F) S2048x1 .f32) //
      ∀ (xi2 xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__k1_kernel i arg2 harg2 arg3 harg3 arg4 harg4 arg5 harg5 arg6 harg6 arg7 harg7) K } := by
  refine ⟨[], [], ?_, ?_, fun xi2 xi3 E K => ?run⟩
  case run =>
    simp only [cc0__k1_kernel_eq_skeleton]; unfold cc0__k1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand0

end
-- ==== Proof.BK0RunC.lean ====
/-
  The first kernel's body at the last column block: both carried buffers are updated from what the point before left and the two input blocks, then copied to the two output blocks.
-/
import proofs.«113668_j72095321030692_1_alg».proof.Proof.BK0Runs

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output blocks and the two carried buffers in this case, with the
    proof that on whole memrefs the body runs to a continuation holding them. -/
noncomputable def kernelRun0_C (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x512 .bf16) (x1 : Vec F S512x512 .bf16) (xs0 xs1 : Vec F S2048x1 .f32) :
    Σ' (L2 : List (View.Piece (Elt F) S2048x1 .f32)) (L3 : List (View.Piece (Elt F) S2048x1 .f32)) (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__k1_kernel i arg2 harg2 arg3 harg3 arg4 harg4 arg5 harg5 arg6 harg6 arg7 harg7) K } := by
  refine ⟨?_, ?_, ?_, ?_, fun E K => ?run⟩
  case run =>
    simp only [cc0__k1_kernel_eq_skeleton]; unfold cc0__k1_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Hand0

end
-- ==== Proof.BK0Frame.lean ====
/-
  The first kernel region, point by point: what its two carried buffers (the running row maximum, the running
  rescaled row sum of exponentials) and its two output blocks hold after the body at each grid point, the region's
  proof data over arbitrary entry contents V, and the body obligation at every point.
-/
import proofs.«113668_j72095321030692_1_alg».proof.Proof.BK0RunA
import proofs.«113668_j72095321030692_1_alg».proof.Proof.BK0RunB
import proofs.«113668_j72095321030692_1_alg».proof.Proof.BK0RunC

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one point leaves, case by case -/

section Cases
variable (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (x0 : Vec F S2048x512 .bf16) (x1 : Vec F S512x512 .bf16)

theorem scover0_A_0 (hc0 : cond0_0 i) (hc1 : ¬cond0_1 i) (y : S2048x1.Idx) :
    ∃ pc ∈ (kernelRun0_A c i arg2 harg2 arg3 harg3 arg4 harg4 arg5 harg5 arg6 harg6 arg7 harg7 hc0 hc1 x0 x1).2.2.1, y ∈ pc.1.set :=
  View.cover_of_tiledL _ S2048x1.size (by sl_kernel_rfl) y
theorem scover0_A_1 (hc0 : cond0_0 i) (hc1 : ¬cond0_1 i) (y : S2048x1.Idx) :
    ∃ pc ∈ (kernelRun0_A c i arg2 harg2 arg3 harg3 arg4 harg4 arg5 harg5 arg6 harg6 arg7 harg7 hc0 hc1 x0 x1).2.2.2.1, y ∈ pc.1.set :=
  View.cover_of_tiledL _ S2048x1.size (by sl_kernel_rfl) y
/-- What a first column block leaves in the two carried buffers. -/
def sout0_A_0 (hc0 : cond0_0 i) (hc1 : ¬cond0_1 i) : Vec F S2048x1 .f32 :=
  VS0_0.read (Elt F) (VS0_0.writes (Elt F) VS0_0.junk (kernelRun0_A c i arg2 harg2 arg3 harg3 arg4 harg4 arg5 harg5 arg6 harg6 arg7 harg7 hc0 hc1 x0 x1).2.2.1)
def sout0_A_1 (hc0 : cond0_0 i) (hc1 : ¬cond0_1 i) : Vec F S2048x1 .f32 :=
  VS0_1.read (Elt F) (VS0_1.writes (Elt F) VS0_1.junk (kernelRun0_A c i arg2 harg2 arg3 harg3 arg4 harg4 arg5 harg5 arg6 harg6 arg7 harg7 hc0 hc1 x0 x1).2.2.2.1)

variable (xs0 xs1 : Vec F S2048x1 .f32)

theorem scover0_B_0 (hc0 : ¬cond0_0 i) (hc1 : ¬cond0_1 i) (y : S2048x1.Idx) :
    ∃ pc ∈ (kernelRun0_B c i arg2 harg2 arg3 harg3 arg4 harg4 arg5 harg5 arg6 harg6 arg7 harg7 hc0 hc1 x0 x1 xs0 xs1).2.2.1, y ∈ pc.1.set :=
  View.cover_of_tiledL _ S2048x1.size (by sl_kernel_rfl) y
theorem scover0_B_1 (hc0 : ¬cond0_0 i) (hc1 : ¬cond0_1 i) (y : S2048x1.Idx) :
    ∃ pc ∈ (kernelRun0_B c i arg2 harg2 arg3 harg3 arg4 harg4 arg5 harg5 arg6 harg6 arg7 harg7 hc0 hc1 x0 x1 xs0 xs1).2.2.2.1, y ∈ pc.1.set :=
  View.cover_of_tiledL _ S2048x1.size (by sl_kernel_rfl) y
/-- What a middle column block leaves in the two carried buffers, over what the point before left. -/
def sout0_B_0 (hc0 : ¬cond0_0 i) (hc1 : ¬cond0_1 i) : Vec F S2048x1 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).2.2.1)
def sout0_B_1 (hc0 : ¬cond0_0 i) (hc1 : ¬cond0_1 i) : Vec F S2048x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.2.2.1)

theorem cover0_C_2 (hc0 : ¬cond0_0 i) (hc1 : cond0_1 i) (y : S2048x1.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL _ S2048x1.size (by sl_kernel_rfl) y
theorem cover0_C_3 (hc0 : ¬cond0_0 i) (hc1 : cond0_1 i) (y : S2048x1.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL _ S2048x1.size (by sl_kernel_rfl) y
theorem scover0_C_0 (hc0 : ¬cond0_0 i) (hc1 : cond0_1 i) (y : S2048x1.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL _ S2048x1.size (by sl_kernel_rfl) y
theorem scover0_C_1 (hc0 : ¬cond0_0 i) (hc1 : cond0_1 i) (y : S2048x1.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL _ S2048x1.size (by sl_kernel_rfl) y
/-- What the last column block leaves in the two output blocks and the two carried buffers. -/
def out0_C_2 (hc0 : ¬cond0_0 i) (hc1 : cond0_1 i) : Vec F S2048x1 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)
def out0_C_3 (hc0 : ¬cond0_0 i) (hc1 : cond0_1 i) : Vec F S2048x1 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)
def sout0_C_0 (hc0 : ¬cond0_0 i) (hc1 : cond0_1 i) : Vec F S2048x1 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)
def sout0_C_1 (hc0 : ¬cond0_0 i) (hc1 : cond0_1 i) : Vec F S2048x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

end Cases

/-! ## What the buffers hold after each point -/

/-- What point t leaves in (output block 2, output block 3, running maximum, running sum), given what the point
    before left in the two carried buffers: the case is read off the column block. The output components are
    consulted only at a last column block. -/
def caseOut0 (c : Dev nD) (t : Fin cfg0.N) (xs : Vec F S2048x1 .f32 × Vec F S2048x1 .f32) : Vec F S2048x1 .f32 × Vec F S2048x1 .f32 × Vec F S2048x1 .f32 × Vec F S2048x1 .f32 :=
  if h0 : t.val % 16 = 0 then
    (xs.1, xs.2,
     sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) ((hcond0_0 t).mpr h0) (fun h => by have := (hcond0_1 t).mp h; omega),
     sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) ((hcond0_0 t).mpr h0) (fun h => by have := (hcond0_1 t).mp h; omega))
  else if h1 : t.val % 16 = 15 then
    (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 (fun h => h0 ((hcond0_0 t).mp h)) ((hcond0_1 t).mpr h1),
     out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 (fun h => h0 ((hcond0_0 t).mp h)) ((hcond0_1 t).mpr h1),
     sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 (fun h => h0 ((hcond0_0 t).mp h)) ((hcond0_1 t).mpr h1),
     sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 (fun h => h0 ((hcond0_0 t).mp h)) ((hcond0_1 t).mpr h1))
  else
    (xs.1, xs.2,
     sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 (fun h => h0 ((hcond0_0 t).mp h)) (fun h => h1 ((hcond0_1 t).mp h)),
     sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 (fun h => h0 ((hcond0_0 t).mp h)) (fun h => h1 ((hcond0_1 t).mp h)))

/-- THE ACCUMULATION: the four buffers after the body at position n. -/
def outsAt0 (c : Dev nD) : (n : ℕ) → n < cfg0.N → Vec F S2048x1 .f32 × Vec F S2048x1 .f32 × Vec F S2048x1 .f32 × Vec F S2048x1 .f32
  | 0, hn => caseOut0 V c ⟨0, hn⟩ (VS0_0.read (Elt F) VS0_0.junk, VS0_1.read (Elt F) VS0_1.junk)
  | n + 1, hn => caseOut0 V c ⟨n + 1, hn⟩ ((outsAt0 c n (Nat.lt_of_succ_lt hn)).2.2)

theorem outsAt0_pos (c : Dev nD) (t : Fin cfg0.N) (hz : t.val ≠ 0) :
    outsAt0 V c t.val t.isLt = caseOut0 V c t ((outsAt0 V c (t.val - 1) (Nat.lt_of_le_of_lt (Nat.sub_le _ _) t.isLt)).2.2) := by
  obtain ⟨n, hn⟩ := t
  cases n with
  | zero => exact absurd rfl hz
  | succ n => rfl

theorem outsAt0_zero (c : Dev nD) (t : Fin cfg0.N) (hz : t.val = 0) :
    outsAt0 V c t.val t.isLt = caseOut0 V c t (VS0_0.read (Elt F) VS0_0.junk, VS0_1.read (Elt F) VS0_1.junk) := by
  obtain ⟨n, hn⟩ := t
  cases n with
  | zero => rfl
  | succ n => exact absurd hz (Nat.succ_ne_zero n)

/-- The region invariant before position n: before the first point the plain one (every scoped buffer at anything);
    afterwards the two carried buffers at what the point before left, the other region's scoped buffers at anything. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ Rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ Rest0 (F := F) c) ∗ (∃ r, prngReg c r)) := by
  cases n with
  | zero => exact absurd rfl hz
  | succ n => rfl

/-! ## The region's proof data -/

variable (q : Fin cfg0.W → PosShare TreeShare)

/-- The proof data on core c: the arrays as the region finds them; after the body each input's buffer at its
    block, the outputs' at the accumulation's components; the invariant above; nothing owed. -/
def dats0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q := q
  owed _ := 0

theorem A_eq0 (c : Dev nD) (w : Fin cfg0.W) : (dats0 V q c).A w = V c (Pipeline.arrRef spec0 w) := by
  dsimp only [dats0]
theorem PhiS0_castSucc (c : Dev nD) (t : Fin cfg0.N) :
    (dats0 V q c).Φ t.castSucc = PhiS0 V c t.val (Nat.le_of_lt t.isLt) := by
  dsimp only [dats0]; simp only [Fin.coe_castSucc]
theorem after0_0 (c : Dev nD) (t : Fin cfg0.N) : (dats0 V q c).after 0 t = iblk0 V c 0 t := by dsimp only [dats0]
theorem after0_1 (c : Dev nD) (t : Fin cfg0.N) : (dats0 V q c).after 1 t = iblk0 V c 1 t := by dsimp only [dats0]
theorem after0_2 (c : Dev nD) (t : Fin cfg0.N) : (dats0 V q c).after 2 t = (outsAt0 V c t.val t.isLt).1 := by dsimp only [dats0]
theorem after0_3 (c : Dev nD) (t : Fin cfg0.N) : (dats0 V q c).after 3 t = (outsAt0 V c t.val t.isLt).2.1 := by dsimp only [dats0]
theorem before0_0 (c : Dev nD) (t : Fin cfg0.N) (d) : (dats0 V q c).before 0 t d = iblk0 V c 0 t :=
  before0_0_of V (dats0 V q c) (A_eq0 V q c 0) (after0_0 V q c) t d
theorem before0_1 (c : Dev nD) (t : Fin cfg0.N) (d) : (dats0 V q c).before 1 t d = iblk0 V c 1 t :=
  before0_1_of V (dats0 V q c) (A_eq0 V q c 1) (after0_1 V q c) t d

/-! ## The body obligation, at a generic point -/

def bodyPre0 (c : Dev nD) (t : Fin cfg0.N) : sProp 𝕄 :=
  iprop((dats0 V q c).Φ t.castSucc ∗ (dats0 V q c).owesAt () t.castSucc
    ∗ (∃ d, owns (c : Thread nD τ) (ms0_0 t) fullShare ((dats0 V q c).before 0 t d))
    ∗ (∃ d, owns (c : Thread nD τ) (ms0_1 t) fullShare ((dats0 V q c).before 1 t d))
    ∗ (∃ d, owns (c : Thread nD τ) (ms0_2 t) fullShare ((dats0 V q c).before 2 t d))
    ∗ (∃ d, owns (c : Thread nD τ) (ms0_3 t) fullShare ((dats0 V q c).before 3 t d)))

def bodyPost0 (c : Dev nD) (t : Fin cfg0.N) : sProp 𝕄 :=
  iprop((dats0 V q c).Φ t.succ ∗ (dats0 V q c).owesAt () t.succ
    ∗ (dats0 V q c).leavesExact 0 t
    ∗ (dats0 V q c).leavesExact 1 t
    ∗ (dats0 V q c).leavesExact 2 t
    ∗ (dats0 V q c).leavesExact 3 t)

set_option maxHeartbeats 8000000 in
/-- The body at any point: the inputs' memrefs hold their blocks; the column block says which case the point is in;
    the invariant hands the body the two carried buffers at what the point before left (at anything at a first column
    block) and takes them back at this point's contents; the core owes nothing throughout. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dats0 V q c).owesAt () t.succ = (dats0 V q c).owesAt () t.castSucc from rfl]
  rw [show (dats0 V q c).Φ t.succ = PhiS0 V c (t.val + 1) t.isLt from rfl, PhiS0_succ]
  have hN : t.val < 64 := lt_of_lt_of_eq t.isLt (show cfg0.N = 64 from N_0)
  rw [show (dats0 V q c).leavesExact 0 t = owns (c : Thread nD τ) (ms0_0 t) fullShare ((dats0 V q c).after 0 t) from by
    unfold Dat.leavesExact; rw [liveAt0_0 t], after0_0]
  rw [show (dats0 V q c).leavesExact 1 t = owns (c : Thread nD τ) (ms0_1 t) fullShare ((dats0 V q c).after 1 t) from by
    unfold Dat.leavesExact; rw [liveAt0_1 t], after0_1]
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dats0 V q c) 2 t (idleAt0_2 t hc1) (noFlush0_2 t hc1)]
    rw [Dat.leavesExact_idle (dats0 V q c) 3 t (idleAt0_3 t hc1) (noFlush0_3 t hc1)]
    by_cases hz : t.val = 0
    · rw [outsAt0_zero V c t hz]
      unfold caseOut0; rw [dif_pos h0]
      unfold sout0_A_0 sout0_A_1; (try dsimp only)
      rw [PhiS0_castSucc V q c t, PhiS0_zero V c _ _ hz, PhiA0_eq]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t)).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          iexact HR
        iexact Hg
      isplitl [Ho]; · iexact Ho
      isplitl [H0]; · iexact H0
      isplitl [H1]; · iexact H1
      isplitl [H2]; · iexists _; iexact H2
      iexists _; iexact H3
    · rw [outsAt0_pos V c t hz]
      unfold caseOut0; rw [dif_pos h0]
      unfold sout0_A_0 sout0_A_1; (try dsimp only)
      rw [PhiS0_castSucc V q c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t)).2.2.2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          iexact HR
        iexact Hg
      isplitl [Ho]; · iexact Ho
      isplitl [H0]; · iexact H0
      isplitl [H1]; · iexact H1
      isplitl [H2]; · iexists _; iexact H2
      iexists _; iexact H3
  · have hz : t.val ≠ 0 := fun h => h0 (by rw [h])
    have hc0 : ¬cond0_0 (grid0.coords t) := fun h => h0 ((hcond0_0 t).mp h)
    by_cases h1 : t.val % 16 = 15
    · have hc1 : cond0_1 (grid0.coords t) := (hcond0_1 t).mpr h1
      rw [show (dats0 V q c).leavesExact 2 t = owns (c : Thread nD τ) (ms0_2 t) fullShare ((dats0 V q c).after 2 t) from by
        unfold Dat.leavesExact; rw [liveAt0_2 t hc1], after0_2]
      rw [show (dats0 V q c).leavesExact 3 t = owns (c : Thread nD τ) (ms0_3 t) fullShare ((dats0 V q c).after 3 t) from by
        unfold Dat.leavesExact; rw [liveAt0_3 t hc1], after0_3]
      rw [outsAt0_pos V c t hz]
      unfold caseOut0; rw [dif_neg h0, dif_pos h1]
      unfold out0_C_2 out0_C_3 sout0_C_0 sout0_C_1; (try dsimp only)
      rw [PhiS0_castSucc V q c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · have hc1 : ¬cond0_1 (grid0.coords t) := fun h => h1 ((hcond0_1 t).mp h)
      rw [Dat.leavesExact_idle (dats0 V q c) 2 t (idleAt0_2 t hc1) (noFlush0_2 t hc1)]
      rw [Dat.leavesExact_idle (dats0 V q c) 3 t (idleAt0_3 t hc1) (noFlush0_3 t hc1)]
      rw [outsAt0_pos V c t hz]
      unfold caseOut0; rw [dif_neg h0, dif_neg h1]
      unfold sout0_B_0 sout0_B_1; (try dsimp only)
      rw [PhiS0_castSucc V q c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_B c (grid0.coords t) _ _ _ _ _ _ _ _ _ _ _ _ hc0 hc1 (iblk0 V c 0 t) (iblk0 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _)
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dats0 (F := F) V q c) (defs₀ (F := F)) Variants.none () Set.univ := fun t => by
  rw [bigSep_W0, bigSep_W0]
  exact sound_body0 V q c t

/-- What the launch hands the region is the invariant before the first point. -/
theorem hin0 (c : Dev nD) : Pipeline.ΦA spec0 c ⊢ (dats0 V q c).Φ 0 := by
  rw [show (dats0 V q c).Φ 0 = PhiS0 V c 0 (Nat.zero_le _) from rfl, PhiS0_zero V c 0 _ rfl]
  try exact Idealize.SL.BI.Entails.refl _

/-- After the last point the invariant gives the plain one back: the carried buffers' contents are forgotten. -/
theorem hout0 (c : Dev nD) : (dats0 V q c).Φ (Fin.last cfg0.N) ⊢ Pipeline.ΦA spec0 c := by
  have ht : (Fin.last cfg0.N).val ≠ 0 := by rw [Fin.val_last]; have : cfg0.N = 64 := N_0; omega
  rw [show (dats0 V q c).Φ (Fin.last cfg0.N) = PhiS0 V c (Fin.last cfg0.N).val (Nat.le_of_lt_succ (Fin.last cfg0.N).isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Cert.Kernel.Hand0

end
-- ==== Proof.BK0Shares.lean ====
/-
  Region 0: the distinct buffers behind the windows' arrays against the windows' arrays at their shares. The
  normalised features are read through two input windows; the buffer is split between them into its two halves on the
  way in and rejoined on the way out.
-/
import proofs.«113668_j72095321030692_1_alg».proof.Proof.BK0Frame

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
abbrev q0 : Fin cfg0.W → PosShare TreeShare := fun | ⟨0, _⟩ => fullShare.left | ⟨1, _⟩ => fullShare.right | ⟨2, _⟩ => fullShare | ⟨3, _⟩ => fullShare

theorem arrRefs0 : (Finset.univ.image (Pipeline.arrRef spec0) : Finset (Ref sig .tc)) = ([main_v3, main_v6_0, main_v6_1] : List (Ref sig .tc)).toFinset := by decide

theorem hsplit0 (c : Dev nD) (G : (w : Fin cfg0.W) → Buf (Elt F) ((cfg0.win w).arr.view.loc (c.tc : Thread nD τ))) (hG : ∀ w, G w = V c (Pipeline.arrRef spec0 w)) :
    (Pipeline.arrBufs spec0 c (V c) : sProp 𝕄) ⊢ (dats0 V q0 c).arrays G := by
  unfold Pipeline.arrBufs Dat.arrays
  rw [bigSep_eq_bigSepL_of_eq _ arrRefs0 (by decide), bigSep_W0]
  simp only [bigSepL_cons_cons, bigSepL_singleton]
  rw [hG 0, hG 1, hG 2, hG 3]
  rw [show (dats0 V q0 c).share 0 = fullShare.left from rfl, show (dats0 V q0 c).share 1 = fullShare.right from rfl,
    show (dats0 V q0 c).share 2 = fullShare from rfl, show (dats0 V q0 c).share 3 = fullShare from rfl]
  simp only [View.set_whole]
  show (iprop(_ ∗ _ ∗ _) : sProp 𝕄) ⊢ _
  iintro ⟨H3, H60, H61⟩
  ihave H := (pointsTo_share (PosShare.mem_left_op_right fullShare)).1 $$ H3
  icases H with ⟨Ha, Hb⟩
  isplitl [Ha]; · iexact Ha
  isplitl [Hb]; · iexact Hb
  isplitl [H60]; · iexact H60
  iexact H61

theorem hjoin0 (c : Dev nD) (G : (w : Fin cfg0.W) → Buf (Elt F) ((cfg0.win w).arr.view.loc (c.tc : Thread nD τ)))
    (Vn : (b : Ref sig .tc) → Buf (Elt F) ((c.tc : Thread nD τ).loc b))
    (h0 : G 0 = Vn main_v3) (h1 : G 1 = Vn main_v3) (h2 : G 2 = Vn main_v6_0) (h3 : G 3 = Vn main_v6_1) :
    (dats0 V q0 c).arrays G ⊢ (Pipeline.arrBufs spec0 c Vn : sProp 𝕄) := by
  unfold Pipeline.arrBufs Dat.arrays
  rw [bigSep_eq_bigSepL_of_eq _ arrRefs0 (by decide), bigSep_W0]
  simp only [bigSepL_cons_cons, bigSepL_singleton]
  rw [h0, h1, h2, h3]
  rw [show (dats0 V q0 c).share 0 = fullShare.left from rfl, show (dats0 V q0 c).share 1 = fullShare.right from rfl,
    show (dats0 V q0 c).share 2 = fullShare from rfl, show (dats0 V q0 c).share 3 = fullShare from rfl]
  simp only [View.set_whole]
  show _ ⊢ (iprop(_ ∗ _ ∗ _) : sProp 𝕄)
  iintro ⟨Ha, Hb, H60, H61⟩
  isplitl [Ha Hb]
  · ihave H := (pointsTo_share (PosShare.mem_left_op_right fullShare)).2 $$ [Ha Hb]
    · isplitl [Ha] <;> iassumption
    iexact H
  isplitl [H60]; · iexact H60
  iexact H61

end Cert.Kernel.Hand0
end
-- ==== Proof.BK1Runs.lean ====
import proofs.«113668_j72095321030692_1_alg».proof.Proof.Gen.Kernel.Launch
import proofs.«113668_j72095321030692_1_alg».proof.Proof.Gen.Kernel.Skeleton
import proofs.«113668_j72095321030692_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region-entry contents and the windows' blocks

The contents of core `c`'s TensorCore buffers when the second kernel region is entered are a parameter `V`
of everything below: the launch supplies them. -/

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved;
    the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved;
    the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved;
    the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved;
    the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved;
    the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: unfetched, the block index has not moved;
    the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the scratch buffers are zeroed), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16): the first column block of a row. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second conditional (the scratch buffers are copied to the outputs), from the grid
    coordinates. -/
abbrev cond1_1 (i : grid1.Coords) : Prop := k1_cond2 i = 1#1
/-- It holds at the points ≡ 15 (mod 16): the last column block of a row. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- At the points of case A output 6 is idle: the case stores nothing into it. -/
theorem idleAt1_6_A : ∀ t : Fin cfg1.N, cond1_0 (grid1.coords t) → ¬cond1_1 (grid1.coords t) → cfg1.idle 6 (grid1.coords t) = true := by decide +kernel
/-- At the points of case A output 6's block is not written back. -/
theorem noFlush1_6_A : ∀ t : Fin cfg1.N, cond1_0 (grid1.coords t) → ¬cond1_1 (grid1.coords t) → (cfg1.win 6).flush t = false := by decide +kernel
/-- At the points of case B output 6 is idle: the case stores nothing into it. -/
theorem idleAt1_6_B : ∀ t : Fin cfg1.N, ¬cond1_0 (grid1.coords t) → ¬cond1_1 (grid1.coords t) → cfg1.idle 6 (grid1.coords t) = true := by decide +kernel
/-- At the points of case B output 6's block is not written back. -/
theorem noFlush1_6_B : ∀ t : Fin cfg1.N, ¬cond1_0 (grid1.coords t) → ¬cond1_1 (grid1.coords t) → (cfg1.win 6).flush t = false := by decide +kernel
/-- At the points of case C output 6 is live: the case stores into it. -/
theorem liveAt1_6_C : ∀ t : Fin cfg1.N, ¬cond1_0 (grid1.coords t) → cond1_1 (grid1.coords t) → cfg1.idle 6 (grid1.coords t) = false := by decide +kernel

/-- At the points of case A output 7 is idle: the case stores nothing into it. -/
theorem idleAt1_7_A : ∀ t : Fin cfg1.N, cond1_0 (grid1.coords t) → ¬cond1_1 (grid1.coords t) → cfg1.idle 7 (grid1.coords t) = true := by decide +kernel
/-- At the points of case A output 7's block is not written back. -/
theorem noFlush1_7_A : ∀ t : Fin cfg1.N, cond1_0 (grid1.coords t) → ¬cond1_1 (grid1.coords t) → (cfg1.win 7).flush t = false := by decide +kernel
/-- At the points of case B output 7 is idle: the case stores nothing into it. -/
theorem idleAt1_7_B : ∀ t : Fin cfg1.N, ¬cond1_0 (grid1.coords t) → ¬cond1_1 (grid1.coords t) → cfg1.idle 7 (grid1.coords t) = true := by decide +kernel
/-- At the points of case B output 7's block is not written back. -/
theorem noFlush1_7_B : ∀ t : Fin cfg1.N, ¬cond1_0 (grid1.coords t) → ¬cond1_1 (grid1.coords t) → (cfg1.win 7).flush t = false := by decide +kernel
/-- At the points of case C output 7 is live: the case stores into it. -/
theorem liveAt1_7_C : ∀ t : Fin cfg1.N, ¬cond1_0 (grid1.coords t) → cond1_1 (grid1.coords t) → cfg1.idle 7 (grid1.coords t) = false := by decide +kernel

/-! ## The memrefs the body is called with -/

/-- One staging buffer of each output window, through which its contents are stated (the choice does not matter). -/
abbrev VO1_6 : View sig .tc .vmem S2048x1 .f32 := (Memref.whole cc1_stg6_0 : Memref sig .tc .vmem S2048x1 .f32).view
abbrev VO1_7 : View sig .tc .vmem S2048x1 .f32 := (Memref.whole cc1_stg7_0 : Memref sig .tc .vmem S2048x1 .f32).view
/-- Each window's current staging memref at point `t`, spelled as the pipeline passes it, and its wholeness. -/
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2048x1 .f32 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S2048x1 .f32 := Memref.whole cc1_scratch0
abbrev scM1_1 : Memref sig .tc .vmem S2048x1 .f32 := Memref.whole cc1_scratch1
/-- The scratch buffers the kernel carries between points, as views: what they hold is stated through them. -/
abbrev VS1_0 : View sig .tc .vmem S2048x1 .f32 := scM1_0.view
abbrev VS1_1 : View sig .tc .vmem S2048x1 .f32 := scM1_1.view

/-- The body at point `t` is the kernel on these memrefs. -/
theorem bodyAt1_eq (t : Fin cfg1.N) : bodyAt1 (F := F) t
    = cc1__k2_kernel (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) := rfl

/-- The region's invariant with the two scratch operands as memrefs owned at some contents, the scoped buffers of
    the other region beside them as the region found them: what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Hand1

end
-- ==== Proof.BK1RunA.lean ====
import proofs.«113668_j72095321030692_1_alg».proof.Proof.BK1Runs

set_option maxRecDepth 16384

noncomputable section

namespace Cert.Kernel.Hand1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case A (the first column block of a row: the scratch buffers are zeroed first, nothing is copied out). On whole memrefs — the six inputs at their contents `x·`, the two outputs, into which the case stores nothing, at contents `xi·` handed back untouched,
    the two scratch buffers at anything — the body runs to the continuation holding the inputs as they were
    and each scratch buffer with its pieces written (`LS0`, `LS1`). The pieces, last written first, are the witness
    the symbolic run finds; the two conditionals are decided by the case's hypotheses. -/
noncomputable def kernelRun1_A (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) :
    Σ' (L6 : List (View.Piece (Elt F) S2048x1 .f32)) (L7 : List (View.Piece (Elt F) S2048x1 .f32)) (LS0 : List (View.Piece (Elt F) S2048x1 .f32)), { LS1 : List (View.Piece (Elt F) S2048x1 .f32) //
      ∀ (xi6 xi7 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__k2_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc1__k2_kernel_eq_skeleton]; unfold cc1__k2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Hand1

end
-- ==== Proof.BK1RunB.lean ====
import proofs.«113668_j72095321030692_1_alg».proof.Proof.BK1RunA

set_option maxRecDepth 16384

noncomputable section

namespace Cert.Kernel.Hand1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case B (a middle column block of a row: the scratch buffers are accumulated into, nothing is copied out). On whole memrefs — the six inputs at their contents `x·`, the two outputs, into which the case stores nothing, at contents `xi·` handed back untouched,
    the two scratch buffers at what the point before left (`xs·`) — the body runs to the continuation holding the inputs as they were
    and each scratch buffer with its pieces written (`LS0`, `LS1`). The pieces, last written first, are the witness
    the symbolic run finds; the two conditionals are decided by the case's hypotheses. -/
noncomputable def kernelRun1_B (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) :
    Σ' (L6 : List (View.Piece (Elt F) S2048x1 .f32)) (L7 : List (View.Piece (Elt F) S2048x1 .f32)) (LS0 : List (View.Piece (Elt F) S2048x1 .f32)), { LS1 : List (View.Piece (Elt F) S2048x1 .f32) //
      ∀ (xi6 xi7 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__k2_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc1__k2_kernel_eq_skeleton]; unfold cc1__k2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Hand1

end
-- ==== Proof.BK1RunC.lean ====
import proofs.«113668_j72095321030692_1_alg».proof.Proof.BK1RunB

set_option maxRecDepth 16384

noncomputable section

namespace Cert.Kernel.Hand1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case C (the last column block of a row: the scratch buffers are accumulated into and then copied to the two outputs). On whole memrefs — the six inputs at their contents `x·`, the two outputs at anything,
    the two scratch buffers at what the point before left (`xs·`) — the body runs to the continuation holding the inputs as they were, each output with its pieces written (`L6`, `L7`)
    and each scratch buffer with its pieces written (`LS0`, `LS1`). The pieces, last written first, are the witness
    the symbolic run finds; the two conditionals are decided by the case's hypotheses. -/
noncomputable def kernelRun1_C (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) :
    Σ' (L6 : List (View.Piece (Elt F) S2048x1 .f32)) (L7 : List (View.Piece (Elt F) S2048x1 .f32)) (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__k2_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__k2_kernel_eq_skeleton]; unfold cc1__k2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.Kernel.Hand1

end
-- ==== Proof.BK1Frame.lean ====
import proofs.«113668_j72095321030692_1_alg».proof.Proof.BK1RunC

set_option maxRecDepth 16384

noncomputable section

namespace Cert.Kernel.Hand1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the outputs and the scratch buffers -/

/-- Case A stores nothing into output 6 (the window is idle at its points and not written back there): no
    pieces — a placeholder (junk read back) that nothing consults. -/
def out1_A_6 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) : Vec F S2048x1 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 hc0 hc1 x0 x1 x2 x3 x4 x5).1)

/-- Case A stores nothing into output 7 (the window is idle at its points and not written back there): no
    pieces — a placeholder (junk read back) that nothing consults. -/
def out1_A_7 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) : Vec F S2048x1 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 hc1 x0 x1 x2 x3 x4 x5).2.1)

/-- Case A's pieces for scratch buffer 0, which the kernel carries between points, cover it: each is a store of
    the whole buffer. -/
theorem scover1_A_0 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (y : S2048x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.1 S2048x1.size (by sl_kernel_rfl) y

/-- What case A leaves in scratch buffer 0: its pieces read back over junk. -/
def sout1_A_0 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) : Vec F S2048x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5).2.2.1)

/-- Case A's pieces for scratch buffer 1, which the kernel carries between points, cover it: each is a store of
    the whole buffer. -/
theorem scover1_A_1 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (y : S2048x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.2.1 S2048x1.size (by sl_kernel_rfl) y

/-- What case A leaves in scratch buffer 1: its pieces read back over junk. -/
def sout1_A_1 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) : Vec F S2048x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3 x4 x5).2.2.2.1)

/-- Case B stores nothing into output 6 (the window is idle at its points and not written back there): no
    pieces — a placeholder (junk read back) that nothing consults. -/
def out1_B_6 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) : Vec F S2048x1 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).1)

/-- Case B stores nothing into output 7 (the window is idle at its points and not written back there): no
    pieces — a placeholder (junk read back) that nothing consults. -/
def out1_B_7 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) : Vec F S2048x1 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.1)

/-- Case B's pieces for scratch buffer 0, which the kernel carries between points, cover it: each is a store of
    the whole buffer. -/
theorem scover1_B_0 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) (y : S2048x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.1 S2048x1.size (by sl_kernel_rfl) y

/-- What case B leaves in scratch buffer 0: its pieces read back over junk. -/
def sout1_B_0 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) : Vec F S2048x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case B's pieces for scratch buffer 1, which the kernel carries between points, cover it: each is a store of
    the whole buffer. -/
theorem scover1_B_1 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) (y : S2048x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S2048x1.size (by sl_kernel_rfl) y

/-- What case B leaves in scratch buffer 1: its pieces read back over junk. -/
def sout1_B_1 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) : Vec F S2048x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's pieces for output 6 tile its block (one store of the whole block), so they cover it. -/
theorem cover1_C_6 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).1 S2048x1.size (by sl_kernel_rfl) y

/-- What case C leaves in output 6's staging buffer: its pieces read back over junk. -/
def out1_C_6 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) : Vec F S2048x1 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).1)

/-- Case C's pieces for output 7 tile its block (one store of the whole block), so they cover it. -/
theorem cover1_C_7 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.1 S2048x1.size (by sl_kernel_rfl) y

/-- What case C leaves in output 7's staging buffer: its pieces read back over junk. -/
def out1_C_7 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) : Vec F S2048x1 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-- Case C's pieces for scratch buffer 0, which the kernel carries between points, cover it: each is a store of
    the whole buffer. -/
theorem scover1_C_0 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S2048x1.size (by sl_kernel_rfl) y

/-- What case C leaves in scratch buffer 0: its pieces read back over junk. -/
def sout1_C_0 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) : Vec F S2048x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for scratch buffer 1, which the kernel carries between points, cover it: each is a store of
    the whole buffer. -/
theorem scover1_C_1 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S2048x1.size (by sl_kernel_rfl) y

/-- What case C leaves in scratch buffer 1: its pieces read back over junk. -/
def sout1_C_1 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) : Vec F S2048x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-! ## What the outputs and the scratch buffers hold after each point -/

variable (V : (c : Dev nD) → (b : Ref sig .tc) → Buf (Elt F) ((c : Thread nD τ).loc b))

/-- THE ACCUMULATION. What the two outputs' staging buffers and the two scratch buffers hold after the body at
    position `n` (a tuple: output 6, output 7, scratch 0, scratch 1): the case the closed forms select at `n`, run at
    the point's memrefs and input blocks, the scratch buffers at what this leaves at `n - 1`. An assignment of the
    conditions no point meets is no case. -/
def outsAt1 (c : Dev nD) : (n : ℕ) → n < cfg1.N → Vec F S2048x1 .f32 × Vec F S2048x1 .f32 × Vec F S2048x1 .f32 × Vec F S2048x1 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
          out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
          sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
          sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      if h1 : (n + 1) % 16 = 15 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
          out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
          sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
          out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
          sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
          out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
          sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 16 = 0) (h1 : ¬t.val % 16 = 15) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
          out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
          sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
          sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 16 = 0) (h1 : ¬t.val % 16 = 15) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
          out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
          sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
          sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 16 = 0) (h1 : t.val % 16 = 15) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
          out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
          sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
          sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (every scratch buffer at
    anything); afterwards the scoped rest with the two scratch buffers at what the point before left in them
    (`outsAt1`'s last two components), the other region's scoped buffers at anything, and the generator register at
    some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.2.1) ∗ owns (c : Thread nD τ) scM1_1 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch buffers at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.2.1) ∗ owns (c : Thread nD τ) scM1_1 fullShare ((outsAt1 V c n hn).2.2.2)) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c (n - 1) (by omega)).2.2.1) ∗ owns (c : Thread nD τ) scM1_1 fullShare ((outsAt1 V c (n - 1) (by omega)).2.2.2)) ∗ (∃ r, prngReg c r)) := by
  cases n with
  | zero => exact absurd rfl hz
  | succ n => rfl

/-! ## The pipeline's proof data -/

variable (q : Fin 8 → PosShare TreeShare)

/-- The proof data of the second pipeline on core `c`: the arrays as the region finds them (`V`); after the body at
    point `t` each input's buffer at its block and the outputs' at `outsAt1`; the invariant `PhiS1`; nothing owed;
    the inputs' shares `q`. -/
def dats1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q := q
  owed _ := 0

/-- The proof data's arrays are the region-entry contents. -/
theorem A_eq1 (c : Dev nD) (w : Fin cfg1.W) : (dats1 V q c).A w = V c (Pipeline.arrRef spec1 w) := by
  dsimp only [dats1]

/-- The invariant at a point's start, restated at `t.val`. -/
theorem PhiS1_castSucc (c : Dev nD) (t : Fin cfg1.N) :
    (dats1 V q c).Φ t.castSucc = PhiS1 V c t.val (Nat.le_of_lt t.isLt) := by
  dsimp only [dats1]; simp only [Fin.coe_castSucc]

/-- What the body leaves, window by window. -/
theorem after1_0 (c : Dev nD) (t : Fin cfg1.N) : (dats1 V q c).after 0 t = iblk1 V c 0 t := by dsimp only [dats1]
theorem after1_1 (c : Dev nD) (t : Fin cfg1.N) : (dats1 V q c).after 1 t = iblk1 V c 1 t := by dsimp only [dats1]
theorem after1_2 (c : Dev nD) (t : Fin cfg1.N) : (dats1 V q c).after 2 t = iblk1 V c 2 t := by dsimp only [dats1]
theorem after1_3 (c : Dev nD) (t : Fin cfg1.N) : (dats1 V q c).after 3 t = iblk1 V c 3 t := by dsimp only [dats1]
theorem after1_4 (c : Dev nD) (t : Fin cfg1.N) : (dats1 V q c).after 4 t = iblk1 V c 4 t := by dsimp only [dats1]
theorem after1_5 (c : Dev nD) (t : Fin cfg1.N) : (dats1 V q c).after 5 t = iblk1 V c 5 t := by dsimp only [dats1]
theorem after1_6 (c : Dev nD) (t : Fin cfg1.N) : (dats1 V q c).after 6 t = (outsAt1 V c t.val t.isLt).1 := by dsimp only [dats1]
theorem after1_7 (c : Dev nD) (t : Fin cfg1.N) : (dats1 V q c).after 7 t = (outsAt1 V c t.val t.isLt).2.1 := by dsimp only [dats1]

/-- Each input's current staging buffer holds its block at every point, fetched there or not. -/
theorem before1_0 (c : Dev nD) (t : Fin cfg1.N) (d) : (dats1 V q c).before 0 t d = iblk1 V c 0 t :=
  before1_0_of V (dats1 V q c) (A_eq1 V q c 0) (after1_0 V q c) t d
theorem before1_1 (c : Dev nD) (t : Fin cfg1.N) (d) : (dats1 V q c).before 1 t d = iblk1 V c 1 t :=
  before1_1_of V (dats1 V q c) (A_eq1 V q c 1) (after1_1 V q c) t d
theorem before1_2 (c : Dev nD) (t : Fin cfg1.N) (d) : (dats1 V q c).before 2 t d = iblk1 V c 2 t :=
  before1_2_of V (dats1 V q c) (A_eq1 V q c 2) (after1_2 V q c) t d
theorem before1_3 (c : Dev nD) (t : Fin cfg1.N) (d) : (dats1 V q c).before 3 t d = iblk1 V c 3 t :=
  before1_3_of V (dats1 V q c) (A_eq1 V q c 3) (after1_3 V q c) t d
theorem before1_4 (c : Dev nD) (t : Fin cfg1.N) (d) : (dats1 V q c).before 4 t d = iblk1 V c 4 t :=
  before1_4_of V (dats1 V q c) (A_eq1 V q c 4) (after1_4 V q c) t d
theorem before1_5 (c : Dev nD) (t : Fin cfg1.N) (d) : (dats1 V q c).before 5 t d = iblk1 V c 5 t :=
  before1_5_of V (dats1 V q c) (A_eq1 V q c 5) (after1_5 V q c) t d

/-! ## The body obligation, at a generic point -/

/-- What the body is called with at point `t` (the windows one by one), -/
def bodyPre1 (c : Dev nD) (t : Fin cfg1.N) : sProp 𝕄 :=
  iprop((dats1 V q c).Φ t.castSucc ∗ (dats1 V q c).owesAt () t.castSucc
    ∗ (∃ d, owns (c : Thread nD τ) (ms1_0 t) fullShare ((dats1 V q c).before 0 t d))
    ∗ (∃ d, owns (c : Thread nD τ) (ms1_1 t) fullShare ((dats1 V q c).before 1 t d))
    ∗ (∃ d, owns (c : Thread nD τ) (ms1_2 t) fullShare ((dats1 V q c).before 2 t d))
    ∗ (∃ d, owns (c : Thread nD τ) (ms1_3 t) fullShare ((dats1 V q c).before 3 t d))
    ∗ (∃ d, owns (c : Thread nD τ) (ms1_4 t) fullShare ((dats1 V q c).before 4 t d))
    ∗ (∃ d, owns (c : Thread nD τ) (ms1_5 t) fullShare ((dats1 V q c).before 5 t d))
    ∗ (∃ d, owns (c : Thread nD τ) (ms1_6 t) fullShare ((dats1 V q c).before 6 t d))
    ∗ (∃ d, owns (c : Thread nD τ) (ms1_7 t) fullShare ((dats1 V q c).before 7 t d)))

/-- and what it returns. -/
def bodyPost1 (c : Dev nD) (t : Fin cfg1.N) : sProp 𝕄 :=
  iprop((dats1 V q c).Φ t.succ ∗ (dats1 V q c).owesAt () t.succ
    ∗ (dats1 V q c).leavesExact 0 t
    ∗ (dats1 V q c).leavesExact 1 t
    ∗ (dats1 V q c).leavesExact 2 t
    ∗ (dats1 V q c).leavesExact 3 t
    ∗ (dats1 V q c).leavesExact 4 t
    ∗ (dats1 V q c).leavesExact 5 t
    ∗ (dats1 V q c).leavesExact 6 t
    ∗ (dats1 V q c).leavesExact 7 t)

set_option maxHeartbeats 4800000 in
/-- The body at any point: the inputs' memrefs hold their blocks (`before1_w`); the closed forms say which case the
    point is in; the run of that case applies; the invariant hands the body the two scratch buffers at what the
    point before left (at anything at the first point) and takes them back at this point's contents, the other
    region's scoped buffers and the generator register riding along; the core owes nothing throughout. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5]
  rw [show (dats1 V q c).owesAt () t.succ = (dats1 V q c).owesAt () t.castSucc from rfl]
  rw [show (dats1 V q c).Φ t.succ = PhiS1 V c (t.val + 1) t.isLt from rfl, PhiS1_succ]
  have hN : t.val < 64 := lt_of_lt_of_eq t.isLt (show cfg1.N = 64 from N_1)
  by_cases h0 : t.val % 16 = 0
  · by_cases h1 : t.val % 16 = 15
    · exfalso; omega
    · -- case A
      rw [show (dats1 V q c).leavesExact 0 t = owns (c : Thread nD τ) (ms1_0 t) fullShare ((dats1 V q c).after 0 t) from by
        unfold Dat.leavesExact; rw [liveAt1_0 t], after1_0]
      rw [show (dats1 V q c).leavesExact 1 t = owns (c : Thread nD τ) (ms1_1 t) fullShare ((dats1 V q c).after 1 t) from by
        unfold Dat.leavesExact; rw [liveAt1_1 t], after1_1]
      rw [show (dats1 V q c).leavesExact 2 t = owns (c : Thread nD τ) (ms1_2 t) fullShare ((dats1 V q c).after 2 t) from by
        unfold Dat.leavesExact; rw [liveAt1_2 t], after1_2]
      rw [show (dats1 V q c).leavesExact 3 t = owns (c : Thread nD τ) (ms1_3 t) fullShare ((dats1 V q c).after 3 t) from by
        unfold Dat.leavesExact; rw [liveAt1_3 t], after1_3]
      rw [show (dats1 V q c).leavesExact 4 t = owns (c : Thread nD τ) (ms1_4 t) fullShare ((dats1 V q c).after 4 t) from by
        unfold Dat.leavesExact; rw [liveAt1_4 t], after1_4]
      rw [show (dats1 V q c).leavesExact 5 t = owns (c : Thread nD τ) (ms1_5 t) fullShare ((dats1 V q c).after 5 t) from by
        unfold Dat.leavesExact; rw [liveAt1_5 t], after1_5]
      rw [Dat.leavesExact_idle (dats1 V q c) 6 t (idleAt1_6_A t ((hcond1_0 t).mpr h0) (fun h => h1 ((hcond1_1 t).mp h))) (noFlush1_6_A t ((hcond1_0 t).mpr h0) (fun h => h1 ((hcond1_1 t).mp h)))]
      rw [Dat.leavesExact_idle (dats1 V q c) 7 t (idleAt1_7_A t ((hcond1_0 t).mpr h0) (fun h => h1 ((hcond1_1 t).mp h))) (noFlush1_7_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V q c t, PhiS1_zero V c _ _ hz, PhiA1_eq]
        iintro ⟨⟨⟨HR0, HR1, HR2, HR3, HR4, HR5, HR6, HR7, HR8, HR9, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HR0 HR1 HR2 HR3 HR4 HR5 HR6 HR7 HR8 HR9 HS0 HS1 Hg]
        · isplitl [HR0 HR1 HR2 HR3 HR4 HR5 HR6 HR7 HR8 HR9 HS0 HS1]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · rw [PhiS1_castSucc V q c t, PhiS1_pos V c _ _ hz]
        iintro ⟨⟨⟨HR0, HR1, HR2, HR3, HR4, HR5, HR6, HR7, HR8, HR9, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HR0 HR1 HR2 HR3 HR4 HR5 HR6 HR7 HR8 HR9 HS0 HS1 Hg]
        · isplitl [HR0 HR1 HR2 HR3 HR4 HR5 HR6 HR7 HR8 HR9 HS0 HS1]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
  · by_cases h1 : t.val % 16 = 15
    · -- case C
      rw [show (dats1 V q c).leavesExact 0 t = owns (c : Thread nD τ) (ms1_0 t) fullShare ((dats1 V q c).after 0 t) from by
        unfold Dat.leavesExact; rw [liveAt1_0 t], after1_0]
      rw [show (dats1 V q c).leavesExact 1 t = owns (c : Thread nD τ) (ms1_1 t) fullShare ((dats1 V q c).after 1 t) from by
        unfold Dat.leavesExact; rw [liveAt1_1 t], after1_1]
      rw [show (dats1 V q c).leavesExact 2 t = owns (c : Thread nD τ) (ms1_2 t) fullShare ((dats1 V q c).after 2 t) from by
        unfold Dat.leavesExact; rw [liveAt1_2 t], after1_2]
      rw [show (dats1 V q c).leavesExact 3 t = owns (c : Thread nD τ) (ms1_3 t) fullShare ((dats1 V q c).after 3 t) from by
        unfold Dat.leavesExact; rw [liveAt1_3 t], after1_3]
      rw [show (dats1 V q c).leavesExact 4 t = owns (c : Thread nD τ) (ms1_4 t) fullShare ((dats1 V q c).after 4 t) from by
        unfold Dat.leavesExact; rw [liveAt1_4 t], after1_4]
      rw [show (dats1 V q c).leavesExact 5 t = owns (c : Thread nD τ) (ms1_5 t) fullShare ((dats1 V q c).after 5 t) from by
        unfold Dat.leavesExact; rw [liveAt1_5 t], after1_5]
      rw [show (dats1 V q c).leavesExact 6 t = owns (c : Thread nD τ) (ms1_6 t) fullShare ((dats1 V q c).after 6 t) from by
        unfold Dat.leavesExact; rw [liveAt1_6_C t (fun h => h0 ((hcond1_0 t).mp h)) ((hcond1_1 t).mpr h1)], after1_6]
      rw [show (dats1 V q c).leavesExact 7 t = owns (c : Thread nD τ) (ms1_7 t) fullShare ((dats1 V q c).after 7 t) from by
        unfold Dat.leavesExact; rw [liveAt1_7_C t (fun h => h0 ((hcond1_0 t).mp h)) ((hcond1_1 t).mpr h1)], after1_7]
      rw [outsAt1_C V c t h0 h1]
      unfold out1_C_6 out1_C_7 sout1_C_0 sout1_C_1; (try dsimp only)
      by_cases hz : t.val = 0
      · exfalso; omega
      · rw [PhiS1_castSucc V q c t, PhiS1_pos V c _ _ hz]
        iintro ⟨⟨⟨HR0, HR1, HR2, HR3, HR4, HR5, HR6, HR7, HR8, HR9, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%e6, H6⟩, ⟨%e7, H7⟩, ⟨%es0, HS0⟩, ⟨%es1, HS1⟩⟩
        isplitl [HR0 HR1 HR2 HR3 HR4 HR5 HR6 HR7 HR8 HR9 HS0 HS1 Hg]
        · isplitl [HR0 HR1 HR2 HR3 HR4 HR5 HR6 HR7 HR8 HR9 HS0 HS1]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover1_C_6 c _ _ _ _ _ _ _ _ _ _ _ _ _ _ _ _ _ _ _ _ _ _ _ _ _ _ _ _ _ _ _)
        unfold owns; iexists _; isplitr
        swap; · iexact H7
        ipureintro; exact View.read_writes_of_cover _ _ _ _ _ (cover1_C_7 c _ _ _ _ _ _ _ _ _ _ _ _ _ _ _ _ _ _ _ _ _ _ _ _ _ _ _ _ _ _ _)
    · -- case B
      rw [show (dats1 V q c).leavesExact 0 t = owns (c : Thread nD τ) (ms1_0 t) fullShare ((dats1 V q c).after 0 t) from by
        unfold Dat.leavesExact; rw [liveAt1_0 t], after1_0]
      rw [show (dats1 V q c).leavesExact 1 t = owns (c : Thread nD τ) (ms1_1 t) fullShare ((dats1 V q c).after 1 t) from by
        unfold Dat.leavesExact; rw [liveAt1_1 t], after1_1]
      rw [show (dats1 V q c).leavesExact 2 t = owns (c : Thread nD τ) (ms1_2 t) fullShare ((dats1 V q c).after 2 t) from by
        unfold Dat.leavesExact; rw [liveAt1_2 t], after1_2]
      rw [show (dats1 V q c).leavesExact 3 t = owns (c : Thread nD τ) (ms1_3 t) fullShare ((dats1 V q c).after 3 t) from by
        unfold Dat.leavesExact; rw [liveAt1_3 t], after1_3]
      rw [show (dats1 V q c).leavesExact 4 t = owns (c : Thread nD τ) (ms1_4 t) fullShare ((dats1 V q c).after 4 t) from by
        unfold Dat.leavesExact; rw [liveAt1_4 t], after1_4]
      rw [show (dats1 V q c).leavesExact 5 t = owns (c : Thread nD τ) (ms1_5 t) fullShare ((dats1 V q c).after 5 t) from by
        unfold Dat.leavesExact; rw [liveAt1_5 t], after1_5]
      rw [Dat.leavesExact_idle (dats1 V q c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [Dat.leavesExact_idle (dats1 V q c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold sout1_B_0 sout1_B_1; (try dsimp only)
      by_cases hz : t.val = 0
      · exfalso; omega
      · rw [PhiS1_castSucc V q c t, PhiS1_pos V c _ _ hz]
        iintro ⟨⟨⟨HR0, HR1, HR2, HR3, HR4, HR5, HR6, HR7, HR8, HR9, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HR0 HR1 HR2 HR3 HR4 HR5 HR6 HR7 HR8 HR9 HS0 HS1 Hg]
        · isplitl [HR0 HR1 HR2 HR3 HR4 HR5 HR6 HR7 HR8 HR9 HS0 HS1]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The body obligation of the second pipeline, at every point. -/
theorem body_obligation1 (c : Dev nD) : BodyObligation (dats1 (F := F) V q c) (defs₀ (F := F)) Variants.none () Set.univ := fun t => by
  rw [bigSep_W1, bigSep_W1]
  exact sound_body1 V q c t

/-- What the launch hands the region is the invariant before the first point. -/
theorem hin1 (c : Dev nD) : Pipeline.ΦA spec1 c ⊢ (dats1 V q c).Φ 0 := by
  rw [show (dats1 V q c).Φ 0 = PhiS1 V c 0 (Nat.zero_le _) from rfl, PhiS1_zero V c 0 _ rfl]
  try exact Idealize.SL.BI.Entails.refl _

/-- After any point but the first the invariant gives the region's own back: the scratch buffers' named contents
    are forgotten. -/
theorem Phi_out1 (c : Dev nD) (t : Fin (cfg1.N + 1)) (ht : t.val ≠ 0) : (dats1 V q c).Φ t ⊢ Pipeline.ΦA spec1 c := by
  rw [show (dats1 V q c).Φ t = PhiS1 V c t.val (Nat.le_of_lt_succ t.isLt) from rfl, PhiS1_pos V c _ _ ht, PhiA1_eq]
  iintro ⟨⟨HR0, HR1, HR2, HR3, HR4, HR5, HR6, HR7, HR8, HR9, HS0, HS1⟩, Hg⟩
  isplitl [HR0 HR1 HR2 HR3 HR4 HR5 HR6 HR7 HR8 HR9 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HS0]; · iexists _; iexact HS0
    iexists _; iexact HS1
  iexact Hg

/-- The same after the last point. -/
theorem hout1 (c : Dev nD) : (dats1 V q c).Φ (Fin.last cfg1.N) ⊢ Pipeline.ΦA spec1 c :=
  Phi_out1 V q c _ (by rw [Fin.val_last]; have : cfg1.N = 64 := N_1; omega)

end Cert.Kernel.Hand1

end
-- ==== Proof.BK1Shares.lean ====
/-
  Region 1: the distinct buffers behind the windows' arrays against the windows' arrays at their shares. The
  normalised features are read through two input windows; the buffer is split between them into its two halves on the
  way in and rejoined on the way out.
-/
import proofs.«113668_j72095321030692_1_alg».proof.Proof.BK1Frame

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev q1 : Fin cfg1.W → PosShare TreeShare := fun | ⟨0, _⟩ => fullShare.left | ⟨1, _⟩ => fullShare.right | ⟨2, _⟩ => fullShare | ⟨3, _⟩ => fullShare | ⟨4, _⟩ => fullShare | ⟨5, _⟩ => fullShare | ⟨6, _⟩ => fullShare | ⟨7, _⟩ => fullShare

theorem arrRefs1 : (Finset.univ.image (Pipeline.arrRef spec1) : Finset (Ref sig .tc)) = ([main_v3, main_v4, main_v5, main_v6_0, main_v6_1, main_v7_0, main_v7_1] : List (Ref sig .tc)).toFinset := by decide

set_option maxHeartbeats 4000000 in
theorem hsplit1 (c : Dev nD) (G : (w : Fin cfg1.W) → Buf (Elt F) ((cfg1.win w).arr.view.loc (c.tc : Thread nD τ))) (hG : ∀ w, G w = V c (Pipeline.arrRef spec1 w)) :
    (Pipeline.arrBufs spec1 c (V c) : sProp 𝕄) ⊢ (dats1 V q1 c).arrays G := by
  unfold Pipeline.arrBufs Dat.arrays
  rw [bigSep_eq_bigSepL_of_eq _ arrRefs1 (by decide), bigSep_W1]
  simp only [bigSepL_cons_cons, bigSepL_singleton]
  rw [hG 0, hG 1, hG 2, hG 3, hG 4, hG 5, hG 6, hG 7]
  rw [show (dats1 V q1 c).share 0 = fullShare.left from rfl, show (dats1 V q1 c).share 1 = fullShare.right from rfl,
    show (dats1 V q1 c).share 2 = fullShare from rfl, show (dats1 V q1 c).share 3 = fullShare from rfl,
    show (dats1 V q1 c).share 4 = fullShare from rfl, show (dats1 V q1 c).share 5 = fullShare from rfl,
    show (dats1 V q1 c).share 6 = fullShare from rfl, show (dats1 V q1 c).share 7 = fullShare from rfl]
  simp only [View.set_whole]
  show (iprop(_ ∗ _ ∗ _ ∗ _ ∗ _ ∗ _ ∗ _) : sProp 𝕄) ⊢ _
  iintro ⟨H3, H4, H5, H60, H61, H70, H71⟩
  ihave H := (pointsTo_share (PosShare.mem_left_op_right fullShare)).1 $$ H3
  icases H with ⟨Ha, Hb⟩
  isplitl [Ha]; · iexact Ha
  isplitl [Hb]; · iexact Hb
  isplitl [H4]; · iexact H4
  isplitl [H5]; · iexact H5
  isplitl [H60]; · iexact H60
  isplitl [H61]; · iexact H61
  isplitl [H70]; · iexact H70
  iexact H71

set_option maxHeartbeats 4000000 in
theorem hjoin1 (c : Dev nD) (G : (w : Fin cfg1.W) → Buf (Elt F) ((cfg1.win w).arr.view.loc (c.tc : Thread nD τ)))
    (Vn : (b : Ref sig .tc) → Buf (Elt F) ((c.tc : Thread nD τ).loc b))
    (h0 : G 0 = Vn main_v3) (h1 : G 1 = Vn main_v3) (h2 : G 2 = Vn main_v4) (h3 : G 3 = Vn main_v5) (h4 : G 4 = Vn main_v6_0) (h5 : G 5 = Vn main_v6_1)
    (h6 : G 6 = Vn main_v7_0) (h7 : G 7 = Vn main_v7_1) :
    (dats1 V q1 c).arrays G ⊢ (Pipeline.arrBufs spec1 c Vn : sProp 𝕄) := by
  unfold Pipeline.arrBufs Dat.arrays
  rw [bigSep_eq_bigSepL_of_eq _ arrRefs1 (by decide), bigSep_W1]
  simp only [bigSepL_cons_cons, bigSepL_singleton]
  rw [h0, h1, h2, h3, h4, h5, h6, h7]
  rw [show (dats1 V q1 c).share 0 = fullShare.left from rfl, show (dats1 V q1 c).share 1 = fullShare.right from rfl,
    show (dats1 V q1 c).share 2 = fullShare from rfl, show (dats1 V q1 c).share 3 = fullShare from rfl,
    show (dats1 V q1 c).share 4 = fullShare from rfl, show (dats1 V q1 c).share 5 = fullShare from rfl,
    show (dats1 V q1 c).share 6 = fullShare from rfl, show (dats1 V q1 c).share 7 = fullShare from rfl]
  simp only [View.set_whole]
  show _ ⊢ (iprop(_ ∗ _ ∗ _ ∗ _ ∗ _ ∗ _ ∗ _) : sProp 𝕄)
  iintro ⟨Ha, Hb, H4, H5, H60, H61, H70, H71⟩
  isplitl [Ha Hb]
  · ihave H := (pointsTo_share (PosShare.mem_left_op_right fullShare)).2 $$ [Ha Hb]
    · isplitl [Ha] <;> iassumption
    iexact H
  isplitl [H4]; · iexact H4
  isplitl [H5]; · iexact H5
  isplitl [H60]; · iexact H60
  isplitl [H61]; · iexact H61
  isplitl [H70]; · iexact H70
  iexact H71

end Cert.Kernel.Hand1

end
-- ==== Proof.BRegs.lean ====
/-
  The two kernel regions as records of the several-regions launch, over the value-naming proof data of each region,
  and the run of @main: every weakly fair execution terminates with the result buffer at what the last host stretch
  computes from the second region's output arrays, which are what that region's proof data computes from the first
  region's, and the arguments unchanged.
-/
import proofs.«113668_j72095321030692_1_alg».proof.Proof.BRunCond
import proofs.«113668_j72095321030692_1_alg».proof.Proof.BK0Shares
import proofs.«113668_j72095321030692_1_alg».proof.Proof.BK1Shares

set_option maxRecDepth 16384

noncomputable section

namespace Cert.Kernel.HandR

open Cert.Kernel Cert.Kernel.Gen Cert.Kernel.Hand0 Cert.Kernel.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- The first region's entry contents, read at a TensorCore reference. -/
abbrev W2 (c : Dev nD) (b : Ref sig .tc) : Buf (Elt F) ((c : Thread nD τ).loc b) := V2 m c (Proc.devRef .tc b)

/-- After the first region: its two output arrays at what its proof data computes. -/
def U3 (c : Dev nD) : Valuation τ sig (Elt F) :=
  Function.update (Function.update (V2 m c) main_v6_0 (((dats0 (W2 m) q0 c).arrAt 2 cfg0.N : Buf (Elt F) ((c : Thread nD τ).loc main_v6_0))))
    main_v6_1 (((dats0 (W2 m) q0 c).arrAt 3 cfg0.N : Buf (Elt F) ((c : Thread nD τ).loc main_v6_1)))
abbrev W3 (c : Dev nD) (b : Ref sig .tc) : Buf (Elt F) ((c : Thread nD τ).loc b) := U3 m c (Proc.devRef .tc b)

/-- After the second region. -/
def U4 (c : Dev nD) : Valuation τ sig (Elt F) :=
  Function.update (Function.update (U3 m c) main_v7_0 (((dats1 (W3 m) q1 c).arrAt 6 cfg1.N : Buf (Elt F) ((c : Thread nD τ).loc main_v7_0))))
    main_v7_1 (((dats1 (W3 m) q1 c).arrAt 7 cfg1.N : Buf (Elt F) ((c : Thread nD τ).loc main_v7_1)))
abbrev W4 (c : Dev nD) (b : Ref sig .tc) : Buf (Elt F) ((c : Thread nD τ).loc b) := U4 m c (Proc.devRef .tc b)

/-- What the regions leave, as the unknowns of the generated valuations. -/
def outs : Outs (F := F) := fun j r c => if j = 3 then U3 m c (Proc.devRef .tc r) else U4 m c (Proc.devRef .tc r)

theorem U3_v60 (c : Dev nD) : U3 m c main_v6_0 = (dats0 (W2 m) q0 c).arrAt 2 cfg0.N := by
  unfold U3
  rw [Function.update_of_ne (StableHlo.devRef_ne_of_ne (by decide) : (Proc.devRef .tc main_v6_0 : DevRef τ sig) ≠ Proc.devRef .tc main_v6_1), Function.update_self]
theorem U3_v61 (c : Dev nD) : U3 m c main_v6_1 = (dats0 (W2 m) q0 c).arrAt 3 cfg0.N := by
  unfold U3; rw [Function.update_self]
theorem U3_of (c : Dev nD) (r : Ref sig .tc) (h0 : r ≠ main_v6_0) (h1 : r ≠ main_v6_1) : U3 m c r = V2 m c r := by
  unfold U3
  rw [Function.update_of_ne (StableHlo.devRef_ne_of_ne h1 : (Proc.devRef .tc r : DevRef τ sig) ≠ Proc.devRef .tc main_v6_1),
    Function.update_of_ne (StableHlo.devRef_ne_of_ne h0 : (Proc.devRef .tc r : DevRef τ sig) ≠ Proc.devRef .tc main_v6_0)]
theorem U4_v70 (c : Dev nD) : U4 m c main_v7_0 = (dats1 (W3 m) q1 c).arrAt 6 cfg1.N := by
  unfold U4
  rw [Function.update_of_ne (StableHlo.devRef_ne_of_ne (by decide) : (Proc.devRef .tc main_v7_0 : DevRef τ sig) ≠ Proc.devRef .tc main_v7_1), Function.update_self]
theorem U4_v71 (c : Dev nD) : U4 m c main_v7_1 = (dats1 (W3 m) q1 c).arrAt 7 cfg1.N := by
  unfold U4; rw [Function.update_self]
theorem U4_of (c : Dev nD) (r : Ref sig .tc) (h0 : r ≠ main_v7_0) (h1 : r ≠ main_v7_1) : U4 m c r = U3 m c r := by
  unfold U4
  rw [Function.update_of_ne (StableHlo.devRef_ne_of_ne h1 : (Proc.devRef .tc r : DevRef τ sig) ≠ Proc.devRef .tc main_v7_1),
    Function.update_of_ne (StableHlo.devRef_ne_of_ne h0 : (Proc.devRef .tc r : DevRef τ sig) ≠ Proc.devRef .tc main_v7_0)]

theorem V3_eq (c : Dev nD) : V3 m (outs m) c = U3 m c := by
  have e0 : outs m 3 main_v6_0 c = (dats0 (W2 m) q0 c).arrAt 2 cfg0.N := (if_pos rfl).trans (U3_v60 m c)
  have e1 : outs m 3 main_v6_1 c = (dats0 (W2 m) q0 c).arrAt 3 cfg0.N := (if_pos rfl).trans (U3_v61 m c)
  show Function.update (Function.update (V2 m c) main_v6_0 (outs m 3 main_v6_0 c)) main_v6_1 (outs m 3 main_v6_1 c) = U3 m c
  rw [e0, e1]; rfl
theorem V4_eq (c : Dev nD) : V4 m (outs m) c = U4 m c := by
  have e0 : outs m 4 main_v7_0 c = (dats1 (W3 m) q1 c).arrAt 6 cfg1.N := (if_neg (by decide)).trans (U4_v70 m c)
  have e1 : outs m 4 main_v7_1 c = (dats1 (W3 m) q1 c).arrAt 7 cfg1.N := (if_neg (by decide)).trans (U4_v71 m c)
  show Function.update (Function.update (V3 m (outs m) c) main_v7_0 (outs m 4 main_v7_0 c)) main_v7_1 (outs m 4 main_v7_1 c) = U4 m c
  rw [V3_eq, e0, e1]; rfl

/-! ## The proof data family and what rides beside the buffers -/

/-- The two regions' proof data: a literal match on the pipeline index. -/
def pdats : (p : Fin 2) → (c : Dev nD) → Dat τ (Elt F) Unit ℕ (UR sig nD τ) ℕ (cfgs p) c
  | ⟨0, _⟩ => fun c => dats0 (W2 m) q0 c
  | ⟨1, _⟩ => fun c => dats1 (W3 m) q1 c
  | ⟨n + 2, h⟩ => absurd h (by omega)

abbrev L : GSem nD τ sig → Finset Unit := fun _ => ∅
abbrev lv : GSem nD τ sig → Unit → ℕ := fun _ _ => 0

/-- What rides beside the unscoped buffers between the items: the core owing nothing, the generator register. -/
def Ec (c : Dev nD) : sProp 𝕄 :=
  iprop((∃ W, owes (c : Thread nD τ) (0 : CellTallies nD τ sig Unit) W) ∗ (∃ r, prngReg c r))

/-! ## Region 0 -/

theorem hunscoped0 : ∀ w, (Pipeline.arrRef spec0 w).isScoped = false := by decide

/-- The unscoped buffers that are no array of region 0 are untouched by it. -/
theorem rest0_eq (c : Dev nD) :
    (Pipeline.unscopedRest (Ix := Unit) (Name := ℕ) (U := UR sig nD τ) (Lvl := ℕ) spec0 c (W3 m c) : sProp 𝕄)
      = Pipeline.unscopedRest spec0 c (W2 m c) := by
  unfold Pipeline.unscopedRest
  refine bigSep_congr fun b hb => ?_
  have hb' := (Finset.mem_sdiff.mp hb).2
  rw [show W3 m c b = W2 m c b from U3_of m c b
    (fun h => hb' (h ▸ Finset.mem_image.mpr ⟨2, Finset.mem_univ _, rfl⟩))
    (fun h => hb' (h ▸ Finset.mem_image.mpr ⟨3, Finset.mem_univ _, rfl⟩))]

set_option maxHeartbeats 4000000 in
/-- ENTRY: the held unscoped buffers are the region's arrays at the entry contents (the shared buffer split between its
    two windows) and the rest, which bypasses the region. -/
theorem entry0 (c : Dev nD) :
    iprop(StableHlo.held (c : Thread nD τ) (Pipeline.ucRefs τ sig) (V2 m c) ∗ Ec (F := F) c)
      ⊢ (iprop((dats0 (W2 m) q0 c).arrays ((dats0 (W2 m) q0 c).arrAt · 0) ∗ (dats0 (W2 m) q0 c).owesAt () 0 ∗ (∃ r, prngReg c r) ∗ Pipeline.unscopedRest spec0 c (W2 m c)) : sProp 𝕄) := by
  rw [show StableHlo.held (c : Thread nD τ) (Pipeline.ucRefs τ sig) (V2 m c) = unscopedBufs c (W2 m c) from (Pipeline.unscopedBufs_held c _).symm]
  rw [Pipeline.unscopedBufs_split₀ cfgs 0 hunscoped0 c (W2 m c)]
  unfold Ec
  iintro ⟨⟨Ha, Hrest⟩, HO, Hg⟩
  isplitl [Ha]
  · iapply (hsplit0 (W2 m) c (fun w => (dats0 (W2 m) q0 c).arrAt w 0) (fun w => A_eq0 (W2 m) q0 c w))
    iexact Ha
  isplitl [HO]
  · unfold Pipeline.Dat.owesAt Pipeline.owesWithin
    icases HO with ⟨%W, HO⟩; iexists W; isplitr; · ipureintro; exact fun _ _ => Or.inl trivial
    iexact HO
  isplitl [Hg]; · iexact Hg
  iexact Hrest

set_option maxHeartbeats 4000000 in
/-- EXIT: the arrays at their final contents (the shared buffer's halves rejoined) and the bypassing rest are the
    unscoped buffers held at the next valuation. -/
theorem exit0 (c : Dev nD) :
    (iprop((dats0 (W2 m) q0 c).arrays ((dats0 (W2 m) q0 c).arrAt · cfg0.N) ∗ (dats0 (W2 m) q0 c).owesAt () (Fin.last cfg0.N) ∗ (∃ r, prngReg c r) ∗ Pipeline.unscopedRest spec0 c (W2 m c)) : sProp 𝕄)
      ⊢ iprop(StableHlo.held (c : Thread nD τ) (Pipeline.ucRefs τ sig) (U3 m c) ∗ Ec (F := F) c) := by
  rw [show StableHlo.held (c : Thread nD τ) (Pipeline.ucRefs τ sig) (U3 m c) = unscopedBufs c (W3 m c) from (Pipeline.unscopedBufs_held c _).symm]
  rw [Pipeline.unscopedBufs_split₀ cfgs 0 hunscoped0 c (W3 m c)]
  show _ ⊢ (iprop((Pipeline.arrBufs spec0 c (W3 m c) ∗ Pipeline.unscopedRest spec0 c (W3 m c)) ∗ Ec (F := F) c) : sProp 𝕄)
  rw [rest0_eq]
  unfold Ec
  iintro ⟨Ha, HO, Hg, HZ⟩
  isplitl [Ha HZ]
  · isplitl [Ha]
    · iapply (hjoin0 (W2 m) c (fun w => (dats0 (W2 m) q0 c).arrAt w cfg0.N) (W3 m c) (((dats0 (W2 m) q0 c).arrAt_in 0 rfl _).trans ((A_eq0 (W2 m) q0 c 0).trans (U3_of m c main_v3 (by decide) (by decide)).symm)) (((dats0 (W2 m) q0 c).arrAt_in 1 rfl _).trans ((A_eq0 (W2 m) q0 c 1).trans (U3_of m c main_v3 (by decide) (by decide)).symm)) (U3_v60 m c).symm (U3_v61 m c).symm)
      iexact Ha
    iexact HZ
  isplitl [HO]
  · unfold Pipeline.Dat.owesAt Pipeline.owesWithin
    icases HO with ⟨%W, -, HO⟩; iexists W; iexact HO
  iexact Hg

/-! ## Region 1 -/

theorem hunscoped1 : ∀ w, (Pipeline.arrRef spec1 w).isScoped = false := by decide

/-- The unscoped buffers that are no array of region 1 are untouched by it. -/
theorem rest1_eq (c : Dev nD) :
    (Pipeline.unscopedRest (Ix := Unit) (Name := ℕ) (U := UR sig nD τ) (Lvl := ℕ) spec1 c (W4 m c) : sProp 𝕄)
      = Pipeline.unscopedRest spec1 c (W3 m c) := by
  unfold Pipeline.unscopedRest
  refine bigSep_congr fun b hb => ?_
  have hb' := (Finset.mem_sdiff.mp hb).2
  rw [show W4 m c b = W3 m c b from U4_of m c b
    (fun h => hb' (h ▸ Finset.mem_image.mpr ⟨6, Finset.mem_univ _, rfl⟩))
    (fun h => hb' (h ▸ Finset.mem_image.mpr ⟨7, Finset.mem_univ _, rfl⟩))]

set_option maxHeartbeats 4000000 in
/-- ENTRY: the held unscoped buffers are the region's arrays at the entry contents (the shared buffer split between its
    two windows) and the rest, which bypasses the region. -/
theorem entry1 (c : Dev nD) :
    iprop(StableHlo.held (c : Thread nD τ) (Pipeline.ucRefs τ sig) (U3 m c) ∗ Ec (F := F) c)
      ⊢ (iprop((dats1 (W3 m) q1 c).arrays ((dats1 (W3 m) q1 c).arrAt · 0) ∗ (dats1 (W3 m) q1 c).owesAt () 0 ∗ (∃ r, prngReg c r) ∗ Pipeline.unscopedRest spec1 c (W3 m c)) : sProp 𝕄) := by
  rw [show StableHlo.held (c : Thread nD τ) (Pipeline.ucRefs τ sig) (U3 m c) = unscopedBufs c (W3 m c) from (Pipeline.unscopedBufs_held c _).symm]
  rw [Pipeline.unscopedBufs_split₀ cfgs 1 hunscoped1 c (W3 m c)]
  unfold Ec
  iintro ⟨⟨Ha, Hrest⟩, HO, Hg⟩
  isplitl [Ha]
  · iapply (hsplit1 (W3 m) c (fun w => (dats1 (W3 m) q1 c).arrAt w 0) (fun w => A_eq1 (W3 m) q1 c w))
    iexact Ha
  isplitl [HO]
  · unfold Pipeline.Dat.owesAt Pipeline.owesWithin
    icases HO with ⟨%W, HO⟩; iexists W; isplitr; · ipureintro; exact fun _ _ => Or.inl trivial
    iexact HO
  isplitl [Hg]; · iexact Hg
  iexact Hrest

set_option maxHeartbeats 4000000 in
/-- EXIT: the arrays at their final contents (the shared buffer's halves rejoined) and the bypassing rest are the
    unscoped buffers held at the next valuation. -/
theorem exit1 (c : Dev nD) :
    (iprop((dats1 (W3 m) q1 c).arrays ((dats1 (W3 m) q1 c).arrAt · cfg1.N) ∗ (dats1 (W3 m) q1 c).owesAt () (Fin.last cfg1.N) ∗ (∃ r, prngReg c r) ∗ Pipeline.unscopedRest spec1 c (W3 m c)) : sProp 𝕄)
      ⊢ iprop(StableHlo.held (c : Thread nD τ) (Pipeline.ucRefs τ sig) (U4 m c) ∗ Ec (F := F) c) := by
  rw [show StableHlo.held (c : Thread nD τ) (Pipeline.ucRefs τ sig) (U4 m c) = unscopedBufs c (W4 m c) from (Pipeline.unscopedBufs_held c _).symm]
  rw [Pipeline.unscopedBufs_split₀ cfgs 1 hunscoped1 c (W4 m c)]
  show _ ⊢ (iprop((Pipeline.arrBufs spec1 c (W4 m c) ∗ Pipeline.unscopedRest spec1 c (W4 m c)) ∗ Ec (F := F) c) : sProp 𝕄)
  rw [rest1_eq]
  unfold Ec
  iintro ⟨Ha, HO, Hg, HZ⟩
  isplitl [Ha HZ]
  · isplitl [Ha]
    · iapply (hjoin1 (W3 m) c (fun w => (dats1 (W3 m) q1 c).arrAt w cfg1.N) (W4 m c) (((dats1 (W3 m) q1 c).arrAt_in 0 rfl _).trans ((A_eq1 (W3 m) q1 c 0).trans (U4_of m c main_v3 (by decide) (by decide)).symm)) (((dats1 (W3 m) q1 c).arrAt_in 1 rfl _).trans ((A_eq1 (W3 m) q1 c 1).trans (U4_of m c main_v3 (by decide) (by decide)).symm)) (((dats1 (W3 m) q1 c).arrAt_in 2 rfl _).trans ((A_eq1 (W3 m) q1 c 2).trans (U4_of m c main_v4 (by decide) (by decide)).symm)) (((dats1 (W3 m) q1 c).arrAt_in 3 rfl _).trans ((A_eq1 (W3 m) q1 c 3).trans (U4_of m c main_v5 (by decide) (by decide)).symm)) (((dats1 (W3 m) q1 c).arrAt_in 4 rfl _).trans ((A_eq1 (W3 m) q1 c 4).trans (U4_of m c main_v6_0 (by decide) (by decide)).symm)) (((dats1 (W3 m) q1 c).arrAt_in 5 rfl _).trans ((A_eq1 (W3 m) q1 c 5).trans (U4_of m c main_v6_1 (by decide) (by decide)).symm)) (U4_v70 m c).symm (U4_v71 m c).symm)
      iexact Ha
    iexact HZ
  isplitl [HO]
  · unfold Pipeline.Dat.owesAt Pipeline.owesWithin
    icases HO with ⟨%W, -, HO⟩; iexists W; iexact HO
  iexact Hg

set_option backward.isDefEq.respectTransparency.types false in
/-- Region 0 as a record of the launch: the decided layout, no semaphore of its own, the body obligation, and its
    entry and exit around the held unscoped buffers. -/
def reg0 : RegionSeg (pcfgs (F := F)) adm (pdats m) () defs₀ Variants.none L lv 0 where
  win := winFacts₀0
  block_pos := block_pos0
  stage_whole := stage_whole0
  K := PEmpty
  osem := fun k => k.elim
  ho := Pipeline.OwnSemFacts.none spec0
  hbody c := (body_obligation0 (W2 m) q0 c).loose
  hwaits := Pipeline.hwaits_of_owed_zero _ _ _ _ L lv 0 fun _ _ => rfl
  pre c := iprop(StableHlo.held (c : Thread nD τ) (Pipeline.ucRefs τ sig) (V2 m c) ∗ Ec (F := F) c)
  post c := iprop(StableHlo.held (c : Thread nD τ) (Pipeline.ucRefs τ sig) (U3 m c) ∗ Ec (F := F) c)
  X c := iprop(∃ r, prngReg c r)
  Y c := iprop(∃ r, prngReg c r)
  Z c := Pipeline.unscopedRest spec0 c (W2 m c)
  hentry c := by
    iintro ⟨Hpre, -, -⟩
    ihave H := (entry0 m c) $$ Hpre
    icases H with ⟨Ha, HO, Hg, Hrest⟩
    imodintro
    isplitl [Ha]; · iexact Ha
    isplitr; · unfold Pipeline.prefHeld; rw [show (Finset.univ : Finset (Fin 0)) = ∅ from rfl, BI.bigSep_empty]; iempintro
    isplitl [HO]; · iexact HO
    isplitl [Hg]; · iexact Hg
    iexact Hrest
  hin c := by
    refine BIBase.Entails.trans (Q := Pipeline.ΦA spec0 c) ?_ (hin0 (W2 m) q0 c)
    unfold Pipeline.ΦA
    iintro ⟨Hp, -, Hr⟩
    isplitl [Hr]; · iexact Hr
    iexact Hp
  hout c := by
    refine (hout0 (W2 m) q0 c).trans ?_
    rw [Pipeline.ownSems0_none]; unfold Pipeline.ΦA
    iintro ⟨Hr, Hp⟩
    isplitl [Hp]; · iexact Hp
    isplitr; · iempintro
    iexact Hr
  hexit c := by
    iintro ⟨Ha, HO, HY, HZ⟩
    imodintro
    iapply (exit0 m c)
    isplitl [Ha]; · iexact Ha
    isplitl [HO]; · iexact HO
    isplitl [HY]; · iexact HY
    iexact HZ

set_option backward.isDefEq.respectTransparency.types false in
/-- Region 1 as a record of the launch: the decided layout, no semaphore of its own, the body obligation, and its
    entry and exit around the held unscoped buffers. -/
def reg1 : RegionSeg (pcfgs (F := F)) adm (pdats m) () defs₀ Variants.none L lv 1 where
  win := winFacts₀1
  block_pos := block_pos1
  stage_whole := stage_whole1
  K := PEmpty
  osem := fun k => k.elim
  ho := Pipeline.OwnSemFacts.none spec1
  hbody c := (body_obligation1 (W3 m) q1 c).loose
  hwaits := Pipeline.hwaits_of_owed_zero _ _ _ _ L lv 1 fun _ _ => rfl
  pre c := iprop(StableHlo.held (c : Thread nD τ) (Pipeline.ucRefs τ sig) (U3 m c) ∗ Ec (F := F) c)
  post c := iprop(StableHlo.held (c : Thread nD τ) (Pipeline.ucRefs τ sig) (U4 m c) ∗ Ec (F := F) c)
  X c := iprop(∃ r, prngReg c r)
  Y c := iprop(∃ r, prngReg c r)
  Z c := Pipeline.unscopedRest spec1 c (W3 m c)
  hentry c := by
    iintro ⟨Hpre, -, -⟩
    ihave H := (entry1 m c) $$ Hpre
    icases H with ⟨Ha, HO, Hg, Hrest⟩
    imodintro
    isplitl [Ha]; · iexact Ha
    isplitr; · unfold Pipeline.prefHeld; rw [show (Finset.univ : Finset (Fin 0)) = ∅ from rfl, BI.bigSep_empty]; iempintro
    isplitl [HO]; · iexact HO
    isplitl [Hg]; · iexact Hg
    iexact Hrest
  hin c := by
    refine BIBase.Entails.trans (Q := Pipeline.ΦA spec1 c) ?_ (hin1 (W3 m) q1 c)
    unfold Pipeline.ΦA
    iintro ⟨Hp, -, Hr⟩
    isplitl [Hr]; · iexact Hr
    iexact Hp
  hout c := by
    refine (hout1 (W3 m) q1 c).trans ?_
    rw [Pipeline.ownSems0_none]; unfold Pipeline.ΦA
    iintro ⟨Hr, Hp⟩
    isplitl [Hp]; · iexact Hp
    isplitr; · iempintro
    iexact Hr
  hexit c := by
    iintro ⟨Ha, HO, HY, HZ⟩
    imodintro
    iapply (exit1 m c)
    isplitl [Ha]; · iexact Ha
    isplitl [HO]; · iexact HO
    isplitl [HY]; · iexact HY
    iexact HZ

/-! ## The run -/

set_option backward.isDefEq.respectTransparency.types false in
/-- THE RUN of the two-region program at any float values: every weakly fair execution of @main terminates and the
    final memory holds the result buffer at what the last host stretch computes from the regions' outputs (the generated
    valuation V7 at the regions' computed contents), and each argument as launched. -/
theorem kernel_run : θ_run defs (onTc (τ := τ) (main (F := F))) ⟨m, fun _ => 0, ρ⟩ (fun r => ∀ c : Dev nD,
      r.2.mem ((c.tc : Thread nD τ).loc main_v26) = V7 m (outs m) c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  value_cond m (emb₁) () Variants.none L lv (fun _ _ => rfl) ρ (outs m) (pdats m) (fun _ => 0) (fun _ => iprop(emp))
    (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (fun _ c => Ec (F := F) c)
    (by
      refine Pipeline.initEach L lv fun c => ?_
      unfold Ec
      iintro ⟨⟨-, HO, -, Hp, -⟩, -⟩
      imodintro
      isplitl [HO]; · iexists ∅; iexact HO
      iexists _; iexact Hp)
    (fun c => by unfold Ec; iintro ⟨HO, -⟩; iexact HO)
    (reg0 m) (fun c => .rfl) (fun c => by rw [V3_eq]; exact .rfl)
    (reg1 m) (fun c => by rw [V3_eq]; exact .rfl) (fun c => by rw [V4_eq]; exact .rfl)

end Cert.Kernel.HandR

end
-- ==== Proof.K0Runs.lean ====
/-
  The first kernel region (the running row maximum and rescaled row sum of exponentials over sixteen column
  blocks): what its per-point runs are stated over.  The region's entry contents are a variable V, so that nothing
  here depends on the host operations before the region.  A grid point is (row block, column block); the body
  re-initialises both carried buffers at column block 0 and copies them to the two output blocks at column block 15.
-/
import proofs.«113668_j72095321030692_1_alg».proof.Proof.Gen.KernelIdeal.Launch
import proofs.«113668_j72095321030692_1_alg».proof.Proof.Gen.KernelIdeal.Skeleton
import proofs.«113668_j72095321030692_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional: the column block is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional: the column block is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_2 : View sig .tc .vmem S2048x1 .f32 := (Memref.whole cc0_stg2_0 : Memref sig .tc .vmem S2048x1 .f32).view
abbrev VO0_3 : View sig .tc .vmem S2048x1 .f32 := (Memref.whole cc0_stg3_0 : Memref sig .tc .vmem S2048x1 .f32).view
abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
/-- The two buffers the kernel carries between points: the running maximum and the running sum. -/
abbrev scM0_0 : Memref sig .tc .vmem S2048x1 .f32 := Memref.whole cc0_scratch0
abbrev scM0_1 : Memref sig .tc .vmem S2048x1 .f32 := Memref.whole cc0_scratch1
abbrev VS0_0 : View sig .tc .vmem S2048x1 .f32 := scM0_0.view
abbrev VS0_1 : View sig .tc .vmem S2048x1 .f32 := scM0_1.view

/-- The scoped buffers of the other region, which this region never touches: each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region's plain invariant with the two carried buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 (F := F) c) ∗ (∃ r, prngReg c r)) := by
  unfold Pipeline.ΦA Rest0; rw [scopedRest0_eq]; simp only [scM0_0, scM0_1, owns_whole]; try rfl

end Cert.KernelIdeal.Hand0

end
-- ==== Proof.K0RunA.lean ====
/-
  The first kernel's body at a first column block (and not the last): both carried buffers are re-initialised, then updated from the two input blocks; the output blocks are not touched.
-/
import proofs.«113668_j72095321030692_1_alg».proof.Proof.K0Runs

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output blocks and the two carried buffers in this case, with the
    proof that on whole memrefs the body runs to a continuation holding them. -/
noncomputable def kernelRun0_A (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x512 .bf16) (x1 : Vec F S512x512 .bf16) :
    Σ' (L2 : List (View.Piece (Elt F) S2048x1 .f32)) (L3 : List (View.Piece (Elt F) S2048x1 .f32)) (LS0 : List (View.Piece (Elt F) S2048x1 .f32)), { LS1 : List (View.Piece (Elt F) S2048x1 .f32) //
      ∀ (xi2 xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__k1_kernel i arg2 harg2 arg3 harg3 arg4 harg4 arg5 harg5 arg6 harg6 arg7 harg7) K } := by
  refine ⟨[], [], ?_, ?_, fun xi2 xi3 E K => ?run⟩
  case run =>
    simp only [cc0__k1_kernel_eq_skeleton]; unfold cc0__k1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand0

end
-- ==== Proof.K0RunB.lean ====
/-
  The first kernel's body at a middle column block: both carried buffers are updated from what the point before left and the two input blocks; the output blocks are not touched.
-/
import proofs.«113668_j72095321030692_1_alg».proof.Proof.K0Runs

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output blocks and the two carried buffers in this case, with the
    proof that on whole memrefs the body runs to a continuation holding them. -/
noncomputable def kernelRun0_B (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x512 .bf16) (x1 : Vec F S512x512 .bf16) (xs0 xs1 : Vec F S2048x1 .f32) :
    Σ' (L2 : List (View.Piece (Elt F) S2048x1 .f32)) (L3 : List (View.Piece (Elt F) S2048x1 .f32)) (LS0 : List (View.Piece (Elt F) S2048x1 .f32)), { LS1 : List (View.Piece (Elt F) S2048x1 .f32) //
      ∀ (xi2 xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__k1_kernel i arg2 harg2 arg3 harg3 arg4 harg4 arg5 harg5 arg6 harg6 arg7 harg7) K } := by
  refine ⟨[], [], ?_, ?_, fun xi2 xi3 E K => ?run⟩
  case run =>
    simp only [cc0__k1_kernel_eq_skeleton]; unfold cc0__k1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand0

end
-- ==== Proof.K0RunC.lean ====
/-
  The first kernel's body at the last column block: both carried buffers are updated from what the point before left and the two input blocks, then copied to the two output blocks.
-/
import proofs.«113668_j72095321030692_1_alg».proof.Proof.K0Runs

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output blocks and the two carried buffers in this case, with the
    proof that on whole memrefs the body runs to a continuation holding them. -/
noncomputable def kernelRun0_C (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x512 .bf16) (x1 : Vec F S512x512 .bf16) (xs0 xs1 : Vec F S2048x1 .f32) :
    Σ' (L2 : List (View.Piece (Elt F) S2048x1 .f32)) (L3 : List (View.Piece (Elt F) S2048x1 .f32)) (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__k1_kernel i arg2 harg2 arg3 harg3 arg4 harg4 arg5 harg5 arg6 harg6 arg7 harg7) K } := by
  refine ⟨?_, ?_, ?_, ?_, fun E K => ?run⟩
  case run =>
    simp only [cc0__k1_kernel_eq_skeleton]; unfold cc0__k1_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Hand0

end
-- ==== Proof.K0Frame.lean ====
/-
  The first kernel region, point by point: what its two carried buffers (the running row maximum, the running
  rescaled row sum of exponentials) and its two output blocks hold after the body at each grid point, the region's
  proof data over arbitrary entry contents V, and the body obligation at every point.
-/
import proofs.«113668_j72095321030692_1_alg».proof.Proof.K0RunA
import proofs.«113668_j72095321030692_1_alg».proof.Proof.K0RunB
import proofs.«113668_j72095321030692_1_alg».proof.Proof.K0RunC

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one point leaves, case by case -/

section Cases
variable (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (x0 : Vec F S2048x512 .bf16) (x1 : Vec F S512x512 .bf16)

theorem scover0_A_0 (hc0 : cond0_0 i) (hc1 : ¬cond0_1 i) (y : S2048x1.Idx) :
    ∃ pc ∈ (kernelRun0_A c i arg2 harg2 arg3 harg3 arg4 harg4 arg5 harg5 arg6 harg6 arg7 harg7 hc0 hc1 x0 x1).2.2.1, y ∈ pc.1.set :=
  View.cover_of_tiledL _ S2048x1.size (by sl_kernel_rfl) y
theorem scover0_A_1 (hc0 : cond0_0 i) (hc1 : ¬cond0_1 i) (y : S2048x1.Idx) :
    ∃ pc ∈ (kernelRun0_A c i arg2 harg2 arg3 harg3 arg4 harg4 arg5 harg5 arg6 harg6 arg7 harg7 hc0 hc1 x0 x1).2.2.2.1, y ∈ pc.1.set :=
  View.cover_of_tiledL _ S2048x1.size (by sl_kernel_rfl) y
/-- What a first column block leaves in the two carried buffers. -/
def sout0_A_0 (hc0 : cond0_0 i) (hc1 : ¬cond0_1 i) : Vec F S2048x1 .f32 :=
  VS0_0.read (Elt F) (VS0_0.writes (Elt F) VS0_0.junk (kernelRun0_A c i arg2 harg2 arg3 harg3 arg4 harg4 arg5 harg5 arg6 harg6 arg7 harg7 hc0 hc1 x0 x1).2.2.1)
def sout0_A_1 (hc0 : cond0_0 i) (hc1 : ¬cond0_1 i) : Vec F S2048x1 .f32 :=
  VS0_1.read (Elt F) (VS0_1.writes (Elt F) VS0_1.junk (kernelRun0_A c i arg2 harg2 arg3 harg3 arg4 harg4 arg5 harg5 arg6 harg6 arg7 harg7 hc0 hc1 x0 x1).2.2.2.1)

variable (xs0 xs1 : Vec F S2048x1 .f32)

theorem scover0_B_0 (hc0 : ¬cond0_0 i) (hc1 : ¬cond0_1 i) (y : S2048x1.Idx) :
    ∃ pc ∈ (kernelRun0_B c i arg2 harg2 arg3 harg3 arg4 harg4 arg5 harg5 arg6 harg6 arg7 harg7 hc0 hc1 x0 x1 xs0 xs1).2.2.1, y ∈ pc.1.set :=
  View.cover_of_tiledL _ S2048x1.size (by sl_kernel_rfl) y
theorem scover0_B_1 (hc0 : ¬cond0_0 i) (hc1 : ¬cond0_1 i) (y : S2048x1.Idx) :
    ∃ pc ∈ (kernelRun0_B c i arg2 harg2 arg3 harg3 arg4 harg4 arg5 harg5 arg6 harg6 arg7 harg7 hc0 hc1 x0 x1 xs0 xs1).2.2.2.1, y ∈ pc.1.set :=
  View.cover_of_tiledL _ S2048x1.size (by sl_kernel_rfl) y
/-- What a middle column block leaves in the two carried buffers, over what the point before left. -/
def sout0_B_0 (hc0 : ¬cond0_0 i) (hc1 : ¬cond0_1 i) : Vec F S2048x1 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).2.2.1)
def sout0_B_1 (hc0 : ¬cond0_0 i) (hc1 : ¬cond0_1 i) : Vec F S2048x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.2.2.1)

theorem cover0_C_2 (hc0 : ¬cond0_0 i) (hc1 : cond0_1 i) (y : S2048x1.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL _ S2048x1.size (by sl_kernel_rfl) y
theorem cover0_C_3 (hc0 : ¬cond0_0 i) (hc1 : cond0_1 i) (y : S2048x1.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL _ S2048x1.size (by sl_kernel_rfl) y
theorem scover0_C_0 (hc0 : ¬cond0_0 i) (hc1 : cond0_1 i) (y : S2048x1.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL _ S2048x1.size (by sl_kernel_rfl) y
theorem scover0_C_1 (hc0 : ¬cond0_0 i) (hc1 : cond0_1 i) (y : S2048x1.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL _ S2048x1.size (by sl_kernel_rfl) y
/-- What the last column block leaves in the two output blocks and the two carried buffers. -/
def out0_C_2 (hc0 : ¬cond0_0 i) (hc1 : cond0_1 i) : Vec F S2048x1 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)
def out0_C_3 (hc0 : ¬cond0_0 i) (hc1 : cond0_1 i) : Vec F S2048x1 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)
def sout0_C_0 (hc0 : ¬cond0_0 i) (hc1 : cond0_1 i) : Vec F S2048x1 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)
def sout0_C_1 (hc0 : ¬cond0_0 i) (hc1 : cond0_1 i) : Vec F S2048x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

end Cases

/-! ## What the buffers hold after each point -/

/-- What point t leaves in (output block 2, output block 3, running maximum, running sum), given what the point
    before left in the two carried buffers: the case is read off the column block. The output components are
    consulted only at a last column block. -/
def caseOut0 (c : Dev nD) (t : Fin cfg0.N) (xs : Vec F S2048x1 .f32 × Vec F S2048x1 .f32) : Vec F S2048x1 .f32 × Vec F S2048x1 .f32 × Vec F S2048x1 .f32 × Vec F S2048x1 .f32 :=
  if h0 : t.val % 16 = 0 then
    (xs.1, xs.2,
     sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) ((hcond0_0 t).mpr h0) (fun h => by have := (hcond0_1 t).mp h; omega),
     sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) ((hcond0_0 t).mpr h0) (fun h => by have := (hcond0_1 t).mp h; omega))
  else if h1 : t.val % 16 = 15 then
    (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 (fun h => h0 ((hcond0_0 t).mp h)) ((hcond0_1 t).mpr h1),
     out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 (fun h => h0 ((hcond0_0 t).mp h)) ((hcond0_1 t).mpr h1),
     sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 (fun h => h0 ((hcond0_0 t).mp h)) ((hcond0_1 t).mpr h1),
     sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 (fun h => h0 ((hcond0_0 t).mp h)) ((hcond0_1 t).mpr h1))
  else
    (xs.1, xs.2,
     sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 (fun h => h0 ((hcond0_0 t).mp h)) (fun h => h1 ((hcond0_1 t).mp h)),
     sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 (fun h => h0 ((hcond0_0 t).mp h)) (fun h => h1 ((hcond0_1 t).mp h)))

/-- THE ACCUMULATION: the four buffers after the body at position n. -/
def outsAt0 (c : Dev nD) : (n : ℕ) → n < cfg0.N → Vec F S2048x1 .f32 × Vec F S2048x1 .f32 × Vec F S2048x1 .f32 × Vec F S2048x1 .f32
  | 0, hn => caseOut0 V c ⟨0, hn⟩ (VS0_0.read (Elt F) VS0_0.junk, VS0_1.read (Elt F) VS0_1.junk)
  | n + 1, hn => caseOut0 V c ⟨n + 1, hn⟩ ((outsAt0 c n (Nat.lt_of_succ_lt hn)).2.2)

theorem outsAt0_pos (c : Dev nD) (t : Fin cfg0.N) (hz : t.val ≠ 0) :
    outsAt0 V c t.val t.isLt = caseOut0 V c t ((outsAt0 V c (t.val - 1) (Nat.lt_of_le_of_lt (Nat.sub_le _ _) t.isLt)).2.2) := by
  obtain ⟨n, hn⟩ := t
  cases n with
  | zero => exact absurd rfl hz
  | succ n => rfl

theorem outsAt0_zero (c : Dev nD) (t : Fin cfg0.N) (hz : t.val = 0) :
    outsAt0 V c t.val t.isLt = caseOut0 V c t (VS0_0.read (Elt F) VS0_0.junk, VS0_1.read (Elt F) VS0_1.junk) := by
  obtain ⟨n, hn⟩ := t
  cases n with
  | zero => rfl
  | succ n => exact absurd hz (Nat.succ_ne_zero n)

/-- The region invariant before position n: before the first point the plain one (every scoped buffer at anything);
    afterwards the two carried buffers at what the point before left, the other region's scoped buffers at anything. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ Rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ Rest0 (F := F) c) ∗ (∃ r, prngReg c r)) := by
  cases n with
  | zero => exact absurd rfl hz
  | succ n => rfl

/-! ## The region's proof data -/

variable (q : Fin cfg0.W → PosShare TreeShare)

/-- The proof data on core c: the arrays as the region finds them; after the body each input's buffer at its
    block, the outputs' at the accumulation's components; the invariant above; nothing owed. -/
def dats0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q := q
  owed _ := 0

theorem A_eq0 (c : Dev nD) (w : Fin cfg0.W) : (dats0 V q c).A w = V c (Pipeline.arrRef spec0 w) := by
  dsimp only [dats0]
theorem PhiS0_castSucc (c : Dev nD) (t : Fin cfg0.N) :
    (dats0 V q c).Φ t.castSucc = PhiS0 V c t.val (Nat.le_of_lt t.isLt) := by
  dsimp only [dats0]; simp only [Fin.coe_castSucc]
theorem after0_0 (c : Dev nD) (t : Fin cfg0.N) : (dats0 V q c).after 0 t = iblk0 V c 0 t := by dsimp only [dats0]
theorem after0_1 (c : Dev nD) (t : Fin cfg0.N) : (dats0 V q c).after 1 t = iblk0 V c 1 t := by dsimp only [dats0]
theorem after0_2 (c : Dev nD) (t : Fin cfg0.N) : (dats0 V q c).after 2 t = (outsAt0 V c t.val t.isLt).1 := by dsimp only [dats0]
theorem after0_3 (c : Dev nD) (t : Fin cfg0.N) : (dats0 V q c).after 3 t = (outsAt0 V c t.val t.isLt).2.1 := by dsimp only [dats0]
theorem before0_0 (c : Dev nD) (t : Fin cfg0.N) (d) : (dats0 V q c).before 0 t d = iblk0 V c 0 t :=
  before0_0_of V (dats0 V q c) (A_eq0 V q c 0) (after0_0 V q c) t d
theorem before0_1 (c : Dev nD) (t : Fin cfg0.N) (d) : (dats0 V q c).before 1 t d = iblk0 V c 1 t :=
  before0_1_of V (dats0 V q c) (A_eq0 V q c 1) (after0_1 V q c) t d

/-! ## The body obligation, at a generic point -/

def bodyPre0 (c : Dev nD) (t : Fin cfg0.N) : sProp 𝕄 :=
  iprop((dats0 V q c).Φ t.castSucc ∗ (dats0 V q c).owesAt () t.castSucc
    ∗ (∃ d, owns (c : Thread nD τ) (ms0_0 t) fullShare ((dats0 V q c).before 0 t d))
    ∗ (∃ d, owns (c : Thread nD τ) (ms0_1 t) fullShare ((dats0 V q c).before 1 t d))
    ∗ (∃ d, owns (c : Thread nD τ) (ms0_2 t) fullShare ((dats0 V q c).before 2 t d))
    ∗ (∃ d, owns (c : Thread nD τ) (ms0_3 t) fullShare ((dats0 V q c).before 3 t d)))

def bodyPost0 (c : Dev nD) (t : Fin cfg0.N) : sProp 𝕄 :=
  iprop((dats0 V q c).Φ t.succ ∗ (dats0 V q c).owesAt () t.succ
    ∗ (dats0 V q c).leavesExact 0 t
    ∗ (dats0 V q c).leavesExact 1 t
    ∗ (dats0 V q c).leavesExact 2 t
    ∗ (dats0 V q c).leavesExact 3 t)

set_option maxHeartbeats 8000000 in
/-- The body at any point: the inputs' memrefs hold their blocks; the column block says which case the point is in;
    the invariant hands the body the two carried buffers at what the point before left (at anything at a first column
    block) and takes them back at this point's contents; the core owes nothing throughout. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dats0 V q c).owesAt () t.succ = (dats0 V q c).owesAt () t.castSucc from rfl]
  rw [show (dats0 V q c).Φ t.succ = PhiS0 V c (t.val + 1) t.isLt from rfl, PhiS0_succ]
  have hN : t.val < 64 := lt_of_lt_of_eq t.isLt (show cfg0.N = 64 from N_0)
  rw [show (dats0 V q c).leavesExact 0 t = owns (c : Thread nD τ) (ms0_0 t) fullShare ((dats0 V q c).after 0 t) from by
    unfold Dat.leavesExact; rw [liveAt0_0 t], after0_0]
  rw [show (dats0 V q c).leavesExact 1 t = owns (c : Thread nD τ) (ms0_1 t) fullShare ((dats0 V q c).after 1 t) from by
    unfold Dat.leavesExact; rw [liveAt0_1 t], after0_1]
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dats0 V q c) 2 t (idleAt0_2 t hc1) (noFlush0_2 t hc1)]
    rw [Dat.leavesExact_idle (dats0 V q c) 3 t (idleAt0_3 t hc1) (noFlush0_3 t hc1)]
    by_cases hz : t.val = 0
    · rw [outsAt0_zero V c t hz]
      unfold caseOut0; rw [dif_pos h0]
      unfold sout0_A_0 sout0_A_1; (try dsimp only)
      rw [PhiS0_castSucc V q c t, PhiS0_zero V c _ _ hz, PhiA0_eq]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t)).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          iexact HR
        iexact Hg
      isplitl [Ho]; · iexact Ho
      isplitl [H0]; · iexact H0
      isplitl [H1]; · iexact H1
      isplitl [H2]; · iexists _; iexact H2
      iexists _; iexact H3
    · rw [outsAt0_pos V c t hz]
      unfold caseOut0; rw [dif_pos h0]
      unfold sout0_A_0 sout0_A_1; (try dsimp only)
      rw [PhiS0_castSucc V q c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t)).2.2.2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          iexact HR
        iexact Hg
      isplitl [Ho]; · iexact Ho
      isplitl [H0]; · iexact H0
      isplitl [H1]; · iexact H1
      isplitl [H2]; · iexists _; iexact H2
      iexists _; iexact H3
  · have hz : t.val ≠ 0 := fun h => h0 (by rw [h])
    have hc0 : ¬cond0_0 (grid0.coords t) := fun h => h0 ((hcond0_0 t).mp h)
    by_cases h1 : t.val % 16 = 15
    · have hc1 : cond0_1 (grid0.coords t) := (hcond0_1 t).mpr h1
      rw [show (dats0 V q c).leavesExact 2 t = owns (c : Thread nD τ) (ms0_2 t) fullShare ((dats0 V q c).after 2 t) from by
        unfold Dat.leavesExact; rw [liveAt0_2 t hc1], after0_2]
      rw [show (dats0 V q c).leavesExact 3 t = owns (c : Thread nD τ) (ms0_3 t) fullShare ((dats0 V q c).after 3 t) from by
        unfold Dat.leavesExact; rw [liveAt0_3 t hc1], after0_3]
      rw [outsAt0_pos V c t hz]
      unfold caseOut0; rw [dif_neg h0, dif_pos h1]
      unfold out0_C_2 out0_C_3 sout0_C_0 sout0_C_1; (try dsimp only)
      rw [PhiS0_castSucc V q c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · have hc1 : ¬cond0_1 (grid0.coords t) := fun h => h1 ((hcond0_1 t).mp h)
      rw [Dat.leavesExact_idle (dats0 V q c) 2 t (idleAt0_2 t hc1) (noFlush0_2 t hc1)]
      rw [Dat.leavesExact_idle (dats0 V q c) 3 t (idleAt0_3 t hc1) (noFlush0_3 t hc1)]
      rw [outsAt0_pos V c t hz]
      unfold caseOut0; rw [dif_neg h0, dif_neg h1]
      unfold sout0_B_0 sout0_B_1; (try dsimp only)
      rw [PhiS0_castSucc V q c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_B c (grid0.coords t) _ _ _ _ _ _ _ _ _ _ _ _ hc0 hc1 (iblk0 V c 0 t) (iblk0 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _)
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dats0 (F := F) V q c) (defs₀ (F := F)) Variants.none () Set.univ := fun t => by
  rw [bigSep_W0, bigSep_W0]
  exact sound_body0 V q c t

/-- What the launch hands the region is the invariant before the first point. -/
theorem hin0 (c : Dev nD) : Pipeline.ΦA spec0 c ⊢ (dats0 V q c).Φ 0 := by
  rw [show (dats0 V q c).Φ 0 = PhiS0 V c 0 (Nat.zero_le _) from rfl, PhiS0_zero V c 0 _ rfl]
  try exact Idealize.SL.BI.Entails.refl _

/-- After the last point the invariant gives the plain one back: the carried buffers' contents are forgotten. -/
theorem hout0 (c : Dev nD) : (dats0 V q c).Φ (Fin.last cfg0.N) ⊢ Pipeline.ΦA spec0 c := by
  have ht : (Fin.last cfg0.N).val ≠ 0 := by rw [Fin.val_last]; have : cfg0.N = 64 := N_0; omega
  rw [show (dats0 V q c).Φ (Fin.last cfg0.N) = PhiS0 V c (Fin.last cfg0.N).val (Nat.le_of_lt_succ (Fin.last cfg0.N).isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Cert.KernelIdeal.Hand0

end
-- ==== Proof.K0Shares.lean ====
/-
  Region 0: the distinct buffers behind the windows' arrays against the windows' arrays at their shares. The
  normalised features are read through two input windows; the buffer is split between them into its two halves on the
  way in and rejoined on the way out.
-/
import proofs.«113668_j72095321030692_1_alg».proof.Proof.K0Frame

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
abbrev q0 : Fin cfg0.W → PosShare TreeShare := fun | ⟨0, _⟩ => fullShare.left | ⟨1, _⟩ => fullShare.right | ⟨2, _⟩ => fullShare | ⟨3, _⟩ => fullShare

theorem arrRefs0 : (Finset.univ.image (Pipeline.arrRef spec0) : Finset (Ref sig .tc)) = ([main_v3, main_v6_0, main_v6_1] : List (Ref sig .tc)).toFinset := by decide

theorem hsplit0 (c : Dev nD) (G : (w : Fin cfg0.W) → Buf (Elt F) ((cfg0.win w).arr.view.loc (c.tc : Thread nD τ))) (hG : ∀ w, G w = V c (Pipeline.arrRef spec0 w)) :
    (Pipeline.arrBufs spec0 c (V c) : sProp 𝕄) ⊢ (dats0 V q0 c).arrays G := by
  unfold Pipeline.arrBufs Dat.arrays
  rw [bigSep_eq_bigSepL_of_eq _ arrRefs0 (by decide), bigSep_W0]
  simp only [bigSepL_cons_cons, bigSepL_singleton]
  rw [hG 0, hG 1, hG 2, hG 3]
  rw [show (dats0 V q0 c).share 0 = fullShare.left from rfl, show (dats0 V q0 c).share 1 = fullShare.right from rfl,
    show (dats0 V q0 c).share 2 = fullShare from rfl, show (dats0 V q0 c).share 3 = fullShare from rfl]
  simp only [View.set_whole]
  show (iprop(_ ∗ _ ∗ _) : sProp 𝕄) ⊢ _
  iintro ⟨H3, H60, H61⟩
  ihave H := (pointsTo_share (PosShare.mem_left_op_right fullShare)).1 $$ H3
  icases H with ⟨Ha, Hb⟩
  isplitl [Ha]; · iexact Ha
  isplitl [Hb]; · iexact Hb
  isplitl [H60]; · iexact H60
  iexact H61

theorem hjoin0 (c : Dev nD) (G : (w : Fin cfg0.W) → Buf (Elt F) ((cfg0.win w).arr.view.loc (c.tc : Thread nD τ)))
    (Vn : (b : Ref sig .tc) → Buf (Elt F) ((c.tc : Thread nD τ).loc b))
    (h0 : G 0 = Vn main_v3) (h1 : G 1 = Vn main_v3) (h2 : G 2 = Vn main_v6_0) (h3 : G 3 = Vn main_v6_1) :
    (dats0 V q0 c).arrays G ⊢ (Pipeline.arrBufs spec0 c Vn : sProp 𝕄) := by
  unfold Pipeline.arrBufs Dat.arrays
  rw [bigSep_eq_bigSepL_of_eq _ arrRefs0 (by decide), bigSep_W0]
  simp only [bigSepL_cons_cons, bigSepL_singleton]
  rw [h0, h1, h2, h3]
  rw [show (dats0 V q0 c).share 0 = fullShare.left from rfl, show (dats0 V q0 c).share 1 = fullShare.right from rfl,
    show (dats0 V q0 c).share 2 = fullShare from rfl, show (dats0 V q0 c).share 3 = fullShare from rfl]
  simp only [View.set_whole]
  show _ ⊢ (iprop(_ ∗ _ ∗ _) : sProp 𝕄)
  iintro ⟨Ha, Hb, H60, H61⟩
  isplitl [Ha Hb]
  · ihave H := (pointsTo_share (PosShare.mem_left_op_right fullShare)).2 $$ [Ha Hb]
    · isplitl [Ha] <;> iassumption
    iexact H
  isplitl [H60]; · iexact H60
  iexact H61

end Cert.KernelIdeal.Hand0
end
-- ==== Proof.K1Runs.lean ====
import proofs.«113668_j72095321030692_1_alg».proof.Proof.Gen.KernelIdeal.Launch
import proofs.«113668_j72095321030692_1_alg».proof.Proof.Gen.KernelIdeal.Skeleton
import proofs.«113668_j72095321030692_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region-entry contents and the windows' blocks

The contents of core `c`'s TensorCore buffers when the second kernel region is entered are a parameter `V`
of everything below: the launch supplies them. -/

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved;
    the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved;
    the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved;
    the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved;
    the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved;
    the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: unfetched, the block index has not moved;
    the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the scratch buffers are zeroed), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16): the first column block of a row. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second conditional (the scratch buffers are copied to the outputs), from the grid
    coordinates. -/
abbrev cond1_1 (i : grid1.Coords) : Prop := k1_cond2 i = 1#1
/-- It holds at the points ≡ 15 (mod 16): the last column block of a row. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- At the points of case A output 6 is idle: the case stores nothing into it. -/
theorem idleAt1_6_A : ∀ t : Fin cfg1.N, cond1_0 (grid1.coords t) → ¬cond1_1 (grid1.coords t) → cfg1.idle 6 (grid1.coords t) = true := by decide +kernel
/-- At the points of case A output 6's block is not written back. -/
theorem noFlush1_6_A : ∀ t : Fin cfg1.N, cond1_0 (grid1.coords t) → ¬cond1_1 (grid1.coords t) → (cfg1.win 6).flush t = false := by decide +kernel
/-- At the points of case B output 6 is idle: the case stores nothing into it. -/
theorem idleAt1_6_B : ∀ t : Fin cfg1.N, ¬cond1_0 (grid1.coords t) → ¬cond1_1 (grid1.coords t) → cfg1.idle 6 (grid1.coords t) = true := by decide +kernel
/-- At the points of case B output 6's block is not written back. -/
theorem noFlush1_6_B : ∀ t : Fin cfg1.N, ¬cond1_0 (grid1.coords t) → ¬cond1_1 (grid1.coords t) → (cfg1.win 6).flush t = false := by decide +kernel
/-- At the points of case C output 6 is live: the case stores into it. -/
theorem liveAt1_6_C : ∀ t : Fin cfg1.N, ¬cond1_0 (grid1.coords t) → cond1_1 (grid1.coords t) → cfg1.idle 6 (grid1.coords t) = false := by decide +kernel

/-- At the points of case A output 7 is idle: the case stores nothing into it. -/
theorem idleAt1_7_A : ∀ t : Fin cfg1.N, cond1_0 (grid1.coords t) → ¬cond1_1 (grid1.coords t) → cfg1.idle 7 (grid1.coords t) = true := by decide +kernel
/-- At the points of case A output 7's block is not written back. -/
theorem noFlush1_7_A : ∀ t : Fin cfg1.N, cond1_0 (grid1.coords t) → ¬cond1_1 (grid1.coords t) → (cfg1.win 7).flush t = false := by decide +kernel
/-- At the points of case B output 7 is idle: the case stores nothing into it. -/
theorem idleAt1_7_B : ∀ t : Fin cfg1.N, ¬cond1_0 (grid1.coords t) → ¬cond1_1 (grid1.coords t) → cfg1.idle 7 (grid1.coords t) = true := by decide +kernel
/-- At the points of case B output 7's block is not written back. -/
theorem noFlush1_7_B : ∀ t : Fin cfg1.N, ¬cond1_0 (grid1.coords t) → ¬cond1_1 (grid1.coords t) → (cfg1.win 7).flush t = false := by decide +kernel
/-- At the points of case C output 7 is live: the case stores into it. -/
theorem liveAt1_7_C : ∀ t : Fin cfg1.N, ¬cond1_0 (grid1.coords t) → cond1_1 (grid1.coords t) → cfg1.idle 7 (grid1.coords t) = false := by decide +kernel

/-! ## The memrefs the body is called with -/

/-- One staging buffer of each output window, through which its contents are stated (the choice does not matter). -/
abbrev VO1_6 : View sig .tc .vmem S2048x1 .f32 := (Memref.whole cc1_stg6_0 : Memref sig .tc .vmem S2048x1 .f32).view
abbrev VO1_7 : View sig .tc .vmem S2048x1 .f32 := (Memref.whole cc1_stg7_0 : Memref sig .tc .vmem S2048x1 .f32).view
/-- Each window's current staging memref at point `t`, spelled as the pipeline passes it, and its wholeness. -/
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2048x1 .f32 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S2048x1 .f32 := Memref.whole cc1_scratch0
abbrev scM1_1 : Memref sig .tc .vmem S2048x1 .f32 := Memref.whole cc1_scratch1
/-- The scratch buffers the kernel carries between points, as views: what they hold is stated through them. -/
abbrev VS1_0 : View sig .tc .vmem S2048x1 .f32 := scM1_0.view
abbrev VS1_1 : View sig .tc .vmem S2048x1 .f32 := scM1_1.view

/-- The body at point `t` is the kernel on these memrefs. -/
theorem bodyAt1_eq (t : Fin cfg1.N) : bodyAt1 (F := F) t
    = cc1__k2_kernel (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) := rfl

/-- The region's invariant with the two scratch operands as memrefs owned at some contents, the scoped buffers of
    the other region beside them as the region found them: what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Hand1

end
-- ==== Proof.K1RunA.lean ====
import proofs.«113668_j72095321030692_1_alg».proof.Proof.K1Runs

set_option maxRecDepth 16384

noncomputable section

namespace Cert.KernelIdeal.Hand1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case A (the first column block of a row: the scratch buffers are zeroed first, nothing is copied out). On whole memrefs — the six inputs at their contents `x·`, the two outputs, into which the case stores nothing, at contents `xi·` handed back untouched,
    the two scratch buffers at anything — the body runs to the continuation holding the inputs as they were
    and each scratch buffer with its pieces written (`LS0`, `LS1`). The pieces, last written first, are the witness
    the symbolic run finds; the two conditionals are decided by the case's hypotheses. -/
noncomputable def kernelRun1_A (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) :
    Σ' (L6 : List (View.Piece (Elt F) S2048x1 .f32)) (L7 : List (View.Piece (Elt F) S2048x1 .f32)) (LS0 : List (View.Piece (Elt F) S2048x1 .f32)), { LS1 : List (View.Piece (Elt F) S2048x1 .f32) //
      ∀ (xi6 xi7 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__k2_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc1__k2_kernel_eq_skeleton]; unfold cc1__k2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Hand1

end
-- ==== Proof.K1RunB.lean ====
import proofs.«113668_j72095321030692_1_alg».proof.Proof.K1RunA

set_option maxRecDepth 16384

noncomputable section

namespace Cert.KernelIdeal.Hand1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case B (a middle column block of a row: the scratch buffers are accumulated into, nothing is copied out). On whole memrefs — the six inputs at their contents `x·`, the two outputs, into which the case stores nothing, at contents `xi·` handed back untouched,
    the two scratch buffers at what the point before left (`xs·`) — the body runs to the continuation holding the inputs as they were
    and each scratch buffer with its pieces written (`LS0`, `LS1`). The pieces, last written first, are the witness
    the symbolic run finds; the two conditionals are decided by the case's hypotheses. -/
noncomputable def kernelRun1_B (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) :
    Σ' (L6 : List (View.Piece (Elt F) S2048x1 .f32)) (L7 : List (View.Piece (Elt F) S2048x1 .f32)) (LS0 : List (View.Piece (Elt F) S2048x1 .f32)), { LS1 : List (View.Piece (Elt F) S2048x1 .f32) //
      ∀ (xi6 xi7 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__k2_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc1__k2_kernel_eq_skeleton]; unfold cc1__k2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Hand1

end
-- ==== Proof.K1RunC.lean ====
import proofs.«113668_j72095321030692_1_alg».proof.Proof.K1RunB

set_option maxRecDepth 16384

noncomputable section

namespace Cert.KernelIdeal.Hand1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case C (the last column block of a row: the scratch buffers are accumulated into and then copied to the two outputs). On whole memrefs — the six inputs at their contents `x·`, the two outputs at anything,
    the two scratch buffers at what the point before left (`xs·`) — the body runs to the continuation holding the inputs as they were, each output with its pieces written (`L6`, `L7`)
    and each scratch buffer with its pieces written (`LS0`, `LS1`). The pieces, last written first, are the witness
    the symbolic run finds; the two conditionals are decided by the case's hypotheses. -/
noncomputable def kernelRun1_C (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) :
    Σ' (L6 : List (View.Piece (Elt F) S2048x1 .f32)) (L7 : List (View.Piece (Elt F) S2048x1 .f32)) (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__k2_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__k2_kernel_eq_skeleton]; unfold cc1__k2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.Hand1

end
-- ==== Proof.K1Frame.lean ====
import proofs.«113668_j72095321030692_1_alg».proof.Proof.K1RunC

set_option maxRecDepth 16384

noncomputable section

namespace Cert.KernelIdeal.Hand1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the outputs and the scratch buffers -/

/-- Case A stores nothing into output 6 (the window is idle at its points and not written back there): no
    pieces — a placeholder (junk read back) that nothing consults. -/
def out1_A_6 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) : Vec F S2048x1 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 hc0 hc1 x0 x1 x2 x3 x4 x5).1)

/-- Case A stores nothing into output 7 (the window is idle at its points and not written back there): no
    pieces — a placeholder (junk read back) that nothing consults. -/
def out1_A_7 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) : Vec F S2048x1 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 hc1 x0 x1 x2 x3 x4 x5).2.1)

/-- Case A's pieces for scratch buffer 0, which the kernel carries between points, cover it: each is a store of
    the whole buffer. -/
theorem scover1_A_0 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (y : S2048x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.1 S2048x1.size (by sl_kernel_rfl) y

/-- What case A leaves in scratch buffer 0: its pieces read back over junk. -/
def sout1_A_0 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) : Vec F S2048x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5).2.2.1)

/-- Case A's pieces for scratch buffer 1, which the kernel carries between points, cover it: each is a store of
    the whole buffer. -/
theorem scover1_A_1 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (y : S2048x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.2.1 S2048x1.size (by sl_kernel_rfl) y

/-- What case A leaves in scratch buffer 1: its pieces read back over junk. -/
def sout1_A_1 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) : Vec F S2048x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3 x4 x5).2.2.2.1)

/-- Case B stores nothing into output 6 (the window is idle at its points and not written back there): no
    pieces — a placeholder (junk read back) that nothing consults. -/
def out1_B_6 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) : Vec F S2048x1 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).1)

/-- Case B stores nothing into output 7 (the window is idle at its points and not written back there): no
    pieces — a placeholder (junk read back) that nothing consults. -/
def out1_B_7 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) : Vec F S2048x1 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.1)

/-- Case B's pieces for scratch buffer 0, which the kernel carries between points, cover it: each is a store of
    the whole buffer. -/
theorem scover1_B_0 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) (y : S2048x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.1 S2048x1.size (by sl_kernel_rfl) y

/-- What case B leaves in scratch buffer 0: its pieces read back over junk. -/
def sout1_B_0 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) : Vec F S2048x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case B's pieces for scratch buffer 1, which the kernel carries between points, cover it: each is a store of
    the whole buffer. -/
theorem scover1_B_1 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) (y : S2048x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S2048x1.size (by sl_kernel_rfl) y

/-- What case B leaves in scratch buffer 1: its pieces read back over junk. -/
def sout1_B_1 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : ¬cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) : Vec F S2048x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's pieces for output 6 tile its block (one store of the whole block), so they cover it. -/
theorem cover1_C_6 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).1 S2048x1.size (by sl_kernel_rfl) y

/-- What case C leaves in output 6's staging buffer: its pieces read back over junk. -/
def out1_C_6 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) : Vec F S2048x1 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).1)

/-- Case C's pieces for output 7 tile its block (one store of the whole block), so they cover it. -/
theorem cover1_C_7 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.1 S2048x1.size (by sl_kernel_rfl) y

/-- What case C leaves in output 7's staging buffer: its pieces read back over junk. -/
def out1_C_7 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) : Vec F S2048x1 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-- Case C's pieces for scratch buffer 0, which the kernel carries between points, cover it: each is a store of
    the whole buffer. -/
theorem scover1_C_0 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S2048x1.size (by sl_kernel_rfl) y

/-- What case C leaves in scratch buffer 0: its pieces read back over junk. -/
def sout1_C_0 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) : Vec F S2048x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for scratch buffer 1, which the kernel carries between points, cover it: each is a store of
    the whole buffer. -/
theorem scover1_C_1 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S2048x1.size (by sl_kernel_rfl) y

/-- What case C leaves in scratch buffer 1: its pieces read back over junk. -/
def sout1_C_1 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (x0 : Vec F S2048x512 .bf16) (x1 : Vec F S512x512 .bf16) (x2 : Vec F S2048x1 .i32) (x3 : Vec F S1x512 .i32) (x4 : Vec F S2048x1 .f32) (x5 : Vec F S2048x1 .f32) (xs0 : Vec F S2048x1 .f32) (xs1 : Vec F S2048x1 .f32) : Vec F S2048x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-! ## What the outputs and the scratch buffers hold after each point -/

variable (V : (c : Dev nD) → (b : Ref sig .tc) → Buf (Elt F) ((c : Thread nD τ).loc b))

/-- THE ACCUMULATION. What the two outputs' staging buffers and the two scratch buffers hold after the body at
    position `n` (a tuple: output 6, output 7, scratch 0, scratch 1): the case the closed forms select at `n`, run at
    the point's memrefs and input blocks, the scratch buffers at what this leaves at `n - 1`. An assignment of the
    conditions no point meets is no case. -/
def outsAt1 (c : Dev nD) : (n : ℕ) → n < cfg1.N → Vec F S2048x1 .f32 × Vec F S2048x1 .f32 × Vec F S2048x1 .f32 × Vec F S2048x1 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
          out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
          sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
          sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      if h1 : (n + 1) % 16 = 15 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
          out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
          sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
          out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
          sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
          out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2,
          sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 16 = 0) (h1 : ¬t.val % 16 = 15) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
          out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
          sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
          sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 16 = 0) (h1 : ¬t.val % 16 = 15) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
          out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
          sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
          sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 16 = 0) (h1 : t.val % 16 = 15) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
          out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
          sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2,
          sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (every scratch buffer at
    anything); afterwards the scoped rest with the two scratch buffers at what the point before left in them
    (`outsAt1`'s last two components), the other region's scoped buffers at anything, and the generator register at
    some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.2.1) ∗ owns (c : Thread nD τ) scM1_1 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch buffers at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.2.1) ∗ owns (c : Thread nD τ) scM1_1 fullShare ((outsAt1 V c n hn).2.2.2)) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c (n - 1) (by omega)).2.2.1) ∗ owns (c : Thread nD τ) scM1_1 fullShare ((outsAt1 V c (n - 1) (by omega)).2.2.2)) ∗ (∃ r, prngReg c r)) := by
  cases n with
  | zero => exact absurd rfl hz
  | succ n => rfl

/-! ## The pipeline's proof data -/

variable (q : Fin 8 → PosShare TreeShare)

/-- The proof data of the second pipeline on core `c`: the arrays as the region finds them (`V`); after the body at
    point `t` each input's buffer at its block and the outputs' at `outsAt1`; the invariant `PhiS1`; nothing owed;
    the inputs' shares `q`. -/
def dats1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q := q
  owed _ := 0

/-- The proof data's arrays are the region-entry contents. -/
theorem A_eq1 (c : Dev nD) (w : Fin cfg1.W) : (dats1 V q c).A w = V c (Pipeline.arrRef spec1 w) := by
  dsimp only [dats1]

/-- The invariant at a point's start, restated at `t.val`. -/
theorem PhiS1_castSucc (c : Dev nD) (t : Fin cfg1.N) :
    (dats1 V q c).Φ t.castSucc = PhiS1 V c t.val (Nat.le_of_lt t.isLt) := by
  dsimp only [dats1]; simp only [Fin.coe_castSucc]

/-- What the body leaves, window by window. -/
theorem after1_0 (c : Dev nD) (t : Fin cfg1.N) : (dats1 V q c).after 0 t = iblk1 V c 0 t := by dsimp only [dats1]
theorem after1_1 (c : Dev nD) (t : Fin cfg1.N) : (dats1 V q c).after 1 t = iblk1 V c 1 t := by dsimp only [dats1]
theorem after1_2 (c : Dev nD) (t : Fin cfg1.N) : (dats1 V q c).after 2 t = iblk1 V c 2 t := by dsimp only [dats1]
theorem after1_3 (c : Dev nD) (t : Fin cfg1.N) : (dats1 V q c).after 3 t = iblk1 V c 3 t := by dsimp only [dats1]
theorem after1_4 (c : Dev nD) (t : Fin cfg1.N) : (dats1 V q c).after 4 t = iblk1 V c 4 t := by dsimp only [dats1]
theorem after1_5 (c : Dev nD) (t : Fin cfg1.N) : (dats1 V q c).after 5 t = iblk1 V c 5 t := by dsimp only [dats1]
theorem after1_6 (c : Dev nD) (t : Fin cfg1.N) : (dats1 V q c).after 6 t = (outsAt1 V c t.val t.isLt).1 := by dsimp only [dats1]
theorem after1_7 (c : Dev nD) (t : Fin cfg1.N) : (dats1 V q c).after 7 t = (outsAt1 V c t.val t.isLt).2.1 := by dsimp only [dats1]

/-- Each input's current staging buffer holds its block at every point, fetched there or not. -/
theorem before1_0 (c : Dev nD) (t : Fin cfg1.N) (d) : (dats1 V q c).before 0 t d = iblk1 V c 0 t :=
  before1_0_of V (dats1 V q c) (A_eq1 V q c 0) (after1_0 V q c) t d
theorem before1_1 (c : Dev nD) (t : Fin cfg1.N) (d) : (dats1 V q c).before 1 t d = iblk1 V c 1 t :=
  before1_1_of V (dats1 V q c) (A_eq1 V q c 1) (after1_1 V q c) t d
theorem before1_2 (c : Dev nD) (t : Fin cfg1.N) (d) : (dats1 V q c).before 2 t d = iblk1 V c 2 t :=
  before1_2_of V (dats1 V q c) (A_eq1 V q c 2) (after1_2 V q c) t d
theorem before1_3 (c : Dev nD) (t : Fin cfg1.N) (d) : (dats1 V q c).before 3 t d = iblk1 V c 3 t :=
  before1_3_of V (dats1 V q c) (A_eq1 V q c 3) (after1_3 V q c) t d
theorem before1_4 (c : Dev nD) (t : Fin cfg1.N) (d) : (dats1 V q c).before 4 t d = iblk1 V c 4 t :=
  before1_4_of V (dats1 V q c) (A_eq1 V q c 4) (after1_4 V q c) t d
theorem before1_5 (c : Dev nD) (t : Fin cfg1.N) (d) : (dats1 V q c).before 5 t d = iblk1 V c 5 t :=
  before1_5_of V (dats1 V q c) (A_eq1 V q c 5) (after1_5 V q c) t d

/-! ## The body obligation, at a generic point -/

/-- What the body is called with at point `t` (the windows one by one), -/
def bodyPre1 (c : Dev nD) (t : Fin cfg1.N) : sProp 𝕄 :=
  iprop((dats1 V q c).Φ t.castSucc ∗ (dats1 V q c).owesAt () t.castSucc
    ∗ (∃ d, owns (c : Thread nD τ) (ms1_0 t) fullShare ((dats1 V q c).before 0 t d))
    ∗ (∃ d, owns (c : Thread nD τ) (ms1_1 t) fullShare ((dats1 V q c).before 1 t d))
    ∗ (∃ d, owns (c : Thread nD τ) (ms1_2 t) fullShare ((dats1 V q c).before 2 t d))
    ∗ (∃ d, owns (c : Thread nD τ) (ms1_3 t) fullShare ((dats1 V q c).before 3 t d))
    ∗ (∃ d, owns (c : Thread nD τ) (ms1_4 t) fullShare ((dats1 V q c).before 4 t d))
    ∗ (∃ d, owns (c : Thread nD τ) (ms1_5 t) fullShare ((dats1 V q c).before 5 t d))
    ∗ (∃ d, owns (c : Thread nD τ) (ms1_6 t) fullShare ((dats1 V q c).before 6 t d))
    ∗ (∃ d, owns (c : Thread nD τ) (ms1_7 t) fullShare ((dats1 V q c).before 7 t d)))

/-- and what it returns. -/
def bodyPost1 (c : Dev nD) (t : Fin cfg1.N) : sProp 𝕄 :=
  iprop((dats1 V q c).Φ t.succ ∗ (dats1 V q c).owesAt () t.succ
    ∗ (dats1 V q c).leavesExact 0 t
    ∗ (dats1 V q c).leavesExact 1 t
    ∗ (dats1 V q c).leavesExact 2 t
    ∗ (dats1 V q c).leavesExact 3 t
    ∗ (dats1 V q c).leavesExact 4 t
    ∗ (dats1 V q c).leavesExact 5 t
    ∗ (dats1 V q c).leavesExact 6 t
    ∗ (dats1 V q c).leavesExact 7 t)

set_option maxHeartbeats 4800000 in
/-- The body at any point: the inputs' memrefs hold their blocks (`before1_w`); the closed forms say which case the
    point is in; the run of that case applies; the invariant hands the body the two scratch buffers at what the
    point before left (at anything at the first point) and takes them back at this point's contents, the other
    region's scoped buffers and the generator register riding along; the core owes nothing throughout. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5]
  rw [show (dats1 V q c).owesAt () t.succ = (dats1 V q c).owesAt () t.castSucc from rfl]
  rw [show (dats1 V q c).Φ t.succ = PhiS1 V c (t.val + 1) t.isLt from rfl, PhiS1_succ]
  have hN : t.val < 64 := lt_of_lt_of_eq t.isLt (show cfg1.N = 64 from N_1)
  by_cases h0 : t.val % 16 = 0
  · by_cases h1 : t.val % 16 = 15
    · exfalso; omega
    · -- case A
      rw [show (dats1 V q c).leavesExact 0 t = owns (c : Thread nD τ) (ms1_0 t) fullShare ((dats1 V q c).after 0 t) from by
        unfold Dat.leavesExact; rw [liveAt1_0 t], after1_0]
      rw [show (dats1 V q c).leavesExact 1 t = owns (c : Thread nD τ) (ms1_1 t) fullShare ((dats1 V q c).after 1 t) from by
        unfold Dat.leavesExact; rw [liveAt1_1 t], after1_1]
      rw [show (dats1 V q c).leavesExact 2 t = owns (c : Thread nD τ) (ms1_2 t) fullShare ((dats1 V q c).after 2 t) from by
        unfold Dat.leavesExact; rw [liveAt1_2 t], after1_2]
      rw [show (dats1 V q c).leavesExact 3 t = owns (c : Thread nD τ) (ms1_3 t) fullShare ((dats1 V q c).after 3 t) from by
        unfold Dat.leavesExact; rw [liveAt1_3 t], after1_3]
      rw [show (dats1 V q c).leavesExact 4 t = owns (c : Thread nD τ) (ms1_4 t) fullShare ((dats1 V q c).after 4 t) from by
        unfold Dat.leavesExact; rw [liveAt1_4 t], after1_4]
      rw [show (dats1 V q c).leavesExact 5 t = owns (c : Thread nD τ) (ms1_5 t) fullShare ((dats1 V q c).after 5 t) from by
        unfold Dat.leavesExact; rw [liveAt1_5 t], after1_5]
      rw [Dat.leavesExact_idle (dats1 V q c) 6 t (idleAt1_6_A t ((hcond1_0 t).mpr h0) (fun h => h1 ((hcond1_1 t).mp h))) (noFlush1_6_A t ((hcond1_0 t).mpr h0) (fun h => h1 ((hcond1_1 t).mp h)))]
      rw [Dat.leavesExact_idle (dats1 V q c) 7 t (idleAt1_7_A t ((hcond1_0 t).mpr h0) (fun h => h1 ((hcond1_1 t).mp h))) (noFlush1_7_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V q c t, PhiS1_zero V c _ _ hz, PhiA1_eq]
        iintro ⟨⟨⟨HR0, HR1, HR2, HR3, HR4, HR5, HR6, HR7, HR8, HR9, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HR0 HR1 HR2 HR3 HR4 HR5 HR6 HR7 HR8 HR9 HS0 HS1 Hg]
        · isplitl [HR0 HR1 HR2 HR3 HR4 HR5 HR6 HR7 HR8 HR9 HS0 HS1]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · rw [PhiS1_castSucc V q c t, PhiS1_pos V c _ _ hz]
        iintro ⟨⟨⟨HR0, HR1, HR2, HR3, HR4, HR5, HR6, HR7, HR8, HR9, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HR0 HR1 HR2 HR3 HR4 HR5 HR6 HR7 HR8 HR9 HS0 HS1 Hg]
        · isplitl [HR0 HR1 HR2 HR3 HR4 HR5 HR6 HR7 HR8 HR9 HS0 HS1]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
  · by_cases h1 : t.val % 16 = 15
    · -- case C
      rw [show (dats1 V q c).leavesExact 0 t = owns (c : Thread nD τ) (ms1_0 t) fullShare ((dats1 V q c).after 0 t) from by
        unfold Dat.leavesExact; rw [liveAt1_0 t], after1_0]
      rw [show (dats1 V q c).leavesExact 1 t = owns (c : Thread nD τ) (ms1_1 t) fullShare ((dats1 V q c).after 1 t) from by
        unfold Dat.leavesExact; rw [liveAt1_1 t], after1_1]
      rw [show (dats1 V q c).leavesExact 2 t = owns (c : Thread nD τ) (ms1_2 t) fullShare ((dats1 V q c).after 2 t) from by
        unfold Dat.leavesExact; rw [liveAt1_2 t], after1_2]
      rw [show (dats1 V q c).leavesExact 3 t = owns (c : Thread nD τ) (ms1_3 t) fullShare ((dats1 V q c).after 3 t) from by
        unfold Dat.leavesExact; rw [liveAt1_3 t], after1_3]
      rw [show (dats1 V q c).leavesExact 4 t = owns (c : Thread nD τ) (ms1_4 t) fullShare ((dats1 V q c).after 4 t) from by
        unfold Dat.leavesExact; rw [liveAt1_4 t], after1_4]
      rw [show (dats1 V q c).leavesExact 5 t = owns (c : Thread nD τ) (ms1_5 t) fullShare ((dats1 V q c).after 5 t) from by
        unfold Dat.leavesExact; rw [liveAt1_5 t], after1_5]
      rw [show (dats1 V q c).leavesExact 6 t = owns (c : Thread nD τ) (ms1_6 t) fullShare ((dats1 V q c).after 6 t) from by
        unfold Dat.leavesExact; rw [liveAt1_6_C t (fun h => h0 ((hcond1_0 t).mp h)) ((hcond1_1 t).mpr h1)], after1_6]
      rw [show (dats1 V q c).leavesExact 7 t = owns (c : Thread nD τ) (ms1_7 t) fullShare ((dats1 V q c).after 7 t) from by
        unfold Dat.leavesExact; rw [liveAt1_7_C t (fun h => h0 ((hcond1_0 t).mp h)) ((hcond1_1 t).mpr h1)], after1_7]
      rw [outsAt1_C V c t h0 h1]
      unfold out1_C_6 out1_C_7 sout1_C_0 sout1_C_1; (try dsimp only)
      by_cases hz : t.val = 0
      · exfalso; omega
      · rw [PhiS1_castSucc V q c t, PhiS1_pos V c _ _ hz]
        iintro ⟨⟨⟨HR0, HR1, HR2, HR3, HR4, HR5, HR6, HR7, HR8, HR9, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%e6, H6⟩, ⟨%e7, H7⟩, ⟨%es0, HS0⟩, ⟨%es1, HS1⟩⟩
        isplitl [HR0 HR1 HR2 HR3 HR4 HR5 HR6 HR7 HR8 HR9 HS0 HS1 Hg]
        · isplitl [HR0 HR1 HR2 HR3 HR4 HR5 HR6 HR7 HR8 HR9 HS0 HS1]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover1_C_6 c _ _ _ _ _ _ _ _ _ _ _ _ _ _ _ _ _ _ _ _ _ _ _ _ _ _ _ _ _ _ _)
        unfold owns; iexists _; isplitr
        swap; · iexact H7
        ipureintro; exact View.read_writes_of_cover _ _ _ _ _ (cover1_C_7 c _ _ _ _ _ _ _ _ _ _ _ _ _ _ _ _ _ _ _ _ _ _ _ _ _ _ _ _ _ _ _)
    · -- case B
      rw [show (dats1 V q c).leavesExact 0 t = owns (c : Thread nD τ) (ms1_0 t) fullShare ((dats1 V q c).after 0 t) from by
        unfold Dat.leavesExact; rw [liveAt1_0 t], after1_0]
      rw [show (dats1 V q c).leavesExact 1 t = owns (c : Thread nD τ) (ms1_1 t) fullShare ((dats1 V q c).after 1 t) from by
        unfold Dat.leavesExact; rw [liveAt1_1 t], after1_1]
      rw [show (dats1 V q c).leavesExact 2 t = owns (c : Thread nD τ) (ms1_2 t) fullShare ((dats1 V q c).after 2 t) from by
        unfold Dat.leavesExact; rw [liveAt1_2 t], after1_2]
      rw [show (dats1 V q c).leavesExact 3 t = owns (c : Thread nD τ) (ms1_3 t) fullShare ((dats1 V q c).after 3 t) from by
        unfold Dat.leavesExact; rw [liveAt1_3 t], after1_3]
      rw [show (dats1 V q c).leavesExact 4 t = owns (c : Thread nD τ) (ms1_4 t) fullShare ((dats1 V q c).after 4 t) from by
        unfold Dat.leavesExact; rw [liveAt1_4 t], after1_4]
      rw [show (dats1 V q c).leavesExact 5 t = owns (c : Thread nD τ) (ms1_5 t) fullShare ((dats1 V q c).after 5 t) from by
        unfold Dat.leavesExact; rw [liveAt1_5 t], after1_5]
      rw [Dat.leavesExact_idle (dats1 V q c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [Dat.leavesExact_idle (dats1 V q c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold sout1_B_0 sout1_B_1; (try dsimp only)
      by_cases hz : t.val = 0
      · exfalso; omega
      · rw [PhiS1_castSucc V q c t, PhiS1_pos V c _ _ hz]
        iintro ⟨⟨⟨HR0, HR1, HR2, HR3, HR4, HR5, HR6, HR7, HR8, HR9, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HR0 HR1 HR2 HR3 HR4 HR5 HR6 HR7 HR8 HR9 HS0 HS1 Hg]
        · isplitl [HR0 HR1 HR2 HR3 HR4 HR5 HR6 HR7 HR8 HR9 HS0 HS1]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The body obligation of the second pipeline, at every point. -/
theorem body_obligation1 (c : Dev nD) : BodyObligation (dats1 (F := F) V q c) (defs₀ (F := F)) Variants.none () Set.univ := fun t => by
  rw [bigSep_W1, bigSep_W1]
  exact sound_body1 V q c t

/-- What the launch hands the region is the invariant before the first point. -/
theorem hin1 (c : Dev nD) : Pipeline.ΦA spec1 c ⊢ (dats1 V q c).Φ 0 := by
  rw [show (dats1 V q c).Φ 0 = PhiS1 V c 0 (Nat.zero_le _) from rfl, PhiS1_zero V c 0 _ rfl]
  try exact Idealize.SL.BI.Entails.refl _

/-- After any point but the first the invariant gives the region's own back: the scratch buffers' named contents
    are forgotten. -/
theorem Phi_out1 (c : Dev nD) (t : Fin (cfg1.N + 1)) (ht : t.val ≠ 0) : (dats1 V q c).Φ t ⊢ Pipeline.ΦA spec1 c := by
  rw [show (dats1 V q c).Φ t = PhiS1 V c t.val (Nat.le_of_lt_succ t.isLt) from rfl, PhiS1_pos V c _ _ ht, PhiA1_eq]
  iintro ⟨⟨HR0, HR1, HR2, HR3, HR4, HR5, HR6, HR7, HR8, HR9, HS0, HS1⟩, Hg⟩
  isplitl [HR0 HR1 HR2 HR3 HR4 HR5 HR6 HR7 HR8 HR9 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HS0]; · iexists _; iexact HS0
    iexists _; iexact HS1
  iexact Hg

/-- The same after the last point. -/
theorem hout1 (c : Dev nD) : (dats1 V q c).Φ (Fin.last cfg1.N) ⊢ Pipeline.ΦA spec1 c :=
  Phi_out1 V q c _ (by rw [Fin.val_last]; have : cfg1.N = 64 := N_1; omega)

end Cert.KernelIdeal.Hand1

end
-- ==== Proof.K1Shares.lean ====
/-
  Region 1: the distinct buffers behind the windows' arrays against the windows' arrays at their shares. The
  normalised features are read through two input windows; the buffer is split between them into its two halves on the
  way in and rejoined on the way out.
-/
import proofs.«113668_j72095321030692_1_alg».proof.Proof.K1Frame

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev q1 : Fin cfg1.W → PosShare TreeShare := fun | ⟨0, _⟩ => fullShare.left | ⟨1, _⟩ => fullShare.right | ⟨2, _⟩ => fullShare | ⟨3, _⟩ => fullShare | ⟨4, _⟩ => fullShare | ⟨5, _⟩ => fullShare | ⟨6, _⟩ => fullShare | ⟨7, _⟩ => fullShare

theorem arrRefs1 : (Finset.univ.image (Pipeline.arrRef spec1) : Finset (Ref sig .tc)) = ([main_v3, main_v4, main_v5, main_v6_0, main_v6_1, main_v7_0, main_v7_1] : List (Ref sig .tc)).toFinset := by decide

set_option maxHeartbeats 4000000 in
theorem hsplit1 (c : Dev nD) (G : (w : Fin cfg1.W) → Buf (Elt F) ((cfg1.win w).arr.view.loc (c.tc : Thread nD τ))) (hG : ∀ w, G w = V c (Pipeline.arrRef spec1 w)) :
    (Pipeline.arrBufs spec1 c (V c) : sProp 𝕄) ⊢ (dats1 V q1 c).arrays G := by
  unfold Pipeline.arrBufs Dat.arrays
  rw [bigSep_eq_bigSepL_of_eq _ arrRefs1 (by decide), bigSep_W1]
  simp only [bigSepL_cons_cons, bigSepL_singleton]
  rw [hG 0, hG 1, hG 2, hG 3, hG 4, hG 5, hG 6, hG 7]
  rw [show (dats1 V q1 c).share 0 = fullShare.left from rfl, show (dats1 V q1 c).share 1 = fullShare.right from rfl,
    show (dats1 V q1 c).share 2 = fullShare from rfl, show (dats1 V q1 c).share 3 = fullShare from rfl,
    show (dats1 V q1 c).share 4 = fullShare from rfl, show (dats1 V q1 c).share 5 = fullShare from rfl,
    show (dats1 V q1 c).share 6 = fullShare from rfl, show (dats1 V q1 c).share 7 = fullShare from rfl]
  simp only [View.set_whole]
  show (iprop(_ ∗ _ ∗ _ ∗ _ ∗ _ ∗ _ ∗ _) : sProp 𝕄) ⊢ _
  iintro ⟨H3, H4, H5, H60, H61, H70, H71⟩
  ihave H := (pointsTo_share (PosShare.mem_left_op_right fullShare)).1 $$ H3
  icases H with ⟨Ha, Hb⟩
  isplitl [Ha]; · iexact Ha
  isplitl [Hb]; · iexact Hb
  isplitl [H4]; · iexact H4
  isplitl [H5]; · iexact H5
  isplitl [H60]; · iexact H60
  isplitl [H61]; · iexact H61
  isplitl [H70]; · iexact H70
  iexact H71

set_option maxHeartbeats 4000000 in
theorem hjoin1 (c : Dev nD) (G : (w : Fin cfg1.W) → Buf (Elt F) ((cfg1.win w).arr.view.loc (c.tc : Thread nD τ)))
    (Vn : (b : Ref sig .tc) → Buf (Elt F) ((c.tc : Thread nD τ).loc b))
    (h0 : G 0 = Vn main_v3) (h1 : G 1 = Vn main_v3) (h2 : G 2 = Vn main_v4) (h3 : G 3 = Vn main_v5) (h4 : G 4 = Vn main_v6_0) (h5 : G 5 = Vn main_v6_1)
    (h6 : G 6 = Vn main_v7_0) (h7 : G 7 = Vn main_v7_1) :
    (dats1 V q1 c).arrays G ⊢ (Pipeline.arrBufs spec1 c Vn : sProp 𝕄) := by
  unfold Pipeline.arrBufs Dat.arrays
  rw [bigSep_eq_bigSepL_of_eq _ arrRefs1 (by decide), bigSep_W1]
  simp only [bigSepL_cons_cons, bigSepL_singleton]
  rw [h0, h1, h2, h3, h4, h5, h6, h7]
  rw [show (dats1 V q1 c).share 0 = fullShare.left from rfl, show (dats1 V q1 c).share 1 = fullShare.right from rfl,
    show (dats1 V q1 c).share 2 = fullShare from rfl, show (dats1 V q1 c).share 3 = fullShare from rfl,
    show (dats1 V q1 c).share 4 = fullShare from rfl, show (dats1 V q1 c).share 5 = fullShare from rfl,
    show (dats1 V q1 c).share 6 = fullShare from rfl, show (dats1 V q1 c).share 7 = fullShare from rfl]
  simp only [View.set_whole]
  show _ ⊢ (iprop(_ ∗ _ ∗ _ ∗ _ ∗ _ ∗ _ ∗ _) : sProp 𝕄)
  iintro ⟨Ha, Hb, H4, H5, H60, H61, H70, H71⟩
  isplitl [Ha Hb]
  · ihave H := (pointsTo_share (PosShare.mem_left_op_right fullShare)).2 $$ [Ha Hb]
    · isplitl [Ha] <;> iassumption
    iexact H
  isplitl [H4]; · iexact H4
  isplitl [H5]; · iexact H5
  isplitl [H60]; · iexact H60
  isplitl [H61]; · iexact H61
  isplitl [H70]; · iexact H70
  iexact H71

end Cert.KernelIdeal.Hand1

end
-- ==== Proof.Regs.lean ====
/-
  The two kernel regions as records of the several-regions launch, over the value-naming proof data of each region,
  and the run of @main: every weakly fair execution terminates with the result buffer at what the last host stretch
  computes from the second region's output arrays, which are what that region's proof data computes from the first
  region's, and the arguments unchanged.
-/
import proofs.«113668_j72095321030692_1_alg».proof.Proof.RunCond
import proofs.«113668_j72095321030692_1_alg».proof.Proof.K0Shares
import proofs.«113668_j72095321030692_1_alg».proof.Proof.K1Shares

set_option maxRecDepth 16384

noncomputable section

namespace Cert.KernelIdeal.HandR

open Cert.KernelIdeal Cert.KernelIdeal.Gen Cert.KernelIdeal.Hand0 Cert.KernelIdeal.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- The first region's entry contents, read at a TensorCore reference. -/
abbrev W2 (c : Dev nD) (b : Ref sig .tc) : Buf (Elt F) ((c : Thread nD τ).loc b) := V2 m c (Proc.devRef .tc b)

/-- After the first region: its two output arrays at what its proof data computes. -/
def U3 (c : Dev nD) : Valuation τ sig (Elt F) :=
  Function.update (Function.update (V2 m c) main_v6_0 (((dats0 (W2 m) q0 c).arrAt 2 cfg0.N : Buf (Elt F) ((c : Thread nD τ).loc main_v6_0))))
    main_v6_1 (((dats0 (W2 m) q0 c).arrAt 3 cfg0.N : Buf (Elt F) ((c : Thread nD τ).loc main_v6_1)))
abbrev W3 (c : Dev nD) (b : Ref sig .tc) : Buf (Elt F) ((c : Thread nD τ).loc b) := U3 m c (Proc.devRef .tc b)

/-- After the second region. -/
def U4 (c : Dev nD) : Valuation τ sig (Elt F) :=
  Function.update (Function.update (U3 m c) main_v7_0 (((dats1 (W3 m) q1 c).arrAt 6 cfg1.N : Buf (Elt F) ((c : Thread nD τ).loc main_v7_0))))
    main_v7_1 (((dats1 (W3 m) q1 c).arrAt 7 cfg1.N : Buf (Elt F) ((c : Thread nD τ).loc main_v7_1)))
abbrev W4 (c : Dev nD) (b : Ref sig .tc) : Buf (Elt F) ((c : Thread nD τ).loc b) := U4 m c (Proc.devRef .tc b)

/-- What the regions leave, as the unknowns of the generated valuations. -/
def outs : Outs (F := F) := fun j r c => if j = 3 then U3 m c (Proc.devRef .tc r) else U4 m c (Proc.devRef .tc r)

theorem U3_v60 (c : Dev nD) : U3 m c main_v6_0 = (dats0 (W2 m) q0 c).arrAt 2 cfg0.N := by
  unfold U3
  rw [Function.update_of_ne (StableHlo.devRef_ne_of_ne (by decide) : (Proc.devRef .tc main_v6_0 : DevRef τ sig) ≠ Proc.devRef .tc main_v6_1), Function.update_self]
theorem U3_v61 (c : Dev nD) : U3 m c main_v6_1 = (dats0 (W2 m) q0 c).arrAt 3 cfg0.N := by
  unfold U3; rw [Function.update_self]
theorem U3_of (c : Dev nD) (r : Ref sig .tc) (h0 : r ≠ main_v6_0) (h1 : r ≠ main_v6_1) : U3 m c r = V2 m c r := by
  unfold U3
  rw [Function.update_of_ne (StableHlo.devRef_ne_of_ne h1 : (Proc.devRef .tc r : DevRef τ sig) ≠ Proc.devRef .tc main_v6_1),
    Function.update_of_ne (StableHlo.devRef_ne_of_ne h0 : (Proc.devRef .tc r : DevRef τ sig) ≠ Proc.devRef .tc main_v6_0)]
theorem U4_v70 (c : Dev nD) : U4 m c main_v7_0 = (dats1 (W3 m) q1 c).arrAt 6 cfg1.N := by
  unfold U4
  rw [Function.update_of_ne (StableHlo.devRef_ne_of_ne (by decide) : (Proc.devRef .tc main_v7_0 : DevRef τ sig) ≠ Proc.devRef .tc main_v7_1), Function.update_self]
theorem U4_v71 (c : Dev nD) : U4 m c main_v7_1 = (dats1 (W3 m) q1 c).arrAt 7 cfg1.N := by
  unfold U4; rw [Function.update_self]
theorem U4_of (c : Dev nD) (r : Ref sig .tc) (h0 : r ≠ main_v7_0) (h1 : r ≠ main_v7_1) : U4 m c r = U3 m c r := by
  unfold U4
  rw [Function.update_of_ne (StableHlo.devRef_ne_of_ne h1 : (Proc.devRef .tc r : DevRef τ sig) ≠ Proc.devRef .tc main_v7_1),
    Function.update_of_ne (StableHlo.devRef_ne_of_ne h0 : (Proc.devRef .tc r : DevRef τ sig) ≠ Proc.devRef .tc main_v7_0)]

theorem V3_eq (c : Dev nD) : V3 m (outs m) c = U3 m c := by
  have e0 : outs m 3 main_v6_0 c = (dats0 (W2 m) q0 c).arrAt 2 cfg0.N := (if_pos rfl).trans (U3_v60 m c)
  have e1 : outs m 3 main_v6_1 c = (dats0 (W2 m) q0 c).arrAt 3 cfg0.N := (if_pos rfl).trans (U3_v61 m c)
  show Function.update (Function.update (V2 m c) main_v6_0 (outs m 3 main_v6_0 c)) main_v6_1 (outs m 3 main_v6_1 c) = U3 m c
  rw [e0, e1]; rfl
theorem V4_eq (c : Dev nD) : V4 m (outs m) c = U4 m c := by
  have e0 : outs m 4 main_v7_0 c = (dats1 (W3 m) q1 c).arrAt 6 cfg1.N := (if_neg (by decide)).trans (U4_v70 m c)
  have e1 : outs m 4 main_v7_1 c = (dats1 (W3 m) q1 c).arrAt 7 cfg1.N := (if_neg (by decide)).trans (U4_v71 m c)
  show Function.update (Function.update (V3 m (outs m) c) main_v7_0 (outs m 4 main_v7_0 c)) main_v7_1 (outs m 4 main_v7_1 c) = U4 m c
  rw [V3_eq, e0, e1]; rfl

/-! ## The proof data family and what rides beside the buffers -/

/-- The two regions' proof data: a literal match on the pipeline index. -/
def pdats : (p : Fin 2) → (c : Dev nD) → Dat τ (Elt F) Unit ℕ (UR sig nD τ) ℕ (cfgs p) c
  | ⟨0, _⟩ => fun c => dats0 (W2 m) q0 c
  | ⟨1, _⟩ => fun c => dats1 (W3 m) q1 c
  | ⟨n + 2, h⟩ => absurd h (by omega)

abbrev L : GSem nD τ sig → Finset Unit := fun _ => ∅
abbrev lv : GSem nD τ sig → Unit → ℕ := fun _ _ => 0

/-- What rides beside the unscoped buffers between the items: the core owing nothing, the generator register. -/
def Ec (c : Dev nD) : sProp 𝕄 :=
  iprop((∃ W, owes (c : Thread nD τ) (0 : CellTallies nD τ sig Unit) W) ∗ (∃ r, prngReg c r))

/-! ## Region 0 -/

theorem hunscoped0 : ∀ w, (Pipeline.arrRef spec0 w).isScoped = false := by decide

/-- The unscoped buffers that are no array of region 0 are untouched by it. -/
theorem rest0_eq (c : Dev nD) :
    (Pipeline.unscopedRest (Ix := Unit) (Name := ℕ) (U := UR sig nD τ) (Lvl := ℕ) spec0 c (W3 m c) : sProp 𝕄)
      = Pipeline.unscopedRest spec0 c (W2 m c) := by
  unfold Pipeline.unscopedRest
  refine bigSep_congr fun b hb => ?_
  have hb' := (Finset.mem_sdiff.mp hb).2
  rw [show W3 m c b = W2 m c b from U3_of m c b
    (fun h => hb' (h ▸ Finset.mem_image.mpr ⟨2, Finset.mem_univ _, rfl⟩))
    (fun h => hb' (h ▸ Finset.mem_image.mpr ⟨3, Finset.mem_univ _, rfl⟩))]

set_option maxHeartbeats 4000000 in
/-- ENTRY: the held unscoped buffers are the region's arrays at the entry contents (the shared buffer split between its
    two windows) and the rest, which bypasses the region. -/
theorem entry0 (c : Dev nD) :
    iprop(StableHlo.held (c : Thread nD τ) (Pipeline.ucRefs τ sig) (V2 m c) ∗ Ec (F := F) c)
      ⊢ (iprop((dats0 (W2 m) q0 c).arrays ((dats0 (W2 m) q0 c).arrAt · 0) ∗ (dats0 (W2 m) q0 c).owesAt () 0 ∗ (∃ r, prngReg c r) ∗ Pipeline.unscopedRest spec0 c (W2 m c)) : sProp 𝕄) := by
  rw [show StableHlo.held (c : Thread nD τ) (Pipeline.ucRefs τ sig) (V2 m c) = unscopedBufs c (W2 m c) from (Pipeline.unscopedBufs_held c _).symm]
  rw [Pipeline.unscopedBufs_split₀ cfgs 0 hunscoped0 c (W2 m c)]
  unfold Ec
  iintro ⟨⟨Ha, Hrest⟩, HO, Hg⟩
  isplitl [Ha]
  · iapply (hsplit0 (W2 m) c (fun w => (dats0 (W2 m) q0 c).arrAt w 0) (fun w => A_eq0 (W2 m) q0 c w))
    iexact Ha
  isplitl [HO]
  · unfold Pipeline.Dat.owesAt Pipeline.owesWithin
    icases HO with ⟨%W, HO⟩; iexists W; isplitr; · ipureintro; exact fun _ _ => Or.inl trivial
    iexact HO
  isplitl [Hg]; · iexact Hg
  iexact Hrest

set_option maxHeartbeats 4000000 in
/-- EXIT: the arrays at their final contents (the shared buffer's halves rejoined) and the bypassing rest are the
    unscoped buffers held at the next valuation. -/
theorem exit0 (c : Dev nD) :
    (iprop((dats0 (W2 m) q0 c).arrays ((dats0 (W2 m) q0 c).arrAt · cfg0.N) ∗ (dats0 (W2 m) q0 c).owesAt () (Fin.last cfg0.N) ∗ (∃ r, prngReg c r) ∗ Pipeline.unscopedRest spec0 c (W2 m c)) : sProp 𝕄)
      ⊢ iprop(StableHlo.held (c : Thread nD τ) (Pipeline.ucRefs τ sig) (U3 m c) ∗ Ec (F := F) c) := by
  rw [show StableHlo.held (c : Thread nD τ) (Pipeline.ucRefs τ sig) (U3 m c) = unscopedBufs c (W3 m c) from (Pipeline.unscopedBufs_held c _).symm]
  rw [Pipeline.unscopedBufs_split₀ cfgs 0 hunscoped0 c (W3 m c)]
  show _ ⊢ (iprop((Pipeline.arrBufs spec0 c (W3 m c) ∗ Pipeline.unscopedRest spec0 c (W3 m c)) ∗ Ec (F := F) c) : sProp 𝕄)
  rw [rest0_eq]
  unfold Ec
  iintro ⟨Ha, HO, Hg, HZ⟩
  isplitl [Ha HZ]
  · isplitl [Ha]
    · iapply (hjoin0 (W2 m) c (fun w => (dats0 (W2 m) q0 c).arrAt w cfg0.N) (W3 m c) (((dats0 (W2 m) q0 c).arrAt_in 0 rfl _).trans ((A_eq0 (W2 m) q0 c 0).trans (U3_of m c main_v3 (by decide) (by decide)).symm)) (((dats0 (W2 m) q0 c).arrAt_in 1 rfl _).trans ((A_eq0 (W2 m) q0 c 1).trans (U3_of m c main_v3 (by decide) (by decide)).symm)) (U3_v60 m c).symm (U3_v61 m c).symm)
      iexact Ha
    iexact HZ
  isplitl [HO]
  · unfold Pipeline.Dat.owesAt Pipeline.owesWithin
    icases HO with ⟨%W, -, HO⟩; iexists W; iexact HO
  iexact Hg

/-! ## Region 1 -/

theorem hunscoped1 : ∀ w, (Pipeline.arrRef spec1 w).isScoped = false := by decide

/-- The unscoped buffers that are no array of region 1 are untouched by it. -/
theorem rest1_eq (c : Dev nD) :
    (Pipeline.unscopedRest (Ix := Unit) (Name := ℕ) (U := UR sig nD τ) (Lvl := ℕ) spec1 c (W4 m c) : sProp 𝕄)
      = Pipeline.unscopedRest spec1 c (W3 m c) := by
  unfold Pipeline.unscopedRest
  refine bigSep_congr fun b hb => ?_
  have hb' := (Finset.mem_sdiff.mp hb).2
  rw [show W4 m c b = W3 m c b from U4_of m c b
    (fun h => hb' (h ▸ Finset.mem_image.mpr ⟨6, Finset.mem_univ _, rfl⟩))
    (fun h => hb' (h ▸ Finset.mem_image.mpr ⟨7, Finset.mem_univ _, rfl⟩))]

set_option maxHeartbeats 4000000 in
/-- ENTRY: the held unscoped buffers are the region's arrays at the entry contents (the shared buffer split between its
    two windows) and the rest, which bypasses the region. -/
theorem entry1 (c : Dev nD) :
    iprop(StableHlo.held (c : Thread nD τ) (Pipeline.ucRefs τ sig) (U3 m c) ∗ Ec (F := F) c)
      ⊢ (iprop((dats1 (W3 m) q1 c).arrays ((dats1 (W3 m) q1 c).arrAt · 0) ∗ (dats1 (W3 m) q1 c).owesAt () 0 ∗ (∃ r, prngReg c r) ∗ Pipeline.unscopedRest spec1 c (W3 m c)) : sProp 𝕄) := by
  rw [show StableHlo.held (c : Thread nD τ) (Pipeline.ucRefs τ sig) (U3 m c) = unscopedBufs c (W3 m c) from (Pipeline.unscopedBufs_held c _).symm]
  rw [Pipeline.unscopedBufs_split₀ cfgs 1 hunscoped1 c (W3 m c)]
  unfold Ec
  iintro ⟨⟨Ha, Hrest⟩, HO, Hg⟩
  isplitl [Ha]
  · iapply (hsplit1 (W3 m) c (fun w => (dats1 (W3 m) q1 c).arrAt w 0) (fun w => A_eq1 (W3 m) q1 c w))
    iexact Ha
  isplitl [HO]
  · unfold Pipeline.Dat.owesAt Pipeline.owesWithin
    icases HO with ⟨%W, HO⟩; iexists W; isplitr; · ipureintro; exact fun _ _ => Or.inl trivial
    iexact HO
  isplitl [Hg]; · iexact Hg
  iexact Hrest

set_option maxHeartbeats 4000000 in
/-- EXIT: the arrays at their final contents (the shared buffer's halves rejoined) and the bypassing rest are the
    unscoped buffers held at the next valuation. -/
theorem exit1 (c : Dev nD) :
    (iprop((dats1 (W3 m) q1 c).arrays ((dats1 (W3 m) q1 c).arrAt · cfg1.N) ∗ (dats1 (W3 m) q1 c).owesAt () (Fin.last cfg1.N) ∗ (∃ r, prngReg c r) ∗ Pipeline.unscopedRest spec1 c (W3 m c)) : sProp 𝕄)
      ⊢ iprop(StableHlo.held (c : Thread nD τ) (Pipeline.ucRefs τ sig) (U4 m c) ∗ Ec (F := F) c) := by
  rw [show StableHlo.held (c : Thread nD τ) (Pipeline.ucRefs τ sig) (U4 m c) = unscopedBufs c (W4 m c) from (Pipeline.unscopedBufs_held c _).symm]
  rw [Pipeline.unscopedBufs_split₀ cfgs 1 hunscoped1 c (W4 m c)]
  show _ ⊢ (iprop((Pipeline.arrBufs spec1 c (W4 m c) ∗ Pipeline.unscopedRest spec1 c (W4 m c)) ∗ Ec (F := F) c) : sProp 𝕄)
  rw [rest1_eq]
  unfold Ec
  iintro ⟨Ha, HO, Hg, HZ⟩
  isplitl [Ha HZ]
  · isplitl [Ha]
    · iapply (hjoin1 (W3 m) c (fun w => (dats1 (W3 m) q1 c).arrAt w cfg1.N) (W4 m c) (((dats1 (W3 m) q1 c).arrAt_in 0 rfl _).trans ((A_eq1 (W3 m) q1 c 0).trans (U4_of m c main_v3 (by decide) (by decide)).symm)) (((dats1 (W3 m) q1 c).arrAt_in 1 rfl _).trans ((A_eq1 (W3 m) q1 c 1).trans (U4_of m c main_v3 (by decide) (by decide)).symm)) (((dats1 (W3 m) q1 c).arrAt_in 2 rfl _).trans ((A_eq1 (W3 m) q1 c 2).trans (U4_of m c main_v4 (by decide) (by decide)).symm)) (((dats1 (W3 m) q1 c).arrAt_in 3 rfl _).trans ((A_eq1 (W3 m) q1 c 3).trans (U4_of m c main_v5 (by decide) (by decide)).symm)) (((dats1 (W3 m) q1 c).arrAt_in 4 rfl _).trans ((A_eq1 (W3 m) q1 c 4).trans (U4_of m c main_v6_0 (by decide) (by decide)).symm)) (((dats1 (W3 m) q1 c).arrAt_in 5 rfl _).trans ((A_eq1 (W3 m) q1 c 5).trans (U4_of m c main_v6_1 (by decide) (by decide)).symm)) (U4_v70 m c).symm (U4_v71 m c).symm)
      iexact Ha
    iexact HZ
  isplitl [HO]
  · unfold Pipeline.Dat.owesAt Pipeline.owesWithin
    icases HO with ⟨%W, -, HO⟩; iexists W; iexact HO
  iexact Hg

set_option backward.isDefEq.respectTransparency.types false in
/-- Region 0 as a record of the launch: the decided layout, no semaphore of its own, the body obligation, and its
    entry and exit around the held unscoped buffers. -/
def reg0 : RegionSeg (pcfgs (F := F)) adm (pdats m) () defs₀ Variants.none L lv 0 where
  win := winFacts₀0
  block_pos := block_pos0
  stage_whole := stage_whole0
  K := PEmpty
  osem := fun k => k.elim
  ho := Pipeline.OwnSemFacts.none spec0
  hbody c := (body_obligation0 (W2 m) q0 c).loose
  hwaits := Pipeline.hwaits_of_owed_zero _ _ _ _ L lv 0 fun _ _ => rfl
  pre c := iprop(StableHlo.held (c : Thread nD τ) (Pipeline.ucRefs τ sig) (V2 m c) ∗ Ec (F := F) c)
  post c := iprop(StableHlo.held (c : Thread nD τ) (Pipeline.ucRefs τ sig) (U3 m c) ∗ Ec (F := F) c)
  X c := iprop(∃ r, prngReg c r)
  Y c := iprop(∃ r, prngReg c r)
  Z c := Pipeline.unscopedRest spec0 c (W2 m c)
  hentry c := by
    iintro ⟨Hpre, -, -⟩
    ihave H := (entry0 m c) $$ Hpre
    icases H with ⟨Ha, HO, Hg, Hrest⟩
    imodintro
    isplitl [Ha]; · iexact Ha
    isplitr; · unfold Pipeline.prefHeld; rw [show (Finset.univ : Finset (Fin 0)) = ∅ from rfl, BI.bigSep_empty]; iempintro
    isplitl [HO]; · iexact HO
    isplitl [Hg]; · iexact Hg
    iexact Hrest
  hin c := by
    refine BIBase.Entails.trans (Q := Pipeline.ΦA spec0 c) ?_ (hin0 (W2 m) q0 c)
    unfold Pipeline.ΦA
    iintro ⟨Hp, -, Hr⟩
    isplitl [Hr]; · iexact Hr
    iexact Hp
  hout c := by
    refine (hout0 (W2 m) q0 c).trans ?_
    rw [Pipeline.ownSems0_none]; unfold Pipeline.ΦA
    iintro ⟨Hr, Hp⟩
    isplitl [Hp]; · iexact Hp
    isplitr; · iempintro
    iexact Hr
  hexit c := by
    iintro ⟨Ha, HO, HY, HZ⟩
    imodintro
    iapply (exit0 m c)
    isplitl [Ha]; · iexact Ha
    isplitl [HO]; · iexact HO
    isplitl [HY]; · iexact HY
    iexact HZ

set_option backward.isDefEq.respectTransparency.types false in
/-- Region 1 as a record of the launch: the decided layout, no semaphore of its own, the body obligation, and its
    entry and exit around the held unscoped buffers. -/
def reg1 : RegionSeg (pcfgs (F := F)) adm (pdats m) () defs₀ Variants.none L lv 1 where
  win := winFacts₀1
  block_pos := block_pos1
  stage_whole := stage_whole1
  K := PEmpty
  osem := fun k => k.elim
  ho := Pipeline.OwnSemFacts.none spec1
  hbody c := (body_obligation1 (W3 m) q1 c).loose
  hwaits := Pipeline.hwaits_of_owed_zero _ _ _ _ L lv 1 fun _ _ => rfl
  pre c := iprop(StableHlo.held (c : Thread nD τ) (Pipeline.ucRefs τ sig) (U3 m c) ∗ Ec (F := F) c)
  post c := iprop(StableHlo.held (c : Thread nD τ) (Pipeline.ucRefs τ sig) (U4 m c) ∗ Ec (F := F) c)
  X c := iprop(∃ r, prngReg c r)
  Y c := iprop(∃ r, prngReg c r)
  Z c := Pipeline.unscopedRest spec1 c (W3 m c)
  hentry c := by
    iintro ⟨Hpre, -, -⟩
    ihave H := (entry1 m c) $$ Hpre
    icases H with ⟨Ha, HO, Hg, Hrest⟩
    imodintro
    isplitl [Ha]; · iexact Ha
    isplitr; · unfold Pipeline.prefHeld; rw [show (Finset.univ : Finset (Fin 0)) = ∅ from rfl, BI.bigSep_empty]; iempintro
    isplitl [HO]; · iexact HO
    isplitl [Hg]; · iexact Hg
    iexact Hrest
  hin c := by
    refine BIBase.Entails.trans (Q := Pipeline.ΦA spec1 c) ?_ (hin1 (W3 m) q1 c)
    unfold Pipeline.ΦA
    iintro ⟨Hp, -, Hr⟩
    isplitl [Hr]; · iexact Hr
    iexact Hp
  hout c := by
    refine (hout1 (W3 m) q1 c).trans ?_
    rw [Pipeline.ownSems0_none]; unfold Pipeline.ΦA
    iintro ⟨Hr, Hp⟩
    isplitl [Hp]; · iexact Hp
    isplitr; · iempintro
    iexact Hr
  hexit c := by
    iintro ⟨Ha, HO, HY, HZ⟩
    imodintro
    iapply (exit1 m c)
    isplitl [Ha]; · iexact Ha
    isplitl [HO]; · iexact HO
    isplitl [HY]; · iexact HY
    iexact HZ

/-! ## The run -/

set_option backward.isDefEq.respectTransparency.types false in
/-- THE RUN of the two-region program at any float values: every weakly fair execution of @main terminates and the
    final memory holds the result buffer at what the last host stretch computes from the regions' outputs (the generated
    valuation V7 at the regions' computed contents), and each argument as launched. -/
theorem kernel_run : θ_run defs (onTc (τ := τ) (main (F := F))) ⟨m, fun _ => 0, ρ⟩ (fun r => ∀ c : Dev nD,
      r.2.mem ((c.tc : Thread nD τ).loc main_v26) = V7 m (outs m) c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  value_cond m (emb₁) () Variants.none L lv (fun _ _ => rfl) ρ (outs m) (pdats m) (fun _ => 0) (fun _ => iprop(emp))
    (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (fun _ c => Ec (F := F) c)
    (by
      refine Pipeline.initEach L lv fun c => ?_
      unfold Ec
      iintro ⟨⟨-, HO, -, Hp, -⟩, -⟩
      imodintro
      isplitl [HO]; · iexists ∅; iexact HO
      iexists _; iexact Hp)
    (fun c => by unfold Ec; iintro ⟨HO, -⟩; iexact HO)
    (reg0 m) (fun c => .rfl) (fun c => by rw [V3_eq]; exact .rfl)
    (reg1 m) (fun c => by rw [V3_eq]; exact .rfl) (fun c => by rw [V4_eq]; exact .rfl)

end Cert.KernelIdeal.HandR

end
-- ==== Proof.HostGlue.lean ====
/-
  The host operations around the two kernel regions, read as functions of buffers: before the regions every row of
  the features is divided by its Euclidean norm (and the labels are re-shaped to a column and to a row); after them
  the per-row sums are divided by the per-row counts joined with one, weighted by the gathered class weights, kept
  where the count is positive, summed, negated and divided by the number of rows.
-/
import proofs.«113668_j72095321030692_1_alg».proof.Proof.Gen.KernelIdeal.Regions
import Idealize.ShloMosaic.Lib.StableHlo.Run

noncomputable section

namespace Cert.KernelIdeal.HandG

open Cert.KernelIdeal Cert.KernelIdeal.Gen
open Idealize.ShloMosaic Idealize.ShloMosaic.TcCoe Idealize.SL.Sem

variable {F : FTy → Type} [FloatOps F]

/-- Every row divided by its norm, then narrowed. -/
def normK (x : FVec F S8192x512 .f32) : FVec F S8192x512 .bf16 :=
  truncf .bf16 (Host.divf x (broadcastInDim S8192x512 ![0, 1] bcast_S8192x1_S8192x512_0_1
    (Host.sqrt (broadcastInDim S8192x1 ![0] bcast_S8192_S8192x1_0
      (Host.reduceAdd (mulf x x) (constant S_ .f32 0x00000000#32) reducesTo_S8192x512_S8192_d1 h_S_))))) bitsLt_bf16_f32

/-- The scalar result from the per-row sums and counts (as 8192×1 columns), the labels and the class weights. -/
def tailK (pos cnt : FVec F S8192x1 .f32) (lab : IVec S8192 32) (cw : FVec F S9 .f32) : FVec F S_ .f32 :=
  Host.divf
    (Host.negf
      (Host.reduceAdd
        (select
          (cmpf .ogt (shapeCast S8192 cnt shapeCasts_S8192x1_S8192) (broadcastInDim S8192 ![] bcast_S_S8192 (constant S_ .f32 0x00000000#32)))
          (mulf
            (Host.divf (shapeCast S8192 pos shapeCasts_S8192x1_S8192)
              (maximumf (shapeCast S8192 cnt shapeCasts_S8192x1_S8192) (broadcastInDim S8192 ![] bcast_S_S8192 (constant S_ .f32 0x3F800000#32))))
            (Host.gather gather_S9_S8192x1_S8192_n_0_n_n_0_1_1 cw
              (broadcastInDim S8192x1 ![0] bcast_S8192_S8192x1_0
                (select (cmpi .slt lab (broadcastInDim S8192 ![] bcast_S_S8192 (constantI S_ 32 0#32)))
                  (addi lab (broadcastInDim S8192 ![] bcast_S_S8192 (constantI S_ 32 9#32))) lab))))
          (broadcastInDim S8192 ![] bcast_S_S8192 (constant S_ .f32 0x00000000#32)))
        (constant S_ .f32 0x00000000#32) reducesTo_S8192_S_d0 h_S_))
    (constant S_ .f32 0x46000000#32)

variable (m : (ℓ : Loc nD τ sig) → Buf (Elt F) ℓ)

theorem V2_v3 (c : Dev nD) : V2 m c main_v3 = normK (m ((c : Thread nD τ).loc main_arg0)) := by
  show StableHlo.after hostOps0_1 (StableHlo.after hostOps0 (fun b => m (c, b))) (Proc.devRef .tc main_v3) = _
  after_results
  rfl

theorem V2_v4 (c : Dev nD) : V2 m c main_v4 = shapeCast S8192x1 (m ((c : Thread nD τ).loc main_arg1)) shapeCasts_S8192_S8192x1 := by
  show StableHlo.after hostOps0_1 (StableHlo.after hostOps0 (fun b => m (c, b))) (Proc.devRef .tc main_v4) = _
  after_results
  rfl

theorem V2_v5 (c : Dev nD) : V2 m c main_v5 = shapeCast S1x8192 (m ((c : Thread nD τ).loc main_arg1)) shapeCasts_S8192_S1x8192 := by
  show StableHlo.after hostOps0_1 (StableHlo.after hostOps0 (fun b => m (c, b))) (Proc.devRef .tc main_v5) = _
  after_results
  rfl

theorem V2_arg1 (c : Dev nD) : V2 m c main_arg1 = m ((c : Thread nD τ).loc main_arg1) :=
  (V2_of m c main_arg1 (by decide)).trans ((V1_of m c main_arg1 (by decide)).trans rfl)
theorem V2_arg2 (c : Dev nD) : V2 m c main_arg2 = m ((c : Thread nD τ).loc main_arg2) :=
  (V2_of m c main_arg2 (by decide)).trans ((V1_of m c main_arg2 (by decide)).trans rfl)

set_option maxHeartbeats 4000000 in
theorem V7_v26 (outs : Outs (F := F)) (c : Dev nD) :
    V7 m outs c main_v26 = tailK (V4 m outs c main_v7_0) (V4 m outs c main_v7_1) (V4 m outs c main_arg1) (V4 m outs c main_arg2) := by
  show StableHlo.after hostOps2_2 (StableHlo.after hostOps2_1 (StableHlo.after hostOps2 (V4 m outs c))) (Proc.devRef .tc main_v26) = _
  generalize V4 m outs c = W
  after_results_simp
  rfl

end Cert.KernelIdeal.HandG

end
-- ==== Proof.RefSpec.lean ====
import Idealize.ShloMosaic.PureOps.Ideal
import Idealize.ShloMosaic.PureOps.Ideal.Laws
import Idealize.ShloMosaic.Lib.ValueIdx

/-!
# The reference's result as formulas

The reference takes features `x` (8192 rows of 512), integer labels and 9 class weights.

* Each row is divided by the square root of its sum of squares: `g p k = x p k / sqrt (0 + ∑ k', x p k' * x p k')`.
* The similarity of rows `p` and `q` is a fixed large negative number on the diagonal and
  `(∑ k, g p k * g q k) / c` off it, `c` a fixed constant.
* Row `p`'s maximum `M p` is the maximum of its similarities started from `⊥`; its sum is
  `S p = 0 + ∑ q, exp (sim p q - M p)`; the log-probability of the pair is `(sim p q - M p) - log (S p)`.
* A pair is positive when the labels agree and `p ≠ q`. Each positive pair contributes
  `logp * (1 - exp logp) ^ 2`; row `p`'s total is `0 + ∑ q` of the contributions, its count the number of positive pairs.
* The scalar result weighs each row with a positive count by its class weight, averages the per-row means, negates and
  divides by the number of rows.

Everything after the normalisation is stated over the normalised array `g`, so that another computation that is
handed `g` can be compared with these formulas directly.
-/

noncomputable section

namespace Cert.RefSpec

open Idealize.ShloMosaic Idealize.ShloMosaic.ValueIdx

abbrev SX : Shape := ⟨2, ![8192, 512]⟩
abbrev SL : Shape := ⟨1, ![8192]⟩
abbrev SW : Shape := ⟨1, ![9]⟩
abbrev S0 : Shape := ⟨0, ![]⟩
abbrev SC : Shape := ⟨2, ![8192, 1]⟩

/-! ### Normalisation -/

/-- The normalised features as one array: each entry divided by the square root, spread along the row, of the row's sum
    of squares started from zero. -/
def fArr (x : FVec Ideal SX .f32) : FVec Ideal SX .f32 :=
  Host.divf x (broadcastInDim (s := SC) SX ![0, 1] (by decide)
    (Host.sqrt (broadcastInDim (s := SL) SC ![0] (by decide)
      (Host.reduceAdd (axes := [1]) (t := SL) (mulf x x) (constant (F := Ideal) S0 .f32 0x00000000#32)
        (by decide) (by decide)))))

/-- One normalised feature. -/
theorem fArr_apply (x : FVec Ideal SX .f32) (p : Fin 8192) (k : Fin 512) :
    fArr x (ix2 p k)
      = Ideal.div (x (ix2 p k)) (Ideal.sqrt (0 + ∑ k' : Fin 512, x (ix2 p k') * x (ix2 p k'))) := by
  show Ideal.div (x (ix2 p k)) (Ideal.sqrt (Ideal.hostReduceAdd _ (mulf x x) (Ideal.ofBits .f32 0x00000000#32) _)) = _
  rw [Ideal.hostReduceAdd_single _ (by decide), Ideal.ofBits_zero_f32]
  refine congrArg (fun t => Ideal.div (x (ix2 p k)) (Ideal.sqrt (0 + t))) (Finset.sum_congr rfl fun k' _ => ?_)
  exact congrArg (fun i => x i * x i)
    (funext fun a => Fin.ext (by match a with | ⟨0, _⟩ => rfl | ⟨1, _⟩ => rfl))

/-! ### Similarities, row statistics, log-probabilities (over the normalised array) -/

/-- Similarity of rows `p` and `q`: a fixed number on the diagonal, the scaled inner product off it. -/
def simOf (g : FVec Ideal SX .f32) (p q : Fin 8192) : EReal :=
  if p = q then Ideal.ofBits .f32 0xC61C4000#32
  else Ideal.div (∑ k : Fin 512, g (ix2 p k) * g (ix2 q k)) (Ideal.ofBits .f32 0x3D8F5C29#32)

/-- Row maximum, started from `⊥`. -/
def rowMaxOf (g : FVec Ideal SX .f32) (p : Fin 8192) : EReal :=
  Finset.univ.fold max (⊥ : EReal) (fun q : Fin 8192 => simOf g p q)

/-- Row sum of exponentials of the similarities less the row maximum, started from `0`. -/
def rowSumOf (g : FVec Ideal SX .f32) (p : Fin 8192) : EReal :=
  0 + ∑ q : Fin 8192, Ideal.exp (simOf g p q - rowMaxOf g p)

/-- Log-probability of the pair. -/
def logpOf (g : FVec Ideal SX .f32) (p q : Fin 8192) : EReal :=
  (simOf g p q - rowMaxOf g p) - Ideal.log (rowSumOf g p)

/-- A pair is positive when the labels agree and the rows differ. -/
def posMask (lab : IVec SL 32) (p q : Fin 8192) : Prop := lab (ix1 p) = lab (ix1 q) ∧ ¬p = q

instance (lab : IVec SL 32) (p q : Fin 8192) : Decidable (posMask lab p q) :=
  inferInstanceAs (Decidable (_ ∧ _))

/-- A pair's contribution: the log-probability times the square (a power with exponent two) of one less its
    exponential. -/
def perPairOf (g : FVec Ideal SX .f32) (p q : Fin 8192) : EReal :=
  logpOf g p q
    * Ideal.pow (Ideal.ofBits .f32 0x3F800000#32 - Ideal.exp (logpOf g p q)) (Ideal.ofBits .f32 0x40000000#32)

/-- Row total of the positive pairs' contributions, started from `0`. -/
def posSumOf (g : FVec Ideal SX .f32) (lab : IVec SL 32) (p : Fin 8192) : EReal :=
  0 + ∑ q : Fin 8192, if posMask lab p q then perPairOf g p q else 0

/-- The row totals as an array. -/
def posSumArr (g : FVec Ideal SX .f32) (lab : IVec SL 32) : FVec Ideal SL .f32 := fun i => posSumOf g lab (i 0)

/-- Number of positive pairs of row `p`. -/
def cntOf (lab : IVec SL 32) (p : Fin 8192) : ℕ := (Finset.univ.filter fun q : Fin 8192 => posMask lab p q).card

theorem cntOf_le (lab : IVec SL 32) (p : Fin 8192) : cntOf lab p ≤ 8192 := by
  unfold cntOf
  exact (Finset.card_filter_le _ _).trans (by simp)

/-- The counts as an array of 32-bit words. -/
def cntI (lab : IVec SL 32) : IVec SL 32 := fun i => BitVec.ofNat 32 (cntOf lab (i 0))

/-- The count word read as a signed integer is the count. -/
theorem cntI_toInt (lab : IVec SL 32) (p : Fin 8192) : (cntI lab (ix1 p)).toInt = (cntOf lab p : ℤ) := by
  have h := cntOf_le lab p
  show (BitVec.ofNat 32 (cntOf lab p)).toInt = _
  have hn : (BitVec.ofNat 32 (cntOf lab p)).toNat = cntOf lab p := by rw [BitVec.toNat_ofNat]; omega
  rw [BitVec.toInt_eq_toNat_of_lt (by rw [hn]; omega), hn]

/-! ### The same over the raw features -/

def sim (x : FVec Ideal SX .f32) := simOf (fArr x)
def rowMax (x : FVec Ideal SX .f32) := rowMaxOf (fArr x)
def rowSum (x : FVec Ideal SX .f32) := rowSumOf (fArr x)
def logp (x : FVec Ideal SX .f32) := logpOf (fArr x)
def perPair (x : FVec Ideal SX .f32) := perPairOf (fArr x)
def posSum (x : FVec Ideal SX .f32) := posSumOf (fArr x)

/-! ### The scalar tail -/

/-- The dimension numbers of reading one class weight per row: a one-axis operand, one start index per row. -/
def gd : GatherDims SW SC SL where
  offsetDims := []
  collapsedSliceDims := [0]
  operandBatchingDims := []
  startIndicesBatchingDims := []
  startIndexMap := [0]
  indexVectorDim := 1
  sliceSizes := ![1]
  wf := by decide

/-- From the row totals and counts to the scalar: rows with a positive count contribute their mean (total over the
    count, at least one) times the class weight of their label (a negative label counted from the end); the rest
    contribute zero; the sum from zero is negated and divided by the number of rows. -/
def tailR (pos : FVec Ideal SL .f32) (cnt : IVec SL 32) (lab : IVec SL 32) (cw : FVec Ideal SW .f32) :
    FVec Ideal S0 .f32 :=
  Host.divf
    (Host.negf
      (Host.reduceAdd (axes := [0]) (t := S0)
        (select (cmpi .sgt cnt (broadcastInDim (s := S0) SL ![] (by decide) (constantI S0 32 0#32)))
          (mulf (Host.divf pos (sitofp .f32 (maxsi cnt (broadcastInDim (s := S0) SL ![] (by decide) (constantI S0 32 1#32)))))
            (Host.gather gd cw (broadcastInDim (s := SL) SC ![0] (by decide)
              (select (cmpi .slt lab (broadcastInDim (s := S0) SL ![] (by decide) (constantI S0 32 0#32)))
                (addi lab (broadcastInDim (s := S0) SL ![] (by decide) (constantI S0 32 9#32))) lab))))
          (broadcastInDim (s := S0) SL ![] (by decide) (id (constant (F := Ideal) S0 .f32 0x00000000#32))))
        (constant (F := Ideal) S0 .f32 0x00000000#32) (by decide) (by decide)))
    (constant (F := Ideal) S0 .f32 0x46000000#32)

end Cert.RefSpec
-- ==== Proof.BridgeA.lean ====
/-
  The result buffer of the two-region program at the exact instance, as the host tail applied to the second region's
  two output arrays; and the arrays each region is handed: the normalised features (every row divided by its norm), the
  labels as a column and as a row, and for the second region the first region's two outputs.
-/
import proofs.«113668_j72095321030692_1_alg».proof.Proof.Regs
import proofs.«113668_j72095321030692_1_alg».proof.Proof.HostGlue
import proofs.«113668_j72095321030692_1_alg».proof.Proof.RefSpec

noncomputable section

namespace Cert.KernelIdeal.HandB

open Cert.KernelIdeal Cert.KernelIdeal.Gen Cert.KernelIdeal.Hand0 Cert.KernelIdeal.Hand1 Cert.KernelIdeal.HandR Cert.KernelIdeal.HandG
open Idealize.ShloMosaic Idealize.ShloMosaic.TcCoe Idealize.SL.Sem

variable (m : (ℓ : Loc nD τ sig) → Buf (Elt Ideal) ℓ)

/-- At the exact instance narrowing is the identity: the normalised features are the reference's. -/
theorem normK_eq (x : FVec Ideal S8192x512 .f32) : (normK (F := Ideal) x : FVec Ideal Cert.RefSpec.SX .f32) = Cert.RefSpec.fArr x := rfl

theorem W2_v3 (c : Dev nD) : (W2 m c main_v3 : FVec Ideal Cert.RefSpec.SX .f32) = Cert.RefSpec.fArr (m ((c : Thread nD τ).loc main_arg0)) :=
  (V2_v3 m c).trans (normK_eq _)

theorem W3_v3 (c : Dev nD) : (W3 m c main_v3 : FVec Ideal Cert.RefSpec.SX .f32) = Cert.RefSpec.fArr (m ((c : Thread nD τ).loc main_arg0)) :=
  (U3_of m c main_v3 (by decide) (by decide)).trans (W2_v3 m c)
theorem W3_v4 (c : Dev nD) : W3 m c main_v4 = shapeCast S8192x1 (m ((c : Thread nD τ).loc main_arg1)) Gen.shapeCasts_S8192_S8192x1 :=
  (U3_of m c main_v4 (by decide) (by decide)).trans (V2_v4 m c)
theorem W3_v5 (c : Dev nD) : W3 m c main_v5 = shapeCast S1x8192 (m ((c : Thread nD τ).loc main_arg1)) Gen.shapeCasts_S8192_S1x8192 :=
  (U3_of m c main_v5 (by decide) (by decide)).trans (V2_v5 m c)
theorem W3_v60 (c : Dev nD) : W3 m c main_v6_0 = (dats0 (W2 m) q0 c).arrAt 2 cfg0.N := U3_v60 m c
theorem W3_v61 (c : Dev nD) : W3 m c main_v6_1 = (dats0 (W2 m) q0 c).arrAt 3 cfg0.N := U3_v61 m c

theorem U4_arg1 (c : Dev nD) : U4 m c main_arg1 = m ((c : Thread nD τ).loc main_arg1) :=
  (U4_of m c main_arg1 (by decide) (by decide)).trans ((U3_of m c main_arg1 (by decide) (by decide)).trans (V2_arg1 m c))
theorem U4_arg2 (c : Dev nD) : U4 m c main_arg2 = m ((c : Thread nD τ).loc main_arg2) :=
  (U4_of m c main_arg2 (by decide) (by decide)).trans ((U3_of m c main_arg2 (by decide) (by decide)).trans (V2_arg2 m c))

/-- The result buffer is the host tail of the second region's two outputs, the labels and the class weights. -/
theorem result_eq (c : Dev nD) :
    V7 m (outs m) c main_v26 = tailK (F := Ideal) ((dats1 (W3 m) q1 c).arrAt 6 cfg1.N) ((dats1 (W3 m) q1 c).arrAt 7 cfg1.N)
      (m ((c : Thread nD τ).loc main_arg1)) (m ((c : Thread nD τ).loc main_arg2)) := by
  rw [V7_v26, V4_eq, U4_v70, U4_v71, U4_arg1, U4_arg2]

end Cert.KernelIdeal.HandB

end
-- ==== Proof.LibOnlineSoftmax.lean ====
import Idealize.ShloMosaic.PureOps.Ideal

/-!
# Blockwise running maximum and rescaled exponential sum of a real row

A row of real numbers is cut into `n` blocks of `b` entries, `s j q` being entry `q` of block `j`.
Two sequences of extended reals are built block by block:

* `M 0 = ⊥` and `M (j+1) = max (M j) (the maximum of block j, started from ⊥)`;
* `L 0 = 0` and `L (j+1) = L j * exp (M j - M (j+1)) + (0 + ∑ q, exp (s j q - M (j+1)))`.

This file proves that, when `0 < b`, after `j ≥ 1` blocks

* `M j` is (the coercion of) a real `μ`, the largest of the entries of the first `j` blocks
  (it bounds them all and is one of them);
* `L j` is (the coercion of) the real number `∑ j' < j, ∑ q, Real.exp (s j' q - μ)`, which is at least `1`.

The step is the law of exponents `exp (a - μ) * exp (μ - μ') = exp (a - μ')`, summed over the old blocks.
At the first block `M 0 = ⊥`, so `exp (⊥ - μ') = 0` and the old sum `0` contributes nothing.

Consequences for the whole row (`j = n`): the maximum of all `n * b` entries started from `⊥` is `M n`;
`0 + ∑` over all entries of `exp (s j q - M n)` is `L n`; and for a real `x` both
`x - (M n + log (L n))` and `(x - M n) - log (L n)` are the real number `(x - μ) - Real.log Σ`.

Two small facts on squares are at the end: `pow d 2 = d * d` on reals, and `(a * d) * d = a * (d * d)`.
-/

namespace Idealize.ShloMosaic.OnlineSoftmax

open Idealize.ShloMosaic

/-! ### Coercions through finite sums and maxima -/

/-- The coercion of a finite real sum is the sum of the coercions. -/
theorem coe_finset_sum {ι : Type*} (S : Finset ι) (f : ι → ℝ) :
    ((∑ i ∈ S, f i : ℝ) : EReal) = ∑ i ∈ S, ((f i : ℝ) : EReal) := by
  classical
  refine Finset.induction_on S ?_ ?_
  · simp
  · intro a S ha ih
    rw [Finset.sum_insert ha, Finset.sum_insert ha, EReal.coe_add, ih]

/-- The coercion of a maximum of two reals is the maximum of the coercions. -/
theorem coe_max (x y : ℝ) : ((max x y : ℝ) : EReal) = max (x : EReal) (y : EReal) :=
  EReal.coe_strictMono.monotone.map_max

/-- The maximum, started from `⊥`, of the coercions of finitely many reals: `⊥` over the empty set;
    otherwise a real that bounds them all and is one of them. -/
theorem fold_max_coe {ι : Type*} (S : Finset ι) (f : ι → ℝ) :
    (S = ∅ ∧ S.fold max (⊥ : EReal) (fun i => ((f i : ℝ) : EReal)) = ⊥) ∨
    ∃ m : ℝ, S.fold max (⊥ : EReal) (fun i => ((f i : ℝ) : EReal)) = (m : EReal) ∧
      (∀ i ∈ S, f i ≤ m) ∧ ∃ i ∈ S, f i = m := by
  classical
  refine Finset.induction_on S ?_ ?_
  · left; exact ⟨rfl, Finset.fold_empty⟩
  · intro a S ha ih
    right
    rw [Finset.fold_insert ha]
    rcases ih with ⟨rfl, h0⟩ | ⟨m, hm, hle, i, hi, him⟩
    · refine ⟨f a, ?_, ?_, a, Finset.mem_insert_self a _, rfl⟩
      · rw [h0]; exact max_bot_right _
      · intro i hi
        rw [Finset.mem_insert] at hi
        rcases hi with rfl | hi
        · exact le_rfl
        · exact absurd hi (Finset.notMem_empty i)
    · refine ⟨max (f a) m, ?_, ?_, ?_⟩
      · rw [hm, coe_max]
      · intro k hk
        rcases Finset.mem_insert.mp hk with rfl | hk
        · exact le_max_left _ _
        · exact le_trans (hle k hk) (le_max_right _ _)
      · rcases le_total (f a) m with h | h
        · exact ⟨i, Finset.mem_insert_of_mem hi, by rw [him, max_eq_right h]⟩
        · exact ⟨a, Finset.mem_insert_self a S, by rw [max_eq_left h]⟩

/-- Over a nonempty finite type the maximum from `⊥` of real entries is a real, a bound that is attained. -/
theorem univ_fold_max_coe {ι : Type*} [Fintype ι] [Nonempty ι] (f : ι → ℝ) :
    ∃ m : ℝ, Finset.univ.fold max (⊥ : EReal) (fun i : ι => ((f i : ℝ) : EReal)) = (m : EReal) ∧
      (∀ i, f i ≤ m) ∧ ∃ i, f i = m := by
  rcases fold_max_coe (Finset.univ : Finset ι) f with ⟨h, _⟩ | ⟨m, hm, hle, i, _, hi⟩
  · exact absurd h Finset.univ_nonempty.ne_empty
  · exact ⟨m, hm, fun i => hle i (Finset.mem_univ i), i, hi⟩

/-- The maximum of one block of `b > 0` real entries, started from `⊥`. -/
theorem blockMax_coe {b : ℕ} (hb : 0 < b) (r : Fin b → ℝ) :
    ∃ m : ℝ, Finset.univ.fold max (⊥ : EReal) (fun q : Fin b => ((r q : ℝ) : EReal)) = (m : EReal) ∧
      (∀ q, r q ≤ m) ∧ ∃ q, r q = m :=
  haveI : Nonempty (Fin b) := ⟨⟨0, hb⟩⟩
  univ_fold_max_coe r

/-- `exp` of a difference of two reals. -/
theorem exp_coe_sub_coe (a m : ℝ) :
    Ideal.exp ((a : EReal) - (m : EReal)) = ((Real.exp (a - m) : ℝ) : EReal) := by
  rw [← EReal.coe_sub, Ideal.exp_coe]

/-- `exp (⊥ - m) = 0`. -/
theorem exp_bot_sub (m : EReal) : Ideal.exp (⊥ - m) = 0 := by
  rw [EReal.bot_sub, Ideal.exp_bot]

/-- The sum over finitely many reals of `exp (entry - m)`, `m` real, is the coercion of the real sum. -/
theorem sum_exp_coe {ι : Type*} (S : Finset ι) (f : ι → ℝ) (m : ℝ) :
    (∑ i ∈ S, Ideal.exp (((f i : ℝ) : EReal) - (m : EReal))) = ((∑ i ∈ S, Real.exp (f i - m) : ℝ) : EReal) := by
  rw [coe_finset_sum]
  exact Finset.sum_congr rfl (fun i _ => exp_coe_sub_coe (f i) m)

/-! ### The running statistics over blocks indexed by `ℕ` -/

/-- After `j ≥ 1` blocks the running maximum is the real maximum `μ` of the entries seen, and the running sum is
    the real `∑ j' < j, ∑ q, exp (t j' q - μ)`. Blocks are indexed by all of `ℕ`; the recursion is assumed
    below `n` only. -/
theorem running_nat {b : ℕ} (hb : 0 < b) (t : ℕ → Fin b → ℝ) (n : ℕ) (M L : ℕ → EReal)
    (hM0 : M 0 = ⊥)
    (hMs : ∀ j, j < n →
      M (j + 1) = max (M j) (Finset.univ.fold max (⊥ : EReal) (fun q : Fin b => ((t j q : ℝ) : EReal))))
    (hL0 : L 0 = 0)
    (hLs : ∀ j, j < n →
      L (j + 1) = L j * Ideal.exp (M j - M (j + 1))
        + (0 + ∑ q : Fin b, Ideal.exp (((t j q : ℝ) : EReal) - M (j + 1)))) :
    ∀ j, 0 < j → j ≤ n → ∃ μ : ℝ, M j = (μ : EReal) ∧ (∀ j', j' < j → ∀ q, t j' q ≤ μ) ∧
      (∃ j', j' < j ∧ ∃ q, t j' q = μ) ∧
      L j = ((∑ j' ∈ Finset.range j, ∑ q : Fin b, Real.exp (t j' q - μ) : ℝ) : EReal) := by
  intro j
  induction j with
  | zero => intro h; exact absurd h (lt_irrefl 0)
  | succ j ih =>
    intro _ hjn
    have hj : j < n := hjn
    obtain ⟨m, hm, hmle, q0, hq0⟩ := blockMax_coe hb (t j)
    rcases Nat.eq_zero_or_pos j with rfl | hpos
    · have hM1 : M (0 + 1) = (m : EReal) := by
        rw [hMs 0 hj, hM0, hm]; exact max_bot_left _
      refine ⟨m, hM1, ?_, ⟨0, Nat.zero_lt_one, q0, hq0⟩, ?_⟩
      · intro j' hj' q
        have h0 : j' = 0 := by omega
        subst h0
        exact hmle q
      · rw [hLs 0 hj, hL0, hM1, zero_mul, zero_add, zero_add, sum_exp_coe Finset.univ (t 0) m,
          Finset.sum_range_succ, Finset.sum_range_zero, zero_add]
    · obtain ⟨μ, hμ, hμle, ⟨j0, hj0, q1, hq1⟩, hL⟩ := ih hpos (le_of_lt hj)
      have hM' : M (j + 1) = ((max μ m : ℝ) : EReal) := by
        rw [hMs j hj, hμ, hm, coe_max]
      refine ⟨max μ m, hM', ?_, ?_, ?_⟩
      · intro j' hj' q
        rcases Nat.lt_succ_iff_lt_or_eq.mp hj' with h | rfl
        · exact le_trans (hμle j' h q) (le_max_left _ _)
        · exact le_trans (hmle q) (le_max_right _ _)
      · rcases le_total μ m with h | h
        · exact ⟨j, Nat.lt_succ_self j, q0, by rw [hq0, max_eq_right h]⟩
        · exact ⟨j0, Nat.lt_succ_of_lt hj0, q1, by rw [hq1, max_eq_left h]⟩
      · rw [hLs j hj, hL, hM', hμ, exp_coe_sub_coe μ (max μ m), zero_add,
          sum_exp_coe Finset.univ (t j) (max μ m), ← EReal.coe_mul, ← EReal.coe_add, Finset.sum_range_succ]
        congr 2
        rw [Finset.sum_mul]
        refine Finset.sum_congr rfl (fun j' _ => ?_)
        rw [Finset.sum_mul]
        refine Finset.sum_congr rfl (fun q _ => ?_)
        rw [← Real.exp_add]
        congr 1
        ring

/-! ### The row cut into `n` blocks -/

/-- The blocks of `s`, continued by zero blocks beyond `n`. -/
def ext {n b : ℕ} (s : Fin n → Fin b → ℝ) : ℕ → Fin b → ℝ :=
  fun j q => if h : j < n then s ⟨j, h⟩ q else 0

theorem ext_lt {n b : ℕ} (s : Fin n → Fin b → ℝ) {j : ℕ} (h : j < n) : ext s j = s ⟨j, h⟩ := by
  funext q; simp [ext, h]

theorem ext_val {n b : ℕ} (s : Fin n → Fin b → ℝ) (i : Fin n) : ext s i.val = s i :=
  ext_lt s i.isLt

/-- A sum over the first `j ≤ n` naturals is the sum over the indices of `Fin n` below `j`. -/
theorem sum_range_eq_sum_filter {n : ℕ} (G : ℕ → ℝ) {j : ℕ} (hj : j ≤ n) :
    ∑ k ∈ Finset.range j, G k = ∑ i ∈ Finset.univ.filter (fun i : Fin n => i.val < j), G i.val := by
  rw [Finset.sum_filter, ← Finset.sum_range (fun k => if k < j then G k else 0), ← Finset.sum_filter]
  congr 1
  ext k
  simp only [Finset.mem_filter, Finset.mem_range]
  omega

/-- **Running statistics, block by block.** For `0 < j ≤ n`: `M j` is a real `μ`, the largest entry of the
    first `j` blocks, and `L j` is the real sum over those blocks of `exp (entry - μ)`. -/
theorem running {n b : ℕ} (hb : 0 < b) (s : Fin n → Fin b → ℝ) (M L : ℕ → EReal)
    (hM0 : M 0 = ⊥)
    (hMs : ∀ j (h : j < n),
      M (j + 1) = max (M j) (Finset.univ.fold max (⊥ : EReal) (fun q : Fin b => ((s ⟨j, h⟩ q : ℝ) : EReal))))
    (hL0 : L 0 = 0)
    (hLs : ∀ j (h : j < n),
      L (j + 1) = L j * Ideal.exp (M j - M (j + 1))
        + (0 + ∑ q : Fin b, Ideal.exp (((s ⟨j, h⟩ q : ℝ) : EReal) - M (j + 1)))) :
    ∀ j, 0 < j → j ≤ n → ∃ μ : ℝ, M j = (μ : EReal) ∧ (∀ j' : Fin n, j'.val < j → ∀ q, s j' q ≤ μ) ∧
      (∃ j' : Fin n, j'.val < j ∧ ∃ q, s j' q = μ) ∧
      L j = ((∑ j' ∈ Finset.univ.filter (fun j' : Fin n => j'.val < j),
                ∑ q : Fin b, Real.exp (s j' q - μ) : ℝ) : EReal) := by
  intro j hj0 hjn
  have hMs' : ∀ k, k < n →
      M (k + 1) = max (M k) (Finset.univ.fold max (⊥ : EReal) (fun q : Fin b => ((ext s k q : ℝ) : EReal))) := by
    intro k h; rw [ext_lt s h]; exact hMs k h
  have hLs' : ∀ k, k < n →
      L (k + 1) = L k * Ideal.exp (M k - M (k + 1))
        + (0 + ∑ q : Fin b, Ideal.exp (((ext s k q : ℝ) : EReal) - M (k + 1))) := by
    intro k h; rw [ext_lt s h]; exact hLs k h
  obtain ⟨μ, hμ, hle, ⟨j0, hj0', q0, hq0⟩, hL⟩ := running_nat hb (ext s) n M L hM0 hMs' hL0 hLs' j hj0 hjn
  refine ⟨μ, hμ, ?_, ?_, ?_⟩
  · intro j' hj' q
    have := hle j'.val hj' q
    rwa [ext_val] at this
  · have hj0n : j0 < n := lt_of_lt_of_le hj0' hjn
    refine ⟨⟨j0, hj0n⟩, hj0', q0, ?_⟩
    rw [← hq0, ext_lt s hj0n]
  · rw [hL, sum_range_eq_sum_filter (n := n) (fun k => ∑ q : Fin b, Real.exp (ext s k q - μ)) hjn]
    congr 1
    refine Finset.sum_congr rfl (fun i _ => ?_)
    rw [ext_val]

/-- **Running statistics of the whole row** (`j = n`): `M n` is the largest entry `μ`, `L n` is
    `Σ = ∑ j q, exp (s j q - μ)`, and `Σ ≥ 1`. -/
theorem running_final {n b : ℕ} (hn : 0 < n) (hb : 0 < b) (s : Fin n → Fin b → ℝ) (M L : ℕ → EReal)
    (hM0 : M 0 = ⊥)
    (hMs : ∀ j (h : j < n),
      M (j + 1) = max (M j) (Finset.univ.fold max (⊥ : EReal) (fun q : Fin b => ((s ⟨j, h⟩ q : ℝ) : EReal))))
    (hL0 : L 0 = 0)
    (hLs : ∀ j (h : j < n),
      L (j + 1) = L j * Ideal.exp (M j - M (j + 1))
        + (0 + ∑ q : Fin b, Ideal.exp (((s ⟨j, h⟩ q : ℝ) : EReal) - M (j + 1)))) :
    ∃ μ : ℝ, M n = (μ : EReal) ∧ (∀ j q, s j q ≤ μ) ∧ (∃ j q, s j q = μ) ∧
      L n = ((∑ j : Fin n, ∑ q : Fin b, Real.exp (s j q - μ) : ℝ) : EReal) ∧
      1 ≤ ∑ j : Fin n, ∑ q : Fin b, Real.exp (s j q - μ) := by
  obtain ⟨μ, hμ, hle, ⟨j0, _, q0, hq0⟩, hL⟩ := running hb s M L hM0 hMs hL0 hLs n hn le_rfl
  have hfilter : Finset.univ.filter (fun j' : Fin n => j'.val < n) = Finset.univ := by
    ext i; simp [i.isLt]
  rw [hfilter] at hL
  refine ⟨μ, hμ, fun j q => hle j j.isLt q, ⟨j0, q0, hq0⟩, hL, ?_⟩
  have h1 : (1 : ℝ) = Real.exp (s j0 q0 - μ) := by rw [hq0, sub_self, Real.exp_zero]
  have h2 : Real.exp (s j0 q0 - μ) ≤ ∑ q : Fin b, Real.exp (s j0 q - μ) :=
    Finset.single_le_sum (f := fun q => Real.exp (s j0 q - μ)) (fun q _ => (Real.exp_pos _).le)
      (Finset.mem_univ q0)
  have h3 : (∑ q : Fin b, Real.exp (s j0 q - μ)) ≤ ∑ j : Fin n, ∑ q : Fin b, Real.exp (s j q - μ) :=
    Finset.single_le_sum (f := fun j => ∑ q : Fin b, Real.exp (s j q - μ))
      (fun j _ => Finset.sum_nonneg (fun q _ => (Real.exp_pos _).le)) (Finset.mem_univ j0)
  rw [h1]
  exact le_trans h2 h3

/-! ### The logarithm of the sum, and the two groupings of the subtraction -/

/-- `x - (μ + log Σ)` on reals with `Σ > 0`. -/
theorem sub_add_log (x μ σ : ℝ) (hσ : 0 < σ) :
    (x : EReal) - ((μ : EReal) + Ideal.log (σ : EReal)) = ((x - μ - Real.log σ : ℝ) : EReal) := by
  rw [Ideal.log_coe, if_neg (not_le.mpr hσ), ← EReal.coe_add, ← EReal.coe_sub]
  congr 1
  ring

/-- `(x - μ) - log Σ` on reals with `Σ > 0`. -/
theorem sub_sub_log (x μ σ : ℝ) (hσ : 0 < σ) :
    ((x : EReal) - (μ : EReal)) - Ideal.log (σ : EReal) = ((x - μ - Real.log σ : ℝ) : EReal) := by
  rw [Ideal.log_coe, if_neg (not_le.mpr hσ), ← EReal.coe_sub, ← EReal.coe_sub]

/-- A real bound of the entries that is one of them is unique. -/
theorem max_unique {ι : Type*} (f : ι → ℝ) {μ m : ℝ} (hμ : ∀ i, f i ≤ μ) (hμ' : ∃ i, f i = μ)
    (hm : ∀ i, f i ≤ m) (hm' : ∃ i, f i = m) : μ = m := by
  obtain ⟨i, hi⟩ := hμ'
  obtain ⟨k, hk⟩ := hm'
  exact le_antisymm (hi ▸ hm i) (hk ▸ hμ k)

/-- The maximum of all entries (over pairs of a block and a position), started from `⊥`, of a row whose largest
    entry is `μ`. -/
theorem fold_max_prod {n b : ℕ} (s : Fin n → Fin b → ℝ) {μ : ℝ} (hle : ∀ j q, s j q ≤ μ) (hat : ∃ j q, s j q = μ) :
    Finset.univ.fold max (⊥ : EReal) (fun p : Fin n × Fin b => ((s p.1 p.2 : ℝ) : EReal)) = (μ : EReal) := by
  obtain ⟨j0, q0, h0⟩ := hat
  haveI : Nonempty (Fin n × Fin b) := ⟨(j0, q0)⟩
  obtain ⟨m, hm, hmle, hmat⟩ := univ_fold_max_coe (fun p : Fin n × Fin b => s p.1 p.2)
  rw [hm, max_unique (fun p : Fin n × Fin b => s p.1 p.2) (fun p => hle p.1 p.2) ⟨(j0, q0), h0⟩ hmle hmat]

/-- The same maximum taken block by block: the maximum over the blocks of each block's maximum. -/
theorem fold_max_nested {n b : ℕ} (s : Fin n → Fin b → ℝ) {μ : ℝ} (hle : ∀ j q, s j q ≤ μ)
    (hat : ∃ j q, s j q = μ) :
    Finset.univ.fold max (⊥ : EReal)
      (fun j : Fin n => Finset.univ.fold max (⊥ : EReal) (fun q : Fin b => ((s j q : ℝ) : EReal))) = (μ : EReal) := by
  obtain ⟨j0, q0, h0⟩ := hat
  haveI : Nonempty (Fin n) := ⟨j0⟩
  haveI : Nonempty (Fin b) := ⟨q0⟩
  choose r hr hrle hrat using fun j : Fin n => univ_fold_max_coe (s j)
  have hfun : (fun j : Fin n => Finset.univ.fold max (⊥ : EReal) (fun q : Fin b => ((s j q : ℝ) : EReal)))
      = fun j : Fin n => ((r j : ℝ) : EReal) := funext hr
  rw [hfun]
  obtain ⟨m, hm, hmle, k, hk⟩ := univ_fold_max_coe r
  rw [hm]
  congr 1
  obtain ⟨q1, hq1⟩ := hrat k
  obtain ⟨q2, hq2⟩ := hrat j0
  apply le_antisymm
  · rw [← hk, ← hq1]; exact hle k q1
  · rw [← h0]; exact le_trans (hrle j0 q0) (hmle j0)

/-- `0 + ∑` over all entries (pairs) of `exp (entry - μ)` is the coercion of the real double sum. -/
theorem sum_exp_prod {n b : ℕ} (s : Fin n → Fin b → ℝ) (μ : ℝ) :
    (0 : EReal) + ∑ p : Fin n × Fin b, Ideal.exp (((s p.1 p.2 : ℝ) : EReal) - (μ : EReal))
      = ((∑ j : Fin n, ∑ q : Fin b, Real.exp (s j q - μ) : ℝ) : EReal) := by
  rw [zero_add, sum_exp_coe Finset.univ (fun p : Fin n × Fin b => s p.1 p.2) μ, Fintype.sum_prod_type]

/-- The same sum taken block by block. -/
theorem sum_exp_nested {n b : ℕ} (s : Fin n → Fin b → ℝ) (μ : ℝ) :
    (0 : EReal) + ∑ j : Fin n, ∑ q : Fin b, Ideal.exp (((s j q : ℝ) : EReal) - (μ : EReal))
      = ((∑ j : Fin n, ∑ q : Fin b, Real.exp (s j q - μ) : ℝ) : EReal) := by
  rw [zero_add, coe_finset_sum]
  exact Finset.sum_congr rfl (fun j _ => sum_exp_coe Finset.univ (s j) μ)

/-- **The whole row, in one statement.** With the running statistics of `n > 0` blocks of `b > 0` entries there are
    reals `μ` and `σ ≥ 1` with `M n = μ`, `L n = σ`; the maximum of all entries from `⊥` is `M n`
    (over pairs, and block by block); `0 + ∑ exp (entry - M n)` is `L n` (over pairs, and block by block);
    and for every real `x` both groupings of `x - M n - log (L n)` are the real `(x - μ) - Real.log σ`. -/
theorem online_softmax {n b : ℕ} (hn : 0 < n) (hb : 0 < b) (s : Fin n → Fin b → ℝ) (M L : ℕ → EReal)
    (hM0 : M 0 = ⊥)
    (hMs : ∀ j (h : j < n),
      M (j + 1) = max (M j) (Finset.univ.fold max (⊥ : EReal) (fun q : Fin b => ((s ⟨j, h⟩ q : ℝ) : EReal))))
    (hL0 : L 0 = 0)
    (hLs : ∀ j (h : j < n),
      L (j + 1) = L j * Ideal.exp (M j - M (j + 1))
        + (0 + ∑ q : Fin b, Ideal.exp (((s ⟨j, h⟩ q : ℝ) : EReal) - M (j + 1)))) :
    ∃ μ σ : ℝ, M n = (μ : EReal) ∧ L n = (σ : EReal) ∧ 1 ≤ σ ∧
      (∀ j q, s j q ≤ μ) ∧ (∃ j q, s j q = μ) ∧
      σ = ∑ j : Fin n, ∑ q : Fin b, Real.exp (s j q - μ) ∧
      Finset.univ.fold max (⊥ : EReal) (fun p : Fin n × Fin b => ((s p.1 p.2 : ℝ) : EReal)) = M n ∧
      Finset.univ.fold max (⊥ : EReal)
        (fun j : Fin n => Finset.univ.fold max (⊥ : EReal) (fun q : Fin b => ((s j q : ℝ) : EReal))) = M n ∧
      (0 : EReal) + ∑ p : Fin n × Fin b, Ideal.exp (((s p.1 p.2 : ℝ) : EReal) - M n) = L n ∧
      (0 : EReal) + ∑ j : Fin n, ∑ q : Fin b, Ideal.exp (((s j q : ℝ) : EReal) - M n) = L n ∧
      (∀ x : ℝ, (x : EReal) - (M n + Ideal.log (L n)) = ((x - μ - Real.log σ : ℝ) : EReal)) ∧
      (∀ x : ℝ, ((x : EReal) - M n) - Ideal.log (L n) = ((x - μ - Real.log σ : ℝ) : EReal)) := by
  obtain ⟨μ, hμ, hle, hat, hL, h1⟩ := running_final hn hb s M L hM0 hMs hL0 hLs
  have hσ : (0 : ℝ) < ∑ j : Fin n, ∑ q : Fin b, Real.exp (s j q - μ) := lt_of_lt_of_le one_pos h1
  refine ⟨μ, _, hμ, hL, h1, hle, hat, rfl, ?_, ?_, ?_, ?_, ?_, ?_⟩
  · rw [hμ]; exact fold_max_prod s hle hat
  · rw [hμ]; exact fold_max_nested s hle hat
  · rw [hμ, hL]; exact sum_exp_prod s μ
  · rw [hμ, hL]; exact sum_exp_nested s μ
  · intro x; rw [hμ, hL]; exact sub_add_log x μ _ hσ
  · intro x; rw [hμ, hL]; exact sub_sub_log x μ _ hσ

/-! ### Squares -/

/-- The power with real exponent `2` of a real is its square. -/
theorem pow_two_coe (d : ℝ) : Ideal.pow (d : EReal) ((2 : ℝ) : EReal) = ((d * d : ℝ) : EReal) := by
  rw [Ideal.pow_coe_coe, Real.rpow_eq_pow, Real.rpow_two, sq]

/-- `(a * d) * d = a * (d * d)` on coerced reals. -/
theorem coe_mul_mul (a d : ℝ) :
    ((a : EReal) * (d : EReal)) * (d : EReal) = (a : EReal) * ((d * d : ℝ) : EReal) := by
  rw [mul_assoc, ← EReal.coe_mul]

end Idealize.ShloMosaic.OnlineSoftmax
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.K0ValueM.lean ====
/-
  The first kernel region, value side, the arithmetic: for a matrix g of 8192 rows of 512 real entries, the masked,
  scaled similarity of two rows, a row's maximum and its sum of exponentials; the running maximum and the running
  rescaled sum of a row taken over sixteen blocks of 512 columns; and that after the sixteenth block the running
  statistics are the row's maximum and sum. Nothing here mentions the program.
-/
import proofs.«113668_j72095321030692_1_alg».proof.Proof.LibOnlineSoftmax
import Idealize.ShloMosaic.PureOps.Ideal
import Idealize.ShloMosaic.PureOps.Ideal.Laws
import Idealize.ShloMosaic.Lib.IdealHost

noncomputable section

namespace Cert.KernelIdeal.Hand0

open Idealize.ShloMosaic
open Idealize.ShloMosaic.OnlineSoftmax
open scoped BigOperators

/-! ## The similarity matrix of a real matrix, and its rows' statistics -/

/-- The masked, scaled similarity of rows p and q of g: the masking constant on the diagonal, the scaled inner product elsewhere. -/
def simOf0 (g : Fin 8192 → Fin 512 → EReal) (p q : Fin 8192) : EReal :=
  if p = q then Ideal.ofBits .f32 0xC61C4000#32 else Ideal.div (∑ k : Fin 512, g p k * g q k) (Ideal.ofBits .f32 0x3D8F5C29#32)

/-- The maximum of row p of the similarity matrix, from −∞. -/
def rowMaxOf0 (g : Fin 8192 → Fin 512 → EReal) (p : Fin 8192) : EReal :=
  Finset.univ.fold max ⊥ (fun q : Fin 8192 => simOf0 g p q)

/-- The sum over row p of the exponentials of the similarities less the row's maximum. -/
def rowSumOf0 (g : Fin 8192 → Fin 512 → EReal) (p : Fin 8192) : EReal :=
  0 + ∑ q : Fin 8192, Ideal.exp (simOf0 g p q - rowMaxOf0 g p)

/-- The masking constant is the real −10000. -/
theorem mask_real : Ideal.ofBits .f32 0xC61C4000#32 = (((-10000 : ℝ)) : EReal) := by
  simp [Ideal.ofBits, Ideal.ieee, -EReal.coe_mul, -EReal.coe_neg]; norm_num

/-- The scale is a real that is not zero. -/
theorem scale_real : ∃ y : ℝ, y ≠ 0 ∧ Ideal.ofBits .f32 0x3D8F5C29#32 = (y : EReal) := by
  refine ⟨9395241 / 134217728, by norm_num, ?_⟩
  simp [Ideal.ofBits, Ideal.ieee, -EReal.coe_mul, -EReal.coe_neg]; norm_num

/-- Every similarity of a real matrix is real. -/
theorem simOf0_real (g : Fin 8192 → Fin 512 → EReal) (hg : ∀ p k, ∃ x : ℝ, g p k = (x : EReal)) (p q : Fin 8192) :
    ∃ x : ℝ, simOf0 g p q = (x : EReal) := by
  unfold simOf0
  split_ifs with h
  · exact ⟨_, mask_real⟩
  · choose g' hg' using hg
    obtain ⟨y, hy, ey⟩ := scale_real
    refine ⟨(∑ k : Fin 512, g' p k * g' q k) * (1 / y), ?_⟩
    rw [ey, Ideal.div_coe hy, EReal.coe_mul, coe_finset_sum]
    congr 1
    exact Finset.sum_congr rfl fun k _ => by rw [hg', hg', EReal.coe_mul]

/-! ## The running statistics of a row, column block by column block -/

/-- Row q of column block j is row 512·j + q of the matrix. -/
def colIdx (j : ℕ) (q : Fin 512) : Fin 8192 := ⟨(512 * j + q.val) % 8192, Nat.mod_lt _ (by norm_num)⟩

/-- The running maximum of row p after j column blocks, from −∞. -/
def runM (g : Fin 8192 → Fin 512 → EReal) (p : Fin 8192) : ℕ → EReal
  | 0 => ⊥
  | j + 1 => max (runM g p j) (Finset.univ.fold max ⊥ fun q : Fin 512 => simOf0 g p (colIdx j q))

/-- The running sum of row p after j column blocks, from zero: rescaled to each new maximum. -/
def runL (g : Fin 8192 → Fin 512 → EReal) (p : Fin 8192) : ℕ → EReal
  | 0 => 0
  | j + 1 => runL g p j * Ideal.exp (runM g p j - runM g p (j + 1))
      + (0 + ∑ q : Fin 512, Ideal.exp (simOf0 g p (colIdx j q) - runM g p (j + 1)))

theorem runM_succ (g : Fin 8192 → Fin 512 → EReal) (p : Fin 8192) (j : ℕ) :
    runM g p (j + 1) = max (runM g p j) (Finset.univ.fold max ⊥ fun q : Fin 512 => simOf0 g p (colIdx j q)) := rfl
theorem runL_succ (g : Fin 8192 → Fin 512 → EReal) (p : Fin 8192) (j : ℕ) :
    runL g p (j + 1) = runL g p j * Ideal.exp (runM g p j - runM g p (j + 1))
      + (0 + ∑ q : Fin 512, Ideal.exp (simOf0 g p (colIdx j q) - runM g p (j + 1))) := rfl

/-- The 8192 columns as sixteen blocks of 512. -/
def colEquiv : Fin 16 × Fin 512 ≃ Fin 8192 where
  toFun x := ⟨512 * x.1.val + x.2.val, by have := x.1.isLt; have := x.2.isLt; omega⟩
  invFun y := (⟨y.val / 512, by have := y.isLt; omega⟩, ⟨y.val % 512, Nat.mod_lt _ (by norm_num)⟩)
  left_inv x := by
    have h1 := x.1.isLt; have h2 := x.2.isLt
    refine Prod.ext (Fin.ext ?_) (Fin.ext ?_)
    · show (512 * x.1.val + x.2.val) / 512 = x.1.val; omega
    · show (512 * x.1.val + x.2.val) % 512 = x.2.val; omega
  right_inv y := by
    refine Fin.ext ?_
    show 512 * (y.val / 512) + y.val % 512 = y.val; omega

theorem colEquiv_eq (x : Fin 16 × Fin 512) : colEquiv x = colIdx x.1.val x.2 := by
  have h1 := x.1.isLt; have h2 := x.2.isLt
  refine Fin.ext ?_
  show 512 * x.1.val + x.2.val = (512 * x.1.val + x.2.val) % 8192
  omega

/-- After the sixteenth column block the running statistics of a row of a real matrix are the row's maximum and
    its sum of exponentials. -/
theorem run_final (g : Fin 8192 → Fin 512 → EReal) (hg : ∀ p k, ∃ x : ℝ, g p k = (x : EReal)) (p : Fin 8192) :
    runM g p 16 = rowMaxOf0 g p ∧ runL g p 16 = rowSumOf0 g p := by
  choose s hs using fun (j : Fin 16) (q : Fin 512) => simOf0_real g hg p (colIdx j.val q)
  have hMs : ∀ j (h : j < 16), runM g p (j + 1)
      = max (runM g p j) (Finset.univ.fold max (⊥ : EReal) (fun q : Fin 512 => ((s ⟨j, h⟩ q : ℝ) : EReal))) := by
    intro j h
    rw [runM_succ]
    exact congrArg (fun f => max (runM g p j) (Finset.univ.fold max (⊥ : EReal) f)) (funext fun q => hs ⟨j, h⟩ q)
  have hLs : ∀ j (h : j < 16), runL g p (j + 1) = runL g p j * Ideal.exp (runM g p j - runM g p (j + 1))
      + (0 + ∑ q : Fin 512, Ideal.exp (((s ⟨j, h⟩ q : ℝ) : EReal) - runM g p (j + 1))) := by
    intro j h
    rw [runL_succ]
    exact congrArg (fun z => runL g p j * Ideal.exp (runM g p j - runM g p (j + 1)) + (0 + z))
      (Finset.sum_congr rfl fun q _ => by rw [hs ⟨j, h⟩ q])
  obtain ⟨μ, σ, -, -, -, -, -, -, hmax, -, hsum, -, -, -⟩ :=
    online_softmax (n := 16) (b := 512) (by norm_num) (by norm_num) s (runM g p) (runL g p) rfl hMs rfl hLs
  have hcol : ∀ x : Fin 16 × Fin 512, simOf0 g p (colEquiv x) = ((s x.1 x.2 : ℝ) : EReal) := fun x => by
    rw [colEquiv_eq]; exact hs x.1 x.2
  have hM : runM g p 16 = rowMaxOf0 g p := by
    unfold rowMaxOf0
    rw [← hmax]
    conv_rhs => rw [← Finset.map_univ_equiv colEquiv]
    rw [Finset.fold_map]
    exact congrArg (fun f => Finset.fold max (⊥ : EReal) f Finset.univ) (funext fun x => (hcol x).symm)
  refine ⟨hM, ?_⟩
  unfold rowSumOf0
  rw [← hsum, ← hM, ← Equiv.sum_comp colEquiv]
  exact congrArg (fun z => (0 : EReal) + z) (Finset.sum_congr rfl fun x _ => by rw [hcol x])

end Cert.KernelIdeal.Hand0
end
-- ==== Proof.BridgeC.lean ====
/-
  From the second region's sums to the reference's formulas, without the program. A vector of 8192 labels viewed as
  a column or as a row reads the same labels, so "the row's label equals the column's and the two samples differ" is
  the reference's positive-pair predicate; the sum over a row of the positive pairs' indicators is the reference's
  count; and for a matrix with every entry real, handed the reference's row maximum and row sum, the sum over a row of
  the positive pairs' terms (lp · d) · d, lp the similarity less the maximum plus the logarithm of the sum and d one
  less its exponential, is the reference's row total.
-/
import proofs.«113668_j72095321030692_1_alg».proof.Proof.RefSpec
import proofs.«113668_j72095321030692_1_alg».proof.Proof.LibOnlineSoftmax
import proofs.«113668_j72095321030692_1_alg».proof.Proof.LibRowReductions
import proofs.«113668_j72095321030692_1_alg».proof.Proof.K0ValueM
import Idealize.ShloMosaic.Lib.IdealHost

noncomputable section

namespace Cert.KernelIdeal.HandC

open Idealize.ShloMosaic Idealize.ShloMosaic.ValueIdx
open Idealize.ShloMosaic.OnlineSoftmax
open Cert.RefSpec Cert.KernelIdeal.Hand0
open Cert.Lib.RowReductions
open scoped BigOperators

/-! ## Labels as a column and as a row -/

/-- The labels viewed as an 8192×1 column read label p at (p, 0). -/
theorem labCol_apply (lab : IVec SL 32) (h : SL.ShapeCasts ⟨2, ![8192, 1]⟩) (p : Fin 8192) :
    shapeCast ⟨2, ![8192, 1]⟩ lab h (ix2 p 0) = lab (ix1 p) := shapeCast_col_apply lab h p

/-- The labels viewed as a 1×8192 row read label q at (0, q). -/
theorem labRow_apply (lab : IVec SL 32) (h' : SL.ShapeCasts ⟨2, ![1, 8192]⟩) (q : Fin 8192) :
    shapeCast ⟨2, ![1, 8192]⟩ lab h' (ix2 0 q) = lab (ix1 q) := shapeCast_rowvec_apply lab h' q

/-- Over any column and row that read the labels: the row's label equals the column's and the samples differ exactly
    when the pair is positive. -/
theorem mask_iff_of (lab : IVec SL 32) (labR : (⟨2, ![8192, 1]⟩ : Shape).Idx → BitVec 32)
    (labC : (⟨2, ![1, 8192]⟩ : Shape).Idx → BitVec 32) (hR : ∀ p : Fin 8192, labR (ix2 p 0) = lab (ix1 p))
    (hC : ∀ q : Fin 8192, labC (ix2 0 q) = lab (ix1 q)) (p q : Fin 8192) :
    (labR (ix2 p 0) = labC (ix2 0 q) ∧ ¬p = q) ↔ posMask lab p q := by
  rw [hR, hC]; exact Iff.rfl

/-- The same with the column and the row the two views of the labels. -/
theorem mask_iff (lab : IVec SL 32) (h : SL.ShapeCasts ⟨2, ![8192, 1]⟩) (h' : SL.ShapeCasts ⟨2, ![1, 8192]⟩) (p q : Fin 8192) :
    (shapeCast ⟨2, ![8192, 1]⟩ lab h (ix2 p 0) = shapeCast ⟨2, ![1, 8192]⟩ lab h' (ix2 0 q) ∧ ¬p = q) ↔ posMask lab p q :=
  mask_iff_of lab _ _ (labCol_apply lab h) (labRow_apply lab h') p q

/-! ## The count -/

/-- The sum over a row of the positive pairs' indicators is the number of positive pairs. -/
theorem cnt_eq (lab : IVec SL 32) (p : Fin 8192) :
    (∑ q' : Fin 8192, (((if posMask lab p q' then 1 else 0 : ℝ)) : EReal)) = ((cntOf lab p : ℝ) : EReal) := by
  rw [← coe_finset_sum]
  congr 1
  unfold cntOf
  exact Finset.sum_boole _ _

/-- The same over any predicate that is the positive-pair predicate. -/
theorem cnt_eq_of (lab : IVec SL 32) (p : Fin 8192) (mask : Fin 8192 → Prop) [DecidablePred mask]
    (hm : ∀ q', mask q' ↔ posMask lab p q') :
    (∑ q' : Fin 8192, (((if mask q' then 1 else 0 : ℝ)) : EReal)) = ((cntOf lab p : ℝ) : EReal) := by
  rw [← cnt_eq]
  exact Finset.sum_congr rfl fun q' _ => by rw [if_congr (hm q') rfl rfl]

/-! ## The row statistics of a real matrix are real -/

/-- The reference's formulas over an array are the curried ones. -/
theorem simOf_curried (g : FVec Ideal SX .f32) (p q : Fin 8192) : simOf g p q = simOf0 (fun p k => g (ix2 p k)) p q := rfl
theorem rowMaxOf_curried (g : FVec Ideal SX .f32) (p : Fin 8192) : rowMaxOf g p = rowMaxOf0 (fun p k => g (ix2 p k)) p := rfl
theorem rowSumOf_curried (g : FVec Ideal SX .f32) (p : Fin 8192) : rowSumOf g p = rowSumOf0 (fun p k => g (ix2 p k)) p := rfl

/-- Every similarity of a real matrix is real. -/
theorem simOf_real (g : FVec Ideal SX .f32) (hg : ∀ p k, ∃ x : ℝ, g (ix2 p k) = (x : EReal)) (p q : Fin 8192) :
    ∃ s : ℝ, simOf g p q = (s : EReal) := simOf0_real (fun p k => g (ix2 p k)) hg p q

/-- A row's maximum is a real, and its sum of exponentials a real that is at least one. -/
theorem row_reals (g : FVec Ideal SX .f32) (hg : ∀ p k, ∃ x : ℝ, g (ix2 p k) = (x : EReal)) (p : Fin 8192) :
    ∃ μ σ : ℝ, rowMaxOf g p = (μ : EReal) ∧ rowSumOf g p = (σ : EReal) ∧ 1 ≤ σ := by
  let g' : Fin 8192 → Fin 512 → EReal := fun p k => g (ix2 p k)
  choose s hs using fun (j : Fin 16) (q : Fin 512) => simOf0_real g' hg p (colIdx j.val q)
  have hMs : ∀ j (h : j < 16), runM g' p (j + 1)
      = max (runM g' p j) (Finset.univ.fold max (⊥ : EReal) (fun q : Fin 512 => ((s ⟨j, h⟩ q : ℝ) : EReal))) := by
    intro j h
    rw [runM_succ]
    exact congrArg (fun f => max (runM g' p j) (Finset.univ.fold max (⊥ : EReal) f)) (funext fun q => hs ⟨j, h⟩ q)
  have hLs : ∀ j (h : j < 16), runL g' p (j + 1) = runL g' p j * Ideal.exp (runM g' p j - runM g' p (j + 1))
      + (0 + ∑ q : Fin 512, Ideal.exp (((s ⟨j, h⟩ q : ℝ) : EReal) - runM g' p (j + 1))) := by
    intro j h
    rw [runL_succ]
    exact congrArg (fun z => runL g' p j * Ideal.exp (runM g' p j - runM g' p (j + 1)) + (0 + z))
      (Finset.sum_congr rfl fun q _ => by rw [hs ⟨j, h⟩ q])
  obtain ⟨μ, σ, hμ, hσ, h1, -⟩ :=
    online_softmax (n := 16) (b := 512) (by norm_num) (by norm_num) s (runM g' p) (runL g' p) rfl hMs rfl hLs
  obtain ⟨f1, f2⟩ := run_final g' hg p
  exact ⟨μ, σ, (rowMaxOf_curried g p).trans (f1.symm.trans hμ), (rowSumOf_curried g p).trans (f2.symm.trans hσ), h1⟩

/-! ## One pair's term -/

/-- The pattern 40000000 is the real two. -/
theorem two_real : Ideal.ofBits .f32 0x40000000#32 = ((2 : ℝ) : EReal) := by
  simp [Ideal.ofBits, Ideal.ieee, -EReal.coe_mul, -EReal.coe_neg]; norm_num

/-- With the similarity, the row maximum and the row sum real and the sum at least one, the term (lp · d) · d taken
    with lp = similarity − (maximum + log sum) is the reference's log-probability times the square of one less its
    exponential. -/
theorem perPair_eq (g : FVec Ideal SX .f32) (hg : ∀ p k, ∃ x : ℝ, g (ix2 p k) = (x : EReal)) (p q' : Fin 8192) :
    ((simOf g p q' - (rowMaxOf g p + Ideal.log (rowSumOf g p)))
        * (Ideal.ofBits .f32 0x3F800000#32 - Ideal.exp (simOf g p q' - (rowMaxOf g p + Ideal.log (rowSumOf g p)))))
        * (Ideal.ofBits .f32 0x3F800000#32 - Ideal.exp (simOf g p q' - (rowMaxOf g p + Ideal.log (rowSumOf g p))))
      = perPairOf g p q' := by
  obtain ⟨s, hs⟩ := simOf_real g hg p q'
  obtain ⟨μ, σ, hμ, hσ, h1⟩ := row_reals g hg p
  have hpos : (0 : ℝ) < σ := lt_of_lt_of_le one_pos h1
  unfold perPairOf logpOf
  rw [hs, hμ, hσ, sub_add_log s μ σ hpos, sub_sub_log s μ σ hpos, Ideal.exp_coe, Ideal.ofBits_one_f32, two_real]
  rw [show (1 : EReal) = ((1 : ℝ) : EReal) from rfl, ← EReal.coe_sub, pow_two_coe, coe_mul_mul]

/-! ## The row total -/

/-- The sum over a row of the positive pairs' terms is the reference's row total. -/
theorem posSum_eq (g : FVec Ideal SX .f32) (hg : ∀ p k, ∃ x : ℝ, g (ix2 p k) = (x : EReal)) (lab : IVec SL 32) (p : Fin 8192) :
    (∑ q' : Fin 8192, if posMask lab p q' then
        ((simOf g p q' - (rowMaxOf g p + Ideal.log (rowSumOf g p)))
          * (Ideal.ofBits .f32 0x3F800000#32 - Ideal.exp (simOf g p q' - (rowMaxOf g p + Ideal.log (rowSumOf g p)))))
          * (Ideal.ofBits .f32 0x3F800000#32 - Ideal.exp (simOf g p q' - (rowMaxOf g p + Ideal.log (rowSumOf g p))))
        else 0) = posSumOf g lab p := by
  unfold posSumOf
  rw [zero_add]
  exact Finset.sum_congr rfl fun q' _ => by rw [perPair_eq g hg p q']

/-- The same over any predicate that is the positive-pair predicate and any maximum and sum that are the row's: the
    form the second region's result has. -/
theorem posSum_eq_of (g : FVec Ideal SX .f32) (hg : ∀ p k, ∃ x : ℝ, g (ix2 p k) = (x : EReal)) (lab : IVec SL 32) (p : Fin 8192)
    (mask : Fin 8192 → Prop) [DecidablePred mask] (hm : ∀ q', mask q' ↔ posMask lab p q')
    (mx lx : EReal) (hmx : mx = rowMaxOf g p) (hlx : lx = rowSumOf g p) :
    (∑ q' : Fin 8192, if mask q' then
        ((simOf g p q' - (mx + Ideal.log lx))
          * (Ideal.ofBits .f32 0x3F800000#32 - Ideal.exp (simOf g p q' - (mx + Ideal.log lx))))
          * (Ideal.ofBits .f32 0x3F800000#32 - Ideal.exp (simOf g p q' - (mx + Ideal.log lx)))
        else 0) = posSumOf g lab p := by
  subst hmx hlx
  rw [← posSum_eq g hg lab p]
  exact Finset.sum_congr rfl fun q' _ => by rw [if_congr (hm q') rfl rfl]

end Cert.KernelIdeal.HandC
end
-- ==== Proof.TailBridge.lean ====
/-
  Three arithmetic bridges over the extended reals.
  * The host tail that the two regions feed takes the per-row counts as floats; the reference's tail takes them as
    32-bit integers. For counts between 0 and 8192 the two tails are the same scalar.
  * One pair's contribution: the log-probability grouped as s - (μ + log σ) or as (s - μ) - log σ is the same real, and
    (lp * d) * d is lp * d ^ 2 for d = 1 - exp lp.
  * For an array of reals every similarity, every row maximum and every row sum of exponentials is a real, and the row
    sum is at least one.
-/
import proofs.«113668_j72095321030692_1_alg».proof.Proof.RefSpec
import proofs.«113668_j72095321030692_1_alg».proof.Proof.HostGlue
import proofs.«113668_j72095321030692_1_alg».proof.Proof.LibOnlineSoftmax
import proofs.«113668_j72095321030692_1_alg».proof.Proof.K0ValueM
import Idealize.ShloMosaic.Lib.ValueLayout

noncomputable section

namespace Cert.KernelIdeal.HandT

open Cert.KernelIdeal Cert.KernelIdeal.Gen
open Idealize.ShloMosaic Idealize.ShloMosaic.ValueIdx Idealize.ShloMosaic.OnlineSoftmax
open Cert.RefSpec (simOf rowMaxOf rowSumOf logpOf perPairOf SX)

/-! ## Words as reals -/

/-- The word of the float one is the real one. -/
theorem one_f32 : Ideal.ofBits .f32 0x3F800000#32 = ((1 : ℝ) : EReal) := by
  simp [Ideal.ofBits, Ideal.ieee, -EReal.coe_mul]; norm_num

/-- The word of the float two is the real two. -/
theorem two_f32 : Ideal.ofBits .f32 0x40000000#32 = ((2 : ℝ) : EReal) := by
  simp [Ideal.ofBits, Ideal.ieee, -EReal.coe_mul]; norm_num

/-- The word of the float zero is the real zero. -/
theorem zero_f32 : Ideal.ofBits .f32 0x00000000#32 = ((0 : ℝ) : EReal) := by
  simp [Ideal.ofBits, Ideal.ieee]

/-! ## A count as a float and as an integer word -/

/-- The word of a natural below 2^31 read as a signed integer. -/
theorem toInt_ofNat32 {n : ℕ} (h : n ≤ 8192) : (BitVec.ofNat 32 n).toInt = (n : ℤ) := by
  have hn : (BitVec.ofNat 32 n).toNat = n := by rw [BitVec.toNat_ofNat]; omega
  rw [BitVec.toInt_eq_toNat_of_lt (by rw [hn]; omega), hn]

/-- Joining a count with one: on the float side the maximum of reals, on the integer side the signed maximum of
    words, then read as a float. -/
theorem max_count {n : ℕ} (h : n ≤ 8192) :
    max (((n : ℝ)) : EReal) (Ideal.ofBits .f32 0x3F800000#32)
      = (((IntOp.maxsi (BitVec.ofNat 32 n) 1#32).toInt : ℝ) : EReal) := by
  rw [one_f32, ← coe_max]
  congr 1
  unfold IntOp.maxsi
  have h1 : (1#32 : BitVec 32).toInt = 1 := by decide
  by_cases hn : 1 < n
  · have hs : (1#32 : BitVec 32).slt (BitVec.ofNat 32 n) = true := by
      rw [BitVec.slt, h1, toInt_ofNat32 h]; exact decide_eq_true (by exact_mod_cast hn)
    rw [if_pos hs, toInt_ofNat32 h]
    have : (1 : ℝ) ≤ n := by exact_mod_cast hn.le
    rw [max_eq_left this]; norm_cast
  · have hs : ¬ (1#32 : BitVec 32).slt (BitVec.ofNat 32 n) = true := by
      rw [BitVec.slt, h1, toInt_ofNat32 h]; simp; omega
    rw [if_neg hs, h1]
    have : (n : ℝ) ≤ 1 := by exact_mod_cast (not_lt.mp hn)
    rw [max_eq_right this]; norm_cast

/-- A count is positive as a float exactly when its word is positive as a signed integer. -/
theorem pos_count {n : ℕ} (h : n ≤ 8192) :
    Ideal.cmp .ogt (((n : ℝ)) : EReal) (Ideal.ofBits .f32 0x00000000#32)
      = IntOp.cmpi .sgt (BitVec.ofNat 32 n) 0#32 := by
  rw [zero_f32]
  unfold Ideal.cmp IntOp.cmpi
  have h0 : (0#32 : BitVec 32).toInt = 0 := by decide
  congr 1
  show decide (((0 : ℝ) : EReal) < ((n : ℝ) : EReal)) = (0#32 : BitVec 32).slt (BitVec.ofNat 32 n)
  rw [BitVec.slt, h0, toInt_ofNat32 h]
  by_cases hn : 0 < n
  · rw [decide_eq_true (by exact_mod_cast hn), decide_eq_true (by exact_mod_cast hn)]
  · rw [decide_eq_false (by rw [EReal.coe_lt_coe_iff]; exact_mod_cast hn), decide_eq_false (by exact_mod_cast hn)]

/-! ## The host tail: float counts against integer counts -/

/-- An 8192×1 column re-shaped to a vector reads, at `p`, the column's entry `(p, 0)`. -/
theorem shapeCast_col {α : Type} (x : S8192x1.Idx → α) (j : S8192.Idx) :
    shapeCast S8192 x shapeCasts_S8192x1_S8192 j = x (ix2 (j 0) (0 : Fin 1)) :=
  shapeCast_apply x shapeCasts_S8192x1_S8192 j (ix2 (j 0) (0 : Fin 1)) (by
    rw [Shape.rowMajor_val_two, Shape.rowMajor_val_one]
    show (j 0).val * 1 + 0 = (j 0).val
    omega)

/-- The part of the host tail common to both sides, as a function of the mask of the rows kept, the row totals and
    the divisors. -/
def tailOf (lab : IVec S8192 32) (cw : FVec Ideal S9 .f32)
    (keep : IVec S8192 1) (num den : FVec Ideal S8192 .f32) : FVec Ideal S_ .f32 :=
  Host.divf
    (Host.negf
      (Host.reduceAdd
        (select keep
          (mulf (Host.divf num den)
            (Host.gather gather_S9_S8192x1_S8192_n_0_n_n_0_1_1 cw
              (broadcastInDim S8192x1 ![0] bcast_S8192_S8192x1_0
                (select (cmpi .slt lab (broadcastInDim S8192 ![] bcast_S_S8192 (constantI S_ 32 0#32)))
                  (addi lab (broadcastInDim S8192 ![] bcast_S_S8192 (constantI S_ 32 9#32))) lab))))
          (broadcastInDim S8192 ![] bcast_S_S8192 (constant S_ .f32 0x00000000#32)))
        (constant S_ .f32 0x00000000#32) reducesTo_S8192_S_d0 h_S_))
    (constant S_ .f32 0x46000000#32)

/-- **The host tail on float counts is the reference's tail on integer counts.** The row totals and the counts
    reach the kernel's tail as 8192×1 columns and are re-shaped to vectors; there the float count is joined with the
    float one and compared with the float zero, where the reference joins the integer count with the integer one,
    converts it, and compares the integer with zero. For a count between 0 and 8192 the two agree entry by entry;
    the rest of the chain is the same on both sides. -/
theorem tail_bridge (lab : IVec S8192 32) (cw : FVec Ideal S9 .f32) (P : Fin 8192 → EReal) :
    HandG.tailK (F := Ideal) (fun i => P (i 0)) (fun i => (((Cert.RefSpec.cntOf lab (i 0) : ℕ) : ℝ) : EReal)) lab cw
      = Cert.RefSpec.tailR (fun i => P (i 0)) (Cert.RefSpec.cntI lab) lab cw := by
  have hK : HandG.tailK (F := Ideal) (fun i => P (i 0))
      (fun i => (((Cert.RefSpec.cntOf lab (i 0) : ℕ) : ℝ) : EReal)) lab cw
      = tailOf lab cw
          (cmpf (F := Ideal) (φ := .f32) .ogt (shapeCast S8192 (fun i : S8192x1.Idx => (((Cert.RefSpec.cntOf lab (i 0) : ℕ) : ℝ) : EReal))
              shapeCasts_S8192x1_S8192)
            (broadcastInDim S8192 ![] bcast_S_S8192 (constant S_ .f32 0x00000000#32)))
          (shapeCast S8192 (fun i : S8192x1.Idx => P (i 0)) shapeCasts_S8192x1_S8192)
          (maximumf (F := Ideal) (φ := .f32) (shapeCast S8192 (fun i : S8192x1.Idx => (((Cert.RefSpec.cntOf lab (i 0) : ℕ) : ℝ) : EReal))
              shapeCasts_S8192x1_S8192)
            (broadcastInDim S8192 ![] bcast_S_S8192 (constant S_ .f32 0x3F800000#32))) := by
    unfold HandG.tailK tailOf
    rfl
  have hR : Cert.RefSpec.tailR (fun i => P (i 0)) (Cert.RefSpec.cntI lab) lab cw
      = tailOf lab cw
          (cmpi .sgt (Cert.RefSpec.cntI lab) (broadcastInDim S8192 ![] bcast_S_S8192 (constantI S_ 32 0#32)))
          (fun i : S8192.Idx => P (i 0))
          (sitofp .f32 (maxsi (Cert.RefSpec.cntI lab)
            (broadcastInDim S8192 ![] bcast_S_S8192 (constantI S_ 32 1#32)))) := by
    unfold Cert.RefSpec.tailR tailOf
    rfl
  rw [hK, hR]
  have e1 : cmpf (F := Ideal) (φ := .f32) .ogt (shapeCast S8192 (fun i : S8192x1.Idx => (((Cert.RefSpec.cntOf lab (i 0) : ℕ) : ℝ) : EReal))
              shapeCasts_S8192x1_S8192)
            (broadcastInDim S8192 ![] bcast_S_S8192 (constant (F := Ideal) S_ .f32 0x00000000#32))
      = cmpi .sgt (Cert.RefSpec.cntI lab) (broadcastInDim S8192 ![] bcast_S_S8192 (constantI S_ 32 0#32)) := by
    funext j
    show Ideal.cmp .ogt (shapeCast S8192 _ shapeCasts_S8192x1_S8192 j) (Ideal.ofBits .f32 0x00000000#32)
      = IntOp.cmpi .sgt (BitVec.ofNat 32 (Cert.RefSpec.cntOf lab (j 0))) 0#32
    rw [shapeCast_col]
    exact pos_count (Cert.RefSpec.cntOf_le lab (j 0))
  have e2 : shapeCast S8192 (fun i : S8192x1.Idx => P (i 0)) shapeCasts_S8192x1_S8192
      = fun i : S8192.Idx => P (i 0) := by
    funext j
    rw [shapeCast_col]
  have e3 : maximumf (F := Ideal) (φ := .f32) (shapeCast S8192 (fun i : S8192x1.Idx => (((Cert.RefSpec.cntOf lab (i 0) : ℕ) : ℝ) : EReal))
              shapeCasts_S8192x1_S8192)
            (broadcastInDim S8192 ![] bcast_S_S8192 (constant (F := Ideal) S_ .f32 0x3F800000#32))
      = sitofp .f32 (maxsi (Cert.RefSpec.cntI lab)
            (broadcastInDim S8192 ![] bcast_S_S8192 (constantI S_ 32 1#32))) := by
    funext j
    show max (shapeCast S8192 _ shapeCasts_S8192x1_S8192 j) (Ideal.ofBits .f32 0x3F800000#32)
      = (((IntOp.maxsi (BitVec.ofNat 32 (Cert.RefSpec.cntOf lab (j 0))) 1#32).toInt : ℝ) : EReal)
    rw [shapeCast_col]
    exact max_count (Cert.RefSpec.cntOf_le lab (j 0))
  rw [e1, e2, e3]

/-! ## One pair's contribution, in the two groupings -/

/-- The log-probability of a pair, grouped as `s - (μ + log σ)` and as `(s - μ) - log σ`: the same real. -/
theorem lp_eq (s μ σ : ℝ) (hσ : 0 < σ) :
    (s : EReal) - ((μ : EReal) + Ideal.log (σ : EReal)) = ((s : EReal) - (μ : EReal)) - Ideal.log (σ : EReal) := by
  rw [sub_add_log s μ σ hσ, sub_sub_log s μ σ hσ]

/-- For a real `l`: `(l * d) * d = l * d ^ 2` with `d = 1 - exp l`, the power taken with the real exponent two. -/
theorem sq_eq (l : ℝ) :
    ((l : EReal) * (Ideal.ofBits .f32 0x3F800000#32 - Ideal.exp (l : EReal)))
        * (Ideal.ofBits .f32 0x3F800000#32 - Ideal.exp (l : EReal))
      = (l : EReal) * Ideal.pow (Ideal.ofBits .f32 0x3F800000#32 - Ideal.exp (l : EReal))
          (Ideal.ofBits .f32 0x40000000#32) := by
  rw [one_f32, two_f32, Ideal.exp_coe, ← EReal.coe_sub, coe_mul_mul, pow_two_coe]

/-- **One pair.** For reals `s`, `μ` and `σ > 0` the two groupings of the log-probability agree, and the product
    `(lp * d) * d`, `d = 1 - exp lp`, taken on the first grouping is `lp * d ^ 2` taken on the second. -/
theorem perPair_eq (s μ σ : ℝ) (hσ : 0 < σ) :
    (s : EReal) - ((μ : EReal) + Ideal.log (σ : EReal)) = ((s : EReal) - (μ : EReal)) - Ideal.log (σ : EReal) ∧
    (((s : EReal) - ((μ : EReal) + Ideal.log (σ : EReal)))
          * (Ideal.ofBits .f32 0x3F800000#32 - Ideal.exp ((s : EReal) - ((μ : EReal) + Ideal.log (σ : EReal)))))
        * (Ideal.ofBits .f32 0x3F800000#32 - Ideal.exp ((s : EReal) - ((μ : EReal) + Ideal.log (σ : EReal))))
      = (((s : EReal) - (μ : EReal)) - Ideal.log (σ : EReal))
          * Ideal.pow (Ideal.ofBits .f32 0x3F800000#32 - Ideal.exp (((s : EReal) - (μ : EReal)) - Ideal.log (σ : EReal)))
              (Ideal.ofBits .f32 0x40000000#32) := by
  refine ⟨lp_eq s μ σ hσ, ?_⟩
  rw [sub_add_log s μ σ hσ, sub_sub_log s μ σ hσ]
  exact sq_eq _

/-- **One pair of the reference.** Where the row's maximum, its sum (positive) and the similarity are reals, the
    reference's contribution of the pair is `(lp * d) * d` with `lp = sim - (max + log sum)` and `d = 1 - exp lp`. -/
theorem perPairOf_eq (g : FVec Ideal SX .f32) (p q : Fin 8192) {s μ σ : ℝ} (hσ : 0 < σ)
    (hμ : rowMaxOf g p = (μ : EReal)) (hσ' : rowSumOf g p = (σ : EReal)) (hs : simOf g p q = (s : EReal)) :
    perPairOf g p q
      = ((simOf g p q - (rowMaxOf g p + Ideal.log (rowSumOf g p)))
            * (Ideal.ofBits .f32 0x3F800000#32 - Ideal.exp (simOf g p q - (rowMaxOf g p + Ideal.log (rowSumOf g p)))))
          * (Ideal.ofBits .f32 0x3F800000#32 - Ideal.exp (simOf g p q - (rowMaxOf g p + Ideal.log (rowSumOf g p)))) := by
  unfold perPairOf logpOf
  rw [hμ, hσ', hs]
  exact (perPair_eq s μ σ hσ).2.symm

/-! ## The similarities and the row statistics of a real array are real -/

/-- Every similarity of an array of reals is a real. -/
theorem simOf_real (g : FVec Ideal SX .f32) (hg : ∀ p k, ∃ r : ℝ, g (ix2 p k) = (r : EReal)) (p q : Fin 8192) :
    ∃ s : ℝ, simOf g p q = (s : EReal) :=
  Hand0.simOf0_real (fun p k => g (ix2 p k)) hg p q

/-- A row's maximum and its sum of exponentials, for an array of reals, are reals, and the sum is at least one
    (the maximum is one of the similarities, whose term is `exp 0`). -/
theorem rowStats_real (g : FVec Ideal SX .f32) (hg : ∀ p k, ∃ r : ℝ, g (ix2 p k) = (r : EReal)) (p : Fin 8192) :
    ∃ μ σ : ℝ, rowMaxOf g p = (μ : EReal) ∧ rowSumOf g p = (σ : EReal) ∧ 1 ≤ σ := by
  choose s hs using simOf_real g hg p
  haveI : Nonempty (Fin 8192) := ⟨⟨0, by norm_num⟩⟩
  obtain ⟨μ, hμ, hle, q0, hq0⟩ := univ_fold_max_coe s
  have hM : rowMaxOf g p = (μ : EReal) := by
    unfold rowMaxOf
    rw [show (fun q : Fin 8192 => simOf g p q) = fun q => ((s q : ℝ) : EReal) from funext hs]
    exact hμ
  refine ⟨μ, ∑ q : Fin 8192, Real.exp (s q - μ), hM, ?_, ?_⟩
  · unfold rowSumOf
    rw [hM, zero_add, ← sum_exp_coe]
    exact Finset.sum_congr rfl fun q _ => by rw [hs q]
  · have h1 : (1 : ℝ) = Real.exp (s q0 - μ) := by rw [hq0, sub_self, Real.exp_zero]
    rw [h1]
    exact Finset.single_le_sum (f := fun q => Real.exp (s q - μ)) (fun q _ => (Real.exp_pos _).le)
      (Finset.mem_univ q0)

end Cert.KernelIdeal.HandT
end
-- ==== Proof.K0ValueA.lean ====
/-
  The first kernel region, value side, part one: in every case of the body (a first, a middle, the last column
  block) the pieces its stores leave in the two carried buffers and the two output blocks, read back, are the
  body's arithmetic applied to the two input blocks and to what the carried buffers held. Generic in the float
  instance.
-/
import proofs.«113668_j72095321030692_1_alg».proof.Proof.K0Frame
import Idealize.ShloMosaic.Lib.Pipeline.Value

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz0 : (![0, 0] : Fin 2 → Nat) = fun _ => 0 := funext fun a => by fin_cases a <;> rfl

section Cases
variable (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (x0 : Vec F S2048x512 .bf16) (x1 : Vec F S512x512 .bf16)

/-! ## The pieces each case's stores leave are the payloads -/

/-- A first column block: the running maximum is updated from the column of −∞ the body has just stored. -/
theorem sout0_A_0_eq (hc0 : cond0_0 i) (hc1 : ¬cond0_1 i) :
    sout0_A_0 c i arg2 harg2 arg3 harg3 arg4 harg4 arg5 harg5 arg6 harg6 arg7 harg7 x0 x1 hc0 hc1 = k0_pay2 (k0_pay6 i x0 x1 k0_pay3) := by
  unfold sout0_A_0
  rw [View.read_writes_eq_canon _ _ _ (scover0_A_0 c i arg2 harg2 arg3 harg3 arg4 harg4 arg5 harg5 arg6 harg6 arg7 harg7 x0 x1 hc0 hc1)]
  unfold kernelRun0_A
  dsimp only
  sl_unfold_words
  rw [View.canon_cons_unit_zero (S := S2048x1) hz0, View.readCov_unit_zero (S := S2048x1) _ hz0]
  simp only [View.readAt_eq_ld, harg2.read_unread, harg3.read_unread, harg4.read_unread, harg5.read_unread, harg6.read_unread, harg7.read_unread, View.ld_unit_zero (S := S2048x512) hz0, View.ld_unit_zero (S := S512x512) hz0, View.ld_unit_zero (S := S2048x1) hz0]

/-- A first column block: the running sum is updated from the column of zeros the body has just stored. -/
theorem sout0_A_1_eq (hc0 : cond0_0 i) (hc1 : ¬cond0_1 i) :
    sout0_A_1 c i arg2 harg2 arg3 harg3 arg4 harg4 arg5 harg5 arg6 harg6 arg7 harg7 x0 x1 hc0 hc1 = k0_pay1 (k0_pay7 i x0 x1 k0_pay3 k0_pay3 k0_pay4) := by
  unfold sout0_A_1
  rw [View.read_writes_eq_canon _ _ _ (scover0_A_1 c i arg2 harg2 arg3 harg3 arg4 harg4 arg5 harg5 arg6 harg6 arg7 harg7 x0 x1 hc0 hc1)]
  unfold kernelRun0_A
  dsimp only
  sl_unfold_words
  rw [View.canon_cons_unit_zero (S := S2048x1) hz0, View.readCov_unit_zero (S := S2048x1) _ hz0, View.readCov_unit_zero (S := S2048x1) _ hz0]
  simp only [View.readAt_eq_ld, harg2.read_unread, harg3.read_unread, harg4.read_unread, harg5.read_unread, harg6.read_unread, harg7.read_unread, View.ld_unit_zero (S := S2048x512) hz0, View.ld_unit_zero (S := S512x512) hz0, View.ld_unit_zero (S := S2048x1) hz0]

variable (xs0 xs1 : Vec F S2048x1 .f32)

/-- A middle column block: the running maximum is updated from what the point before left. -/
theorem sout0_B_0_eq (hc0 : ¬cond0_0 i) (hc1 : ¬cond0_1 i) :
    sout0_B_0 c i arg2 harg2 arg3 harg3 arg4 harg4 arg5 harg5 arg6 harg6 arg7 harg7 x0 x1 xs0 xs1 hc0 hc1 = k0_pay2 (k0_pay6 i x0 x1 xs0) := by
  unfold sout0_B_0
  rw [View.read_writes_eq_canon _ _ _ (scover0_B_0 c i arg2 harg2 arg3 harg3 arg4 harg4 arg5 harg5 arg6 harg6 arg7 harg7 x0 x1 xs0 xs1 hc0 hc1)]
  unfold kernelRun0_B
  dsimp only
  rw [View.canon_unit_zero hz0]
  simp only [View.readAt_eq_ld, harg2.read_unread, harg3.read_unread, harg4.read_unread, harg5.read_unread, harg6.read_unread, harg7.read_unread, View.ld_unit_zero (S := S2048x512) hz0, View.ld_unit_zero (S := S512x512) hz0, View.ld_unit_zero (S := S2048x1) hz0]

/-- A middle column block: the running sum is updated from what the point before left. -/
theorem sout0_B_1_eq (hc0 : ¬cond0_0 i) (hc1 : ¬cond0_1 i) :
    sout0_B_1 c i arg2 harg2 arg3 harg3 arg4 harg4 arg5 harg5 arg6 harg6 arg7 harg7 x0 x1 xs0 xs1 hc0 hc1 = k0_pay1 (k0_pay7 i x0 x1 xs0 xs0 xs1) := by
  unfold sout0_B_1
  rw [View.read_writes_eq_canon _ _ _ (scover0_B_1 c i arg2 harg2 arg3 harg3 arg4 harg4 arg5 harg5 arg6 harg6 arg7 harg7 x0 x1 xs0 xs1 hc0 hc1)]
  unfold kernelRun0_B
  dsimp only
  rw [View.canon_unit_zero hz0]
  simp only [View.readAt_eq_ld, harg2.read_unread, harg3.read_unread, harg4.read_unread, harg5.read_unread, harg6.read_unread, harg7.read_unread, View.ld_unit_zero (S := S2048x512) hz0, View.ld_unit_zero (S := S512x512) hz0, View.ld_unit_zero (S := S2048x1) hz0]

/-- The last column block updates the carried buffers as a middle one does. -/
theorem sout0_C_0_eq (hc0 : ¬cond0_0 i) (hc1 : cond0_1 i) :
    sout0_C_0 c i arg2 harg2 arg3 harg3 arg4 harg4 arg5 harg5 arg6 harg6 arg7 harg7 x0 x1 xs0 xs1 hc0 hc1 = k0_pay2 (k0_pay6 i x0 x1 xs0) := by
  unfold sout0_C_0
  rw [View.read_writes_eq_canon _ _ _ (scover0_C_0 c i arg2 harg2 arg3 harg3 arg4 harg4 arg5 harg5 arg6 harg6 arg7 harg7 x0 x1 xs0 xs1 hc0 hc1)]
  unfold kernelRun0_C
  dsimp only
  sl_unfold_words
  dsimp only
  rw [View.canon_unit_zero hz0]
  simp only [View.readAt_eq_ld, harg2.read_unread, harg3.read_unread, harg4.read_unread, harg5.read_unread, harg6.read_unread, harg7.read_unread, View.ld_unit_zero (S := S2048x512) hz0, View.ld_unit_zero (S := S512x512) hz0, View.ld_unit_zero (S := S2048x1) hz0]

theorem sout0_C_1_eq (hc0 : ¬cond0_0 i) (hc1 : cond0_1 i) :
    sout0_C_1 c i arg2 harg2 arg3 harg3 arg4 harg4 arg5 harg5 arg6 harg6 arg7 harg7 x0 x1 xs0 xs1 hc0 hc1 = k0_pay1 (k0_pay7 i x0 x1 xs0 xs0 xs1) := by
  unfold sout0_C_1
  rw [View.read_writes_eq_canon _ _ _ (scover0_C_1 c i arg2 harg2 arg3 harg3 arg4 harg4 arg5 harg5 arg6 harg6 arg7 harg7 x0 x1 xs0 xs1 hc0 hc1)]
  unfold kernelRun0_C
  dsimp only
  sl_unfold_words
  dsimp only
  rw [View.canon_unit_zero hz0]
  simp only [View.readAt_eq_ld, harg2.read_unread, harg3.read_unread, harg4.read_unread, harg5.read_unread, harg6.read_unread, harg7.read_unread, View.ld_unit_zero (S := S2048x512) hz0, View.ld_unit_zero (S := S512x512) hz0, View.ld_unit_zero (S := S2048x1) hz0]

/-- The last column block copies the updated running maximum to the first output block. -/
theorem out0_C_2_eq (hc0 : ¬cond0_0 i) (hc1 : cond0_1 i) :
    out0_C_2 c i arg2 harg2 arg3 harg3 arg4 harg4 arg5 harg5 arg6 harg6 arg7 harg7 x0 x1 xs0 xs1 hc0 hc1 = k0_pay2 (k0_pay6 i x0 x1 xs0) := by
  unfold out0_C_2
  rw [View.read_writes_eq_canon _ _ _ (cover0_C_2 c i arg2 harg2 arg3 harg3 arg4 harg4 arg5 harg5 arg6 harg6 arg7 harg7 x0 x1 xs0 xs1 hc0 hc1)]
  unfold kernelRun0_C
  dsimp only
  sl_unfold_words
  dsimp only
  rw [View.canon_unit_zero hz0, View.readCov_unit_zero (S := S2048x1) _ hz0]
  simp only [View.readAt_eq_ld, harg2.read_unread, harg3.read_unread, harg4.read_unread, harg5.read_unread, harg6.read_unread, harg7.read_unread, View.ld_unit_zero (S := S2048x512) hz0, View.ld_unit_zero (S := S512x512) hz0, View.ld_unit_zero (S := S2048x1) hz0]

/-- The last column block copies the updated running sum to the second output block. -/
theorem out0_C_3_eq (hc0 : ¬cond0_0 i) (hc1 : cond0_1 i) :
    out0_C_3 c i arg2 harg2 arg3 harg3 arg4 harg4 arg5 harg5 arg6 harg6 arg7 harg7 x0 x1 xs0 xs1 hc0 hc1 = k0_pay1 (k0_pay7 i x0 x1 xs0 xs0 xs1) := by
  unfold out0_C_3
  rw [View.read_writes_eq_canon _ _ _ (cover0_C_3 c i arg2 harg2 arg3 harg3 arg4 harg4 arg5 harg5 arg6 harg6 arg7 harg7 x0 x1 xs0 xs1 hc0 hc1)]
  unfold kernelRun0_C
  dsimp only
  sl_unfold_words
  dsimp only
  rw [View.canon_unit_zero hz0, View.readCov_unit_zero (S := S2048x1) _ hz0]
  simp only [View.readAt_eq_ld, harg2.read_unread, harg3.read_unread, harg4.read_unread, harg5.read_unread, harg6.read_unread, harg7.read_unread, View.ld_unit_zero (S := S2048x512) hz0, View.ld_unit_zero (S := S512x512) hz0, View.ld_unit_zero (S := S2048x1) hz0]

end Cases
end Cert.KernelIdeal.Hand0
end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.K0ValueB.lean ====
/-
  The first kernel region, value side, part two: the body's arithmetic read at an index on the extended reals.
  At grid point i the masked, scaled block of similarities of the 2048 rows of the row block against the 512 rows
  of the column block; the updated running maximum of a row is the larger of the carried one and the block's row
  maximum; the updated running sum is the carried one rescaled to the new maximum plus the block's row sum of
  exponentials taken at the new maximum.
-/
import proofs.«113668_j72095321030692_1_alg».proof.Proof.Gen.KernelIdeal.Skeleton
import proofs.«113668_j72095321030692_1_alg».proof.Proof.LibRowReductions
import proofs.«113668_j72095321030692_1_alg».proof.Proof.LibBlockReads
import Idealize.ShloMosaic.Lib.ValueIdx
import Idealize.ShloMosaic.Lib.ValueLayout
import Idealize.ShloMosaic.Lib.WordArith
import Idealize.ShloMosaic.Lib.Pipeline.Value

set_option maxRecDepth 16384

noncomputable section

namespace Cert.KernelIdeal.Hand0

open Cert.KernelIdeal Cert.KernelIdeal.Gen
open Idealize.ShloMosaic Idealize.ShloMosaic.ValueIdx
open Cert.Lib.RowReductions Cert.Lib.BlockReads
open scoped BigOperators

/-- Two words a·2048 + r and b·512 + q, all below 8192, are equal exactly when the numbers are. -/
theorem diag_word (a : Fin 4) (b : Fin 16) (r : Fin 2048) (q : Fin 512) :
    IntOp.cmpi .eq (IntOp.addi (IntOp.muli (BitVec.ofNat 32 a.val) 2048#32) (BitVec.ofNat 32 r.val))
        (IntOp.addi (IntOp.muli (BitVec.ofNat 32 b.val) 512#32) (BitVec.ofNat 32 q.val)) = 1#1
      ↔ 2048 * a.val + r.val = 512 * b.val + q.val := by
  have ha := a.isLt; have hb := b.isLt; have hr := r.isLt; have hq := q.isLt
  simp only [IntOp.cmpi, IntOp.addi, IntOp.muli]
  rw [WordArith.ofBool_eq_one_iff, beq_iff_eq, ← BitVec.toNat_inj]
  simp only [BitVec.toNat_add, BitVec.toNat_mul, BitVec.toNat_ofNat]
  omega

/-- The similarity of row r of the row block against row q of the column block at grid point i: the masking
    constant where the two are the same row of the whole matrix, the scaled inner product elsewhere. -/
def blockSim (i : grid0.Coords) (x0 : Vec Ideal S2048x512 .bf16) (x1 : Vec Ideal S512x512 .bf16) (r : Fin 2048) (q : Fin 512) : EReal :=
  if 2048 * (i 0).val + r.val = 512 * (i 1).val + q.val then Ideal.ofBits .f32 0xC61C4000#32
  else Ideal.div (∑ k : Fin 512, x0 (ix2 r k) * x1 (ix2 q k)) (Ideal.ofBits .f32 0x3D8F5C29#32)

/-- The masked, scaled block of similarities read at an index. -/
theorem pay5_apply (i : grid0.Coords) (x0 : Vec Ideal S2048x512 .bf16) (x1 : Vec Ideal S512x512 .bf16) (r : Fin 2048) (q : Fin 512) :
    k0_pay5 i x0 x1 (ix2 r q) = blockSim i x0 x1 r q := by
  unfold k0_pay5 blockSim
  dsimp only
  have h0 : iota Kind.tc S2048x512 32 [0] iota_S2048x512_d0_w32 (ix2 r q) = BitVec.ofNat 32 r.val := iota_single_apply _ _ _ _ _ _
  have h1 : iota Kind.tc S2048x512 32 [1] iota_S2048x512_d1_w32 (ix2 r q) = BitVec.ofNat 32 q.val := iota_single_apply _ _ _ _ _ _
  have hm : matmul (F := Ideal) (φ₁ := .bf16) (φ₂ := .bf16) dot_S2048x512_S512x512_S2048x512_1_0_0_1_n_n none (shapeCast S2048x512 x0 shapeCasts_S2048x512_S2048x512)
      (transpose S512x512 [1, 0] (shapeCast S512x512 x1 shapeCasts_S512x512_S512x512) transposes_S512x512_p1_0_S512x512)
      (constant S2048x512 FTy.f32 0#32) (ix2 r q) = (∑ k : Fin 512, (x0 (ix2 r k) : EReal) * (x1 (ix2 q k) : EReal) : EReal) := by
    rw [matmul_zero_rows_apply _ rfl rfl rfl rfl rfl rfl]
    refine Finset.sum_congr rfl fun k _ => ?_
    rw [transpose_ix2_apply, shapeCast_self, shapeCast_self]
  rw [select_apply, divf_apply, hm]
  simp only [cmpi, addi, broadcast_apply, h0, h1, Scalar.muli]
  by_cases hd : 2048 * (i 0).val + r.val = 512 * (i 1).val + q.val
  · rw [if_pos hd, (diag_word (i 0) (i 1) r q).mpr hd, select_one]; rfl
  · rw [if_neg hd, eq_zero_of_ne_one (fun h => hd ((diag_word (i 0) (i 1) r q).mp h)), select_zero]; rfl

/-- The updated running maximum of row r: the larger of the carried one and the block's row maximum. -/
theorem pay6_apply (i : grid0.Coords) (x0 : Vec Ideal S2048x512 .bf16) (x1 : Vec Ideal S512x512 .bf16) (v : Vec Ideal S2048x1 .f32) (r : Fin 2048) :
    k0_pay6 i x0 x1 v (ix2 r 0) = max (v (ix2 r 0)) (Finset.univ.fold max ⊥ fun q : Fin 512 => blockSim i x0 x1 r q) := by
  unfold k0_pay6
  dsimp only
  refine (maximumf_apply _ _ _).trans ?_
  refine congrArg (max (v (ix2 r 0))) ?_
  refine (shapeCast_col_apply _ _ r).trans ?_
  refine (rowmax_apply _ _ _ _ _ r).trans ?_
  show Finset.fold max (Ideal.ofBits .f32 0xFF800000#32) _ _ = _
  rw [ofBits_neg_inf_f32]
  exact congrArg (fun f => Finset.fold max (⊥ : EReal) f Finset.univ) (funext fun q => pay5_apply i x0 x1 r q)

/-- The updated running sum of row r: the carried one rescaled to the new maximum, plus the block's row sum of exponentials. -/
theorem pay7_apply (i : grid0.Coords) (x0 : Vec Ideal S2048x512 .bf16) (x1 : Vec Ideal S512x512 .bf16) (v l : Vec Ideal S2048x1 .f32) (r : Fin 2048) :
    k0_pay7 i x0 x1 v v l (ix2 r 0)
      = l (ix2 r 0) * Ideal.exp (v (ix2 r 0) - k0_pay6 i x0 x1 v (ix2 r 0))
        + (0 + ∑ q : Fin 512, Ideal.exp (blockSim i x0 x1 r q - k0_pay6 i x0 x1 v (ix2 r 0))) := by
  unfold k0_pay7
  dsimp only
  refine (addf_apply _ _ _).trans ?_
  refine congrArg₂ (· + ·) rfl ?_
  refine (shapeCast_col_apply _ _ r).trans ?_
  refine (rowsum_apply _ _ _ _ _ r).trans ?_
  rw [zero_add]
  refine Finset.sum_congr rfl fun q _ => ?_
  show Ideal.exp (k0_pay5 i x0 x1 (ix2 r q) - broadcastTo S2048x512 (k0_pay6 i x0 x1 v) broadcasts_S2048x1_S2048x512 (ix2 r q)) = _
  rw [pay5_apply, broadcast_col_apply]

/-- Shape casts of a column to its own shape change nothing. -/
theorem pay1_eq {F : FTy → Type} [FloatOps F] (v : FVec F S2048x1 .f32) : k0_pay1 v = v := shapeCast_self _ _
theorem pay2_eq {F : FTy → Type} [FloatOps F] (v : FVec F S2048x1 .f32) : k0_pay2 v = v := shapeCast_self _ _

/-- The column of −∞ and the column of zeros a first column block stores, at an index. -/
theorem pay3_apply (j : S2048x1.Idx) : k0_pay3 (F := Ideal) j = (⊥ : EReal) := by
  unfold k0_pay3
  rw [shapeCast_self]
  exact ofBits_neg_inf_f32
theorem pay4_apply (j : S2048x1.Idx) : k0_pay4 (F := Ideal) j = (0 : EReal) := by
  unfold k0_pay4
  rw [shapeCast_self]
  exact Ideal.ofBits_zero_f32

end Cert.KernelIdeal.Hand0
end
-- ==== Proof.K0ValueC.lean ====
/-
  The first kernel region, value side, part three: the accumulation over the 64 grid points. Point t is (row block
  t / 16, column block t % 16); its two input blocks are rows 2048·(t / 16) … and rows 512·(t % 16) … of the matrix
  the region reads; its block of similarities is the similarity matrix at those rows and columns. By induction on
  the point the two carried buffers hold, at row r, the running maximum and the running rescaled sum of row
  2048·(t / 16) + r after the column blocks 0 … t % 16; at a last column block, for a real matrix, the two output
  blocks therefore hold the row's maximum and its sum of exponentials.
-/
import proofs.«113668_j72095321030692_1_alg».proof.Proof.K0ValueA
import proofs.«113668_j72095321030692_1_alg».proof.Proof.K0ValueB
import proofs.«113668_j72095321030692_1_alg».proof.Proof.K0ValueM

set_option maxRecDepth 16384

noncomputable section

namespace Cert.KernelIdeal.Hand0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Idealize.ShloMosaic.OnlineSoftmax
open scoped BigOperators

variable (V : (c : Dev nD) → (b : Ref sig .tc) → Buf (Elt Ideal) ((c : Thread nD τ).loc b))

/-! ## Where a point's blocks sit in the matrix -/

/-- The printed index maps, decided over the grid: point t is (row block t / 16, column block t % 16). -/
theorem idx_facts0 : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val / 16 ∧ win0_3.index t (1 : Fin 2) = 0
    ∧ (grid0.coords t 0).val = t.val / 16 ∧ (grid0.coords t 1).val = t.val % 16 :=
  (by decide +kernel : ∀ t : Fin grid0.N, _)

/-- The matrix the region reads, entry by entry. -/
def gOf (c : Dev nD) (p : Fin 8192) (k : Fin 512) : EReal := (V c main_v3 : S8192x512.Idx → EReal) (ix2 p k)

/-- Row r of the row block of point n is row 2048·(n / 16) + r of the matrix. -/
def rowIdx (n : ℕ) (r : Fin 2048) : Fin 8192 := ⟨(2048 * (n / 16) + r.val) % 8192, Nat.mod_lt _ (by norm_num)⟩

/-- The two input blocks of point t, at their literal shapes. -/
abbrev blkR (c : Dev nD) (t : Fin cfg0.N) : Vec Ideal S2048x512 .bf16 := iblk0 V c 0 t
abbrev blkC (c : Dev nD) (t : Fin cfg0.N) : Vec Ideal S512x512 .bf16 := iblk0 V c 1 t

theorem blkR_apply (c : Dev nD) (t : Fin cfg0.N) (r : Fin 2048) (k : Fin 512) :
    blkR V c t (ix2 r k) = gOf V c (rowIdx t.val r) k := by
  have hN : t.val < 64 := lt_of_lt_of_eq t.isLt (show cfg0.N = 64 from N_0)
  obtain ⟨e0, e1, -⟩ := idx_facts0 t
  unfold blkR iblk0 gOf
  rw [View.read_apply]
  show V c main_v3 _ = V c main_v3 _
  congr 1
  funext a; apply Fin.ext
  match a with
  | ⟨0, _⟩ =>
    show win0_0.index t (0 : Fin 2) * 2048 + 1 * r.val = (2048 * (t.val / 16) + r.val) % 8192
    have := r.isLt; omega
  | ⟨1, _⟩ =>
    show win0_0.index t (1 : Fin 2) * 512 + 1 * k.val = k.val
    omega

theorem blkC_apply (c : Dev nD) (t : Fin cfg0.N) (q : Fin 512) (k : Fin 512) :
    blkC V c t (ix2 q k) = gOf V c (colIdx (t.val % 16) q) k := by
  have hN : t.val < 64 := lt_of_lt_of_eq t.isLt (show cfg0.N = 64 from N_0)
  obtain ⟨-, -, e0, e1, -⟩ := idx_facts0 t
  unfold blkC iblk0 gOf
  rw [View.read_apply]
  show V c main_v3 _ = V c main_v3 _
  congr 1
  funext a; apply Fin.ext
  match a with
  | ⟨0, _⟩ =>
    show win0_1.index t (0 : Fin 2) * 512 + 1 * q.val = (512 * (t.val % 16) + q.val) % 8192
    have := q.isLt; omega
  | ⟨1, _⟩ =>
    show win0_1.index t (1 : Fin 2) * 512 + 1 * k.val = k.val
    omega

/-! ## What a point leaves, as the body's arithmetic of its two blocks -/

/-- What the body's update at point t starts from: the columns it has just reset at a first column block, what
    the point before left otherwise. -/
def prevM (t : Fin cfg0.N) (xs : Vec Ideal S2048x1 .f32 × Vec Ideal S2048x1 .f32) : Vec Ideal S2048x1 .f32 :=
  if t.val % 16 = 0 then k0_pay3 (F := Ideal) else xs.1
def prevL (t : Fin cfg0.N) (xs : Vec Ideal S2048x1 .f32 × Vec Ideal S2048x1 .f32) : Vec Ideal S2048x1 .f32 :=
  if t.val % 16 = 0 then k0_pay4 (F := Ideal) else xs.2

/-- In every case the carried buffers are left at the updated maximum and the updated sum. -/
theorem caseOut0_carried (c : Dev nD) (t : Fin cfg0.N) (xs : Vec Ideal S2048x1 .f32 × Vec Ideal S2048x1 .f32) :
    (caseOut0 V c t xs).2.2.1 = k0_pay6 (grid0.coords t) (blkR V c t) (blkC V c t) (prevM t xs)
    ∧ (caseOut0 V c t xs).2.2.2 = k0_pay7 (grid0.coords t) (blkR V c t) (blkC V c t) (prevM t xs) (prevM t xs) (prevL t xs) := by
  by_cases h0 : t.val % 16 = 0
  · have hM : prevM t xs = k0_pay3 (F := Ideal) := by unfold prevM; exact if_pos h0
    have hL : prevL t xs = k0_pay4 (F := Ideal) := by unfold prevL; exact if_pos h0
    rw [hM, hL]
    unfold caseOut0; rw [dif_pos h0]; dsimp only
    exact ⟨(sout0_A_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) _ _).trans (pay2_eq _),
      (sout0_A_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) _ _).trans (pay1_eq _)⟩
  · have hM : prevM t xs = xs.1 := by unfold prevM; exact if_neg h0
    have hL : prevL t xs = xs.2 := by unfold prevL; exact if_neg h0
    rw [hM, hL]
    by_cases h1 : t.val % 16 = 15
    · unfold caseOut0; rw [dif_neg h0, dif_pos h1]; dsimp only
      exact ⟨(sout0_C_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 _ _).trans (pay2_eq _),
        (sout0_C_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 _ _).trans (pay1_eq _)⟩
    · unfold caseOut0; rw [dif_neg h0, dif_neg h1]; dsimp only
      exact ⟨(sout0_B_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 _ _).trans (pay2_eq _),
        (sout0_B_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 _ _).trans (pay1_eq _)⟩

/-- At a last column block the two output blocks are left at what the carried buffers are left at. -/
theorem caseOut0_out (c : Dev nD) (t : Fin cfg0.N) (xs : Vec Ideal S2048x1 .f32 × Vec Ideal S2048x1 .f32) (h1 : t.val % 16 = 15) :
    (caseOut0 V c t xs).1 = (caseOut0 V c t xs).2.2.1 ∧ (caseOut0 V c t xs).2.1 = (caseOut0 V c t xs).2.2.2 := by
  have h0 : ¬t.val % 16 = 0 := by omega
  unfold caseOut0; rw [dif_neg h0, dif_pos h1]; dsimp only
  exact ⟨(out0_C_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 _ _).trans
      (sout0_C_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 _ _).symm,
    (out0_C_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 _ _).trans
      (sout0_C_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs.1 xs.2 _ _).symm⟩

/-! ## The carried buffers follow the running statistics -/

/-- The block of similarities of point t is the similarity matrix of the whole matrix at the point's rows and columns. -/
theorem blockSim_eq (c : Dev nD) (t : Fin cfg0.N) (r : Fin 2048) (q : Fin 512) :
    blockSim (grid0.coords t) (blkR V c t) (blkC V c t) r q = simOf0 (gOf V c) (rowIdx t.val r) (colIdx (t.val % 16) q) := by
  have hN : t.val < 64 := lt_of_lt_of_eq t.isLt (show cfg0.N = 64 from N_0)
  obtain ⟨-, -, -, -, -, -, -, -, e0, e1⟩ := idx_facts0 t
  unfold blockSim simOf0
  have hcond : (2048 * (grid0.coords t 0).val + r.val = 512 * (grid0.coords t 1).val + q.val) ↔ rowIdx t.val r = colIdx (t.val % 16) q := by
    rw [Fin.ext_iff]
    show _ ↔ (2048 * (t.val / 16) + r.val) % 8192 = (512 * (t.val % 16) + q.val) % 8192
    have := r.isLt; have := q.isLt
    rw [e0, e1]; omega
  refine if_congr hcond rfl ?_
  refine congrArg (fun z => Ideal.div z (Ideal.ofBits .f32 0x3D8F5C29#32)) (Finset.sum_congr rfl fun k _ => ?_)
  rw [blkR_apply, blkC_apply]

/-- One point's update of row r, from what the update starts from. -/
theorem step_carried (c : Dev nD) (t : Fin cfg0.N) (xs : Vec Ideal S2048x1 .f32 × Vec Ideal S2048x1 .f32) (r : Fin 2048) :
    (caseOut0 V c t xs).2.2.1 (ix2 r 0)
      = max (prevM t xs (ix2 r 0)) (Finset.univ.fold max ⊥ fun q : Fin 512 => simOf0 (gOf V c) (rowIdx t.val r) (colIdx (t.val % 16) q))
    ∧ (caseOut0 V c t xs).2.2.2 (ix2 r 0)
      = prevL t xs (ix2 r 0) * Ideal.exp (prevM t xs (ix2 r 0) - (caseOut0 V c t xs).2.2.1 (ix2 r 0))
        + (0 + ∑ q : Fin 512, Ideal.exp (simOf0 (gOf V c) (rowIdx t.val r) (colIdx (t.val % 16) q) - (caseOut0 V c t xs).2.2.1 (ix2 r 0))) := by
  obtain ⟨e6, e7⟩ := caseOut0_carried V c t xs
  rw [e6, e7]
  refine ⟨?_, ?_⟩
  · refine (pay6_apply (grid0.coords t) (blkR V c t) (blkC V c t) (prevM t xs) r).trans ?_
    exact congrArg (fun f => max (prevM t xs (ix2 r 0)) (Finset.univ.fold max (⊥ : EReal) f)) (funext fun q => blockSim_eq V c t r q)
  · refine (pay7_apply (grid0.coords t) (blkR V c t) (blkC V c t) (prevM t xs) (prevL t xs) r).trans ?_
    exact congrArg (fun z => prevL t xs (ix2 r 0) * Ideal.exp (prevM t xs (ix2 r 0) - k0_pay6 (grid0.coords t) (blkR V c t) (blkC V c t) (prevM t xs) (ix2 r 0)) + (0 + z))
      (Finset.sum_congr rfl fun q _ => by rw [blockSim_eq V c t r q])

/-- If the update at point t starts from the running statistics of the row after the column blocks before the
    point's, it leaves them after the point's. -/
theorem step_run (c : Dev nD) (t : Fin cfg0.N) (xs : Vec Ideal S2048x1 .f32 × Vec Ideal S2048x1 .f32) (r : Fin 2048)
    (hM : prevM t xs (ix2 r 0) = runM (gOf V c) (rowIdx t.val r) (t.val % 16))
    (hL : prevL t xs (ix2 r 0) = runL (gOf V c) (rowIdx t.val r) (t.val % 16)) :
    (caseOut0 V c t xs).2.2.1 (ix2 r 0) = runM (gOf V c) (rowIdx t.val r) (t.val % 16 + 1)
    ∧ (caseOut0 V c t xs).2.2.2 (ix2 r 0) = runL (gOf V c) (rowIdx t.val r) (t.val % 16 + 1) := by
  obtain ⟨e1, e2⟩ := step_carried V c t xs r
  have h1 : (caseOut0 V c t xs).2.2.1 (ix2 r 0) = runM (gOf V c) (rowIdx t.val r) (t.val % 16 + 1) := by
    rw [e1, hM, runM_succ]
  refine ⟨h1, ?_⟩
  rw [e2, h1, hM, hL, runL_succ]

/-- At a first column block the update starts from −∞ and zero: the running statistics after no column block. -/
theorem prev_first (t : Fin cfg0.N) (xs : Vec Ideal S2048x1 .f32 × Vec Ideal S2048x1 .f32) (r : Fin 2048)
    (g : Fin 8192 → Fin 512 → EReal) (p : Fin 8192) (h0 : t.val % 16 = 0) :
    prevM t xs (ix2 r 0) = runM g p (t.val % 16) ∧ prevL t xs (ix2 r 0) = runL g p (t.val % 16) := by
  unfold prevM prevL
  rw [if_pos h0, if_pos h0, pay3_apply, pay4_apply, h0]
  exact ⟨rfl, rfl⟩

/-- THE INVARIANT: after point n the carried buffers hold, at row r, the running maximum and the running sum of
    row 2048·(n / 16) + r of the similarity matrix after the column blocks 0 … n % 16. -/
theorem carried_eq (c : Dev nD) : ∀ (n : ℕ) (h : n < cfg0.N) (r : Fin 2048),
    (outsAt0 V c n h).2.2.1 (ix2 r 0) = runM (gOf V c) (rowIdx n r) (n % 16 + 1)
    ∧ (outsAt0 V c n h).2.2.2 (ix2 r 0) = runL (gOf V c) (rowIdx n r) (n % 16 + 1) := by
  intro n
  induction n with
  | zero =>
    intro h r
    obtain ⟨hM, hL⟩ := prev_first ⟨0, h⟩ (VS0_0.read (Elt Ideal) VS0_0.junk, VS0_1.read (Elt Ideal) VS0_1.junk) r (gOf V c) (rowIdx 0 r) rfl
    exact step_run V c ⟨0, h⟩ _ r hM hL
  | succ n ih =>
    intro h r
    obtain ⟨i1, i2⟩ := ih (Nat.lt_of_succ_lt h) r
    show (caseOut0 V c ⟨n + 1, h⟩ ((outsAt0 V c n (Nat.lt_of_succ_lt h)).2.2)).2.2.1 (ix2 r 0) = _
      ∧ (caseOut0 V c ⟨n + 1, h⟩ ((outsAt0 V c n (Nat.lt_of_succ_lt h)).2.2)).2.2.2 (ix2 r 0) = _
    by_cases h0 : (n + 1) % 16 = 0
    · obtain ⟨hM, hL⟩ := prev_first ⟨n + 1, h⟩ ((outsAt0 V c n (Nat.lt_of_succ_lt h)).2.2) r (gOf V c) (rowIdx (n + 1) r) h0
      exact step_run V c ⟨n + 1, h⟩ _ r hM hL
    · have hrow : rowIdx n r = rowIdx (n + 1) r := by
        refine Fin.ext ?_
        show (2048 * (n / 16) + r.val) % 8192 = (2048 * ((n + 1) / 16) + r.val) % 8192
        have : n / 16 = (n + 1) / 16 := by omega
        rw [this]
      have hcol : n % 16 + 1 = (n + 1) % 16 := by omega
      refine step_run V c ⟨n + 1, h⟩ _ r ?_ ?_
      · show prevM ⟨n + 1, h⟩ _ (ix2 r 0) = _
        unfold prevM
        rw [if_neg h0]
        show (outsAt0 V c n (Nat.lt_of_succ_lt h)).2.2.1 (ix2 r 0) = runM (gOf V c) (rowIdx (n + 1) r) ((n + 1) % 16)
        rw [i1, hrow, hcol]
      · show prevL ⟨n + 1, h⟩ _ (ix2 r 0) = _
        unfold prevL
        rw [if_neg h0]
        show (outsAt0 V c n (Nat.lt_of_succ_lt h)).2.2.2 (ix2 r 0) = runL (gOf V c) (rowIdx (n + 1) r) ((n + 1) % 16)
        rw [i2, hrow, hcol]

/-- What position n holds is some case's output. -/
theorem outsAt0_case (c : Dev nD) (t : Fin cfg0.N) : ∃ xs, outsAt0 V c t.val t.isLt = caseOut0 V c t xs := by
  by_cases hz : t.val = 0
  · exact ⟨_, outsAt0_zero V c t hz⟩
  · exact ⟨_, outsAt0_pos V c t hz⟩

/-- THE OUTPUT BLOCKS: at a last column block, for a real matrix, the two output blocks hold at row r the maximum
    and the sum of exponentials of row 2048·(t / 16) + r of the similarity matrix. -/
theorem outs_final (c : Dev nD) (hg : ∀ p k, ∃ x : ℝ, gOf V c p k = (x : EReal)) (t : Fin cfg0.N) (h15 : t.val % 16 = 15) (r : Fin 2048) :
    (outsAt0 V c t.val t.isLt).1 (ix2 r 0) = rowMaxOf0 (gOf V c) (rowIdx t.val r)
    ∧ (outsAt0 V c t.val t.isLt).2.1 (ix2 r 0) = rowSumOf0 (gOf V c) (rowIdx t.val r) := by
  obtain ⟨i1, i2⟩ := carried_eq V c t.val t.isLt r
  obtain ⟨xs, e⟩ := outsAt0_case V c t
  rw [e] at i1 i2 ⊢
  obtain ⟨o1, o2⟩ := caseOut0_out V c t xs h15
  obtain ⟨f1, f2⟩ := run_final (gOf V c) hg (rowIdx t.val r)
  rw [o1, o2, i1, i2, h15]
  exact ⟨f1, f2⟩

end Cert.KernelIdeal.Hand0
end
-- ==== Proof.K0Value.lean ====
/-
  The first kernel region, value side, part four: the two result arrays after the region. A last column block writes
  back, for its row block, every row's maximum and sum of exponentials; the four last column blocks cover the 8192
  rows; so for a real matrix the first result array ends holding the row maxima of the similarity matrix and the
  second its row sums of exponentials, in the reference's own formulas.
-/
import proofs.«113668_j72095321030692_1_alg».proof.Proof.K0ValueC
import proofs.«113668_j72095321030692_1_alg».proof.Proof.RefSpec

set_option maxRecDepth 16384

noncomputable section

namespace Cert.KernelIdeal.Hand0

open Cert.KernelIdeal Cert.KernelIdeal.Gen
open Idealize.ShloMosaic Idealize.ShloMosaic.TcCoe Idealize.ShloMosaic.ValueIdx
open Idealize.SL Idealize.SL.RA Idealize.SL.BI Idealize.SL.Sem
open Idealize.ShloMosaic.Pipeline (Dat Cfg Window)
open scoped BigOperators

variable (V : (c : Dev nD) → (b : Ref sig .tc) → Buf (Elt Ideal) ((c : Thread nD τ).loc b))
variable (q : Fin cfg0.W → PosShare TreeShare)

/-! ## The two result arrays -/

/-- The array of row maxima and the array of row sums of the similarity matrix, as contents of the two result arrays. -/
def maxArr (c : Dev nD) : S8192x1.Idx → EReal := fun i => rowMaxOf0 (gOf V c) (i 0)
def sumArr (c : Dev nD) : S8192x1.Idx → EReal := fun i => rowSumOf0 (gOf V c) (i 0)

/-- An index of the result array is in point t's block iff each coordinate is in the block's range on its axis. -/
theorem mem_blk0_2 (t : Fin cfg0.N) (i : S8192x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v6_0).slice (win0_2.rect t)).set ↔ _
  rw [View.set_slice_whole, Rect.mem_set_unit]
  exact Iff.rfl

/-- An index of the result array is in point t's block iff each coordinate is in the block's range on its axis. -/
theorem mem_blk0_3 (t : Fin cfg0.N) (i : S8192x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v6_1).slice (win0_3.rect t)).set ↔ _
  rw [View.set_slice_whole, Rect.mem_set_unit]
  exact Iff.rfl

/-! ## What a last column block writes back -/

theorem flushed0_2_eq (c : Dev nD) (hg : ∀ p k, ∃ x : ℝ, gOf V c p k = (x : EReal)) (t : Fin cfg0.N) (hf : (cfg0.win 2).flush t = true) :
    (dats0 V q c).flushed 2 t = ((cfg0.win 2).blk t).view.read (Elt Ideal) (maxArr V c) := by
  have h15 : t.val % 16 = 15 := (flush0_2 t).mp hf
  have hN : t.val < 64 := lt_of_lt_of_eq t.isLt (show cfg0.N = 64 from N_0)
  obtain ⟨-, -, -, -, e2, -, e3, -⟩ := idx_facts0 t
  show (cfg0.win 2).cut (grid0.coords t) ((dats0 V q c).after 2 t) = _
  rw [after0_2]
  funext y
  rw [View.read_apply]
  have hy0 : (y 0).val < 2048 := (y 0).isLt
  have hy1 : (y 1).val < 1 := (y 1).isLt
  obtain ⟨o1, o2⟩ := outs_final V c hg t h15 ⟨(y 0).val, hy0⟩
  show (outsAt0 V c t.val t.isLt).1 ((cfg0.win 2).xinj (grid0.coords t) y) = maxArr V c (((cfg0.win 2).blk t).view.emb y)
  have hx : ((cfg0.win 2).xinj (grid0.coords t) y : S2048x1.Idx) = ix2 (⟨(y 0).val, hy0⟩ : Fin 2048) (0 : Fin 1) := by
    funext a; apply Fin.ext
    match a with
    | ⟨0, _⟩ => rfl
    | ⟨1, _⟩ => show (y 1).val = 0; omega
  refine (congrArg (outsAt0 V c t.val t.isLt).1 hx).trans (o1.trans ?_)
  unfold maxArr
  refine congrArg (rowMaxOf0 (gOf V c)) (Fin.ext ?_)
  show (2048 * (t.val / 16) + (y 0).val) % 8192 = win0_2.index t (0 : Fin 2) * 2048 + 1 * (y 0).val
  rw [e2]; omega

theorem flushed0_3_eq (c : Dev nD) (hg : ∀ p k, ∃ x : ℝ, gOf V c p k = (x : EReal)) (t : Fin cfg0.N) (hf : (cfg0.win 3).flush t = true) :
    (dats0 V q c).flushed 3 t = ((cfg0.win 3).blk t).view.read (Elt Ideal) (sumArr V c) := by
  have h15 : t.val % 16 = 15 := (flush0_3 t).mp hf
  have hN : t.val < 64 := lt_of_lt_of_eq t.isLt (show cfg0.N = 64 from N_0)
  obtain ⟨-, -, -, -, e2, -, e3, -⟩ := idx_facts0 t
  show (cfg0.win 3).cut (grid0.coords t) ((dats0 V q c).after 3 t) = _
  rw [after0_3]
  funext y
  rw [View.read_apply]
  have hy0 : (y 0).val < 2048 := (y 0).isLt
  have hy1 : (y 1).val < 1 := (y 1).isLt
  obtain ⟨o1, o2⟩ := outs_final V c hg t h15 ⟨(y 0).val, hy0⟩
  show (outsAt0 V c t.val t.isLt).2.1 ((cfg0.win 3).xinj (grid0.coords t) y) = sumArr V c (((cfg0.win 3).blk t).view.emb y)
  have hx : ((cfg0.win 3).xinj (grid0.coords t) y : S2048x1.Idx) = ix2 (⟨(y 0).val, hy0⟩ : Fin 2048) (0 : Fin 1) := by
    funext a; apply Fin.ext
    match a with
    | ⟨0, _⟩ => rfl
    | ⟨1, _⟩ => show (y 1).val = 0; omega
  refine (congrArg (outsAt0 V c t.val t.isLt).2.1 hx).trans (o2.trans ?_)
  unfold sumArr
  refine congrArg (rowSumOf0 (gOf V c)) (Fin.ext ?_)
  show (2048 * (t.val / 16) + (y 0).val) % 8192 = win0_3.index t (0 : Fin 2) * 2048 + 1 * (y 0).val
  rw [e3]; omega

/-! ## The arrays after the region -/

/-- Every row of the result array is in the block of its row block's last point. -/
theorem cover0_2 (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 64 := N_0
  refine ⟨⟨16 * ((i 0).val / 2048) + 15, by rw [hN]; omega⟩, (flush0_2 _).mpr (by show (16 * ((i 0).val / 2048) + 15) % 16 = 15; omega), ?_⟩
  rw [mem_blk0_2]
  obtain ⟨-, -, -, -, e2, f2, e3, f3, -⟩ := idx_facts0 ⟨16 * ((i 0).val / 2048) + 15, by rw [hN]; omega⟩
  intro a
  match a with
  | ⟨0, _⟩ =>
    show win0_2.index _ (0 : Fin 2) * 2048 ≤ (i 0).val ∧ (i 0).val < win0_2.index _ (0 : Fin 2) * 2048 + 2048
    rw [e2]
    show (16 * ((i 0).val / 2048) + 15) / 16 * 2048 ≤ (i 0).val ∧ (i 0).val < (16 * ((i 0).val / 2048) + 15) / 16 * 2048 + 2048
    omega
  | ⟨1, _⟩ =>
    show win0_2.index _ (1 : Fin 2) * 1 ≤ (i 1).val ∧ (i 1).val < win0_2.index _ (1 : Fin 2) * 1 + 1
    rw [f2]
    omega

/-- Every row of the result array is in the block of its row block's last point. -/
theorem cover0_3 (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 64 := N_0
  refine ⟨⟨16 * ((i 0).val / 2048) + 15, by rw [hN]; omega⟩, (flush0_3 _).mpr (by show (16 * ((i 0).val / 2048) + 15) % 16 = 15; omega), ?_⟩
  rw [mem_blk0_3]
  obtain ⟨-, -, -, -, e2, f2, e3, f3, -⟩ := idx_facts0 ⟨16 * ((i 0).val / 2048) + 15, by rw [hN]; omega⟩
  intro a
  match a with
  | ⟨0, _⟩ =>
    show win0_3.index _ (0 : Fin 2) * 2048 ≤ (i 0).val ∧ (i 0).val < win0_3.index _ (0 : Fin 2) * 2048 + 2048
    rw [e3]
    show (16 * ((i 0).val / 2048) + 15) / 16 * 2048 ≤ (i 0).val ∧ (i 0).val < (16 * ((i 0).val / 2048) + 15) / 16 * 2048 + 2048
    omega
  | ⟨1, _⟩ =>
    show win0_3.index _ (1 : Fin 2) * 1 ≤ (i 1).val ∧ (i 1).val < win0_3.index _ (1 : Fin 2) * 1 + 1
    rw [f3]
    omega

/-- THE RESULT ARRAYS: for a real matrix the first ends holding every row's maximum, the second every row's sum of
    exponentials. -/
theorem final0_2 (c : Dev nD) (hg : ∀ p k, ∃ x : ℝ, gOf V c p k = (x : EReal)) : (dats0 V q c).arrAt 2 cfg0.N = maxArr V c :=
  (dats0 V q c).arrAt_eq_of_cover 2 (maxArr V c) (flushed0_2_eq V q c hg) cover0_2

theorem final0_3 (c : Dev nD) (hg : ∀ p k, ∃ x : ℝ, gOf V c p k = (x : EReal)) : (dats0 V q c).arrAt 3 cfg0.N = sumArr V c :=
  (dats0 V q c).arrAt_eq_of_cover 3 (sumArr V c) (flushed0_3_eq V q c hg) cover0_3

/-! ## The same, in the reference's formulas -/

/-- The matrix the region reads, as one array of the reference's shape. -/
abbrev gArr (c : Dev nD) : FVec Ideal Cert.RefSpec.SX .f32 := V c main_v3

theorem gOf_eq (c : Dev nD) : gOf V c = fun p k => gArr V c (ix2 p k) := rfl

theorem simOf0_spec (g : FVec Ideal Cert.RefSpec.SX .f32) (p q' : Fin 8192) :
    simOf0 (fun p k => g (ix2 p k)) p q' = Cert.RefSpec.simOf g p q' := rfl
theorem rowMaxOf0_spec (g : FVec Ideal Cert.RefSpec.SX .f32) (p : Fin 8192) :
    rowMaxOf0 (fun p k => g (ix2 p k)) p = Cert.RefSpec.rowMaxOf g p := rfl
theorem rowSumOf0_spec (g : FVec Ideal Cert.RefSpec.SX .f32) (p : Fin 8192) :
    rowSumOf0 (fun p k => g (ix2 p k)) p = Cert.RefSpec.rowSumOf g p := rfl

theorem maxArr_spec (c : Dev nD) : maxArr V c = fun i => Cert.RefSpec.rowMaxOf (gArr V c) (i 0) := rfl
theorem sumArr_spec (c : Dev nD) : sumArr V c = fun i => Cert.RefSpec.rowSumOf (gArr V c) (i 0) := rfl

/-- The result arrays in the reference's formulas, over the matrix the region reads with every entry real. -/
theorem final0_2_spec (c : Dev nD) (hg : ∀ (p : Fin 8192) (k : Fin 512), ∃ x : ℝ, gArr V c (ix2 p k) = (x : EReal)) :
    (dats0 V q c).arrAt 2 cfg0.N = (fun i : S8192x1.Idx => Cert.RefSpec.rowMaxOf (gArr V c) (i 0)) :=
  (final0_2 V q c hg).trans (maxArr_spec V c)

theorem final0_3_spec (c : Dev nD) (hg : ∀ (p : Fin 8192) (k : Fin 512), ∃ x : ℝ, gArr V c (ix2 p k) = (x : EReal)) :
    (dats0 V q c).arrAt 3 cfg0.N = (fun i : S8192x1.Idx => Cert.RefSpec.rowSumOf (gArr V c) (i 0)) :=
  (final0_3 V q c hg).trans (sumArr_spec V c)

end Cert.KernelIdeal.Hand0
end
-- ==== Proof.K1ValueA.lean ====
/-
  The second kernel region, value side, part one: in every case of the body (a first, a middle, the last column
  block of a row) the pieces its stores leave in the two carried accumulators and in the two output blocks, read
  back, are the body's arithmetic applied to the six input blocks and to what the accumulators held — zeros, at a
  first column block. Generic in the float instance.
-/
import proofs.«113668_j72095321030692_1_alg».proof.Proof.K1Frame
import Idealize.ShloMosaic.Lib.Pipeline.Value

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz1 : (![0, 0] : Fin 2 → Nat) = fun _ => 0 := funext fun a => by fin_cases a <;> rfl

section Cases
variable (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .i32) (harg4 : arg4.IsWhole) (arg5 : Memref sig .tc .vmem S1x512 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (x0 : Vec F S2048x512 .bf16) (x1 : Vec F S512x512 .bf16) (x2 : Vec F S2048x1 .i32) (x3 : Vec F S1x512 .i32) (x4 : Vec F S2048x1 .f32) (x5 : Vec F S2048x1 .f32)

/-! ## The pieces each case's stores leave are the payloads -/

/-- A first column block: the first accumulator is updated from the column of zeros the body has just stored. -/
theorem sout1_A_0_eq (hc0 : cond1_0 i) (hc1 : ¬cond1_1 i) :
    sout1_A_0 c i arg2 harg2 arg3 harg3 arg4 harg4 arg5 harg5 arg6 harg6 arg7 harg7 arg8 harg8 arg9 harg9 arg10 harg10 arg11 harg11 hc0 hc1 x0 x1 x2 x3 x4 x5 = k1_pay2 (k1_pay6 i) (k1_pay7 i x0 x1 x4 x5) (k1_pay8 x2) x3 k1_pay4 := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  sl_unfold_words
  rw [View.canon_cons_unit_zero (S := S2048x1) hz1, View.readCov_unit_zero (S := S2048x1) _ hz1]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x512) hz1, View.ld_unit_zero (S := S512x512) hz1, View.ld_unit_zero (S := S2048x1) hz1, View.ld_unit_zero (S := S1x512) hz1]

/-- A first column block: the second accumulator is updated from the column of zeros the body has just stored. -/
theorem sout1_A_1_eq (hc0 : cond1_0 i) (hc1 : ¬cond1_1 i) :
    sout1_A_1 c i arg2 harg2 arg3 harg3 arg4 harg4 arg5 harg5 arg6 harg6 arg7 harg7 arg8 harg8 arg9 harg9 arg10 harg10 arg11 harg11 hc0 hc1 x0 x1 x2 x3 x4 x5 = k1_pay3 (k1_pay6 i) (k1_pay8 x2) x3 k1_pay5 := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  sl_unfold_words
  rw [View.canon_cons_unit_zero (S := S2048x1) hz1, View.readCov_unit_zero (S := S2048x1) _ hz1]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x512) hz1, View.ld_unit_zero (S := S512x512) hz1, View.ld_unit_zero (S := S2048x1) hz1, View.ld_unit_zero (S := S1x512) hz1]

variable (xs0 xs1 : Vec F S2048x1 .f32)

/-- A middle column block: the first accumulator is updated from what the point before left. -/
theorem sout1_B_0_eq (hc0 : ¬cond1_0 i) (hc1 : ¬cond1_1 i) :
    sout1_B_0 c i arg2 harg2 arg3 harg3 arg4 harg4 arg5 harg5 arg6 harg6 arg7 harg7 arg8 harg8 arg9 harg9 arg10 harg10 arg11 harg11 hc0 hc1 x0 x1 x2 x3 x4 x5 xs0 xs1 = k1_pay2 (k1_pay6 i) (k1_pay7 i x0 x1 x4 x5) (k1_pay8 x2) x3 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_B
  dsimp only
  sl_unfold_words
  dsimp only
  rw [View.canon_unit_zero hz1]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x512) hz1, View.ld_unit_zero (S := S512x512) hz1, View.ld_unit_zero (S := S2048x1) hz1, View.ld_unit_zero (S := S1x512) hz1]

/-- A middle column block: the second accumulator is updated from what the point before left. -/
theorem sout1_B_1_eq (hc0 : ¬cond1_0 i) (hc1 : ¬cond1_1 i) :
    sout1_B_1 c i arg2 harg2 arg3 harg3 arg4 harg4 arg5 harg5 arg6 harg6 arg7 harg7 arg8 harg8 arg9 harg9 arg10 harg10 arg11 harg11 hc0 hc1 x0 x1 x2 x3 x4 x5 xs0 xs1 = k1_pay3 (k1_pay6 i) (k1_pay8 x2) x3 xs1 := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_B
  dsimp only
  sl_unfold_words
  dsimp only
  rw [View.canon_unit_zero hz1]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x512) hz1, View.ld_unit_zero (S := S512x512) hz1, View.ld_unit_zero (S := S2048x1) hz1, View.ld_unit_zero (S := S1x512) hz1]

/-- The last column block updates the first accumulator as a middle one does. -/
theorem sout1_C_0_eq (hc0 : ¬cond1_0 i) (hc1 : cond1_1 i) :
    sout1_C_0 c i arg2 harg2 arg3 harg3 arg4 harg4 arg5 harg5 arg6 harg6 arg7 harg7 arg8 harg8 arg9 harg9 arg10 harg10 arg11 harg11 hc0 hc1 x0 x1 x2 x3 x4 x5 xs0 xs1 = k1_pay2 (k1_pay6 i) (k1_pay7 i x0 x1 x4 x5) (k1_pay8 x2) x3 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  sl_unfold_words
  dsimp only
  rw [View.canon_unit_zero hz1]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x512) hz1, View.ld_unit_zero (S := S512x512) hz1, View.ld_unit_zero (S := S2048x1) hz1, View.ld_unit_zero (S := S1x512) hz1]

/-- The last column block updates the second accumulator as a middle one does. -/
theorem sout1_C_1_eq (hc0 : ¬cond1_0 i) (hc1 : cond1_1 i) :
    sout1_C_1 c i arg2 harg2 arg3 harg3 arg4 harg4 arg5 harg5 arg6 harg6 arg7 harg7 arg8 harg8 arg9 harg9 arg10 harg10 arg11 harg11 hc0 hc1 x0 x1 x2 x3 x4 x5 xs0 xs1 = k1_pay3 (k1_pay6 i) (k1_pay8 x2) x3 xs1 := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  sl_unfold_words
  dsimp only
  rw [View.canon_unit_zero hz1]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x512) hz1, View.ld_unit_zero (S := S512x512) hz1, View.ld_unit_zero (S := S2048x1) hz1, View.ld_unit_zero (S := S1x512) hz1]

/-- The last column block copies the updated first accumulator to the first output block. -/
theorem out1_C_6_eq (hc0 : ¬cond1_0 i) (hc1 : cond1_1 i) :
    out1_C_6 c i arg2 harg2 arg3 harg3 arg4 harg4 arg5 harg5 arg6 harg6 arg7 harg7 arg8 harg8 arg9 harg9 arg10 harg10 arg11 harg11 hc0 hc1 x0 x1 x2 x3 x4 x5 xs0 xs1 = k1_pay2 (k1_pay6 i) (k1_pay7 i x0 x1 x4 x5) (k1_pay8 x2) x3 xs0 := by
  unfold out1_C_6
  rw [View.read_writes_eq_canon _ _ _ (cover1_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  sl_unfold_words
  dsimp only
  rw [View.canon_unit_zero hz1, View.readCov_unit_zero (S := S2048x1) _ hz1]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x512) hz1, View.ld_unit_zero (S := S512x512) hz1, View.ld_unit_zero (S := S2048x1) hz1, View.ld_unit_zero (S := S1x512) hz1]

/-- The last column block copies the updated second accumulator to the second output block. -/
theorem out1_C_7_eq (hc0 : ¬cond1_0 i) (hc1 : cond1_1 i) :
    out1_C_7 c i arg2 harg2 arg3 harg3 arg4 harg4 arg5 harg5 arg6 harg6 arg7 harg7 arg8 harg8 arg9 harg9 arg10 harg10 arg11 harg11 hc0 hc1 x0 x1 x2 x3 x4 x5 xs0 xs1 = k1_pay3 (k1_pay6 i) (k1_pay8 x2) x3 xs1 := by
  unfold out1_C_7
  rw [View.read_writes_eq_canon _ _ _ (cover1_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  sl_unfold_words
  dsimp only
  rw [View.canon_unit_zero hz1, View.readCov_unit_zero (S := S2048x1) _ hz1]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x512) hz1, View.ld_unit_zero (S := S512x512) hz1, View.ld_unit_zero (S := S2048x1) hz1, View.ld_unit_zero (S := S1x512) hz1]

end Cases
end Cert.KernelIdeal.Hand1
end
-- ==== Proof.K1ValueB.lean ====
/-
  The second kernel region, value side, part two: the body's arithmetic read at an index, on the extended reals.
  For row r of the row block and column q of the column block: the similarity is the scaled inner product of row r
  of the first operand and row q of the second, replaced by a large negative constant where the two rows are the
  same sample; the log-probability subtracts the row's log-sum-exp; the first accumulator adds, over the columns
  whose label equals the row's and that are not the row's own sample, the log-probability times the squared
  complement of its exponential; the second accumulator counts those columns.
-/
import proofs.«113668_j72095321030692_1_alg».proof.Proof.Gen.KernelIdeal.Skeleton
import proofs.«113668_j72095321030692_1_alg».proof.Proof.LibRowReductions
import proofs.«113668_j72095321030692_1_alg».proof.Proof.LibBlockReads
import Idealize.ShloMosaic.Lib.Pipeline.Value
import Idealize.ShloMosaic.Lib.ValueIdx

set_option maxRecDepth 16384

noncomputable section

open scoped BigOperators

namespace Cert.KernelIdeal.Hand1

open Cert.KernelIdeal Cert.KernelIdeal.Gen
open Idealize.ShloMosaic Idealize.ShloMosaic.ValueIdx
open Cert.Lib.RowReductions Cert.Lib.BlockReads

/-! ## Words -/

/-- The two global sample numbers, computed in 32-bit words from a block coordinate and a position inside the
    block, are equal words exactly when they are equal numbers: nothing wraps below 8192. -/
theorem diag_bit (a b r k : ℕ) (ha : a < 4) (hb : b < 16) (hr : r < 2048) (hk : k < 512) :
    IntOp.cmpi .eq (IntOp.addi (Scalar.muli (BitVec.ofNat 32 a) 2048#32) (BitVec.ofNat 32 r))
        (IntOp.addi (Scalar.muli (BitVec.ofNat 32 b) 512#32) (BitVec.ofNat 32 k))
      = BitVec.ofBool (decide (2048 * a + r = 512 * b + k)) := by
  unfold IntOp.cmpi
  congr 1
  show (_ == _) = decide _
  rw [Bool.eq_iff_iff]
  simp only [beq_iff_eq, decide_eq_true_eq]
  constructor
  · intro h
    have := congrArg BitVec.toNat h
    simp only [IntOp.addi, Scalar.muli, IntOp.muli, BitVec.toNat_add, BitVec.toNat_mul, BitVec.toNat_ofNat] at this
    omega
  · intro h
    apply BitVec.eq_of_toNat_eq
    simp only [IntOp.addi, Scalar.muli, IntOp.muli, BitVec.toNat_add, BitVec.toNat_mul, BitVec.toNat_ofNat]
    omega

/-- The conjunction of an equality bit with the complement of a bit. -/
theorem mask_bit (u v : BitVec 32) (d : Bool) :
    IntOp.andi (IntOp.cmpi .eq u v) (IntOp.xori (BitVec.ofBool d) 1#1) = BitVec.ofBool (decide (u = v ∧ ¬d = true)) := by
  unfold IntOp.cmpi IntOp.andi IntOp.xori
  by_cases h : u = v
  · cases d <;> simp [h]
  · have hf : (u == v) = false := beq_eq_false_iff_ne.mpr h
    cases d <;> simp [h, hf]

/-- A select on a decided bit is the conditional. -/
theorem select_ofBool {α : Type} (p : Prop) [Decidable p] (A B : α) :
    Scalar.select (BitVec.ofBool (decide p)) A B = if p then A else B := by
  unfold Scalar.select
  by_cases h : p <;> simp [h]

/-- A decided bit, widened and read as a signed integer, is 1 or 0. -/
theorem sitofp_ofBool (p : Prop) [Decidable p] :
    (FloatOps.sitofp (F := Ideal) .f32 ((BitVec.ofBool (decide p)).setWidth 32) : EReal) = (((if p then 1 else 0 : ℝ)) : EReal) := by
  by_cases h : p <;> simp [h, FloatOps.sitofp]

/-! ## The block quantities -/

section Block
variable (i : grid1.Coords) (x0 : Vec Ideal S2048x512 .bf16) (x1 : Vec Ideal S512x512 .bf16)
  (x2 : Vec Ideal S2048x1 .i32) (x3 : Vec Ideal S1x512 .i32) (x4 x5 : Vec Ideal S2048x1 .f32)

/-- Row r of row block i₀ and column q of column block i₁ are the same sample. -/
abbrev onDiag (r : Fin 2048) (q : Fin 512) : Prop := 2048 * (i 0).val + r.val = 512 * (i 1).val + q.val

/-- The similarity of row r and column q: the inner product of the two feature rows over the temperature,
    a large negative constant in place of a sample's similarity with itself. -/
def blockSim (r : Fin 2048) (q : Fin 512) : EReal :=
  if onDiag i r q then Ideal.ofBits .f32 0xC61C4000#32
  else Ideal.div (∑ k : Fin 512, x0 (ix2 r k) * x1 (ix2 q k)) (Ideal.ofBits .f32 0x3D8F5C29#32)

/-- Column q is a positive of row r: the same label, another sample. -/
abbrev blockMask (r : Fin 2048) (q : Fin 512) : Prop := x2 (ix2 r 0) = x3 (ix2 0 q) ∧ ¬onDiag i r q

/-- The log-probability of column q in row r: the similarity less the row's maximum and log of its sum. -/
def blockLp (r : Fin 2048) (q : Fin 512) : EReal :=
  blockSim i x0 x1 r q - (x4 (ix2 r 0) + Ideal.log (x5 (ix2 r 0)))

/-- One less the probability. -/
def blockD (r : Fin 2048) (q : Fin 512) : EReal :=
  Ideal.ofBits .f32 0x3F800000#32 - Ideal.exp (blockLp i x0 x1 x4 x5 r q)

/-- The summand of the first accumulator. -/
def blockTerm (r : Fin 2048) (q : Fin 512) : EReal :=
  (blockLp i x0 x1 x4 x5 r q * blockD i x0 x1 x4 x5 r q) * blockD i x0 x1 x4 x5 r q

/-! ## The payloads at an index -/

/-- The diagonal bit of the block at (r, q). -/
theorem pay6_apply (r : Fin 2048) (q : Fin 512) : k1_pay6 i (ix2 r q) = BitVec.ofBool (decide (onDiag i r q)) := by
  unfold k1_pay6
  dsimp only
  show IntOp.cmpi .eq (IntOp.addi (Scalar.muli (BitVec.ofNat 32 (i 0).val) 2048#32) (iota .tc S2048x512 32 [0] iota_S2048x512_d0_w32 (ix2 r q)))
    (IntOp.addi (Scalar.muli (BitVec.ofNat 32 (i 1).val) 512#32) (iota .tc S2048x512 32 [1] iota_S2048x512_d1_w32 (ix2 r q))) = _
  rw [iota_single_apply, iota_single_apply]
  exact diag_bit (i 0).val (i 1).val r.val q.val (i 0).isLt (i 1).isLt r.isLt q.isLt

/-- The positive-pair bit of the block at (r, q), over any diagonal bits. -/
theorem pay1_apply (v19 : IVec S2048x512 1) (r : Fin 2048) (q : Fin 512) :
    k1_pay1 v19 (k1_pay8 x2) x3 (ix2 r q)
      = IntOp.andi (IntOp.cmpi .eq (x2 (ix2 r 0)) (x3 (ix2 0 q))) (IntOp.xori (v19 (ix2 r q)) 1#1) := by
  unfold k1_pay1 k1_pay8
  dsimp only
  show IntOp.andi (IntOp.cmpi .eq (broadcastTo S2048x512 (shapeCast S2048x1 x2 shapeCasts_S2048x1_S2048x1) broadcasts_S2048x1_S2048x512 (ix2 r q))
      (broadcastTo S2048x512 (shapeCast S1x512 x3 shapeCasts_S1x512_S1x512) broadcasts_S1x512_S2048x512 (ix2 r q)))
    (IntOp.xori (v19 (ix2 r q)) 1#1) = _
  rw [broadcast_col_apply, broadcast_row_apply, shapeCast_self, shapeCast_self]

/-- With the block's own diagonal bits it is the bit of `blockMask`. -/
theorem pay1_mask (r : Fin 2048) (q : Fin 512) :
    k1_pay1 (k1_pay6 i) (k1_pay8 x2) x3 (ix2 r q) = BitVec.ofBool (decide (blockMask i x2 x3 r q)) := by
  rw [pay1_apply, pay6_apply]
  exact (mask_bit _ _ _).trans (by simp only [decide_eq_true_eq])

/-- The scaled inner products of the block at (r, q). -/
theorem matmul_apply_rq (r : Fin 2048) (q : Fin 512) :
    matmul (F := Ideal) (φ₁ := .bf16) (φ₂ := .bf16) dot_S2048x512_S512x512_S2048x512_1_0_0_1_n_n none x0
        (transpose S512x512 [1, 0] x1 transposes_S512x512_p1_0_S512x512)
        (constant (F := Ideal) S2048x512 .f32 0x00000000#32) (ix2 r q)
      = ∑ k : Fin 512, x0 (ix2 r k) * x1 (ix2 q k) := by
  refine (matmul_zero_rows_apply _ rfl rfl rfl rfl rfl rfl none _ _ r q).trans ?_
  refine Finset.sum_congr rfl fun k _ => ?_
  congr 1
  exact transpose_apply _ _ _ _ (ix2 q k) (fun b => by match b with | ⟨0, _⟩ => rfl | ⟨1, _⟩ => rfl)

theorem exp_apply' {s : Shape} {φ : FTy} (a : FVec Ideal s φ) (j : s.Idx) : exp a j = Ideal.exp (a j) := rfl
theorem log_apply' {s : Shape} {φ : FTy} (a : FVec Ideal s φ) (j : s.Idx) : log a j = Ideal.log (a j) := rfl

/-- The first accumulator's summand before masking, at (r, q). -/
theorem pay7_apply (r : Fin 2048) (q : Fin 512) : k1_pay7 i x0 x1 x4 x5 (ix2 r q) = blockTerm i x0 x1 x4 x5 r q := by
  unfold k1_pay7
  dsimp only
  simp only [mulf_apply, subf_apply, divf_apply, addf_apply, select_apply, broadcast_apply, exp_apply', log_apply', pay6_apply, select_ofBool, broadcast_col_apply, shapeCast_self]
  unfold blockTerm blockD blockLp blockSim
  rw [matmul_apply_rq x0 x1 r q]
  rfl

/-- The column of zeros a first column block stores into either accumulator. -/
theorem pay4_apply (j : S2048x1.Idx) : k1_pay4 (F := Ideal) j = 0 := by
  unfold k1_pay4
  rw [shapeCast_self]
  exact Ideal.ofBits_zero_f32

theorem pay5_apply (j : S2048x1.Idx) : k1_pay5 (F := Ideal) j = 0 := by
  unfold k1_pay5
  rw [shapeCast_self]
  exact Ideal.ofBits_zero_f32

/-- THE FIRST ACCUMULATOR after a column block, at row r: what it held plus the sum, over the block's columns that
    are positives of row r, of the masked summand. -/
theorem pay2_apply (a : Vec Ideal S2048x1 .f32) (r : Fin 2048) :
    k1_pay2 (k1_pay6 i) (k1_pay7 i x0 x1 x4 x5) (k1_pay8 x2) x3 a (ix2 r 0)
      = a (ix2 r 0) + ∑ q : Fin 512, if blockMask i x2 x3 r q then blockTerm i x0 x1 x4 x5 r q else 0 := by
  unfold k1_pay2
  dsimp only
  simp only [shapeCast_self, addf_apply]
  congr 1
  refine (shapeCast_col_apply _ _ r).trans ?_
  refine (rowsum_apply _ _ _ _ _ r).trans ?_
  refine Finset.sum_congr rfl fun q _ => ?_
  rw [select_apply, pay1_mask, select_ofBool, pay7_apply, broadcast_apply]
  exact if_congr Iff.rfl rfl Ideal.ofBits_zero_f32

/-- THE SECOND ACCUMULATOR after a column block, at row r: what it held plus the number of the block's columns
    that are positives of row r. -/
theorem pay3_apply (a : Vec Ideal S2048x1 .f32) (r : Fin 2048) :
    k1_pay3 (k1_pay6 i) (k1_pay8 x2) x3 a (ix2 r 0)
      = a (ix2 r 0) + ∑ q : Fin 512, (((if blockMask i x2 x3 r q then 1 else 0 : ℝ)) : EReal) := by
  unfold k1_pay3
  dsimp only
  simp only [shapeCast_self, addf_apply]
  congr 1
  refine (shapeCast_col_apply _ _ r).trans ?_
  refine (rowsum_apply _ _ _ _ _ r).trans ?_
  refine Finset.sum_congr rfl fun q _ => ?_
  rw [sitofp_apply, extui_apply, pay1_mask]
  exact sitofp_ofBool _

end Block

end Cert.KernelIdeal.Hand1
end
-- ==== Proof.K1ValueC.lean ====
/-
  The second kernel region, value side, part three: a block's quantities are the whole arrays' quantities at the
  block's rows and columns. Row r of row block b is sample 2048·b + r, column q of column block j is sample
  512·j + q; with the six input blocks read off the whole arrays at those samples, the block similarity, the
  positive-pair condition and the summand are the global ones, and so are the sums over a block's columns.
-/
import proofs.«113668_j72095321030692_1_alg».proof.Proof.K1ValueB
import proofs.«113668_j72095321030692_1_alg».proof.Proof.RefSpec

set_option maxRecDepth 16384

noncomputable section

open scoped BigOperators

namespace Cert.KernelIdeal.Hand1

open Cert.KernelIdeal Cert.KernelIdeal.Gen
open Idealize.ShloMosaic Idealize.ShloMosaic.ValueIdx
open Cert.RefSpec (simOf)

/-- Sample number of row r of row block b (reduced below the number of samples, which changes nothing for b < 4). -/
abbrev rowOf (b : ℕ) (r : Fin 2048) : Fin 8192 := ⟨(2048 * b + r.val) % 8192, Nat.mod_lt _ (by decide)⟩
/-- Sample number of column q of column block j (likewise, for j < 16). -/
abbrev colOf (j : ℕ) (q : Fin 512) : Fin 8192 := ⟨(512 * j + q.val) % 8192, Nat.mod_lt _ (by decide)⟩

section Global
variable (g : FVec Ideal S8192x512 .f32) (labR : IVec S8192x1 32) (labC : IVec S1x8192 32)
  (mx lx : FVec Ideal S8192x1 .f32)

/-- Sample q is a positive of sample p: the same label (read off the column of labels for p, off the row of labels
    for q), another sample. -/
def maskOf (p q : Fin 8192) : Prop := labR (ix2 p 0) = labC (ix2 0 q) ∧ p ≠ q

instance (p q : Fin 8192) : Decidable (maskOf labR labC p q) := inferInstanceAs (Decidable (_ ∧ _))

/-- The log-probability of q for p, from the row's maximum and sum of exponentials. -/
def lpK (p q : Fin 8192) : EReal := simOf g p q - (mx (ix2 p 0) + Ideal.log (lx (ix2 p 0)))

/-- A pair's contribution: the log-probability times the square of one less the probability. -/
def perPairK (p q : Fin 8192) : EReal :=
  (lpK g mx lx p q * (Ideal.ofBits .f32 0x3F800000#32 - Ideal.exp (lpK g mx lx p q)))
    * (Ideal.ofBits .f32 0x3F800000#32 - Ideal.exp (lpK g mx lx p q))

/-- The summand of a row's total. -/
def posTerm (p q : Fin 8192) : EReal := if maskOf labR labC p q then perPairK g mx lx p q else 0
/-- The summand of a row's count. -/
def cntTerm (p q : Fin 8192) : EReal := (((if maskOf labR labC p q then 1 else 0 : ℝ)) : EReal)

variable (i : grid1.Coords) (b j : ℕ) (hb : b < 4) (hj : j < 16) (hi0 : (i 0).val = b) (hi1 : (i 1).val = j)
  (x0 : Vec Ideal S2048x512 .bf16) (x1 : Vec Ideal S512x512 .bf16)
  (x2 : Vec Ideal S2048x1 .i32) (x3 : Vec Ideal S1x512 .i32) (x4 x5 : Vec Ideal S2048x1 .f32)
  (h0 : ∀ (r : Fin 2048) (k : Fin 512), x0 (ix2 r k) = g (ix2 (rowOf b r) k))
  (h1 : ∀ (q : Fin 512) (k : Fin 512), x1 (ix2 q k) = g (ix2 (colOf j q) k))
  (h2 : ∀ r : Fin 2048, x2 (ix2 r 0) = labR (ix2 (rowOf b r) 0))
  (h3 : ∀ q : Fin 512, x3 (ix2 0 q) = labC (ix2 0 (colOf j q)))
  (h4 : ∀ r : Fin 2048, x4 (ix2 r 0) = mx (ix2 (rowOf b r) 0))
  (h5 : ∀ r : Fin 2048, x5 (ix2 r 0) = lx (ix2 (rowOf b r) 0))

include hb hj hi0 hi1 in
/-- The block's diagonal is the global one. -/
theorem onDiag_iff (r : Fin 2048) (q : Fin 512) : onDiag i r q ↔ rowOf b r = colOf j q := by
  unfold onDiag
  rw [hi0, hi1, Fin.ext_iff]
  show _ ↔ (2048 * b + r.val) % 8192 = (512 * j + q.val) % 8192
  have := r.isLt; have := q.isLt
  omega

include hb hj hi0 hi1 h0 h1 in
theorem blockSim_eq (r : Fin 2048) (q : Fin 512) : blockSim i x0 x1 r q = simOf g (rowOf b r) (colOf j q) := by
  unfold blockSim simOf
  refine if_congr (onDiag_iff i b j hb hj hi0 hi1 r q) rfl ?_
  refine congrArg (fun s => Ideal.div s _) (Finset.sum_congr rfl fun k _ => ?_)
  rw [h0, h1]

include hb hj hi0 hi1 h2 h3 in
theorem blockMask_iff (r : Fin 2048) (q : Fin 512) : blockMask i x2 x3 r q ↔ maskOf labR labC (rowOf b r) (colOf j q) := by
  unfold blockMask maskOf
  rw [h2, h3, onDiag_iff i b j hb hj hi0 hi1 r q]

include hb hj hi0 hi1 h0 h1 h4 h5 in
theorem blockTerm_eq (r : Fin 2048) (q : Fin 512) : blockTerm i x0 x1 x4 x5 r q = perPairK g mx lx (rowOf b r) (colOf j q) := by
  unfold blockTerm blockD blockLp perPairK lpK
  rw [blockSim_eq g i b j hb hj hi0 hi1 x0 x1 h0 h1 r q, h4, h5]

include hb hj hi0 hi1 h0 h1 h2 h3 h4 h5 in
/-- The first accumulator's block sum is the global summand over the block's columns. -/
theorem pos_block_sum (r : Fin 2048) :
    (∑ q : Fin 512, if blockMask i x2 x3 r q then blockTerm i x0 x1 x4 x5 r q else 0)
      = ∑ q : Fin 512, posTerm g labR labC mx lx (rowOf b r) (colOf j q) := by
  refine Finset.sum_congr rfl fun q _ => ?_
  unfold posTerm
  exact if_congr (blockMask_iff labR labC i b j hb hj hi0 hi1 x2 x3 h2 h3 r q)
    (blockTerm_eq g mx lx i b j hb hj hi0 hi1 x0 x1 x4 x5 h0 h1 h4 h5 r q) rfl

include hb hj hi0 hi1 h2 h3 in
/-- The second accumulator's block sum likewise. -/
theorem cnt_block_sum (r : Fin 2048) :
    (∑ q : Fin 512, (((if blockMask i x2 x3 r q then 1 else 0 : ℝ)) : EReal))
      = ∑ q : Fin 512, cntTerm labR labC (rowOf b r) (colOf j q) := by
  refine Finset.sum_congr rfl fun q _ => ?_
  unfold cntTerm
  exact congrArg (fun (x : ℝ) => (x : EReal)) (if_congr (blockMask_iff labR labC i b j hb hj hi0 hi1 x2 x3 h2 h3 r q) rfl rfl)

end Global

/-! ## Sixteen column blocks of 512 are the 8192 columns -/

/-- A sum over all samples, regrouped by column block. -/
theorem sum_cols (f : Fin 8192 → EReal) :
    ∑ q' : Fin 8192, f q' = ∑ j ∈ Finset.range 16, ∑ q : Fin 512, f (colOf j q) := by
  rw [← Fin.sum_univ_eq_sum_range (fun j => ∑ q : Fin 512, f (colOf j q)) 16]
  rw [← Fintype.sum_prod_type' (fun (j : Fin 16) (q : Fin 512) => f (colOf j.val q))]
  refine (Equiv.sum_comp (finProdFinEquiv (m := 16) (n := 512)) f).symm.trans ?_
  refine Finset.sum_congr rfl fun x _ => congrArg f (Fin.ext ?_)
  show x.2.val + 512 * x.1.val = (512 * x.1.val + x.2.val) % 8192
  have := x.1.isLt; have := x.2.isLt
  omega

end Cert.KernelIdeal.Hand1
end
-- ==== Proof.K1ValueD.lean ====
/-
  The second kernel region, value side, part four: the six input blocks at a grid point are the whole arrays read
  at the point's row block and column block, and — by induction on the point inside a row block — after the point
  at column block j the two carried accumulators hold, at each row of the row block, the sums over the column
  blocks 0 … j of the global summands.
-/
import proofs.«113668_j72095321030692_1_alg».proof.Proof.K1ValueA
import proofs.«113668_j72095321030692_1_alg».proof.Proof.K1ValueC

set_option maxRecDepth 16384

noncomputable section

open scoped BigOperators

namespace Cert.KernelIdeal.Hand1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The whole arrays, and where a point's blocks sit in them -/

/-- The normalised features, the labels as a column and as a row, the row maxima and row sums, as the region
    finds them. -/
abbrev gOf (c : Dev nD) : FVec Ideal S8192x512 .f32 := V c main_v3
abbrev labROf (c : Dev nD) : IVec S8192x1 32 := V c main_v4
abbrev labCOf (c : Dev nD) : IVec S1x8192 32 := V c main_v5
abbrev mxOf (c : Dev nD) : FVec Ideal S8192x1 .f32 := V c main_v6_0
abbrev lxOf (c : Dev nD) : FVec Ideal S8192x1 .f32 := V c main_v6_1

/-- The grid is four row blocks of sixteen column blocks, walked row block by row block. -/
theorem coords1_facts : ∀ t : Fin cfg1.N, (grid1.coords t 0).val = t.val / 16 ∧ (grid1.coords t 1).val = t.val % 16 :=
  (by decide +kernel : ∀ t : Fin grid1.N, (grid1.coords t 0).val = t.val / 16 ∧ (grid1.coords t 1).val = t.val % 16)

/-- The windows' block indices at a point: the row block for the windows that follow the rows, the column block
    for the two that follow the columns. -/
theorem idx1_facts : ∀ t : Fin cfg1.N,
    (win1_0.index t (0 : Fin 2) = t.val / 16 ∧ win1_0.index t (1 : Fin 2) = 0)
    ∧ (win1_1.index t (0 : Fin 2) = t.val % 16 ∧ win1_1.index t (1 : Fin 2) = 0)
    ∧ (win1_2.index t (0 : Fin 2) = t.val / 16 ∧ win1_2.index t (1 : Fin 2) = 0)
    ∧ (win1_3.index t (0 : Fin 2) = 0 ∧ win1_3.index t (1 : Fin 2) = t.val % 16)
    ∧ (win1_4.index t (0 : Fin 2) = t.val / 16 ∧ win1_4.index t (1 : Fin 2) = 0)
    ∧ (win1_5.index t (0 : Fin 2) = t.val / 16 ∧ win1_5.index t (1 : Fin 2) = 0)
    ∧ (win1_6.index t (0 : Fin 2) = t.val / 16 ∧ win1_6.index t (1 : Fin 2) = 0)
    ∧ (win1_7.index t (0 : Fin 2) = t.val / 16 ∧ win1_7.index t (1 : Fin 2) = 0) :=
  (by decide +kernel : ∀ t : Fin grid1.N, _)

/-- Rows of the first operand: row r of the block is sample 2048·(t/16) + r. -/
theorem iblk1_0_apply (c : Dev nD) (t : Fin cfg1.N) (r : Fin 2048) (k : Fin 512) :
    (iblk1 V c 0 t : Vec Ideal S2048x512 .bf16) (ix2 r k) = gOf V c (ix2 (rowOf (t.val / 16) r) k) := by
  have hN : t.val < 64 := lt_of_lt_of_eq t.isLt (show cfg1.N = 64 from N_1)
  obtain ⟨⟨e0, e1⟩, -⟩ := idx1_facts t
  unfold iblk1
  rw [View.read_apply]
  show V c main_v3 _ = V c main_v3 _
  congr 1
  funext a; apply Fin.ext
  match a with
  | ⟨0, _⟩ => show win1_0.index t (0 : Fin 2) * 2048 + 1 * r.val = (2048 * (t.val / 16) + r.val) % 8192; rw [e0]; have := r.isLt; omega
  | ⟨1, _⟩ => show win1_0.index t (1 : Fin 2) * 512 + 1 * k.val = k.val; rw [e1]; omega

/-- Rows of the second operand: row q of the block is sample 512·(t%16) + q. -/
theorem iblk1_1_apply (c : Dev nD) (t : Fin cfg1.N) (q : Fin 512) (k : Fin 512) :
    (iblk1 V c 1 t : Vec Ideal S512x512 .bf16) (ix2 q k) = gOf V c (ix2 (colOf (t.val % 16) q) k) := by
  have hN : t.val < 64 := lt_of_lt_of_eq t.isLt (show cfg1.N = 64 from N_1)
  obtain ⟨-, ⟨e0, e1⟩, -⟩ := idx1_facts t
  unfold iblk1
  rw [View.read_apply]
  show V c main_v3 _ = V c main_v3 _
  congr 1
  funext a; apply Fin.ext
  match a with
  | ⟨0, _⟩ => show win1_1.index t (0 : Fin 2) * 512 + 1 * q.val = (512 * (t.val % 16) + q.val) % 8192; rw [e0]; have := q.isLt; omega
  | ⟨1, _⟩ => show win1_1.index t (1 : Fin 2) * 512 + 1 * k.val = k.val; rw [e1]; omega

/-- The row labels of the block's rows. -/
theorem iblk1_2_apply (c : Dev nD) (t : Fin cfg1.N) (r : Fin 2048) :
    (iblk1 V c 2 t : Vec Ideal S2048x1 .i32) (ix2 r 0) = labROf V c (ix2 (rowOf (t.val / 16) r) 0) := by
  have hN : t.val < 64 := lt_of_lt_of_eq t.isLt (show cfg1.N = 64 from N_1)
  obtain ⟨-, -, ⟨e0, e1⟩, -⟩ := idx1_facts t
  unfold iblk1
  rw [View.read_apply]
  show V c main_v4 _ = V c main_v4 _
  congr 1
  funext a; apply Fin.ext
  match a with
  | ⟨0, _⟩ => show win1_2.index t (0 : Fin 2) * 2048 + 1 * r.val = (2048 * (t.val / 16) + r.val) % 8192; rw [e0]; have := r.isLt; omega
  | ⟨1, _⟩ => show win1_2.index t (1 : Fin 2) * 1 + 1 * 0 = 0; rw [e1]

/-- The column labels of the block's columns. -/
theorem iblk1_3_apply (c : Dev nD) (t : Fin cfg1.N) (q : Fin 512) :
    (iblk1 V c 3 t : Vec Ideal S1x512 .i32) (ix2 0 q) = labCOf V c (ix2 0 (colOf (t.val % 16) q)) := by
  have hN : t.val < 64 := lt_of_lt_of_eq t.isLt (show cfg1.N = 64 from N_1)
  obtain ⟨-, -, -, ⟨e0, e1⟩, -⟩ := idx1_facts t
  unfold iblk1
  rw [View.read_apply]
  show V c main_v5 _ = V c main_v5 _
  congr 1
  funext a; apply Fin.ext
  match a with
  | ⟨0, _⟩ => show win1_3.index t (0 : Fin 2) * 1 + 1 * 0 = 0; rw [e0]
  | ⟨1, _⟩ => show win1_3.index t (1 : Fin 2) * 512 + 1 * q.val = (512 * (t.val % 16) + q.val) % 8192; rw [e1]; have := q.isLt; omega

/-- The row maxima of the block's rows. -/
theorem iblk1_4_apply (c : Dev nD) (t : Fin cfg1.N) (r : Fin 2048) :
    (iblk1 V c 4 t : Vec Ideal S2048x1 .f32) (ix2 r 0) = mxOf V c (ix2 (rowOf (t.val / 16) r) 0) := by
  have hN : t.val < 64 := lt_of_lt_of_eq t.isLt (show cfg1.N = 64 from N_1)
  obtain ⟨-, -, -, -, ⟨e0, e1⟩, -⟩ := idx1_facts t
  unfold iblk1
  rw [View.read_apply]
  show V c main_v6_0 _ = V c main_v6_0 _
  congr 1
  funext a; apply Fin.ext
  match a with
  | ⟨0, _⟩ => show win1_4.index t (0 : Fin 2) * 2048 + 1 * r.val = (2048 * (t.val / 16) + r.val) % 8192; rw [e0]; have := r.isLt; omega
  | ⟨1, _⟩ => show win1_4.index t (1 : Fin 2) * 1 + 1 * 0 = 0; rw [e1]

/-- The row sums of the block's rows. -/
theorem iblk1_5_apply (c : Dev nD) (t : Fin cfg1.N) (r : Fin 2048) :
    (iblk1 V c 5 t : Vec Ideal S2048x1 .f32) (ix2 r 0) = lxOf V c (ix2 (rowOf (t.val / 16) r) 0) := by
  have hN : t.val < 64 := lt_of_lt_of_eq t.isLt (show cfg1.N = 64 from N_1)
  obtain ⟨-, -, -, -, -, ⟨e0, e1⟩, -⟩ := idx1_facts t
  unfold iblk1
  rw [View.read_apply]
  show V c main_v6_1 _ = V c main_v6_1 _
  congr 1
  funext a; apply Fin.ext
  match a with
  | ⟨0, _⟩ => show win1_5.index t (0 : Fin 2) * 2048 + 1 * r.val = (2048 * (t.val / 16) + r.val) % 8192; rw [e0]; have := r.isLt; omega
  | ⟨1, _⟩ => show win1_5.index t (1 : Fin 2) * 1 + 1 * 0 = 0; rw [e1]

/-! ## The carried accumulators, point by point -/

/-- A first column block: the accumulator restarts from zero, so it ends at the block's own sum. -/
theorem pos_step_A (c : Dev nD) (t : Fin cfg1.N) (h0 : t.val % 16 = 0) (r : Fin 2048) :
    (outsAt1 V c t.val t.isLt).2.2.1 (ix2 r 0)
      = ∑ q : Fin 512, posTerm (gOf V c) (labROf V c) (labCOf V c) (mxOf V c) (lxOf V c) (rowOf (t.val / 16) r) (colOf (t.val % 16) q) := by
  have hN : t.val < 64 := lt_of_lt_of_eq t.isLt (show cfg1.N = 64 from N_1)
  have h1 : ¬t.val % 16 = 15 := by omega
  obtain ⟨hc0', hc1'⟩ := coords1_facts t
  rw [outsAt1_A V c t h0 h1]
  dsimp only
  rw [sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (iblk1 V c 0 t) (iblk1 V c 1 t) (iblk1 V c 2 t) (iblk1 V c 3 t) (iblk1 V c 4 t) (iblk1 V c 5 t) ((hcond1_0 t).mpr h0) (fun h => h1 ((hcond1_1 t).mp h))]
  rw [pay2_apply (grid1.coords t) (iblk1 V c 0 t) (iblk1 V c 1 t) (iblk1 V c 2 t) (iblk1 V c 3 t) (iblk1 V c 4 t) (iblk1 V c 5 t) (k1_pay4 (F := Ideal)) r, pay4_apply, zero_add]
  exact pos_block_sum (gOf V c) (labROf V c) (labCOf V c) (mxOf V c) (lxOf V c) (grid1.coords t) (t.val / 16) (t.val % 16) (by omega) (by omega) hc0' hc1' (iblk1 V c 0 t) (iblk1 V c 1 t) (iblk1 V c 2 t) (iblk1 V c 3 t) (iblk1 V c 4 t) (iblk1 V c 5 t) (iblk1_0_apply V c t) (iblk1_1_apply V c t) (iblk1_2_apply V c t) (iblk1_3_apply V c t) (iblk1_4_apply V c t) (iblk1_5_apply V c t) r

/-- Any later column block adds its own sum to what the point before left. -/
theorem pos_step_B (c : Dev nD) (t : Fin cfg1.N) (h0 : ¬t.val % 16 = 0) (r : Fin 2048) :
    (outsAt1 V c t.val t.isLt).2.2.1 (ix2 r 0)
      = (outsAt1 V c (t.val - 1) (Nat.lt_of_le_of_lt (Nat.sub_le _ _) t.isLt)).2.2.1 (ix2 r 0)
        + ∑ q : Fin 512, posTerm (gOf V c) (labROf V c) (labCOf V c) (mxOf V c) (lxOf V c) (rowOf (t.val / 16) r) (colOf (t.val % 16) q) := by
  have hN : t.val < 64 := lt_of_lt_of_eq t.isLt (show cfg1.N = 64 from N_1)
  obtain ⟨hc0', hc1'⟩ := coords1_facts t
  by_cases h1 : t.val % 16 = 15
  · rw [outsAt1_C V c t h0 h1]
    dsimp only
    rw [sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1)]
    rw [pay2_apply (grid1.coords t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 r]
    exact congrArg (HAdd.hAdd _) (pos_block_sum (gOf V c) (labROf V c) (labCOf V c) (mxOf V c) (lxOf V c) (grid1.coords t) (t.val / 16) (t.val % 16) (by omega) (by omega) hc0' hc1' (iblk1 V c 0 t) (iblk1 V c 1 t) (iblk1 V c 2 t) (iblk1 V c 3 t) (iblk1 V c 4 t) (iblk1 V c 5 t) (iblk1_0_apply V c t) (iblk1_1_apply V c t) (iblk1_2_apply V c t) (iblk1_3_apply V c t) (iblk1_4_apply V c t) (iblk1_5_apply V c t) r)
  · rw [outsAt1_B V c t h0 h1]
    dsimp only
    rw [sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) (fun h => h1 ((hcond1_1 t).mp h))]
    rw [pay2_apply (grid1.coords t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 r]
    exact congrArg (HAdd.hAdd _) (pos_block_sum (gOf V c) (labROf V c) (labCOf V c) (mxOf V c) (lxOf V c) (grid1.coords t) (t.val / 16) (t.val % 16) (by omega) (by omega) hc0' hc1' (iblk1 V c 0 t) (iblk1 V c 1 t) (iblk1 V c 2 t) (iblk1 V c 3 t) (iblk1 V c 4 t) (iblk1 V c 5 t) (iblk1_0_apply V c t) (iblk1_1_apply V c t) (iblk1_2_apply V c t) (iblk1_3_apply V c t) (iblk1_4_apply V c t) (iblk1_5_apply V c t) r)

/-- After the point at column block j of a row block, the accumulator holds the sums of the column blocks 0 … j. -/
theorem pos_acc (c : Dev nD) : ∀ (n : ℕ) (h : n < cfg1.N) (r : Fin 2048),
    (outsAt1 V c n h).2.2.1 (ix2 r 0)
      = ∑ j ∈ Finset.range (n % 16 + 1), ∑ q : Fin 512, posTerm (gOf V c) (labROf V c) (labCOf V c) (mxOf V c) (lxOf V c) (rowOf (n / 16) r) (colOf j q) := by
  intro n
  induction n with
  | zero =>
    intro h r
    exact (pos_step_A V c ⟨0, h⟩ rfl r).trans (Finset.sum_range_one (fun j => ∑ q : Fin 512, posTerm (gOf V c) (labROf V c) (labCOf V c) (mxOf V c) (lxOf V c) (rowOf (0 / 16) r) (colOf j q))).symm
  | succ n ih =>
    intro h r
    by_cases h0 : (n + 1) % 16 = 0
    · refine (pos_step_A V c ⟨n + 1, h⟩ h0 r).trans ?_
      show _ = ∑ j ∈ Finset.range ((n + 1) % 16 + 1), _
      rw [h0]
      exact (Finset.sum_range_one (fun j => ∑ q : Fin 512, posTerm (gOf V c) (labROf V c) (labCOf V c) (mxOf V c) (lxOf V c) (rowOf ((n + 1) / 16) r) (colOf j q))).symm
    · refine ((pos_step_B V c ⟨n + 1, h⟩ h0 r).trans (congrArg (· + _) (ih (Nat.lt_of_succ_lt h) r))).trans ?_
      show (∑ j ∈ Finset.range (n % 16 + 1), ∑ q : Fin 512, posTerm (gOf V c) (labROf V c) (labCOf V c) (mxOf V c) (lxOf V c) (rowOf (n / 16) r) (colOf j q))
          + ∑ q : Fin 512, posTerm (gOf V c) (labROf V c) (labCOf V c) (mxOf V c) (lxOf V c) (rowOf ((n + 1) / 16) r) (colOf ((n + 1) % 16) q) = _
      rw [show n % 16 + 1 = (n + 1) % 16 from by omega, show n / 16 = (n + 1) / 16 from by omega, ← Finset.sum_range_succ]

/-- A first column block: the accumulator restarts from zero, so it ends at the block's own sum. -/
theorem cnt_step_A (c : Dev nD) (t : Fin cfg1.N) (h0 : t.val % 16 = 0) (r : Fin 2048) :
    (outsAt1 V c t.val t.isLt).2.2.2 (ix2 r 0)
      = ∑ q : Fin 512, cntTerm (labROf V c) (labCOf V c) (rowOf (t.val / 16) r) (colOf (t.val % 16) q) := by
  have hN : t.val < 64 := lt_of_lt_of_eq t.isLt (show cfg1.N = 64 from N_1)
  have h1 : ¬t.val % 16 = 15 := by omega
  obtain ⟨hc0', hc1'⟩ := coords1_facts t
  rw [outsAt1_A V c t h0 h1]
  dsimp only
  rw [sout1_A_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (iblk1 V c 0 t) (iblk1 V c 1 t) (iblk1 V c 2 t) (iblk1 V c 3 t) (iblk1 V c 4 t) (iblk1 V c 5 t) ((hcond1_0 t).mpr h0) (fun h => h1 ((hcond1_1 t).mp h))]
  rw [pay3_apply (grid1.coords t) (iblk1 V c 2 t) (iblk1 V c 3 t) (k1_pay5 (F := Ideal)) r, pay5_apply, zero_add]
  exact cnt_block_sum (labROf V c) (labCOf V c) (grid1.coords t) (t.val / 16) (t.val % 16) (by omega) (by omega) hc0' hc1' (iblk1 V c 2 t) (iblk1 V c 3 t) (iblk1_2_apply V c t) (iblk1_3_apply V c t) r

/-- Any later column block adds its own sum to what the point before left. -/
theorem cnt_step_B (c : Dev nD) (t : Fin cfg1.N) (h0 : ¬t.val % 16 = 0) (r : Fin 2048) :
    (outsAt1 V c t.val t.isLt).2.2.2 (ix2 r 0)
      = (outsAt1 V c (t.val - 1) (Nat.lt_of_le_of_lt (Nat.sub_le _ _) t.isLt)).2.2.2 (ix2 r 0)
        + ∑ q : Fin 512, cntTerm (labROf V c) (labCOf V c) (rowOf (t.val / 16) r) (colOf (t.val % 16) q) := by
  have hN : t.val < 64 := lt_of_lt_of_eq t.isLt (show cfg1.N = 64 from N_1)
  obtain ⟨hc0', hc1'⟩ := coords1_facts t
  by_cases h1 : t.val % 16 = 15
  · rw [outsAt1_C V c t h0 h1]
    dsimp only
    rw [sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1)]
    rw [pay3_apply (grid1.coords t) (iblk1 V c 2 t) (iblk1 V c 3 t) (outsAt1 V c (t.val - 1) (Nat.lt_of_le_of_lt (Nat.sub_le _ _) t.isLt)).2.2.2 r]
    exact congrArg (HAdd.hAdd _) (cnt_block_sum (labROf V c) (labCOf V c) (grid1.coords t) (t.val / 16) (t.val % 16) (by omega) (by omega) hc0' hc1' (iblk1 V c 2 t) (iblk1 V c 3 t) (iblk1_2_apply V c t) (iblk1_3_apply V c t) r)
  · rw [outsAt1_B V c t h0 h1]
    dsimp only
    rw [sout1_B_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) (fun h => h1 ((hcond1_1 t).mp h))]
    rw [pay3_apply (grid1.coords t) (iblk1 V c 2 t) (iblk1 V c 3 t) (outsAt1 V c (t.val - 1) (Nat.lt_of_le_of_lt (Nat.sub_le _ _) t.isLt)).2.2.2 r]
    exact congrArg (HAdd.hAdd _) (cnt_block_sum (labROf V c) (labCOf V c) (grid1.coords t) (t.val / 16) (t.val % 16) (by omega) (by omega) hc0' hc1' (iblk1 V c 2 t) (iblk1 V c 3 t) (iblk1_2_apply V c t) (iblk1_3_apply V c t) r)

/-- After the point at column block j of a row block, the accumulator holds the sums of the column blocks 0 … j. -/
theorem cnt_acc (c : Dev nD) : ∀ (n : ℕ) (h : n < cfg1.N) (r : Fin 2048),
    (outsAt1 V c n h).2.2.2 (ix2 r 0)
      = ∑ j ∈ Finset.range (n % 16 + 1), ∑ q : Fin 512, cntTerm (labROf V c) (labCOf V c) (rowOf (n / 16) r) (colOf j q) := by
  intro n
  induction n with
  | zero =>
    intro h r
    exact (cnt_step_A V c ⟨0, h⟩ rfl r).trans (Finset.sum_range_one (fun j => ∑ q : Fin 512, cntTerm (labROf V c) (labCOf V c) (rowOf (0 / 16) r) (colOf j q))).symm
  | succ n ih =>
    intro h r
    by_cases h0 : (n + 1) % 16 = 0
    · refine (cnt_step_A V c ⟨n + 1, h⟩ h0 r).trans ?_
      show _ = ∑ j ∈ Finset.range ((n + 1) % 16 + 1), _
      rw [h0]
      exact (Finset.sum_range_one (fun j => ∑ q : Fin 512, cntTerm (labROf V c) (labCOf V c) (rowOf ((n + 1) / 16) r) (colOf j q))).symm
    · refine ((cnt_step_B V c ⟨n + 1, h⟩ h0 r).trans (congrArg (· + _) (ih (Nat.lt_of_succ_lt h) r))).trans ?_
      show (∑ j ∈ Finset.range (n % 16 + 1), ∑ q : Fin 512, cntTerm (labROf V c) (labCOf V c) (rowOf (n / 16) r) (colOf j q))
          + ∑ q : Fin 512, cntTerm (labROf V c) (labCOf V c) (rowOf ((n + 1) / 16) r) (colOf ((n + 1) % 16) q) = _
      rw [show n % 16 + 1 = (n + 1) % 16 from by omega, show n / 16 = (n + 1) / 16 from by omega, ← Finset.sum_range_succ]

end Cert.KernelIdeal.Hand1
end
-- ==== Proof.K1ValueE.lean ====
/-
  The second kernel region, value side, part five: the two result arrays. The last column block of each row block
  copies the accumulators to the output blocks, which are written back there; the sixteen column blocks being all
  8192 columns, row p of the first result is the sum over every column q of the positive pairs' contributions and
  row p of the second the number of positive pairs.
-/
import proofs.«113668_j72095321030692_1_alg».proof.Proof.K1ValueD

set_option maxRecDepth 16384

noncomputable section

open scoped BigOperators

namespace Cert.KernelIdeal.Hand1

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable (V : (c : Dev nD) → (b : Ref sig .tc) → Buf (Elt Ideal) ((c : Thread nD τ).loc b))
variable (q : Fin 8 → PosShare TreeShare)

/-- Row p's total of the positive pairs' contributions, over all 8192 columns. -/
def posArr (c : Dev nD) : FVec Ideal S8192x1 .f32 := fun i => ∑ q' : Fin 8192, posTerm (gOf V c) (labROf V c) (labCOf V c) (mxOf V c) (lxOf V c) (i 0) q'

/-- At a row block's last column block the output block is the accumulator just updated. -/
theorem out6_eq_acc (c : Dev nD) (t : Fin cfg1.N) (h0 : ¬t.val % 16 = 0) (h1 : t.val % 16 = 15) (r : Fin 2048) :
    (outsAt1 V c t.val t.isLt).1 (ix2 r 0) = (outsAt1 V c t.val t.isLt).2.2.1 (ix2 r 0) := by
  rw [outsAt1_C V c t h0 h1]
  dsimp only
  rw [out1_C_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1),
    sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1)]

/-- What a row block's last point leaves in the output block, at a row, is the row's sum over all 8192 columns. -/
theorem out6_at (c : Dev nD) (t : Fin cfg1.N) (h1 : t.val % 16 = 15) (y : S2048x1.Idx) (p : S8192x1.Idx)
    (hp : (p 0).val = 2048 * (t.val / 16) + (y 0).val) :
    (outsAt1 V c t.val t.isLt).1 y = posArr V c p := by
  have hN : t.val < 64 := lt_of_lt_of_eq t.isLt (show cfg1.N = 64 from N_1)
  have h0 : ¬t.val % 16 = 0 := by omega
  obtain ⟨r, rfl⟩ : ∃ r : Fin 2048, y = ix2 r 0 :=
    ⟨y 0, funext fun a => by match a with | ⟨0, _⟩ => rfl | ⟨1, _⟩ => exact Fin.ext (by have h1 : (y 1).val < 1 := (y 1).isLt; show (y 1).val = 0; omega)⟩
  rw [out6_eq_acc V c t h0 h1 r, pos_acc V c t.val t.isLt r, h1]
  unfold posArr
  rw [sum_cols]
  have hr : rowOf (t.val / 16) r = p 0 := Fin.ext (by
    show (2048 * (t.val / 16) + r.val) % 8192 = (p 0).val
    rw [hp]; have := r.isLt; show _ = 2048 * (t.val / 16) + r.val; omega)
  rw [hr]

/-- What a flushing point writes back is its block of the row sums. -/
theorem flushed6_eq (c : Dev nD) (t : Fin cfg1.N) (hf : (cfg1.win 6).flush t = true) :
    (dats1 V q c).flushed 6 t = ((cfg1.win 6).blk t).view.read (Elt Ideal) (posArr V c) := by
  have h1 : t.val % 16 = 15 := (flush1_6 t).mp hf
  obtain ⟨-, -, -, -, -, -, ⟨e0, e1⟩, -⟩ := idx1_facts t
  show (cfg1.win 6).cut (grid1.coords t) ((dats1 V q c).after 6 t) = _
  rw [after1_6]
  funext y
  show (outsAt1 V c t.val t.isLt).1 y = posArr V c (((cfg1.win 6).blk t).view.emb y)
  refine out6_at V c t h1 y _ ?_
  show win1_6.index t (0 : Fin 2) * 2048 + 1 * (y 0).val = _
  rw [e0]; omega

/-- An index of the result array is in point t's block iff each coordinate is in the block's range on its axis. -/
theorem mem_blk6 (t : Fin cfg1.N) (i : S8192x1.Idx) :
    i ∈ ((cfg1.win 6).blk t).view.set ↔ ∀ a : Fin 2, win1_6.index t a * S2048x1.size a ≤ (i a).val ∧ (i a).val < win1_6.index t a * S2048x1.size a + S2048x1.size a := by
  show i ∈ ((View.whole main_v7_0).slice (win1_6.rect t)).set ↔ _
  rw [View.set_slice_whole, Rect.mem_set_unit]
  exact Iff.rfl

/-- Every row is in the block written back at the last column block of its row block. -/
theorem cover6 (i : S8192x1.Idx) : ∃ t : Fin cfg1.N, (cfg1.win 6).flush t = true ∧ i ∈ ((cfg1.win 6).blk t).view.set := by
  have hi0 : (i 0).val < 8192 := (i 0).isLt
  have hi1 : (i 1).val < 1 := (i 1).isLt
  have hlt : 16 * ((i 0).val / 2048) + 15 < cfg1.N := by rw [show cfg1.N = 64 from N_1]; omega
  obtain ⟨-, -, -, -, -, -, ⟨e0, e1⟩, -⟩ := idx1_facts ⟨16 * ((i 0).val / 2048) + 15, hlt⟩
  refine ⟨⟨16 * ((i 0).val / 2048) + 15, hlt⟩, (flush1_6 _).mpr (by show (16 * ((i 0).val / 2048) + 15) % 16 = 15; omega), ?_⟩
  rw [mem_blk6]
  intro a
  match a with
  | ⟨0, _⟩ =>
    show win1_6.index _ (0 : Fin 2) * 2048 ≤ (i 0).val ∧ (i 0).val < win1_6.index _ (0 : Fin 2) * 2048 + 2048
    rw [e0]; show (16 * ((i 0).val / 2048) + 15) / 16 * 2048 ≤ (i 0).val ∧ (i 0).val < (16 * ((i 0).val / 2048) + 15) / 16 * 2048 + 2048; omega
  | ⟨1, _⟩ =>
    show win1_6.index _ (1 : Fin 2) * 1 ≤ (i 1).val ∧ (i 1).val < win1_6.index _ (1 : Fin 2) * 1 + 1
    rw [e1]; omega

/-- THE RESULT ARRAY after the region: at every row, the row's sum over all columns. -/
theorem final6 (c : Dev nD) : (dats1 V q c).arrAt 6 cfg1.N = posArr V c :=
  (dats1 V q c).arrAt_eq_of_cover 6 (posArr V c) (fun t hf => flushed6_eq V q c t hf) cover6

/-- Row p's number of positive pairs, over all 8192 columns. -/
def cntArr (c : Dev nD) : FVec Ideal S8192x1 .f32 := fun i => ∑ q' : Fin 8192, cntTerm (labROf V c) (labCOf V c) (i 0) q'

/-- At a row block's last column block the output block is the accumulator just updated. -/
theorem out7_eq_acc (c : Dev nD) (t : Fin cfg1.N) (h0 : ¬t.val % 16 = 0) (h1 : t.val % 16 = 15) (r : Fin 2048) :
    (outsAt1 V c t.val t.isLt).2.1 (ix2 r 0) = (outsAt1 V c t.val t.isLt).2.2.2 (ix2 r 0) := by
  rw [outsAt1_C V c t h0 h1]
  dsimp only
  rw [out1_C_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1),
    sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1)]

/-- What a row block's last point leaves in the output block, at a row, is the row's sum over all 8192 columns. -/
theorem out7_at (c : Dev nD) (t : Fin cfg1.N) (h1 : t.val % 16 = 15) (y : S2048x1.Idx) (p : S8192x1.Idx)
    (hp : (p 0).val = 2048 * (t.val / 16) + (y 0).val) :
    (outsAt1 V c t.val t.isLt).2.1 y = cntArr V c p := by
  have hN : t.val < 64 := lt_of_lt_of_eq t.isLt (show cfg1.N = 64 from N_1)
  have h0 : ¬t.val % 16 = 0 := by omega
  obtain ⟨r, rfl⟩ : ∃ r : Fin 2048, y = ix2 r 0 :=
    ⟨y 0, funext fun a => by match a with | ⟨0, _⟩ => rfl | ⟨1, _⟩ => exact Fin.ext (by have h1 : (y 1).val < 1 := (y 1).isLt; show (y 1).val = 0; omega)⟩
  rw [out7_eq_acc V c t h0 h1 r, cnt_acc V c t.val t.isLt r, h1]
  unfold cntArr
  rw [sum_cols]
  have hr : rowOf (t.val / 16) r = p 0 := Fin.ext (by
    show (2048 * (t.val / 16) + r.val) % 8192 = (p 0).val
    rw [hp]; have := r.isLt; show _ = 2048 * (t.val / 16) + r.val; omega)
  rw [hr]

/-- What a flushing point writes back is its block of the row sums. -/
theorem flushed7_eq (c : Dev nD) (t : Fin cfg1.N) (hf : (cfg1.win 7).flush t = true) :
    (dats1 V q c).flushed 7 t = ((cfg1.win 7).blk t).view.read (Elt Ideal) (cntArr V c) := by
  have h1 : t.val % 16 = 15 := (flush1_7 t).mp hf
  obtain ⟨-, -, -, -, -, -, -, ⟨e0, e1⟩⟩ := idx1_facts t
  show (cfg1.win 7).cut (grid1.coords t) ((dats1 V q c).after 7 t) = _
  rw [after1_7]
  funext y
  show (outsAt1 V c t.val t.isLt).2.1 y = cntArr V c (((cfg1.win 7).blk t).view.emb y)
  refine out7_at V c t h1 y _ ?_
  show win1_7.index t (0 : Fin 2) * 2048 + 1 * (y 0).val = _
  rw [e0]; omega

/-- An index of the result array is in point t's block iff each coordinate is in the block's range on its axis. -/
theorem mem_blk7 (t : Fin cfg1.N) (i : S8192x1.Idx) :
    i ∈ ((cfg1.win 7).blk t).view.set ↔ ∀ a : Fin 2, win1_7.index t a * S2048x1.size a ≤ (i a).val ∧ (i a).val < win1_7.index t a * S2048x1.size a + S2048x1.size a := by
  show i ∈ ((View.whole main_v7_1).slice (win1_7.rect t)).set ↔ _
  rw [View.set_slice_whole, Rect.mem_set_unit]
  exact Iff.rfl

/-- Every row is in the block written back at the last column block of its row block. -/
theorem cover7 (i : S8192x1.Idx) : ∃ t : Fin cfg1.N, (cfg1.win 7).flush t = true ∧ i ∈ ((cfg1.win 7).blk t).view.set := by
  have hi0 : (i 0).val < 8192 := (i 0).isLt
  have hi1 : (i 1).val < 1 := (i 1).isLt
  have hlt : 16 * ((i 0).val / 2048) + 15 < cfg1.N := by rw [show cfg1.N = 64 from N_1]; omega
  obtain ⟨-, -, -, -, -, -, -, ⟨e0, e1⟩⟩ := idx1_facts ⟨16 * ((i 0).val / 2048) + 15, hlt⟩
  refine ⟨⟨16 * ((i 0).val / 2048) + 15, hlt⟩, (flush1_7 _).mpr (by show (16 * ((i 0).val / 2048) + 15) % 16 = 15; omega), ?_⟩
  rw [mem_blk7]
  intro a
  match a with
  | ⟨0, _⟩ =>
    show win1_7.index _ (0 : Fin 2) * 2048 ≤ (i 0).val ∧ (i 0).val < win1_7.index _ (0 : Fin 2) * 2048 + 2048
    rw [e0]; show (16 * ((i 0).val / 2048) + 15) / 16 * 2048 ≤ (i 0).val ∧ (i 0).val < (16 * ((i 0).val / 2048) + 15) / 16 * 2048 + 2048; omega
  | ⟨1, _⟩ =>
    show win1_7.index _ (1 : Fin 2) * 1 ≤ (i 1).val ∧ (i 1).val < win1_7.index _ (1 : Fin 2) * 1 + 1
    rw [e1]; omega

/-- THE RESULT ARRAY after the region: at every row, the row's sum over all columns. -/
theorem final7 (c : Dev nD) : (dats1 V q c).arrAt 7 cfg1.N = cntArr V c :=
  (dats1 V q c).arrAt_eq_of_cover 7 (cntArr V c) (fun t hf => flushed7_eq V q c t hf) cover7

end Cert.KernelIdeal.Hand1
end
-- ==== Proof.PreFacts.lean ====
import proofs.«113668_j72095321030692_1_alg».proof.Defs

import Idealize.ShloMosaic.Lib.ReduceAll
import Idealize.ShloMosaic.Lib.ValueIdx
import Idealize.ShloMosaic.PureOps.Ideal.Laws
import proofs.«113668_j72095321030692_1_alg».proof.Proof.LibOnlineSoftmax

/-!
# What the precondition says of the argument arrays

The precondition of the certificate is a printed predicate: every feature has absolute value below `+∞`, every class
weight likewise, and every row's sum of squares (started from `0`) is above `0`; each of the three is an
`and`-reduction of a comparison, and the three are joined by `and`. Read back at the extended reals:

* every feature and every class weight is a real number (an extended real whose absolute value `max a (-a)` is
  below `⊤` is neither `⊥` nor `⊤`);
* for every row `p`, `0 < 0 + ∑ k, x p k * x p k`.

Consequently each normalised feature `x p k / sqrt (0 + ∑ k', x p k' * x p k')` is a real number: the sum is a positive
real, its square root is a positive real, and the quotient by a nonzero real is the product with its reciprocal.
-/

noncomputable section

namespace Cert.PreFacts

open Idealize.ShloMosaic Idealize.ShloMosaic.ValueIdx Idealize.SL.Sem
open Cert.Pre_finite_inputs (S8192x512 S8192 S9 S_)

/-- The scalar shape has one index. -/
instance : Subsingleton S_.Idx := ⟨fun _ _ => funext fun d => d.elim0⟩

/-- The word `0x7F800000` is `+∞`. -/
theorem ofBits_inf : Ideal.ofBits .f32 0x7F800000#32 = (⊤ : EReal) := by
  simp [Ideal.ofBits, Ideal.ieee]

/-- A truth value whose one-bit word is `1` is true. -/
theorem ofBool_eq_one {b : Bool} (h : BitVec.ofBool b = 1#1) : b = true := by
  cases b
  · exact absurd h (by decide)
  · rfl

/-- An extended real whose absolute value `max a (-a)` compares below `+∞` is a real number. -/
theorem real_of_abs_lt (a : EReal)
    (h : FloatOps.cmpf (F := Ideal) (φ := .f32) .olt (FloatOps.hostAbsf (F := Ideal) (φ := .f32) a)
      (FloatOps.ofBits (F := Ideal) .f32 0x7F800000#32) = 1#1) :
    ∃ r : ℝ, a = (r : EReal) := by
  have h' : max a (-a) < Ideal.ofBits .f32 0x7F800000#32 := of_decide_eq_true (ofBool_eq_one h)
  rw [ofBits_inf] at h'
  induction a using EReal.rec with
  | bot => simp at h'
  | coe r => exact ⟨r, rfl⟩
  | top => simp at h'

variable [hP : Cert.Pre_finite_inputs.Facts]

/-- The printed predicate, all ones, read back: the features and the class weights are real numbers and every row's sum
    of squares, started from `0`, is positive. -/
theorem facts_of_fn (x : FVec Ideal S8192x512 .f32) (lab : IVec S8192 32) (cw : FVec Ideal S9 .f32)
    (h : Cert.Pre_finite_inputs.fn (F := Ideal) x lab cw = fun _ => 1#1) :
    (∀ i, ∃ r : ℝ, x i = (r : EReal)) ∧ (∀ i, ∃ r : ℝ, cw i = (r : EReal)) ∧
      (∀ p : Fin 8192, (0 : EReal) < 0 + ∑ k : Fin 512, x (ix2 p k) * x (ix2 p k)) := by
  have h0 := congrFun h ix0
  dsimp only [Cert.Pre_finite_inputs.fn] at h0
  obtain ⟨h12, h3⟩ := IntOp.andi_eq_one.1 h0
  obtain ⟨h1, h2⟩ := IntOp.andi_eq_one.1 h12
  refine ⟨fun i => real_of_abs_lt (x i) (Host.reduce_andi_all _ _ _ _ ix0 h1 i),
    fun i => real_of_abs_lt (cw i) (Host.reduce_andi_all _ _ _ _ ix0 h2 i), fun p => ?_⟩
  have e := Host.reduce_andi_all _ _ _ _ ix0 h3 (ix1 p)
  have e' : Ideal.ofBits .f32 0x00000000#32
      < Ideal.hostReduceAdd hP.reducesTo_S8192x512_S8192_d1 (mulf x x) (Ideal.ofBits .f32 0x00000000#32) (ix1 p) :=
    of_decide_eq_true (ofBool_eq_one e)
  rw [Ideal.hostReduceAdd_single _ (by decide), Ideal.ofBits_zero_f32] at e'
  refine lt_of_lt_of_eq e' (congrArg (_ + ·) (Finset.sum_congr rfl fun k _ => ?_))
  exact congrArg (fun i => x i * x i) (funext fun a => Fin.ext (by match a with | ⟨0, _⟩ => rfl | ⟨1, _⟩ => rfl))

/-- A real entry divided by the square root of its row's positive sum of squares is a real number. -/
theorem normalised_real (x : FVec Ideal S8192x512 .f32) (hx : ∀ i, ∃ r : ℝ, x i = (r : EReal))
    (hpos : ∀ p : Fin 8192, (0 : EReal) < 0 + ∑ k : Fin 512, x (ix2 p k) * x (ix2 p k)) (p : Fin 8192) (k : Fin 512) :
    ∃ r : ℝ, Ideal.div (x (ix2 p k)) (Ideal.sqrt (0 + ∑ k' : Fin 512, x (ix2 p k') * x (ix2 p k'))) = (r : EReal) := by
  choose r hr using hx
  have hs : (0 : EReal) + ∑ k' : Fin 512, x (ix2 p k') * x (ix2 p k')
      = ((∑ k' : Fin 512, r (ix2 p k') * r (ix2 p k') : ℝ) : EReal) := by
    rw [zero_add, OnlineSoftmax.coe_finset_sum]
    exact Finset.sum_congr rfl fun k' _ => by rw [hr, EReal.coe_mul]
  have hp := hpos p
  rw [hs] at hp ⊢
  have hp' : (0 : ℝ) < ∑ k' : Fin 512, r (ix2 p k') * r (ix2 p k') := by exact_mod_cast hp
  have hne : Real.sqrt (∑ k' : Fin 512, r (ix2 p k') * r (ix2 p k')) ≠ 0 := (Real.sqrt_pos.mpr hp').ne'
  rw [Ideal.sqrt_coe, if_neg (not_lt.mpr hp'.le), hr, Ideal.div, if_neg (by exact_mod_cast hne), ← EReal.coe_inv,
    ← EReal.coe_mul]
  exact ⟨_, rfl⟩

/-- The feature array of a memory on device `c`, as a function from indices to extended reals. -/
abbrev argX (m : (ℓ : Loc Cert.KernelIdeal.nD Cert.KernelIdeal.τ Cert.KernelIdeal.sig) → Buf (Elt Ideal) ℓ)
    (c : Dev Cert.KernelIdeal.nD) : FVec Ideal S8192x512 .f32 :=
  m ((c.tc : Thread Cert.KernelIdeal.nD Cert.KernelIdeal.τ).loc Cert.KernelIdeal.main_arg0)

/-- The class-weight array of a memory on device `c`. -/
abbrev argW (m : (ℓ : Loc Cert.KernelIdeal.nD Cert.KernelIdeal.τ Cert.KernelIdeal.sig) → Buf (Elt Ideal) ℓ)
    (c : Dev Cert.KernelIdeal.nD) : FVec Ideal S9 .f32 :=
  m ((c.tc : Thread Cert.KernelIdeal.nD Cert.KernelIdeal.τ).loc Cert.KernelIdeal.main_arg2)

/-- The three facts for the argument arrays of a memory satisfying the certificate's precondition, on each device:
    features real, class weights real, every row's sum of squares positive. -/
theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, argX m c i = (r : EReal)) ∧ (∀ i, ∃ r : ℝ, argW m c i = (r : EReal)) ∧
    (∀ p : Fin 8192, (0 : EReal) < 0 + ∑ k : Fin 512, argX m c (ix2 p k) * argX m c (ix2 p k)) :=
  facts_of_fn _ _ _ (h c)

/-- Every normalised feature of such a memory is a real number. -/
theorem normalised_real_of_pre
    (m : (ℓ : Loc Cert.KernelIdeal.nD Cert.KernelIdeal.τ Cert.KernelIdeal.sig) → Buf (Elt Ideal) ℓ)
    (h : Cert.Pre_KernelIdeal m) (c : Dev Cert.KernelIdeal.nD) (p : Fin 8192) (k : Fin 512) :
    ∃ r : ℝ, Ideal.div (argX m c (ix2 p k))
      (Ideal.sqrt (0 + ∑ k' : Fin 512, argX m c (ix2 p k') * argX m c (ix2 p k'))) = (r : EReal) :=
  normalised_real _ (of_pre m h c).1 (of_pre m h c).2.2 p k

end Cert.PreFacts
-- ==== Proof.RefRead.lean ====
import proofs.«113668_j72095321030692_1_alg».proof.Proof.RefReadP
import proofs.«113668_j72095321030692_1_alg».proof.Proof.RefSpec

/-!
# The reference's operations read as the formulas of the specification

The reference program is a chain of whole-array operations. Read at an index, one operation at a time:

* the divide by the spread square root of the row sums of squares is the specification's normalised array;
* the comparison of the two index arrays (row index plus zero against column index, as 32-bit words) is true exactly on
  the diagonal, both indices being below `2 ^ 32`; so the selected array is the specification's similarity;
* the row maximum is a maximum with `-∞` (which is `⊥`) of a max-reduction started from `-∞`: the maximum over the
  row from `⊥`; the subtraction, exponential, row sum from zero, logarithm and second subtraction are the
  log-probability;
* the label comparison and the negated diagonal give the positive-pair bit; the selected products summed from zero are the
  row totals, and the integer sum of the widened bits is the number of positive pairs (a sum of words that are one or zero);
* the remaining operations are, as a whole-array term, the specification's scalar tail.
-/

noncomputable section

namespace Cert.ReferenceIdeal.RefValue

open Cert.ReferenceIdeal Cert.ReferenceIdeal.Gen Cert.ReferenceIdeal.ReadP Cert.RefSpec
open Idealize.ShloMosaic Idealize.ShloMosaic.ValueIdx

abbrev XT := (⟨S8192x512, .f32⟩ : BufTy).Contents (Elt Ideal)
abbrev LT := (⟨S8192, .i32⟩ : BufTy).Contents (Elt Ideal)
abbrev WT := (⟨S9, .f32⟩ : BufTy).Contents (Elt Ideal)

/-- The normalised array the program computes is the specification's. -/
theorem v2_eq (x : XT) : val_main_v2 (F := Ideal) x = fArr x := rfl

theorem ofBits_neg_inf : Ideal.ofBits .f32 0xFF800000#32 = (⊥ : EReal) := by
  simp [Ideal.ofBits, Ideal.ieee]

/-- The row-index word equals the column-index word exactly when the indices are equal. -/
theorem iota_eq (p q : Fin 8192) :
    IntOp.cmpi .eq (IntOp.addi (BitVec.ofNat 32 p.val) 0#32) (BitVec.ofNat 32 q.val) = 1#1 ↔ p = q := by
  rw [IntOp.cmpi_eq]
  show BitVec.ofNat 32 p.val + 0#32 = BitVec.ofNat 32 q.val ↔ p = q
  rw [BitVec.add_zero]
  constructor
  · intro h
    have := congrArg BitVec.toNat h
    rw [BitVec.toNat_ofNat, BitVec.toNat_ofNat] at this
    exact Fin.ext (by omega)
  · rintro rfl; rfl

theorem v11_apply (p q : Fin 8192) : val_main_v11 (F := Ideal) (ix2 p q) = 1#1 ↔ p = q := by
  rw [val_main_v11_apply, val_main_v10_apply, val_main_v9_apply, val_main_v7_apply, val_main_v8_apply, val_main_c_apply]
  exact iota_eq p q

/-- One similarity. -/
theorem v12_apply (x : XT) (p q : Fin 8192) : val_main_v12 (F := Ideal) x (ix2 p q) = simOf (val_main_v2 (F := Ideal) x) p q := by
  rw [val_main_v12_apply, val_main_call1_v1_apply, val_main_call1_v0_apply, val_main_cst_0_apply, val_main_v6_apply,
    val_main_v5_apply, val_main_cst_apply, val_main_v4_apply]
  unfold simOf
  by_cases h : p = q
  · rw [(v11_apply p q).2 h, select_one, if_pos h]; rfl
  · rw [eq_zero_of_ne_one (fun h' => h ((v11_apply p q).1 h')), select_zero, if_neg h]
    refine congrArg (fun t => Ideal.div t (Ideal.ofBits .f32 0x3D8F5C29#32)) (Finset.sum_congr rfl fun k _ => ?_)
    rw [val_main_v3_apply]
    have e1 : lidx_main_v4 (ix2 p q) k = ix2 p k := funext fun a => Fin.ext (by match a with | ⟨0, _⟩ => rfl | ⟨1, _⟩ => rfl)
    have e2 : idx_main_v3 (ridx_main_v4 (ix2 p q) k) = ix2 q k := funext fun a => Fin.ext (by match a with | ⟨0, _⟩ => rfl | ⟨1, _⟩ => rfl)
    rw [e1, e2]

/-- The row maximum. -/
theorem call2_v2_apply (x : XT) (p : Fin 8192) :
    val_main_call2_v2 (F := Ideal) x (ix1 p) = rowMaxOf (val_main_v2 (F := Ideal) x) p := by
  rw [val_main_call2_v2_apply, val_main_call2_v1_apply, val_main_call2_cst_0_apply]
  unfold val_main_call2_v0
  rw [Host.reduce_eq_fold_single FloatOps.maximumf _ _ reducesTo_S8192x8192_S8192_d1 (by decide) h_S_ (ix1 p)]
  show max (Ideal.ofBits .f32 0xFF800000#32) (Finset.univ.fold max (Ideal.ofBits .f32 0xFF800000#32) _) = _
  rw [ofBits_neg_inf, max_bot_left]
  unfold rowMaxOf
  refine Finset.fold_congr (fun q _ => ?_)
  exact (congrArg (val_main_v12 (F := Ideal) x)
    (funext fun a => Fin.ext (by match a with | ⟨0, _⟩ => rfl | ⟨1, _⟩ => rfl))).trans (v12_apply x p q)

/-- A similarity less its row's maximum. -/
theorem call2_v5_apply (x : XT) (p q : Fin 8192) :
    val_main_call2_v5 (F := Ideal) x (ix2 p q)
      = simOf (val_main_v2 (F := Ideal) x) p q - rowMaxOf (val_main_v2 (F := Ideal) x) p := by
  rw [val_main_call2_v5_apply, val_main_call2_v4_apply, val_main_call2_v3_apply, v12_apply]
  have e : idx_main_call2_v3 (idx_main_call2_v4 (ix2 p q)) = ix1 p :=
    funext fun a => Fin.ext (by match a with | ⟨0, _⟩ => rfl)
  rw [e, call2_v2_apply]
  rfl

/-- The row sum of exponentials. -/
theorem call2_v7_apply (x : XT) (p : Fin 8192) :
    val_main_call2_v7 (F := Ideal) x (ix1 p) = rowSumOf (val_main_v2 (F := Ideal) x) p := by
  rw [val_main_call2_v7_apply, val_main_call2_cst_1_apply, Ideal.ofBits_def, Ideal.ofBits_zero_f32]
  unfold rowSumOf
  refine congrArg (0 + ·) (Finset.sum_congr rfl fun q _ => ?_)
  have e : idx_main_call2_v7 (ix1 p) q = ix2 p q :=
    funext fun a => Fin.ext (by match a with | ⟨0, _⟩ => rfl | ⟨1, _⟩ => rfl)
  rw [e, val_main_call2_v6_apply, call2_v5_apply]
  rfl

/-- The log-probability of a pair. -/
theorem v13_apply (x : XT) (p q : Fin 8192) :
    val_main_v13 (F := Ideal) x (ix2 p q) = logpOf (val_main_v2 (F := Ideal) x) p q := by
  rw [val_main_v13_apply, call2_v5_apply, val_main_call2_v10_apply, val_main_call2_v9_apply, val_main_call2_v8_apply]
  have e : idx_main_call2_v8 (idx_main_call2_v10 (ix2 p q)) = ix1 p :=
    funext fun a => Fin.ext (by match a with | ⟨0, _⟩ => rfl)
  rw [e, call2_v7_apply]
  rfl

/-- The positive-pair bit. -/
theorem v21_apply (lab : LT) (p q : Fin 8192) :
    val_main_v21 (F := Ideal) lab (ix2 p q) = 1#1 ↔ posMask lab p q := by
  rw [val_main_v21_apply, IntOp.andi_eq_one, val_main_v19_apply, IntOp.cmpi_eq, val_main_v20_apply, IntOp.not_eq_one,
    v11_apply, val_main_v17_apply, val_main_v15_apply, val_main_v18_apply, val_main_v16_apply]
  have e1 : idx_main_v15 (idx_main_v17 (ix2 p q)) = ix1 p := funext fun a => Fin.ext (by match a with | ⟨0, _⟩ => rfl)
  have e2 : idx_main_v16 (idx_main_v18 (ix2 p q)) = ix1 q := funext fun a => Fin.ext (by match a with | ⟨0, _⟩ => rfl)
  rw [e1, e2]
  exact Iff.rfl

/-- A pair's contribution. -/
theorem v26_apply (x : XT) (p q : Fin 8192) :
    val_main_v26 (F := Ideal) x (ix2 p q) = perPairOf (val_main_v2 (F := Ideal) x) p q := by
  rw [val_main_v26_apply, val_main_v25_apply, val_main_v23_apply, val_main_v22_apply, val_main_cst_1_apply,
    val_main_v14_apply, val_main_v24_apply, val_main_cst_2_apply, v13_apply]
  rfl

/-- The row total of the positive pairs' contributions. -/
theorem v30_apply (x : XT) (lab : LT) (p : Fin 8192) :
    val_main_v30 (F := Ideal) x lab (ix1 p) = posSumOf (val_main_v2 (F := Ideal) x) lab p := by
  rw [val_main_v30_apply, val_main_cst_5_apply, Ideal.ofBits_def, Ideal.ofBits_zero_f32]
  unfold posSumOf
  refine congrArg (0 + ·) (Finset.sum_congr rfl fun q _ => ?_)
  have e : idx_main_v30 (ix1 p) q = ix2 p q :=
    funext fun a => Fin.ext (by match a with | ⟨0, _⟩ => rfl | ⟨1, _⟩ => rfl)
  rw [e, val_main_v29_apply]
  by_cases h : posMask lab p q
  · rw [(v21_apply lab p q).2 h, select_one, if_pos h, v26_apply]
  · rw [eq_zero_of_ne_one (fun h' => h ((v21_apply lab p q).1 h')), select_zero, if_neg h, val_main_call3_v1_apply,
      val_main_call3_v0_apply, val_main_cst_4_apply, Ideal.ofBits_def, Ideal.ofBits_zero_f32]

theorem v30_eq (x : XT) (lab : LT) : val_main_v30 (F := Ideal) x lab = posSumArr (val_main_v2 (F := Ideal) x) lab := by
  funext i
  obtain ⟨p, rfl⟩ : ∃ p : Fin 8192, i = ix1 p := ⟨i 0, eq_ix1 i⟩
  exact v30_apply x lab p

/-- The scalar tail as the program spells it. -/
theorem v48_eq (x : XT) (lab : LT) (cw : WT) :
    val_main_v48 (F := Ideal) x lab cw
      = tailR (val_main_v30 (F := Ideal) x lab) (val_main_v28 (F := Ideal) lab) lab cw := rfl

/-- A sum of words that are each one or zero is the number of ones. -/
theorem fold_addi_indicator {ι : Type} (S : Finset ι) (P : ι → Prop) [DecidablePred P] (f : ι → BitVec 32)
    (hf : ∀ i, f i = if P i then 1#32 else 0#32) :
    S.fold IntOp.addi 0#32 f = BitVec.ofNat 32 (S.filter P).card := by
  classical
  refine Finset.induction_on S ?_ ?_
  · rfl
  · intro a S ha ih
    rw [Finset.fold_insert ha, ih, Finset.filter_insert, hf a]
    by_cases hP : P a
    · rw [if_pos hP, if_pos hP, Finset.card_insert_of_notMem (fun h => ha (Finset.mem_of_mem_filter a h)),
        Nat.add_comm, BitVec.ofNat_add]
      rfl
    · rw [if_neg hP, if_neg hP]
      show 0#32 + _ = _
      rw [BitVec.zero_add]

/-- The positive-pair bit widened to a word. -/
theorem v27_apply (lab : LT) (p q : Fin 8192) :
    val_main_v27 (F := Ideal) lab (ix2 p q) = if posMask lab p q then 1#32 else 0#32 := by
  rw [val_main_v27_apply]
  by_cases h : posMask lab p q
  · rw [(v21_apply lab p q).2 h, if_pos h]; rfl
  · rw [eq_zero_of_ne_one (fun h' => h ((v21_apply lab p q).1 h')), if_neg h]; rfl

/-- The counts: the integer sum of the widened bits is the number of positive pairs. -/
theorem v28_eq (lab : LT) : val_main_v28 (F := Ideal) lab = cntI lab := by
  funext i
  obtain ⟨p, rfl⟩ : ∃ p : Fin 8192, i = ix1 p := ⟨i 0, eq_ix1 i⟩
  unfold val_main_v28
  rw [Host.reduce_eq_fold_single IntOp.addi _ _ reducesTo_S8192x8192_S8192_d1 (by decide) h_S_ (ix1 p)]
  refine (fold_addi_indicator Finset.univ (fun q : Fin 8192 => posMask lab p q) _ (fun q => ?_)).trans rfl
  exact (congrArg (val_main_v27 (F := Ideal) lab)
    (funext fun a => Fin.ext (by match a with | ⟨0, _⟩ => rfl | ⟨1, _⟩ => rfl))).trans (v27_apply lab p q)

/-- **The reference's result**: the scalar tail of the row totals and counts of the specification, over the normalised
    features. -/
theorem ref_value (x : XT) (lab : LT) (cw : WT) :
    val_main_v48 (F := Ideal) x lab cw = tailR (posSumArr (fArr x) lab) (cntI lab) lab cw := by
  rw [v48_eq, v30_eq, v28_eq, v2_eq]

end Cert.ReferenceIdeal.RefValue
-- ==== Proof.BridgeZ.lean ====
/-
  The kernel's result is the reference's. Under the precondition every normalised feature is a real, so the first
  region's outputs are the rows' maxima and sums of exponentials, the second region's outputs are the rows' focal sums
  over the positive pairs and their counts, and the host tail on the float counts is the reference's tail on the integer
  counts.
-/
import proofs.«113668_j72095321030692_1_alg».proof.Proof.BridgeA
import proofs.«113668_j72095321030692_1_alg».proof.Proof.BridgeC
import proofs.«113668_j72095321030692_1_alg».proof.Proof.TailBridge
import proofs.«113668_j72095321030692_1_alg».proof.Proof.K0Value
import proofs.«113668_j72095321030692_1_alg».proof.Proof.K1ValueE
import proofs.«113668_j72095321030692_1_alg».proof.Proof.PreFacts
import proofs.«113668_j72095321030692_1_alg».proof.Proof.RefRead
import proofs.«113668_j72095321030692_1_alg».proof.Proof.Gen.Pre_finite_inputs

noncomputable section

namespace Cert.KernelIdeal.HandB

open Cert.KernelIdeal Cert.KernelIdeal.Gen Cert.KernelIdeal.Hand0 Cert.KernelIdeal.Hand1 Cert.KernelIdeal.HandR Cert.KernelIdeal.HandG
open Idealize.ShloMosaic Idealize.ShloMosaic.TcCoe Idealize.ShloMosaic.ValueIdx Idealize.SL.Sem
open Cert.RefSpec (fArr simOf rowMaxOf rowSumOf posSumOf posSumArr posMask cntOf cntI tailR)

variable (m : (ℓ : Loc nD τ sig) → Buf (Elt Ideal) ℓ)

/-- Under the precondition every normalised feature is a real number. -/
theorem normalised_real (h : Cert.Pre_KernelIdeal m) (c : Dev nD) (p : Fin 8192) (k : Fin 512) :
    ∃ r : ℝ, fArr (m ((c : Thread nD τ).loc main_arg0)) (ix2 p k) = (r : EReal) := by
  rw [Cert.RefSpec.fArr_apply]
  exact Cert.PreFacts.normalised_real_of_pre m h c p k

/-- Every index of an 8192 × 1 column is (p, 0). -/
theorem eq_col (i : S8192x1.Idx) : i = ix2 (i 0) 0 :=
  funext fun a => Fin.ext (by match a with | ⟨0, _⟩ => rfl | ⟨1, _⟩ => exact Nat.lt_one_iff.mp (i 1).isLt)

theorem hg3 (h : Cert.Pre_KernelIdeal m) (c : Dev nD) : ∀ (p : Fin 8192) (k : Fin 512), ∃ r : ℝ, gArr (W2 m) c (ix2 p k) = (r : EReal) := fun p k => by
  rw [show gArr (W2 m) c = fArr (m ((c : Thread nD τ).loc main_arg0)) from W2_v3 m c]; exact normalised_real m h c p k

/-- The second region is handed the first region's outputs: the rows' maxima and sums of exponentials. -/
theorem emx (h : Cert.Pre_KernelIdeal m) (c : Dev nD) (p : Fin 8192) : mxOf (W3 m) c (ix2 p 0) = rowMaxOf (fArr (m ((c : Thread nD τ).loc main_arg0))) p := by
  have e1 : mxOf (W3 m) c = (fun i : S8192x1.Idx => rowMaxOf (gArr (W2 m) c) (i 0)) := (W3_v60 m c).trans (final0_2_spec (W2 m) q0 c (hg3 m h c))
  rw [e1]
  show rowMaxOf (gArr (W2 m) c) p = _
  rw [show gArr (W2 m) c = fArr (m ((c : Thread nD τ).loc main_arg0)) from W2_v3 m c]
theorem elx (h : Cert.Pre_KernelIdeal m) (c : Dev nD) (p : Fin 8192) : lxOf (W3 m) c (ix2 p 0) = rowSumOf (fArr (m ((c : Thread nD τ).loc main_arg0))) p := by
  have e1 : lxOf (W3 m) c = (fun i : S8192x1.Idx => rowSumOf (gArr (W2 m) c) (i 0)) := (W3_v61 m c).trans (final0_3_spec (W2 m) q0 c (hg3 m h c))
  rw [e1]
  show rowSumOf (gArr (W2 m) c) p = _
  rw [show gArr (W2 m) c = fArr (m ((c : Thread nD τ).loc main_arg0)) from W2_v3 m c]

/-- The labels as a column and as a row are the labels. -/
theorem hR (c : Dev nD) (p : Fin 8192) : labROf (W3 m) c (ix2 p 0) = (m ((c : Thread nD τ).loc main_arg1)) (ix1 p) := by
  rw [show labROf (W3 m) c = _ from W3_v4 m c]; exact Cert.KernelIdeal.HandC.labCol_apply _ _ p
theorem hC (c : Dev nD) (q' : Fin 8192) : labCOf (W3 m) c (ix2 0 q') = (m ((c : Thread nD τ).loc main_arg1)) (ix1 q') := by
  rw [show labCOf (W3 m) c = _ from W3_v5 m c]; exact Cert.KernelIdeal.HandC.labRow_apply _ _ q'
theorem hmask (c : Dev nD) (p q' : Fin 8192) : maskOf (labROf (W3 m) c) (labCOf (W3 m) c) p q' ↔ posMask (m ((c : Thread nD τ).loc main_arg1)) p q' :=
  Cert.KernelIdeal.HandC.mask_iff_of _ _ _ (hR m c) (hC m c) p q'

set_option maxHeartbeats 1000000 in
/-- The second region's first output: every row's focal sum over its positive pairs. -/
theorem pos_out (h : Cert.Pre_KernelIdeal m) (c : Dev nD) (p : Fin 8192) :
    posArr (W3 m) c (ix2 p 0) = posSumOf (fArr (m ((c : Thread nD τ).loc main_arg0))) (m ((c : Thread nD τ).loc main_arg1)) p := by
  haveI : DecidablePred (fun q' : Fin 8192 => maskOf (labROf (W3 m) c) (labCOf (W3 m) c) p q') := fun q' => by unfold maskOf; exact inferInstance
  refine Eq.trans ?_ (Cert.KernelIdeal.HandC.posSum_eq_of (fArr (m ((c : Thread nD τ).loc main_arg0))) (normalised_real m h c) (m ((c : Thread nD τ).loc main_arg1)) p
    (fun q' => maskOf (labROf (W3 m) c) (labCOf (W3 m) c) p q') (hmask m c p) (mxOf (W3 m) c (ix2 p 0)) (lxOf (W3 m) c (ix2 p 0)) (emx m h c p) (elx m h c p))
  show (∑ q' : Fin 8192, posTerm (Hand1.gOf (W3 m) c) (labROf (W3 m) c) (labCOf (W3 m) c) (mxOf (W3 m) c) (lxOf (W3 m) c) p q') = _
  rw [show Hand1.gOf (W3 m) c = fArr (m ((c : Thread nD τ).loc main_arg0)) from W3_v3 m c]
  refine Finset.sum_congr rfl fun q' _ => ?_
  simp only [posTerm, perPairK, lpK]
  congr 1

set_option maxHeartbeats 1000000 in
/-- The second region's second output: every row's number of positive pairs. -/
theorem cnt_out (c : Dev nD) (p : Fin 8192) :
    cntArr (W3 m) c (ix2 p 0) = (((cntOf (m ((c : Thread nD τ).loc main_arg1)) p : ℕ) : ℝ) : EReal) := by
  haveI : DecidablePred (fun q' : Fin 8192 => maskOf (labROf (W3 m) c) (labCOf (W3 m) c) p q') := fun q' => by unfold maskOf; exact inferInstance
  refine Eq.trans ?_ (Cert.KernelIdeal.HandC.cnt_eq_of (m ((c : Thread nD τ).loc main_arg1)) p (fun q' => maskOf (labROf (W3 m) c) (labCOf (W3 m) c) p q') (hmask m c p))
  show (∑ q' : Fin 8192, cntTerm (labROf (W3 m) c) (labCOf (W3 m) c) p q') = _
  refine Finset.sum_congr rfl fun q' _ => ?_
  simp only [cntTerm]
  congr 2

set_option maxHeartbeats 1000000 in
/-- THE BRIDGE: under the precondition the kernel's result buffer holds the reference's result. -/
theorem bridge (h : Cert.Pre_KernelIdeal m) (c : Dev nD) :
    V7 m (outs m) c main_v26
      = Cert.ReferenceIdeal.ReadP.val_main_v48 (F := Ideal) (m ((c : Thread nD τ).loc main_arg0)) (m ((c : Thread nD τ).loc main_arg1)) (m ((c : Thread nD τ).loc main_arg2)) := by
  have h6 : (dats1 (W3 m) q1 c).arrAt 6 cfg1.N = fun i : S8192x1.Idx => posSumOf (fArr (m ((c : Thread nD τ).loc main_arg0))) (m ((c : Thread nD τ).loc main_arg1)) (i 0) :=
    (final6 (W3 m) q1 c).trans (funext fun i => (congrArg (posArr (W3 m) c) (eq_col i)).trans (pos_out m h c (i 0)))
  have h7 : (dats1 (W3 m) q1 c).arrAt 7 cfg1.N = fun i : S8192x1.Idx => (((cntOf (m ((c : Thread nD τ).loc main_arg1)) (i 0) : ℕ) : ℝ) : EReal) :=
    (final7 (W3 m) q1 c).trans (funext fun i => (congrArg (cntArr (W3 m) c) (eq_col i)).trans (cnt_out m c (i 0)))
  refine (result_eq m c).trans ?_
  refine (congrArg₂ (fun a b => tailK (F := Ideal) a b (m ((c : Thread nD τ).loc main_arg1)) (m ((c : Thread nD τ).loc main_arg2))) h6 h7).trans ?_
  refine (Cert.KernelIdeal.HandT.tail_bridge _ _ (posSumOf (fArr (m ((c : Thread nD τ).loc main_arg0))) (m ((c : Thread nD τ).loc main_arg1)))).trans ?_
  exact (Cert.ReferenceIdeal.RefValue.ref_value _ _ _).symm

end Cert.KernelIdeal.HandB

end
-- ==== Proof.RefRunH.lean ====
/-
  The reference program's @main run and read back, stage by stage. Its 88 host operations are cut into nine
  consecutive stages; for each stage, over an arbitrary valuation on entry that holds the earlier stages' values, the
  buffers later stages read hold their values as functions of the arguments, and the buffers the stage does not write
  are unchanged; the fold over the whole list is the fold of the stages in order, so the result buffer ends at the
  composed stage of the arguments. A typed reference at a literal buffer carries contents unchanged, one small fact
  per buffer, so no comparison of two large terms is made.
-/
import proofs.«113668_j72095321030692_1_alg».proof.Proof.Gen.ReferenceIdeal
import proofs.«113668_j72095321030692_1_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]
/-- Operations 0 … 4 of @main. -/
abbrev ops1 : List (HloOp τ sig (Elt F)) :=
  [ TRef.binary (TRef.of (T := ⟨S8192x512, .f32⟩) main_arg0) (TRef.of (T := ⟨S8192x512, .f32⟩) main_arg0) (TRef.of (T := ⟨S8192x512, .f32⟩) main_call0_v0) mulf,
    TRef.nullary (TRef.of (T := ⟨S_, .f32⟩) main_call0_cst) (constant S_ .f32 0x00000000#32),
    TRef.binary (TRef.of (T := ⟨S8192x512, .f32⟩) main_call0_v0) (TRef.of (T := ⟨S_, .f32⟩) main_call0_cst) (TRef.of (T := ⟨S8192, .f32⟩) main_call0_v1) (fun x v => Host.reduceAdd x v reducesTo_S8192x512_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt ]

/-- Operations 5 … 21 of @main. -/
abbrev ops2 : List (HloOp τ sig (Elt F)) :=
  [ unary main_v0 main_v1 (broadcastInDim S8192x512 ![0, 1] bcast_S8192x1_S8192x512_0_1 : (⟨S8192x1, .f32⟩ : BufTy).Contents (Elt F) → (⟨S8192x512, .f32⟩ : BufTy).Contents (Elt F)),
    binary main_arg0 main_v1 main_v2 (Host.divf : (⟨S8192x512, .f32⟩ : BufTy).Contents (Elt F) → (⟨S8192x512, .f32⟩ : BufTy).Contents (Elt F) → (⟨S8192x512, .f32⟩ : BufTy).Contents (Elt F)),
    unary main_v2 main_v3 ((transpose S512x8192 [1, 0] · transposes_S8192x512_S512x8192_1_0) : (⟨S8192x512, .f32⟩ : BufTy).Contents (Elt F) → (⟨S512x8192, .f32⟩ : BufTy).Contents (Elt F)),
    binary main_v2 main_v3 main_v4 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    nullary main_cst (constant S_ .f32 0x3D8F5C29#32),
    unary main_cst main_v5 (broadcastInDim S8192x8192 ![] bcast_S_S8192x8192 : (⟨S_, .f32⟩ : BufTy).Contents (Elt F) → (⟨S8192x8192, .f32⟩ : BufTy).Contents (Elt F)),
    binary main_v4 main_v5 main_v6 (Host.divf : (⟨S8192x8192, .f32⟩ : BufTy).Contents (Elt F) → (⟨S8192x8192, .f32⟩ : BufTy).Contents (Elt F) → (⟨S8192x8192, .f32⟩ : BufTy).Contents (Elt F)),
    nullary main_v7 (iotaInDim S8192x8192 32 0),
    nullary main_v8 (iotaInDim S8192x8192 32 1),
    nullary main_c (constantI S_ 32 0#32),
    unary main_c main_v9 (broadcastInDim S8192x8192 ![] bcast_S_S8192x8192 : (⟨S_, .i32⟩ : BufTy).Contents (Elt F) → (⟨S8192x8192, .i32⟩ : BufTy).Contents (Elt F)),
    binary main_v7 main_v9 main_v10 (addi : (⟨S8192x8192, .i32⟩ : BufTy).Contents (Elt F) → (⟨S8192x8192, .i32⟩ : BufTy).Contents (Elt F) → (⟨S8192x8192, .i32⟩ : BufTy).Contents (Elt F)),
    binary main_v10 main_v8 main_v11 (cmpi .eq : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xC61C4000#32),
    TRef.unary (TRef.of (T := ⟨S_, .f32⟩) main_cst_0) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v11) (TRef.of (T := ⟨S8192x8192, .f32⟩) main_call1_v1) (TRef.of (T := ⟨S8192x8192, .f32⟩) main_v6) (TRef.of (T := ⟨S8192x8192, .f32⟩) main_v12) select ]

/-- Operations 22 … 36 of @main. -/
abbrev ops3 : List (HloOp τ sig (Elt F)) :=
  [ TRef.nullary (TRef.of (T := ⟨S_, .f32⟩) main_call2_cst) (constant S_ .f32 0xFF800000#32),
    TRef.binary (TRef.of (T := ⟨S8192x8192, .f32⟩) main_v12) (TRef.of (T := ⟨S_, .f32⟩) main_call2_cst) (TRef.of (T := ⟨S8192, .f32⟩) main_call2_v0) (fun x v => Host.reduce FloatOps.maximumf x v reducesTo_S8192x8192_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x8192, .f32⟩) main_call2_v4) (broadcastInDim S8192x8192 ![0, 1] bcast_S8192x1_S8192x8192_0_1),
    TRef.binary (TRef.of (T := ⟨S8192x8192, .f32⟩) main_v12) (TRef.of (T := ⟨S8192x8192, .f32⟩) main_call2_v4) (TRef.of (T := ⟨S8192x8192, .f32⟩) main_call2_v5) subf,
    TRef.unary (TRef.of (T := ⟨S8192x8192, .f32⟩) main_call2_v5) (TRef.of (T := ⟨S8192x8192, .f32⟩) main_call2_v6) Host.exp,
    TRef.nullary (TRef.of (T := ⟨S_, .f32⟩) main_call2_cst_1) (constant S_ .f32 0x00000000#32),
    TRef.binary (TRef.of (T := ⟨S8192x8192, .f32⟩) main_call2_v6) (TRef.of (T := ⟨S_, .f32⟩) main_call2_cst_1) (TRef.of (T := ⟨S8192, .f32⟩) main_call2_v7) (fun x v => Host.reduceAdd x v reducesTo_S8192x8192_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x8192, .f32⟩) main_call2_v10) (broadcastInDim S8192x8192 ![0, 1] bcast_S8192x1_S8192x8192_0_1),
    TRef.binary (TRef.of (T := ⟨S8192x8192, .f32⟩) main_call2_v5) (TRef.of (T := ⟨S8192x8192, .f32⟩) main_call2_v10) (TRef.of (T := ⟨S8192x8192, .f32⟩) main_v13) subf ]

/-- Operations 37 … 44 of @main. -/
abbrev ops4 : List (HloOp τ sig (Elt F)) :=
  [ unary main_v13 main_v14 (Host.exp : (⟨S8192x8192, .f32⟩ : BufTy).Contents (Elt F) → (⟨S8192x8192, .f32⟩ : BufTy).Contents (Elt F)),
    unary main_arg1 main_v15 (broadcastInDim S8192x1 ![0] bcast_S8192_S8192x1_0 : (⟨S8192, .i32⟩ : BufTy).Contents (Elt F) → (⟨S8192x1, .i32⟩ : BufTy).Contents (Elt F)),
    unary main_arg1 main_v16 (broadcastInDim S1x8192 ![1] bcast_S8192_S1x8192_1 : (⟨S8192, .i32⟩ : BufTy).Contents (Elt F) → (⟨S1x8192, .i32⟩ : BufTy).Contents (Elt F)),
    unary main_v15 main_v17 (broadcastInDim S8192x8192 ![0, 1] bcast_S8192x1_S8192x8192_0_1 : (⟨S8192x1, .i32⟩ : BufTy).Contents (Elt F) → (⟨S8192x8192, .i32⟩ : BufTy).Contents (Elt F)),
    unary main_v16 main_v18 (broadcastInDim S8192x8192 ![0, 1] bcast_S1x8192_S8192x8192_0_1 : (⟨S1x8192, .i32⟩ : BufTy).Contents (Elt F) → (⟨S8192x8192, .i32⟩ : BufTy).Contents (Elt F)),
    binary main_v17 main_v18 main_v19 (cmpi .eq : (⟨S8192x8192, .i32⟩ : BufTy).Contents (Elt F) → (⟨S8192x8192, .i32⟩ : BufTy).Contents (Elt F) → (⟨S8192x8192, .i1⟩ : BufTy).Contents (Elt F)),
    unary main_v11 main_v20 (noti : (⟨S8192x8192, .i1⟩ : BufTy).Contents (Elt F) → (⟨S8192x8192, .i1⟩ : BufTy).Contents (Elt F)),
    binary main_v19 main_v20 main_v21 (andi : (⟨S8192x8192, .i1⟩ : BufTy).Contents (Elt F) → (⟨S8192x8192, .i1⟩ : BufTy).Contents (Elt F) → (⟨S8192x8192, .i1⟩ : BufTy).Contents (Elt F)) ]

/-- Operations 45 … 51 of @main. -/
abbrev ops5 : List (HloOp τ sig (Elt F)) :=
  [ nullary main_cst_1 (constant S_ .f32 0x3F800000#32),
    unary main_cst_1 main_v22 (broadcastInDim S8192x8192 ![] bcast_S_S8192x8192 : (⟨S_, .f32⟩ : BufTy).Contents (Elt F) → (⟨S8192x8192, .f32⟩ : BufTy).Contents (Elt F)),
    binary main_v22 main_v14 main_v23 (subf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x40000000#32),
    unary main_cst_2 main_v24 (broadcastInDim S8192x8192 ![] bcast_S_S8192x8192 : (⟨S_, .f32⟩ : BufTy).Contents (Elt F) → (⟨S8192x8192, .f32⟩ : BufTy).Contents (Elt F)),
    binary main_v23 main_v24 main_v25 (Host.powf : (⟨S8192x8192, .f32⟩ : BufTy).Contents (Elt F) → (⟨S8192x8192, .f32⟩ : BufTy).Contents (Elt F) → (⟨S8192x8192, .f32⟩ : BufTy).Contents (Elt F)),
    binary main_v13 main_v25 main_v26 (mulf : (⟨S8192x8192, .f32⟩ : BufTy).Contents (Elt F) → (⟨S8192x8192, .f32⟩ : BufTy).Contents (Elt F) → (⟨S8192x8192, .f32⟩ : BufTy).Contents (Elt F)) ]

/-- Operations 52 … 60 of @main. -/
abbrev ops6 : List (HloOp τ sig (Elt F)) :=
  [ unary main_v21 main_v27 ((extui 32 · natLt_1_32) : (⟨S8192x8192, .i1⟩ : BufTy).Contents (Elt F) → (⟨S8192x8192, .i32⟩ : BufTy).Contents (Elt F)),
    nullary main_c_3 (constantI S_ 32 0#32),
    binary main_v27 main_c_3 main_v28 ((fun x v => Host.reduce IntOp.addi x v reducesTo_S8192x8192_S8192_d1 h_S_) : (⟨S8192x8192, .i32⟩ : BufTy).Contents (Elt F) → (⟨S_, .i32⟩ : BufTy).Contents (Elt F) → (⟨S8192, .i32⟩ : BufTy).Contents (Elt F)),
    nullary main_cst_4 (constant S_ .f32 0x00000000#32),
    TRef.unary (TRef.of (T := ⟨S_, .f32⟩) main_cst_4) (TRef.of (T := ⟨S_, .f32⟩) main_call3_v0) id,
    TRef.unary (TRef.of (T := ⟨S_, .f32⟩) main_call3_v0) (TRef.of (T := ⟨S8192x8192, .f32⟩) main_call3_v1) (broadcastInDim S8192x8192 ![] bcast_S_S8192x8192),
    TRef.ternary (TRef.of (T := ⟨S8192x8192, .i1⟩) main_v21) (TRef.of (T := ⟨S8192x8192, .f32⟩) main_v26) (TRef.of (T := ⟨S8192x8192, .f32⟩) main_call3_v1) (TRef.of (T := ⟨S8192x8192, .f32⟩) main_v29) select,
    nullary main_cst_5 (constant S_ .f32 0x00000000#32),
    binary main_v29 main_cst_5 main_v30 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

/-- Operations 61 … 65 of @main. -/
abbrev ops7 : List (HloOp τ sig (Elt F)) :=
  [ nullary main_c_6 (constantI S_ 32 1#32),
    unary main_c_6 main_v31 (broadcastInDim S8192 ![] bcast_S_S8192 : (⟨S_, .i32⟩ : BufTy).Contents (Elt F) → (⟨S8192, .i32⟩ : BufTy).Contents (Elt F)),
    binary main_v28 main_v31 main_v32 (maxsi : (⟨S8192, .i32⟩ : BufTy).Contents (Elt F) → (⟨S8192, .i32⟩ : BufTy).Contents (Elt F) → (⟨S8192, .i32⟩ : BufTy).Contents (Elt F)),
    unary main_v32 main_v33 (sitofp .f32 : (⟨S8192, .i32⟩ : BufTy).Contents (Elt F) → (⟨S8192, .f32⟩ : BufTy).Contents (Elt F)),
    binary main_v30 main_v33 main_v34 (Host.divf : (⟨S8192, .f32⟩ : BufTy).Contents (Elt F) → (⟨S8192, .f32⟩ : BufTy).Contents (Elt F) → (⟨S8192, .f32⟩ : BufTy).Contents (Elt F)) ]

/-- Operations 66 … 74 of @main. -/
abbrev ops8 : List (HloOp τ sig (Elt F)) :=
  [ nullary main_c_7 (constantI S_ 32 0#32),
    unary main_c_7 main_v35 (broadcastInDim S8192 ![] bcast_S_S8192 : (⟨S_, .i32⟩ : BufTy).Contents (Elt F) → (⟨S8192, .i32⟩ : BufTy).Contents (Elt F)),
    binary main_arg1 main_v35 main_v36 (cmpi .slt : (⟨S8192, .i32⟩ : BufTy).Contents (Elt F) → (⟨S8192, .i32⟩ : BufTy).Contents (Elt F) → (⟨S8192, .i1⟩ : BufTy).Contents (Elt F)),
    nullary main_c_8 (constantI S_ 32 9#32),
    unary main_c_8 main_v37 (broadcastInDim S8192 ![] bcast_S_S8192 : (⟨S_, .i32⟩ : BufTy).Contents (Elt F) → (⟨S8192, .i32⟩ : BufTy).Contents (Elt F)),
    binary main_arg1 main_v37 main_v38 (addi : (⟨S8192, .i32⟩ : BufTy).Contents (Elt F) → (⟨S8192, .i32⟩ : BufTy).Contents (Elt F) → (⟨S8192, .i32⟩ : BufTy).Contents (Elt F)),
    ternary main_v36 main_v38 main_arg1 main_v39 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v39 main_v40 (broadcastInDim S8192x1 ![0] bcast_S8192_S8192x1_0 : (⟨S8192, .i32⟩ : BufTy).Contents (Elt F) → (⟨S8192x1, .i32⟩ : BufTy).Contents (Elt F)),
    binary main_arg2 main_v40 main_v41 ((fun x i => Host.gather gather_S9_S8192x1_S8192_n_0_n_n_0_1_1 x i) : (⟨S9, .f32⟩ : BufTy).Contents (Elt F) → (⟨S8192x1, .i32⟩ : BufTy).Contents (Elt F) → (⟨S8192, .f32⟩ : BufTy).Contents (Elt F)) ]

/-- Operations 75 … 87 of @main. -/
abbrev ops9 : List (HloOp τ sig (Elt F)) :=
  [ nullary main_c_9 (constantI S_ 32 0#32),
    unary main_c_9 main_v42 (broadcastInDim S8192 ![] bcast_S_S8192 : (⟨S_, .i32⟩ : BufTy).Contents (Elt F) → (⟨S8192, .i32⟩ : BufTy).Contents (Elt F)),
    binary main_v28 main_v42 main_v43 (cmpi .sgt : (⟨S8192, .i32⟩ : BufTy).Contents (Elt F) → (⟨S8192, .i32⟩ : BufTy).Contents (Elt F) → (⟨S8192, .i1⟩ : BufTy).Contents (Elt F)),
    binary main_v34 main_v41 main_v44 (mulf : (⟨S8192, .f32⟩ : BufTy).Contents (Elt F) → (⟨S8192, .f32⟩ : BufTy).Contents (Elt F) → (⟨S8192, .f32⟩ : BufTy).Contents (Elt F)),
    nullary main_cst_10 (constant S_ .f32 0x00000000#32),
    TRef.unary (TRef.of (T := ⟨S_, .f32⟩) main_cst_10) (TRef.of (T := ⟨S_, .f32⟩) main_call4_v0) id,
    TRef.unary (TRef.of (T := ⟨S_, .f32⟩) main_call4_v0) (TRef.of (T := ⟨S8192, .f32⟩) main_call4_v1) (broadcastInDim S8192 ![] bcast_S_S8192),
    TRef.ternary (TRef.of (T := ⟨S8192, .i1⟩) main_v43) (TRef.of (T := ⟨S8192, .f32⟩) main_v44) (TRef.of (T := ⟨S8192, .f32⟩) main_call4_v1) (TRef.of (T := ⟨S8192, .f32⟩) main_v45) select,
    nullary main_cst_11 (constant S_ .f32 0x00000000#32),
    binary main_v45 main_cst_11 main_v46 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v46 main_v47 (Host.negf : (⟨S_, .f32⟩ : BufTy).Contents (Elt F) → (⟨S_, .f32⟩ : BufTy).Contents (Elt F)),
    nullary main_cst_12 (constant S_ .f32 0x46000000#32),
    binary main_v47 main_cst_12 main_v48 (Host.divf : (⟨S_, .f32⟩ : BufTy).Contents (Elt F) → (⟨S_, .f32⟩ : BufTy).Contents (Elt F) → (⟨S_, .f32⟩ : BufTy).Contents (Elt F)) ]

/-- The fold of a list of operations split in two is the fold of the second part over the fold of the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-! ## A typed reference at a literal buffer carries contents unchanged -/
theorem toBuf_main_arg0 (v : (⟨S8192x512, .f32⟩ : BufTy).Contents (Elt F)) : (TRef.of (sig := sig) (T := ⟨S8192x512, .f32⟩) main_arg0).toBuf (Val := Elt F) v = v := rfl
theorem ofBuf_main_arg0 (v : (⟨S8192x512, .f32⟩ : BufTy).Contents (Elt F)) : (TRef.of (sig := sig) (T := ⟨S8192x512, .f32⟩) main_arg0).ofBuf (Val := Elt F) v = v := rfl
theorem toBuf_main_call0_v0 (v : (⟨S8192x512, .f32⟩ : BufTy).Contents (Elt F)) : (TRef.of (sig := sig) (T := ⟨S8192x512, .f32⟩) main_call0_v0).toBuf (Val := Elt F) v = v := rfl
theorem ofBuf_main_call0_v0 (v : (⟨S8192x512, .f32⟩ : BufTy).Contents (Elt F)) : (TRef.of (sig := sig) (T := ⟨S8192x512, .f32⟩) main_call0_v0).ofBuf (Val := Elt F) v = v := rfl
theorem toBuf_main_call0_cst (v : (⟨S_, .f32⟩ : BufTy).Contents (Elt F)) : (TRef.of (sig := sig) (T := ⟨S_, .f32⟩) main_call0_cst).toBuf (Val := Elt F) v = v := rfl
theorem ofBuf_main_call0_cst (v : (⟨S_, .f32⟩ : BufTy).Contents (Elt F)) : (TRef.of (sig := sig) (T := ⟨S_, .f32⟩) main_call0_cst).ofBuf (Val := Elt F) v = v := rfl
theorem toBuf_main_call0_v1 (v : (⟨S8192, .f32⟩ : BufTy).Contents (Elt F)) : (TRef.of (sig := sig) (T := ⟨S8192, .f32⟩) main_call0_v1).toBuf (Val := Elt F) v = v := rfl
theorem ofBuf_main_call0_v1 (v : (⟨S8192, .f32⟩ : BufTy).Contents (Elt F)) : (TRef.of (sig := sig) (T := ⟨S8192, .f32⟩) main_call0_v1).ofBuf (Val := Elt F) v = v := rfl
theorem toBuf_main_call0_v2 (v : (⟨S8192x1, .f32⟩ : BufTy).Contents (Elt F)) : (TRef.of (sig := sig) (T := ⟨S8192x1, .f32⟩) main_call0_v2).toBuf (Val := Elt F) v = v := rfl
theorem ofBuf_main_call0_v2 (v : (⟨S8192x1, .f32⟩ : BufTy).Contents (Elt F)) : (TRef.of (sig := sig) (T := ⟨S8192x1, .f32⟩) main_call0_v2).ofBuf (Val := Elt F) v = v := rfl
theorem toBuf_main_v0 (v : (⟨S8192x1, .f32⟩ : BufTy).Contents (Elt F)) : (TRef.of (sig := sig) (T := ⟨S8192x1, .f32⟩) main_v0).toBuf (Val := Elt F) v = v := rfl
theorem ofBuf_main_v0 (v : (⟨S8192x1, .f32⟩ : BufTy).Contents (Elt F)) : (TRef.of (sig := sig) (T := ⟨S8192x1, .f32⟩) main_v0).ofBuf (Val := Elt F) v = v := rfl
theorem toBuf_main_cst_0 (v : (⟨S_, .f32⟩ : BufTy).Contents (Elt F)) : (TRef.of (sig := sig) (T := ⟨S_, .f32⟩) main_cst_0).toBuf (Val := Elt F) v = v := rfl
theorem ofBuf_main_cst_0 (v : (⟨S_, .f32⟩ : BufTy).Contents (Elt F)) : (TRef.of (sig := sig) (T := ⟨S_, .f32⟩) main_cst_0).ofBuf (Val := Elt F) v = v := rfl
theorem toBuf_main_call1_v0 (v : (⟨S_, .f32⟩ : BufTy).Contents (Elt F)) : (TRef.of (sig := sig) (T := ⟨S_, .f32⟩) main_call1_v0).toBuf (Val := Elt F) v = v := rfl
theorem ofBuf_main_call1_v0 (v : (⟨S_, .f32⟩ : BufTy).Contents (Elt F)) : (TRef.of (sig := sig) (T := ⟨S_, .f32⟩) main_call1_v0).ofBuf (Val := Elt F) v = v := rfl
theorem toBuf_main_call1_v1 (v : (⟨S8192x8192, .f32⟩ : BufTy).Contents (Elt F)) : (TRef.of (sig := sig) (T := ⟨S8192x8192, .f32⟩) main_call1_v1).toBuf (Val := Elt F) v = v := rfl
theorem ofBuf_main_call1_v1 (v : (⟨S8192x8192, .f32⟩ : BufTy).Contents (Elt F)) : (TRef.of (sig := sig) (T := ⟨S8192x8192, .f32⟩) main_call1_v1).ofBuf (Val := Elt F) v = v := rfl
theorem toBuf_main_v11 (v : (⟨S8192x8192, .i1⟩ : BufTy).Contents (Elt F)) : (TRef.of (sig := sig) (T := ⟨S8192x8192, .i1⟩) main_v11).toBuf (Val := Elt F) v = v := rfl
theorem ofBuf_main_v11 (v : (⟨S8192x8192, .i1⟩ : BufTy).Contents (Elt F)) : (TRef.of (sig := sig) (T := ⟨S8192x8192, .i1⟩) main_v11).ofBuf (Val := Elt F) v = v := rfl
theorem toBuf_main_v6 (v : (⟨S8192x8192, .f32⟩ : BufTy).Contents (Elt F)) : (TRef.of (sig := sig) (T := ⟨S8192x8192, .f32⟩) main_v6).toBuf (Val := Elt F) v = v := rfl
theorem ofBuf_main_v6 (v : (⟨S8192x8192, .f32⟩ : BufTy).Contents (Elt F)) : (TRef.of (sig := sig) (T := ⟨S8192x8192, .f32⟩) main_v6).ofBuf (Val := Elt F) v = v := rfl
theorem toBuf_main_v12 (v : (⟨S8192x8192, .f32⟩ : BufTy).Contents (Elt F)) : (TRef.of (sig := sig) (T := ⟨S8192x8192, .f32⟩) main_v12).toBuf (Val := Elt F) v = v := rfl
theorem ofBuf_main_v12 (v : (⟨S8192x8192, .f32⟩ : BufTy).Contents (Elt F)) : (TRef.of (sig := sig) (T := ⟨S8192x8192, .f32⟩) main_v12).ofBuf (Val := Elt F) v = v := rfl
theorem toBuf_main_call2_cst (v : (⟨S_, .f32⟩ : BufTy).Contents (Elt F)) : (TRef.of (sig := sig) (T := ⟨S_, .f32⟩) main_call2_cst).toBuf (Val := Elt F) v = v := rfl
theorem ofBuf_main_call2_cst (v : (⟨S_, .f32⟩ : BufTy).Contents (Elt F)) : (TRef.of (sig := sig) (T := ⟨S_, .f32⟩) main_call2_cst).ofBuf (Val := Elt F) v = v := rfl
theorem toBuf_main_call2_v0 (v : (⟨S8192, .f32⟩ : BufTy).Contents (Elt F)) : (TRef.of (sig := sig) (T := ⟨S8192, .f32⟩) main_call2_v0).toBuf (Val := Elt F) v = v := rfl
theorem ofBuf_main_call2_v0 (v : (⟨S8192, .f32⟩ : BufTy).Contents (Elt F)) : (TRef.of (sig := sig) (T := ⟨S8192, .f32⟩) main_call2_v0).ofBuf (Val := Elt F) v = v := rfl
theorem toBuf_main_call2_cst_0 (v : (⟨S_, .f32⟩ : BufTy).Contents (Elt F)) : (TRef.of (sig := sig) (T := ⟨S_, .f32⟩) main_call2_cst_0).toBuf (Val := Elt F) v = v := rfl
theorem ofBuf_main_call2_cst_0 (v : (⟨S_, .f32⟩ : BufTy).Contents (Elt F)) : (TRef.of (sig := sig) (T := ⟨S_, .f32⟩) main_call2_cst_0).ofBuf (Val := Elt F) v = v := rfl
theorem toBuf_main_call2_v1 (v : (⟨S8192, .f32⟩ : BufTy).Contents (Elt F)) : (TRef.of (sig := sig) (T := ⟨S8192, .f32⟩) main_call2_v1).toBuf (Val := Elt F) v = v := rfl
theorem ofBuf_main_call2_v1 (v : (⟨S8192, .f32⟩ : BufTy).Contents (Elt F)) : (TRef.of (sig := sig) (T := ⟨S8192, .f32⟩) main_call2_v1).ofBuf (Val := Elt F) v = v := rfl
theorem toBuf_main_call2_v2 (v : (⟨S8192, .f32⟩ : BufTy).Contents (Elt F)) : (TRef.of (sig := sig) (T := ⟨S8192, .f32⟩) main_call2_v2).toBuf (Val := Elt F) v = v := rfl
theorem ofBuf_main_call2_v2 (v : (⟨S8192, .f32⟩ : BufTy).Contents (Elt F)) : (TRef.of (sig := sig) (T := ⟨S8192, .f32⟩) main_call2_v2).ofBuf (Val := Elt F) v = v := rfl
theorem toBuf_main_call2_v3 (v : (⟨S8192x1, .f32⟩ : BufTy).Contents (Elt F)) : (TRef.of (sig := sig) (T := ⟨S8192x1, .f32⟩) main_call2_v3).toBuf (Val := Elt F) v = v := rfl
theorem ofBuf_main_call2_v3 (v : (⟨S8192x1, .f32⟩ : BufTy).Contents (Elt F)) : (TRef.of (sig := sig) (T := ⟨S8192x1, .f32⟩) main_call2_v3).ofBuf (Val := Elt F) v = v := rfl
theorem toBuf_main_call2_v4 (v : (⟨S8192x8192, .f32⟩ : BufTy).Contents (Elt F)) : (TRef.of (sig := sig) (T := ⟨S8192x8192, .f32⟩) main_call2_v4).toBuf (Val := Elt F) v = v := rfl
theorem ofBuf_main_call2_v4 (v : (⟨S8192x8192, .f32⟩ : BufTy).Contents (Elt F)) : (TRef.of (sig := sig) (T := ⟨S8192x8192, .f32⟩) main_call2_v4).ofBuf (Val := Elt F) v = v := rfl
theorem toBuf_main_call2_v5 (v : (⟨S8192x8192, .f32⟩ : BufTy).Contents (Elt F)) : (TRef.of (sig := sig) (T := ⟨S8192x8192, .f32⟩) main_call2_v5).toBuf (Val := Elt F) v = v := rfl
theorem ofBuf_main_call2_v5 (v : (⟨S8192x8192, .f32⟩ : BufTy).Contents (Elt F)) : (TRef.of (sig := sig) (T := ⟨S8192x8192, .f32⟩) main_call2_v5).ofBuf (Val := Elt F) v = v := rfl
theorem toBuf_main_call2_v6 (v : (⟨S8192x8192, .f32⟩ : BufTy).Contents (Elt F)) : (TRef.of (sig := sig) (T := ⟨S8192x8192, .f32⟩) main_call2_v6).toBuf (Val := Elt F) v = v := rfl
theorem ofBuf_main_call2_v6 (v : (⟨S8192x8192, .f32⟩ : BufTy).Contents (Elt F)) : (TRef.of (sig := sig) (T := ⟨S8192x8192, .f32⟩) main_call2_v6).ofBuf (Val := Elt F) v = v := rfl
theorem toBuf_main_call2_cst_1 (v : (⟨S_, .f32⟩ : BufTy).Contents (Elt F)) : (TRef.of (sig := sig) (T := ⟨S_, .f32⟩) main_call2_cst_1).toBuf (Val := Elt F) v = v := rfl
theorem ofBuf_main_call2_cst_1 (v : (⟨S_, .f32⟩ : BufTy).Contents (Elt F)) : (TRef.of (sig := sig) (T := ⟨S_, .f32⟩) main_call2_cst_1).ofBuf (Val := Elt F) v = v := rfl
theorem toBuf_main_call2_v7 (v : (⟨S8192, .f32⟩ : BufTy).Contents (Elt F)) : (TRef.of (sig := sig) (T := ⟨S8192, .f32⟩) main_call2_v7).toBuf (Val := Elt F) v = v := rfl
theorem ofBuf_main_call2_v7 (v : (⟨S8192, .f32⟩ : BufTy).Contents (Elt F)) : (TRef.of (sig := sig) (T := ⟨S8192, .f32⟩) main_call2_v7).ofBuf (Val := Elt F) v = v := rfl
theorem toBuf_main_call2_v8 (v : (⟨S8192x1, .f32⟩ : BufTy).Contents (Elt F)) : (TRef.of (sig := sig) (T := ⟨S8192x1, .f32⟩) main_call2_v8).toBuf (Val := Elt F) v = v := rfl
theorem ofBuf_main_call2_v8 (v : (⟨S8192x1, .f32⟩ : BufTy).Contents (Elt F)) : (TRef.of (sig := sig) (T := ⟨S8192x1, .f32⟩) main_call2_v8).ofBuf (Val := Elt F) v = v := rfl
theorem toBuf_main_call2_v9 (v : (⟨S8192x1, .f32⟩ : BufTy).Contents (Elt F)) : (TRef.of (sig := sig) (T := ⟨S8192x1, .f32⟩) main_call2_v9).toBuf (Val := Elt F) v = v := rfl
theorem ofBuf_main_call2_v9 (v : (⟨S8192x1, .f32⟩ : BufTy).Contents (Elt F)) : (TRef.of (sig := sig) (T := ⟨S8192x1, .f32⟩) main_call2_v9).ofBuf (Val := Elt F) v = v := rfl
theorem toBuf_main_call2_v10 (v : (⟨S8192x8192, .f32⟩ : BufTy).Contents (Elt F)) : (TRef.of (sig := sig) (T := ⟨S8192x8192, .f32⟩) main_call2_v10).toBuf (Val := Elt F) v = v := rfl
theorem ofBuf_main_call2_v10 (v : (⟨S8192x8192, .f32⟩ : BufTy).Contents (Elt F)) : (TRef.of (sig := sig) (T := ⟨S8192x8192, .f32⟩) main_call2_v10).ofBuf (Val := Elt F) v = v := rfl
theorem toBuf_main_v13 (v : (⟨S8192x8192, .f32⟩ : BufTy).Contents (Elt F)) : (TRef.of (sig := sig) (T := ⟨S8192x8192, .f32⟩) main_v13).toBuf (Val := Elt F) v = v := rfl
theorem ofBuf_main_v13 (v : (⟨S8192x8192, .f32⟩ : BufTy).Contents (Elt F)) : (TRef.of (sig := sig) (T := ⟨S8192x8192, .f32⟩) main_v13).ofBuf (Val := Elt F) v = v := rfl
theorem toBuf_main_cst_4 (v : (⟨S_, .f32⟩ : BufTy).Contents (Elt F)) : (TRef.of (sig := sig) (T := ⟨S_, .f32⟩) main_cst_4).toBuf (Val := Elt F) v = v := rfl
theorem ofBuf_main_cst_4 (v : (⟨S_, .f32⟩ : BufTy).Contents (Elt F)) : (TRef.of (sig := sig) (T := ⟨S_, .f32⟩) main_cst_4).ofBuf (Val := Elt F) v = v := rfl
theorem toBuf_main_call3_v0 (v : (⟨S_, .f32⟩ : BufTy).Contents (Elt F)) : (TRef.of (sig := sig) (T := ⟨S_, .f32⟩) main_call3_v0).toBuf (Val := Elt F) v = v := rfl
theorem ofBuf_main_call3_v0 (v : (⟨S_, .f32⟩ : BufTy).Contents (Elt F)) : (TRef.of (sig := sig) (T := ⟨S_, .f32⟩) main_call3_v0).ofBuf (Val := Elt F) v = v := rfl
theorem toBuf_main_call3_v1 (v : (⟨S8192x8192, .f32⟩ : BufTy).Contents (Elt F)) : (TRef.of (sig := sig) (T := ⟨S8192x8192, .f32⟩) main_call3_v1).toBuf (Val := Elt F) v = v := rfl
theorem ofBuf_main_call3_v1 (v : (⟨S8192x8192, .f32⟩ : BufTy).Contents (Elt F)) : (TRef.of (sig := sig) (T := ⟨S8192x8192, .f32⟩) main_call3_v1).ofBuf (Val := Elt F) v = v := rfl
theorem toBuf_main_v21 (v : (⟨S8192x8192, .i1⟩ : BufTy).Contents (Elt F)) : (TRef.of (sig := sig) (T := ⟨S8192x8192, .i1⟩) main_v21).toBuf (Val := Elt F) v = v := rfl
theorem ofBuf_main_v21 (v : (⟨S8192x8192, .i1⟩ : BufTy).Contents (Elt F)) : (TRef.of (sig := sig) (T := ⟨S8192x8192, .i1⟩) main_v21).ofBuf (Val := Elt F) v = v := rfl
theorem toBuf_main_v26 (v : (⟨S8192x8192, .f32⟩ : BufTy).Contents (Elt F)) : (TRef.of (sig := sig) (T := ⟨S8192x8192, .f32⟩) main_v26).toBuf (Val := Elt F) v = v := rfl
theorem ofBuf_main_v26 (v : (⟨S8192x8192, .f32⟩ : BufTy).Contents (Elt F)) : (TRef.of (sig := sig) (T := ⟨S8192x8192, .f32⟩) main_v26).ofBuf (Val := Elt F) v = v := rfl
theorem toBuf_main_v29 (v : (⟨S8192x8192, .f32⟩ : BufTy).Contents (Elt F)) : (TRef.of (sig := sig) (T := ⟨S8192x8192, .f32⟩) main_v29).toBuf (Val := Elt F) v = v := rfl
theorem ofBuf_main_v29 (v : (⟨S8192x8192, .f32⟩ : BufTy).Contents (Elt F)) : (TRef.of (sig := sig) (T := ⟨S8192x8192, .f32⟩) main_v29).ofBuf (Val := Elt F) v = v := rfl
theorem toBuf_main_cst_10 (v : (⟨S_, .f32⟩ : BufTy).Contents (Elt F)) : (TRef.of (sig := sig) (T := ⟨S_, .f32⟩) main_cst_10).toBuf (Val := Elt F) v = v := rfl
theorem ofBuf_main_cst_10 (v : (⟨S_, .f32⟩ : BufTy).Contents (Elt F)) : (TRef.of (sig := sig) (T := ⟨S_, .f32⟩) main_cst_10).ofBuf (Val := Elt F) v = v := rfl
theorem toBuf_main_call4_v0 (v : (⟨S_, .f32⟩ : BufTy).Contents (Elt F)) : (TRef.of (sig := sig) (T := ⟨S_, .f32⟩) main_call4_v0).toBuf (Val := Elt F) v = v := rfl
theorem ofBuf_main_call4_v0 (v : (⟨S_, .f32⟩ : BufTy).Contents (Elt F)) : (TRef.of (sig := sig) (T := ⟨S_, .f32⟩) main_call4_v0).ofBuf (Val := Elt F) v = v := rfl
theorem toBuf_main_call4_v1 (v : (⟨S8192, .f32⟩ : BufTy).Contents (Elt F)) : (TRef.of (sig := sig) (T := ⟨S8192, .f32⟩) main_call4_v1).toBuf (Val := Elt F) v = v := rfl
theorem ofBuf_main_call4_v1 (v : (⟨S8192, .f32⟩ : BufTy).Contents (Elt F)) : (TRef.of (sig := sig) (T := ⟨S8192, .f32⟩) main_call4_v1).ofBuf (Val := Elt F) v = v := rfl
theorem toBuf_main_v43 (v : (⟨S8192, .i1⟩ : BufTy).Contents (Elt F)) : (TRef.of (sig := sig) (T := ⟨S8192, .i1⟩) main_v43).toBuf (Val := Elt F) v = v := rfl
theorem ofBuf_main_v43 (v : (⟨S8192, .i1⟩ : BufTy).Contents (Elt F)) : (TRef.of (sig := sig) (T := ⟨S8192, .i1⟩) main_v43).ofBuf (Val := Elt F) v = v := rfl
theorem toBuf_main_v44 (v : (⟨S8192, .f32⟩ : BufTy).Contents (Elt F)) : (TRef.of (sig := sig) (T := ⟨S8192, .f32⟩) main_v44).toBuf (Val := Elt F) v = v := rfl
theorem ofBuf_main_v44 (v : (⟨S8192, .f32⟩ : BufTy).Contents (Elt F)) : (TRef.of (sig := sig) (T := ⟨S8192, .f32⟩) main_v44).ofBuf (Val := Elt F) v = v := rfl
theorem toBuf_main_v45 (v : (⟨S8192, .f32⟩ : BufTy).Contents (Elt F)) : (TRef.of (sig := sig) (T := ⟨S8192, .f32⟩) main_v45).toBuf (Val := Elt F) v = v := rfl
theorem ofBuf_main_v45 (v : (⟨S8192, .f32⟩ : BufTy).Contents (Elt F)) : (TRef.of (sig := sig) (T := ⟨S8192, .f32⟩) main_v45).ofBuf (Val := Elt F) v = v := rfl

set_option maxRecDepth 8192 in
/-- After operations 0 … 4, main_v0 holds its value as a function of the arguments. -/
theorem seg1_main_v0 (W : Valuation τ sig (Elt F)) (x0 : (⟨S8192x512, .f32⟩ : BufTy).Contents (Elt F))
    (h_main_arg0 : W (Proc.devRef .tc main_arg0) = x0) :
    after ops1 W (Proc.devRef .tc main_v0) = val_main_v0 (F := F) x0 := by
  after_results_simp
  simp only [h_main_arg0, val_main_call0_v0, val_main_call0_cst, val_main_call0_v1, val_main_call0_v2, val_main_v0, toBuf_main_arg0, ofBuf_main_arg0, toBuf_main_call0_v0, ofBuf_main_call0_v0, toBuf_main_call0_cst, ofBuf_main_call0_cst, toBuf_main_call0_v1, ofBuf_main_call0_v1, toBuf_main_call0_v2, ofBuf_main_call0_v2, toBuf_main_v0, ofBuf_main_v0, toBuf_main_cst_0, ofBuf_main_cst_0, toBuf_main_call1_v0, ofBuf_main_call1_v0, toBuf_main_call1_v1, ofBuf_main_call1_v1, toBuf_main_v11, ofBuf_main_v11, toBuf_main_v6, ofBuf_main_v6, toBuf_main_v12, ofBuf_main_v12, toBuf_main_call2_cst, ofBuf_main_call2_cst, toBuf_main_call2_v0, ofBuf_main_call2_v0, toBuf_main_call2_cst_0, ofBuf_main_call2_cst_0, toBuf_main_call2_v1, ofBuf_main_call2_v1, toBuf_main_call2_v2, ofBuf_main_call2_v2, toBuf_main_call2_v3, ofBuf_main_call2_v3, toBuf_main_call2_v4, ofBuf_main_call2_v4, toBuf_main_call2_v5, ofBuf_main_call2_v5, toBuf_main_call2_v6, ofBuf_main_call2_v6, toBuf_main_call2_cst_1, ofBuf_main_call2_cst_1, toBuf_main_call2_v7, ofBuf_main_call2_v7, toBuf_main_call2_v8, ofBuf_main_call2_v8, toBuf_main_call2_v9, ofBuf_main_call2_v9, toBuf_main_call2_v10, ofBuf_main_call2_v10, toBuf_main_v13, ofBuf_main_v13, toBuf_main_cst_4, ofBuf_main_cst_4, toBuf_main_call3_v0, ofBuf_main_call3_v0, toBuf_main_call3_v1, ofBuf_main_call3_v1, toBuf_main_v21, ofBuf_main_v21, toBuf_main_v26, ofBuf_main_v26, toBuf_main_v29, ofBuf_main_v29, toBuf_main_cst_10, ofBuf_main_cst_10, toBuf_main_call4_v0, ofBuf_main_call4_v0, toBuf_main_call4_v1, ofBuf_main_call4_v1, toBuf_main_v43, ofBuf_main_v43, toBuf_main_v44, ofBuf_main_v44, toBuf_main_v45, ofBuf_main_v45]

theorem seg1_keep_main_arg0 (W : Valuation τ sig (Elt F)) :
    after ops1 W (Proc.devRef .tc main_arg0) = W (Proc.devRef .tc main_arg0) := by
  after_results_simp

theorem seg1_keep_main_arg1 (W : Valuation τ sig (Elt F)) :
    after ops1 W (Proc.devRef .tc main_arg1) = W (Proc.devRef .tc main_arg1) := by
  after_results_simp

theorem seg1_keep_main_arg2 (W : Valuation τ sig (Elt F)) :
    after ops1 W (Proc.devRef .tc main_arg2) = W (Proc.devRef .tc main_arg2) := by
  after_results_simp

set_option maxRecDepth 8192 in
/-- After operations 5 … 21, main_v11 holds its value as a function of the arguments. -/
theorem seg2_main_v11 (W : Valuation τ sig (Elt F)) (x0 : (⟨S8192x512, .f32⟩ : BufTy).Contents (Elt F))
    (h_main_arg0 : W (Proc.devRef .tc main_arg0) = x0)
    (h_main_v0 : W (Proc.devRef .tc main_v0) = val_main_v0 (F := F) x0) :
    after ops2 W (Proc.devRef .tc main_v11) = val_main_v11 (F := F) := by
  after_results_simp
  simp only [h_main_arg0, h_main_v0, val_main_v1, val_main_v2, val_main_v3, val_main_v4, val_main_cst, val_main_v5, val_main_v6, val_main_v7, val_main_v8, val_main_c, val_main_v9, val_main_v10, val_main_v11, val_main_cst_0, val_main_call1_v0, val_main_call1_v1, val_main_v12, toBuf_main_arg0, ofBuf_main_arg0, toBuf_main_call0_v0, ofBuf_main_call0_v0, toBuf_main_call0_cst, ofBuf_main_call0_cst, toBuf_main_call0_v1, ofBuf_main_call0_v1, toBuf_main_call0_v2, ofBuf_main_call0_v2, toBuf_main_v0, ofBuf_main_v0, toBuf_main_cst_0, ofBuf_main_cst_0, toBuf_main_call1_v0, ofBuf_main_call1_v0, toBuf_main_call1_v1, ofBuf_main_call1_v1, toBuf_main_v11, ofBuf_main_v11, toBuf_main_v6, ofBuf_main_v6, toBuf_main_v12, ofBuf_main_v12, toBuf_main_call2_cst, ofBuf_main_call2_cst, toBuf_main_call2_v0, ofBuf_main_call2_v0, toBuf_main_call2_cst_0, ofBuf_main_call2_cst_0, toBuf_main_call2_v1, ofBuf_main_call2_v1, toBuf_main_call2_v2, ofBuf_main_call2_v2, toBuf_main_call2_v3, ofBuf_main_call2_v3, toBuf_main_call2_v4, ofBuf_main_call2_v4, toBuf_main_call2_v5, ofBuf_main_call2_v5, toBuf_main_call2_v6, ofBuf_main_call2_v6, toBuf_main_call2_cst_1, ofBuf_main_call2_cst_1, toBuf_main_call2_v7, ofBuf_main_call2_v7, toBuf_main_call2_v8, ofBuf_main_call2_v8, toBuf_main_call2_v9, ofBuf_main_call2_v9, toBuf_main_call2_v10, ofBuf_main_call2_v10, toBuf_main_v13, ofBuf_main_v13, toBuf_main_cst_4, ofBuf_main_cst_4, toBuf_main_call3_v0, ofBuf_main_call3_v0, toBuf_main_call3_v1, ofBuf_main_call3_v1, toBuf_main_v21, ofBuf_main_v21, toBuf_main_v26, ofBuf_main_v26, toBuf_main_v29, ofBuf_main_v29, toBuf_main_cst_10, ofBuf_main_cst_10, toBuf_main_call4_v0, ofBuf_main_call4_v0, toBuf_main_call4_v1, ofBuf_main_call4_v1, toBuf_main_v43, ofBuf_main_v43, toBuf_main_v44, ofBuf_main_v44, toBuf_main_v45, ofBuf_main_v45]

set_option maxRecDepth 8192 in
/-- After operations 5 … 21, main_v12 holds its value as a function of the arguments. -/
theorem seg2_main_v12 (W : Valuation τ sig (Elt F)) (x0 : (⟨S8192x512, .f32⟩ : BufTy).Contents (Elt F))
    (h_main_arg0 : W (Proc.devRef .tc main_arg0) = x0)
    (h_main_v0 : W (Proc.devRef .tc main_v0) = val_main_v0 (F := F) x0) :
    after ops2 W (Proc.devRef .tc main_v12) = val_main_v12 (F := F) x0 := by
  after_results_simp
  simp only [h_main_arg0, h_main_v0, val_main_v1, val_main_v2, val_main_v3, val_main_v4, val_main_cst, val_main_v5, val_main_v6, val_main_v7, val_main_v8, val_main_c, val_main_v9, val_main_v10, val_main_v11, val_main_cst_0, val_main_call1_v0, val_main_call1_v1, val_main_v12, toBuf_main_arg0, ofBuf_main_arg0, toBuf_main_call0_v0, ofBuf_main_call0_v0, toBuf_main_call0_cst, ofBuf_main_call0_cst, toBuf_main_call0_v1, ofBuf_main_call0_v1, toBuf_main_call0_v2, ofBuf_main_call0_v2, toBuf_main_v0, ofBuf_main_v0, toBuf_main_cst_0, ofBuf_main_cst_0, toBuf_main_call1_v0, ofBuf_main_call1_v0, toBuf_main_call1_v1, ofBuf_main_call1_v1, toBuf_main_v11, ofBuf_main_v11, toBuf_main_v6, ofBuf_main_v6, toBuf_main_v12, ofBuf_main_v12, toBuf_main_call2_cst, ofBuf_main_call2_cst, toBuf_main_call2_v0, ofBuf_main_call2_v0, toBuf_main_call2_cst_0, ofBuf_main_call2_cst_0, toBuf_main_call2_v1, ofBuf_main_call2_v1, toBuf_main_call2_v2, ofBuf_main_call2_v2, toBuf_main_call2_v3, ofBuf_main_call2_v3, toBuf_main_call2_v4, ofBuf_main_call2_v4, toBuf_main_call2_v5, ofBuf_main_call2_v5, toBuf_main_call2_v6, ofBuf_main_call2_v6, toBuf_main_call2_cst_1, ofBuf_main_call2_cst_1, toBuf_main_call2_v7, ofBuf_main_call2_v7, toBuf_main_call2_v8, ofBuf_main_call2_v8, toBuf_main_call2_v9, ofBuf_main_call2_v9, toBuf_main_call2_v10, ofBuf_main_call2_v10, toBuf_main_v13, ofBuf_main_v13, toBuf_main_cst_4, ofBuf_main_cst_4, toBuf_main_call3_v0, ofBuf_main_call3_v0, toBuf_main_call3_v1, ofBuf_main_call3_v1, toBuf_main_v21, ofBuf_main_v21, toBuf_main_v26, ofBuf_main_v26, toBuf_main_v29, ofBuf_main_v29, toBuf_main_cst_10, ofBuf_main_cst_10, toBuf_main_call4_v0, ofBuf_main_call4_v0, toBuf_main_call4_v1, ofBuf_main_call4_v1, toBuf_main_v43, ofBuf_main_v43, toBuf_main_v44, ofBuf_main_v44, toBuf_main_v45, ofBuf_main_v45]

theorem seg2_keep_main_arg1 (W : Valuation τ sig (Elt F)) :
    after ops2 W (Proc.devRef .tc main_arg1) = W (Proc.devRef .tc main_arg1) := by
  after_results_simp

theorem seg2_keep_main_arg2 (W : Valuation τ sig (Elt F)) :
    after ops2 W (Proc.devRef .tc main_arg2) = W (Proc.devRef .tc main_arg2) := by
  after_results_simp

set_option maxRecDepth 8192 in
/-- After operations 22 … 36, main_v13 holds its value as a function of the arguments. -/
theorem seg3_main_v13 (W : Valuation τ sig (Elt F)) (x0 : (⟨S8192x512, .f32⟩ : BufTy).Contents (Elt F))
    (h_main_v12 : W (Proc.devRef .tc main_v12) = val_main_v12 (F := F) x0) :
    after ops3 W (Proc.devRef .tc main_v13) = val_main_v13 (F := F) x0 := by
  after_results_simp
  simp only [h_main_v12, val_main_call2_cst, val_main_call2_v0, val_main_call2_cst_0, val_main_call2_v1, val_main_call2_v2, val_main_call2_v3, val_main_call2_v4, val_main_call2_v5, val_main_call2_v6, val_main_call2_cst_1, val_main_call2_v7, val_main_call2_v8, val_main_call2_v9, val_main_call2_v10, val_main_v13, toBuf_main_arg0, ofBuf_main_arg0, toBuf_main_call0_v0, ofBuf_main_call0_v0, toBuf_main_call0_cst, ofBuf_main_call0_cst, toBuf_main_call0_v1, ofBuf_main_call0_v1, toBuf_main_call0_v2, ofBuf_main_call0_v2, toBuf_main_v0, ofBuf_main_v0, toBuf_main_cst_0, ofBuf_main_cst_0, toBuf_main_call1_v0, ofBuf_main_call1_v0, toBuf_main_call1_v1, ofBuf_main_call1_v1, toBuf_main_v11, ofBuf_main_v11, toBuf_main_v6, ofBuf_main_v6, toBuf_main_v12, ofBuf_main_v12, toBuf_main_call2_cst, ofBuf_main_call2_cst, toBuf_main_call2_v0, ofBuf_main_call2_v0, toBuf_main_call2_cst_0, ofBuf_main_call2_cst_0, toBuf_main_call2_v1, ofBuf_main_call2_v1, toBuf_main_call2_v2, ofBuf_main_call2_v2, toBuf_main_call2_v3, ofBuf_main_call2_v3, toBuf_main_call2_v4, ofBuf_main_call2_v4, toBuf_main_call2_v5, ofBuf_main_call2_v5, toBuf_main_call2_v6, ofBuf_main_call2_v6, toBuf_main_call2_cst_1, ofBuf_main_call2_cst_1, toBuf_main_call2_v7, ofBuf_main_call2_v7, toBuf_main_call2_v8, ofBuf_main_call2_v8, toBuf_main_call2_v9, ofBuf_main_call2_v9, toBuf_main_call2_v10, ofBuf_main_call2_v10, toBuf_main_v13, ofBuf_main_v13, toBuf_main_cst_4, ofBuf_main_cst_4, toBuf_main_call3_v0, ofBuf_main_call3_v0, toBuf_main_call3_v1, ofBuf_main_call3_v1, toBuf_main_v21, ofBuf_main_v21, toBuf_main_v26, ofBuf_main_v26, toBuf_main_v29, ofBuf_main_v29, toBuf_main_cst_10, ofBuf_main_cst_10, toBuf_main_call4_v0, ofBuf_main_call4_v0, toBuf_main_call4_v1, ofBuf_main_call4_v1, toBuf_main_v43, ofBuf_main_v43, toBuf_main_v44, ofBuf_main_v44, toBuf_main_v45, ofBuf_main_v45]

theorem seg3_keep_main_v11 (W : Valuation τ sig (Elt F)) :
    after ops3 W (Proc.devRef .tc main_v11) = W (Proc.devRef .tc main_v11) := by
  after_results_simp

theorem seg3_keep_main_arg1 (W : Valuation τ sig (Elt F)) :
    after ops3 W (Proc.devRef .tc main_arg1) = W (Proc.devRef .tc main_arg1) := by
  after_results_simp

theorem seg3_keep_main_arg2 (W : Valuation τ sig (Elt F)) :
    after ops3 W (Proc.devRef .tc main_arg2) = W (Proc.devRef .tc main_arg2) := by
  after_results_simp

set_option maxRecDepth 8192 in
/-- After operations 37 … 44, main_v14 holds its value as a function of the arguments. -/
theorem seg4_main_v14 (W : Valuation τ sig (Elt F)) (x0 : (⟨S8192x512, .f32⟩ : BufTy).Contents (Elt F)) (x1 : (⟨S8192, .i32⟩ : BufTy).Contents (Elt F))
    (h_main_v13 : W (Proc.devRef .tc main_v13) = val_main_v13 (F := F) x0)
    (h_main_v11 : W (Proc.devRef .tc main_v11) = val_main_v11 (F := F))
    (h_main_arg1 : W (Proc.devRef .tc main_arg1) = x1) :
    after ops4 W (Proc.devRef .tc main_v14) = val_main_v14 (F := F) x0 := by
  after_results_simp
  simp only [h_main_v13, h_main_v11, h_main_arg1, val_main_v14, val_main_v15, val_main_v16, val_main_v17, val_main_v18, val_main_v19, val_main_v20, val_main_v21, toBuf_main_arg0, ofBuf_main_arg0, toBuf_main_call0_v0, ofBuf_main_call0_v0, toBuf_main_call0_cst, ofBuf_main_call0_cst, toBuf_main_call0_v1, ofBuf_main_call0_v1, toBuf_main_call0_v2, ofBuf_main_call0_v2, toBuf_main_v0, ofBuf_main_v0, toBuf_main_cst_0, ofBuf_main_cst_0, toBuf_main_call1_v0, ofBuf_main_call1_v0, toBuf_main_call1_v1, ofBuf_main_call1_v1, toBuf_main_v11, ofBuf_main_v11, toBuf_main_v6, ofBuf_main_v6, toBuf_main_v12, ofBuf_main_v12, toBuf_main_call2_cst, ofBuf_main_call2_cst, toBuf_main_call2_v0, ofBuf_main_call2_v0, toBuf_main_call2_cst_0, ofBuf_main_call2_cst_0, toBuf_main_call2_v1, ofBuf_main_call2_v1, toBuf_main_call2_v2, ofBuf_main_call2_v2, toBuf_main_call2_v3, ofBuf_main_call2_v3, toBuf_main_call2_v4, ofBuf_main_call2_v4, toBuf_main_call2_v5, ofBuf_main_call2_v5, toBuf_main_call2_v6, ofBuf_main_call2_v6, toBuf_main_call2_cst_1, ofBuf_main_call2_cst_1, toBuf_main_call2_v7, ofBuf_main_call2_v7, toBuf_main_call2_v8, ofBuf_main_call2_v8, toBuf_main_call2_v9, ofBuf_main_call2_v9, toBuf_main_call2_v10, ofBuf_main_call2_v10, toBuf_main_v13, ofBuf_main_v13, toBuf_main_cst_4, ofBuf_main_cst_4, toBuf_main_call3_v0, ofBuf_main_call3_v0, toBuf_main_call3_v1, ofBuf_main_call3_v1, toBuf_main_v21, ofBuf_main_v21, toBuf_main_v26, ofBuf_main_v26, toBuf_main_v29, ofBuf_main_v29, toBuf_main_cst_10, ofBuf_main_cst_10, toBuf_main_call4_v0, ofBuf_main_call4_v0, toBuf_main_call4_v1, ofBuf_main_call4_v1, toBuf_main_v43, ofBuf_main_v43, toBuf_main_v44, ofBuf_main_v44, toBuf_main_v45, ofBuf_main_v45]

set_option maxRecDepth 8192 in
/-- After operations 37 … 44, main_v21 holds its value as a function of the arguments. -/
theorem seg4_main_v21 (W : Valuation τ sig (Elt F)) (x0 : (⟨S8192x512, .f32⟩ : BufTy).Contents (Elt F)) (x1 : (⟨S8192, .i32⟩ : BufTy).Contents (Elt F))
    (h_main_v13 : W (Proc.devRef .tc main_v13) = val_main_v13 (F := F) x0)
    (h_main_v11 : W (Proc.devRef .tc main_v11) = val_main_v11 (F := F))
    (h_main_arg1 : W (Proc.devRef .tc main_arg1) = x1) :
    after ops4 W (Proc.devRef .tc main_v21) = val_main_v21 (F := F) x1 := by
  after_results_simp
  simp only [h_main_v13, h_main_v11, h_main_arg1, val_main_v14, val_main_v15, val_main_v16, val_main_v17, val_main_v18, val_main_v19, val_main_v20, val_main_v21, toBuf_main_arg0, ofBuf_main_arg0, toBuf_main_call0_v0, ofBuf_main_call0_v0, toBuf_main_call0_cst, ofBuf_main_call0_cst, toBuf_main_call0_v1, ofBuf_main_call0_v1, toBuf_main_call0_v2, ofBuf_main_call0_v2, toBuf_main_v0, ofBuf_main_v0, toBuf_main_cst_0, ofBuf_main_cst_0, toBuf_main_call1_v0, ofBuf_main_call1_v0, toBuf_main_call1_v1, ofBuf_main_call1_v1, toBuf_main_v11, ofBuf_main_v11, toBuf_main_v6, ofBuf_main_v6, toBuf_main_v12, ofBuf_main_v12, toBuf_main_call2_cst, ofBuf_main_call2_cst, toBuf_main_call2_v0, ofBuf_main_call2_v0, toBuf_main_call2_cst_0, ofBuf_main_call2_cst_0, toBuf_main_call2_v1, ofBuf_main_call2_v1, toBuf_main_call2_v2, ofBuf_main_call2_v2, toBuf_main_call2_v3, ofBuf_main_call2_v3, toBuf_main_call2_v4, ofBuf_main_call2_v4, toBuf_main_call2_v5, ofBuf_main_call2_v5, toBuf_main_call2_v6, ofBuf_main_call2_v6, toBuf_main_call2_cst_1, ofBuf_main_call2_cst_1, toBuf_main_call2_v7, ofBuf_main_call2_v7, toBuf_main_call2_v8, ofBuf_main_call2_v8, toBuf_main_call2_v9, ofBuf_main_call2_v9, toBuf_main_call2_v10, ofBuf_main_call2_v10, toBuf_main_v13, ofBuf_main_v13, toBuf_main_cst_4, ofBuf_main_cst_4, toBuf_main_call3_v0, ofBuf_main_call3_v0, toBuf_main_call3_v1, ofBuf_main_call3_v1, toBuf_main_v21, ofBuf_main_v21, toBuf_main_v26, ofBuf_main_v26, toBuf_main_v29, ofBuf_main_v29, toBuf_main_cst_10, ofBuf_main_cst_10, toBuf_main_call4_v0, ofBuf_main_call4_v0, toBuf_main_call4_v1, ofBuf_main_call4_v1, toBuf_main_v43, ofBuf_main_v43, toBuf_main_v44, ofBuf_main_v44, toBuf_main_v45, ofBuf_main_v45]

theorem seg4_keep_main_v13 (W : Valuation τ sig (Elt F)) :
    after ops4 W (Proc.devRef .tc main_v13) = W (Proc.devRef .tc main_v13) := by
  after_results_simp

theorem seg4_keep_main_arg1 (W : Valuation τ sig (Elt F)) :
    after ops4 W (Proc.devRef .tc main_arg1) = W (Proc.devRef .tc main_arg1) := by
  after_results_simp

theorem seg4_keep_main_arg2 (W : Valuation τ sig (Elt F)) :
    after ops4 W (Proc.devRef .tc main_arg2) = W (Proc.devRef .tc main_arg2) := by
  after_results_simp

set_option maxRecDepth 8192 in
/-- After operations 45 … 51, main_v26 holds its value as a function of the arguments. -/
theorem seg5_main_v26 (W : Valuation τ sig (Elt F)) (x0 : (⟨S8192x512, .f32⟩ : BufTy).Contents (Elt F))
    (h_main_v14 : W (Proc.devRef .tc main_v14) = val_main_v14 (F := F) x0)
    (h_main_v13 : W (Proc.devRef .tc main_v13) = val_main_v13 (F := F) x0) :
    after ops5 W (Proc.devRef .tc main_v26) = val_main_v26 (F := F) x0 := by
  after_results_simp
  simp only [h_main_v14, h_main_v13, val_main_cst_1, val_main_v22, val_main_v23, val_main_cst_2, val_main_v24, val_main_v25, val_main_v26, toBuf_main_arg0, ofBuf_main_arg0, toBuf_main_call0_v0, ofBuf_main_call0_v0, toBuf_main_call0_cst, ofBuf_main_call0_cst, toBuf_main_call0_v1, ofBuf_main_call0_v1, toBuf_main_call0_v2, ofBuf_main_call0_v2, toBuf_main_v0, ofBuf_main_v0, toBuf_main_cst_0, ofBuf_main_cst_0, toBuf_main_call1_v0, ofBuf_main_call1_v0, toBuf_main_call1_v1, ofBuf_main_call1_v1, toBuf_main_v11, ofBuf_main_v11, toBuf_main_v6, ofBuf_main_v6, toBuf_main_v12, ofBuf_main_v12, toBuf_main_call2_cst, ofBuf_main_call2_cst, toBuf_main_call2_v0, ofBuf_main_call2_v0, toBuf_main_call2_cst_0, ofBuf_main_call2_cst_0, toBuf_main_call2_v1, ofBuf_main_call2_v1, toBuf_main_call2_v2, ofBuf_main_call2_v2, toBuf_main_call2_v3, ofBuf_main_call2_v3, toBuf_main_call2_v4, ofBuf_main_call2_v4, toBuf_main_call2_v5, ofBuf_main_call2_v5, toBuf_main_call2_v6, ofBuf_main_call2_v6, toBuf_main_call2_cst_1, ofBuf_main_call2_cst_1, toBuf_main_call2_v7, ofBuf_main_call2_v7, toBuf_main_call2_v8, ofBuf_main_call2_v8, toBuf_main_call2_v9, ofBuf_main_call2_v9, toBuf_main_call2_v10, ofBuf_main_call2_v10, toBuf_main_v13, ofBuf_main_v13, toBuf_main_cst_4, ofBuf_main_cst_4, toBuf_main_call3_v0, ofBuf_main_call3_v0, toBuf_main_call3_v1, ofBuf_main_call3_v1, toBuf_main_v21, ofBuf_main_v21, toBuf_main_v26, ofBuf_main_v26, toBuf_main_v29, ofBuf_main_v29, toBuf_main_cst_10, ofBuf_main_cst_10, toBuf_main_call4_v0, ofBuf_main_call4_v0, toBuf_main_call4_v1, ofBuf_main_call4_v1, toBuf_main_v43, ofBuf_main_v43, toBuf_main_v44, ofBuf_main_v44, toBuf_main_v45, ofBuf_main_v45]

theorem seg5_keep_main_v21 (W : Valuation τ sig (Elt F)) :
    after ops5 W (Proc.devRef .tc main_v21) = W (Proc.devRef .tc main_v21) := by
  after_results_simp

theorem seg5_keep_main_arg1 (W : Valuation τ sig (Elt F)) :
    after ops5 W (Proc.devRef .tc main_arg1) = W (Proc.devRef .tc main_arg1) := by
  after_results_simp

theorem seg5_keep_main_arg2 (W : Valuation τ sig (Elt F)) :
    after ops5 W (Proc.devRef .tc main_arg2) = W (Proc.devRef .tc main_arg2) := by
  after_results_simp

set_option maxRecDepth 8192 in
/-- After operations 52 … 60, main_v28 holds its value as a function of the arguments. -/
theorem seg6_main_v28 (W : Valuation τ sig (Elt F)) (x0 : (⟨S8192x512, .f32⟩ : BufTy).Contents (Elt F)) (x1 : (⟨S8192, .i32⟩ : BufTy).Contents (Elt F))
    (h_main_v21 : W (Proc.devRef .tc main_v21) = val_main_v21 (F := F) x1)
    (h_main_v26 : W (Proc.devRef .tc main_v26) = val_main_v26 (F := F) x0) :
    after ops6 W (Proc.devRef .tc main_v28) = val_main_v28 (F := F) x1 := by
  after_results_simp
  simp only [h_main_v21, h_main_v26, val_main_v27, val_main_c_3, val_main_v28, val_main_cst_4, val_main_call3_v0, val_main_call3_v1, val_main_v29, val_main_cst_5, val_main_v30, toBuf_main_arg0, ofBuf_main_arg0, toBuf_main_call0_v0, ofBuf_main_call0_v0, toBuf_main_call0_cst, ofBuf_main_call0_cst, toBuf_main_call0_v1, ofBuf_main_call0_v1, toBuf_main_call0_v2, ofBuf_main_call0_v2, toBuf_main_v0, ofBuf_main_v0, toBuf_main_cst_0, ofBuf_main_cst_0, toBuf_main_call1_v0, ofBuf_main_call1_v0, toBuf_main_call1_v1, ofBuf_main_call1_v1, toBuf_main_v11, ofBuf_main_v11, toBuf_main_v6, ofBuf_main_v6, toBuf_main_v12, ofBuf_main_v12, toBuf_main_call2_cst, ofBuf_main_call2_cst, toBuf_main_call2_v0, ofBuf_main_call2_v0, toBuf_main_call2_cst_0, ofBuf_main_call2_cst_0, toBuf_main_call2_v1, ofBuf_main_call2_v1, toBuf_main_call2_v2, ofBuf_main_call2_v2, toBuf_main_call2_v3, ofBuf_main_call2_v3, toBuf_main_call2_v4, ofBuf_main_call2_v4, toBuf_main_call2_v5, ofBuf_main_call2_v5, toBuf_main_call2_v6, ofBuf_main_call2_v6, toBuf_main_call2_cst_1, ofBuf_main_call2_cst_1, toBuf_main_call2_v7, ofBuf_main_call2_v7, toBuf_main_call2_v8, ofBuf_main_call2_v8, toBuf_main_call2_v9, ofBuf_main_call2_v9, toBuf_main_call2_v10, ofBuf_main_call2_v10, toBuf_main_v13, ofBuf_main_v13, toBuf_main_cst_4, ofBuf_main_cst_4, toBuf_main_call3_v0, ofBuf_main_call3_v0, toBuf_main_call3_v1, ofBuf_main_call3_v1, toBuf_main_v21, ofBuf_main_v21, toBuf_main_v26, ofBuf_main_v26, toBuf_main_v29, ofBuf_main_v29, toBuf_main_cst_10, ofBuf_main_cst_10, toBuf_main_call4_v0, ofBuf_main_call4_v0, toBuf_main_call4_v1, ofBuf_main_call4_v1, toBuf_main_v43, ofBuf_main_v43, toBuf_main_v44, ofBuf_main_v44, toBuf_main_v45, ofBuf_main_v45]

set_option maxRecDepth 8192 in
/-- After operations 52 … 60, main_v30 holds its value as a function of the arguments. -/
theorem seg6_main_v30 (W : Valuation τ sig (Elt F)) (x0 : (⟨S8192x512, .f32⟩ : BufTy).Contents (Elt F)) (x1 : (⟨S8192, .i32⟩ : BufTy).Contents (Elt F))
    (h_main_v21 : W (Proc.devRef .tc main_v21) = val_main_v21 (F := F) x1)
    (h_main_v26 : W (Proc.devRef .tc main_v26) = val_main_v26 (F := F) x0) :
    after ops6 W (Proc.devRef .tc main_v30) = val_main_v30 (F := F) x0 x1 := by
  after_results_simp
  simp only [h_main_v21, h_main_v26, val_main_v27, val_main_c_3, val_main_v28, val_main_cst_4, val_main_call3_v0, val_main_call3_v1, val_main_v29, val_main_cst_5, val_main_v30, toBuf_main_arg0, ofBuf_main_arg0, toBuf_main_call0_v0, ofBuf_main_call0_v0, toBuf_main_call0_cst, ofBuf_main_call0_cst, toBuf_main_call0_v1, ofBuf_main_call0_v1, toBuf_main_call0_v2, ofBuf_main_call0_v2, toBuf_main_v0, ofBuf_main_v0, toBuf_main_cst_0, ofBuf_main_cst_0, toBuf_main_call1_v0, ofBuf_main_call1_v0, toBuf_main_call1_v1, ofBuf_main_call1_v1, toBuf_main_v11, ofBuf_main_v11, toBuf_main_v6, ofBuf_main_v6, toBuf_main_v12, ofBuf_main_v12, toBuf_main_call2_cst, ofBuf_main_call2_cst, toBuf_main_call2_v0, ofBuf_main_call2_v0, toBuf_main_call2_cst_0, ofBuf_main_call2_cst_0, toBuf_main_call2_v1, ofBuf_main_call2_v1, toBuf_main_call2_v2, ofBuf_main_call2_v2, toBuf_main_call2_v3, ofBuf_main_call2_v3, toBuf_main_call2_v4, ofBuf_main_call2_v4, toBuf_main_call2_v5, ofBuf_main_call2_v5, toBuf_main_call2_v6, ofBuf_main_call2_v6, toBuf_main_call2_cst_1, ofBuf_main_call2_cst_1, toBuf_main_call2_v7, ofBuf_main_call2_v7, toBuf_main_call2_v8, ofBuf_main_call2_v8, toBuf_main_call2_v9, ofBuf_main_call2_v9, toBuf_main_call2_v10, ofBuf_main_call2_v10, toBuf_main_v13, ofBuf_main_v13, toBuf_main_cst_4, ofBuf_main_cst_4, toBuf_main_call3_v0, ofBuf_main_call3_v0, toBuf_main_call3_v1, ofBuf_main_call3_v1, toBuf_main_v21, ofBuf_main_v21, toBuf_main_v26, ofBuf_main_v26, toBuf_main_v29, ofBuf_main_v29, toBuf_main_cst_10, ofBuf_main_cst_10, toBuf_main_call4_v0, ofBuf_main_call4_v0, toBuf_main_call4_v1, ofBuf_main_call4_v1, toBuf_main_v43, ofBuf_main_v43, toBuf_main_v44, ofBuf_main_v44, toBuf_main_v45, ofBuf_main_v45]

theorem seg6_keep_main_arg1 (W : Valuation τ sig (Elt F)) :
    after ops6 W (Proc.devRef .tc main_arg1) = W (Proc.devRef .tc main_arg1) := by
  after_results_simp

theorem seg6_keep_main_arg2 (W : Valuation τ sig (Elt F)) :
    after ops6 W (Proc.devRef .tc main_arg2) = W (Proc.devRef .tc main_arg2) := by
  after_results_simp

set_option maxRecDepth 8192 in
/-- After operations 61 … 65, main_v34 holds its value as a function of the arguments. -/
theorem seg7_main_v34 (W : Valuation τ sig (Elt F)) (x0 : (⟨S8192x512, .f32⟩ : BufTy).Contents (Elt F)) (x1 : (⟨S8192, .i32⟩ : BufTy).Contents (Elt F))
    (h_main_v28 : W (Proc.devRef .tc main_v28) = val_main_v28 (F := F) x1)
    (h_main_v30 : W (Proc.devRef .tc main_v30) = val_main_v30 (F := F) x0 x1) :
    after ops7 W (Proc.devRef .tc main_v34) = val_main_v34 (F := F) x0 x1 := by
  after_results_simp
  simp only [h_main_v28, h_main_v30, val_main_c_6, val_main_v31, val_main_v32, val_main_v33, val_main_v34, toBuf_main_arg0, ofBuf_main_arg0, toBuf_main_call0_v0, ofBuf_main_call0_v0, toBuf_main_call0_cst, ofBuf_main_call0_cst, toBuf_main_call0_v1, ofBuf_main_call0_v1, toBuf_main_call0_v2, ofBuf_main_call0_v2, toBuf_main_v0, ofBuf_main_v0, toBuf_main_cst_0, ofBuf_main_cst_0, toBuf_main_call1_v0, ofBuf_main_call1_v0, toBuf_main_call1_v1, ofBuf_main_call1_v1, toBuf_main_v11, ofBuf_main_v11, toBuf_main_v6, ofBuf_main_v6, toBuf_main_v12, ofBuf_main_v12, toBuf_main_call2_cst, ofBuf_main_call2_cst, toBuf_main_call2_v0, ofBuf_main_call2_v0, toBuf_main_call2_cst_0, ofBuf_main_call2_cst_0, toBuf_main_call2_v1, ofBuf_main_call2_v1, toBuf_main_call2_v2, ofBuf_main_call2_v2, toBuf_main_call2_v3, ofBuf_main_call2_v3, toBuf_main_call2_v4, ofBuf_main_call2_v4, toBuf_main_call2_v5, ofBuf_main_call2_v5, toBuf_main_call2_v6, ofBuf_main_call2_v6, toBuf_main_call2_cst_1, ofBuf_main_call2_cst_1, toBuf_main_call2_v7, ofBuf_main_call2_v7, toBuf_main_call2_v8, ofBuf_main_call2_v8, toBuf_main_call2_v9, ofBuf_main_call2_v9, toBuf_main_call2_v10, ofBuf_main_call2_v10, toBuf_main_v13, ofBuf_main_v13, toBuf_main_cst_4, ofBuf_main_cst_4, toBuf_main_call3_v0, ofBuf_main_call3_v0, toBuf_main_call3_v1, ofBuf_main_call3_v1, toBuf_main_v21, ofBuf_main_v21, toBuf_main_v26, ofBuf_main_v26, toBuf_main_v29, ofBuf_main_v29, toBuf_main_cst_10, ofBuf_main_cst_10, toBuf_main_call4_v0, ofBuf_main_call4_v0, toBuf_main_call4_v1, ofBuf_main_call4_v1, toBuf_main_v43, ofBuf_main_v43, toBuf_main_v44, ofBuf_main_v44, toBuf_main_v45, ofBuf_main_v45]

theorem seg7_keep_main_v28 (W : Valuation τ sig (Elt F)) :
    after ops7 W (Proc.devRef .tc main_v28) = W (Proc.devRef .tc main_v28) := by
  after_results_simp

theorem seg7_keep_main_arg1 (W : Valuation τ sig (Elt F)) :
    after ops7 W (Proc.devRef .tc main_arg1) = W (Proc.devRef .tc main_arg1) := by
  after_results_simp

theorem seg7_keep_main_arg2 (W : Valuation τ sig (Elt F)) :
    after ops7 W (Proc.devRef .tc main_arg2) = W (Proc.devRef .tc main_arg2) := by
  after_results_simp

set_option maxRecDepth 8192 in
/-- After operations 66 … 74, main_v41 holds its value as a function of the arguments. -/
theorem seg8_main_v41 (W : Valuation τ sig (Elt F)) (x1 : (⟨S8192, .i32⟩ : BufTy).Contents (Elt F)) (x2 : (⟨S9, .f32⟩ : BufTy).Contents (Elt F))
    (h_main_arg1 : W (Proc.devRef .tc main_arg1) = x1)
    (h_main_arg2 : W (Proc.devRef .tc main_arg2) = x2) :
    after ops8 W (Proc.devRef .tc main_v41) = val_main_v41 (F := F) x1 x2 := by
  after_results_simp
  simp only [h_main_arg1, h_main_arg2, val_main_c_7, val_main_v35, val_main_v36, val_main_c_8, val_main_v37, val_main_v38, val_main_v39, val_main_v40, val_main_v41, toBuf_main_arg0, ofBuf_main_arg0, toBuf_main_call0_v0, ofBuf_main_call0_v0, toBuf_main_call0_cst, ofBuf_main_call0_cst, toBuf_main_call0_v1, ofBuf_main_call0_v1, toBuf_main_call0_v2, ofBuf_main_call0_v2, toBuf_main_v0, ofBuf_main_v0, toBuf_main_cst_0, ofBuf_main_cst_0, toBuf_main_call1_v0, ofBuf_main_call1_v0, toBuf_main_call1_v1, ofBuf_main_call1_v1, toBuf_main_v11, ofBuf_main_v11, toBuf_main_v6, ofBuf_main_v6, toBuf_main_v12, ofBuf_main_v12, toBuf_main_call2_cst, ofBuf_main_call2_cst, toBuf_main_call2_v0, ofBuf_main_call2_v0, toBuf_main_call2_cst_0, ofBuf_main_call2_cst_0, toBuf_main_call2_v1, ofBuf_main_call2_v1, toBuf_main_call2_v2, ofBuf_main_call2_v2, toBuf_main_call2_v3, ofBuf_main_call2_v3, toBuf_main_call2_v4, ofBuf_main_call2_v4, toBuf_main_call2_v5, ofBuf_main_call2_v5, toBuf_main_call2_v6, ofBuf_main_call2_v6, toBuf_main_call2_cst_1, ofBuf_main_call2_cst_1, toBuf_main_call2_v7, ofBuf_main_call2_v7, toBuf_main_call2_v8, ofBuf_main_call2_v8, toBuf_main_call2_v9, ofBuf_main_call2_v9, toBuf_main_call2_v10, ofBuf_main_call2_v10, toBuf_main_v13, ofBuf_main_v13, toBuf_main_cst_4, ofBuf_main_cst_4, toBuf_main_call3_v0, ofBuf_main_call3_v0, toBuf_main_call3_v1, ofBuf_main_call3_v1, toBuf_main_v21, ofBuf_main_v21, toBuf_main_v26, ofBuf_main_v26, toBuf_main_v29, ofBuf_main_v29, toBuf_main_cst_10, ofBuf_main_cst_10, toBuf_main_call4_v0, ofBuf_main_call4_v0, toBuf_main_call4_v1, ofBuf_main_call4_v1, toBuf_main_v43, ofBuf_main_v43, toBuf_main_v44, ofBuf_main_v44, toBuf_main_v45, ofBuf_main_v45]

theorem seg8_keep_main_v28 (W : Valuation τ sig (Elt F)) :
    after ops8 W (Proc.devRef .tc main_v28) = W (Proc.devRef .tc main_v28) := by
  after_results_simp

theorem seg8_keep_main_v34 (W : Valuation τ sig (Elt F)) :
    after ops8 W (Proc.devRef .tc main_v34) = W (Proc.devRef .tc main_v34) := by
  after_results_simp

set_option maxRecDepth 8192 in
/-- After operations 75 … 87, main_v48 holds its value as a function of the arguments. -/
theorem seg9_main_v48 (W : Valuation τ sig (Elt F)) (x0 : (⟨S8192x512, .f32⟩ : BufTy).Contents (Elt F)) (x1 : (⟨S8192, .i32⟩ : BufTy).Contents (Elt F)) (x2 : (⟨S9, .f32⟩ : BufTy).Contents (Elt F))
    (h_main_v28 : W (Proc.devRef .tc main_v28) = val_main_v28 (F := F) x1)
    (h_main_v34 : W (Proc.devRef .tc main_v34) = val_main_v34 (F := F) x0 x1)
    (h_main_v41 : W (Proc.devRef .tc main_v41) = val_main_v41 (F := F) x1 x2) :
    after ops9 W (Proc.devRef .tc main_v48) = val_main_v48 (F := F) x0 x1 x2 := by
  after_results_simp
  simp only [h_main_v28, h_main_v34, h_main_v41, val_main_c_9, val_main_v42, val_main_v43, val_main_v44, val_main_cst_10, val_main_call4_v0, val_main_call4_v1, val_main_v45, val_main_cst_11, val_main_v46, val_main_v47, val_main_cst_12, val_main_v48, toBuf_main_arg0, ofBuf_main_arg0, toBuf_main_call0_v0, ofBuf_main_call0_v0, toBuf_main_call0_cst, ofBuf_main_call0_cst, toBuf_main_call0_v1, ofBuf_main_call0_v1, toBuf_main_call0_v2, ofBuf_main_call0_v2, toBuf_main_v0, ofBuf_main_v0, toBuf_main_cst_0, ofBuf_main_cst_0, toBuf_main_call1_v0, ofBuf_main_call1_v0, toBuf_main_call1_v1, ofBuf_main_call1_v1, toBuf_main_v11, ofBuf_main_v11, toBuf_main_v6, ofBuf_main_v6, toBuf_main_v12, ofBuf_main_v12, toBuf_main_call2_cst, ofBuf_main_call2_cst, toBuf_main_call2_v0, ofBuf_main_call2_v0, toBuf_main_call2_cst_0, ofBuf_main_call2_cst_0, toBuf_main_call2_v1, ofBuf_main_call2_v1, toBuf_main_call2_v2, ofBuf_main_call2_v2, toBuf_main_call2_v3, ofBuf_main_call2_v3, toBuf_main_call2_v4, ofBuf_main_call2_v4, toBuf_main_call2_v5, ofBuf_main_call2_v5, toBuf_main_call2_v6, ofBuf_main_call2_v6, toBuf_main_call2_cst_1, ofBuf_main_call2_cst_1, toBuf_main_call2_v7, ofBuf_main_call2_v7, toBuf_main_call2_v8, ofBuf_main_call2_v8, toBuf_main_call2_v9, ofBuf_main_call2_v9, toBuf_main_call2_v10, ofBuf_main_call2_v10, toBuf_main_v13, ofBuf_main_v13, toBuf_main_cst_4, ofBuf_main_cst_4, toBuf_main_call3_v0, ofBuf_main_call3_v0, toBuf_main_call3_v1, ofBuf_main_call3_v1, toBuf_main_v21, ofBuf_main_v21, toBuf_main_v26, ofBuf_main_v26, toBuf_main_v29, ofBuf_main_v29, toBuf_main_cst_10, ofBuf_main_cst_10, toBuf_main_call4_v0, ofBuf_main_call4_v0, toBuf_main_call4_v1, ofBuf_main_call4_v1, toBuf_main_v43, ofBuf_main_v43, toBuf_main_v44, ofBuf_main_v44, toBuf_main_v45, ofBuf_main_v45]

/-! ## @main as one list -/

/-- @main's 88 operations, in order (a called function's operations stand in its call's place, spelt `TRef.…`). -/
abbrev ops : List (HloOp τ sig (Elt F)) :=
  [ TRef.binary (TRef.of (T := ⟨S8192x512, .f32⟩) main_arg0) (TRef.of (T := ⟨S8192x512, .f32⟩) main_arg0) (TRef.of (T := ⟨S8192x512, .f32⟩) main_call0_v0) mulf,
    TRef.nullary (TRef.of (T := ⟨S_, .f32⟩) main_call0_cst) (constant S_ .f32 0x00000000#32),
    TRef.binary (TRef.of (T := ⟨S8192x512, .f32⟩) main_call0_v0) (TRef.of (T := ⟨S_, .f32⟩) main_call0_cst) (TRef.of (T := ⟨S8192, .f32⟩) main_call0_v1) (fun x v => Host.reduceAdd x v reducesTo_S8192x512_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    unary main_v0 main_v1 (broadcastInDim S8192x512 ![0, 1] bcast_S8192x1_S8192x512_0_1 : (⟨S8192x1, .f32⟩ : BufTy).Contents (Elt F) → (⟨S8192x512, .f32⟩ : BufTy).Contents (Elt F)),
    binary main_arg0 main_v1 main_v2 (Host.divf : (⟨S8192x512, .f32⟩ : BufTy).Contents (Elt F) → (⟨S8192x512, .f32⟩ : BufTy).Contents (Elt F) → (⟨S8192x512, .f32⟩ : BufTy).Contents (Elt F)),
    unary main_v2 main_v3 ((transpose S512x8192 [1, 0] · transposes_S8192x512_S512x8192_1_0) : (⟨S8192x512, .f32⟩ : BufTy).Contents (Elt F) → (⟨S512x8192, .f32⟩ : BufTy).Contents (Elt F)),
    binary main_v2 main_v3 main_v4 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    nullary main_cst (constant S_ .f32 0x3D8F5C29#32),
    unary main_cst main_v5 (broadcastInDim S8192x8192 ![] bcast_S_S8192x8192 : (⟨S_, .f32⟩ : BufTy).Contents (Elt F) → (⟨S8192x8192, .f32⟩ : BufTy).Contents (Elt F)),
    binary main_v4 main_v5 main_v6 (Host.divf : (⟨S8192x8192, .f32⟩ : BufTy).Contents (Elt F) → (⟨S8192x8192, .f32⟩ : BufTy).Contents (Elt F) → (⟨S8192x8192, .f32⟩ : BufTy).Contents (Elt F)),
    nullary main_v7 (iotaInDim S8192x8192 32 0),
    nullary main_v8 (iotaInDim S8192x8192 32 1),
    nullary main_c (constantI S_ 32 0#32),
    unary main_c main_v9 (broadcastInDim S8192x8192 ![] bcast_S_S8192x8192 : (⟨S_, .i32⟩ : BufTy).Contents (Elt F) → (⟨S8192x8192, .i32⟩ : BufTy).Contents (Elt F)),
    binary main_v7 main_v9 main_v10 (addi : (⟨S8192x8192, .i32⟩ : BufTy).Contents (Elt F) → (⟨S8192x8192, .i32⟩ : BufTy).Contents (Elt F) → (⟨S8192x8192, .i32⟩ : BufTy).Contents (Elt F)),
    binary main_v10 main_v8 main_v11 (cmpi .eq : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xC61C4000#32),
    TRef.unary (TRef.of (T := ⟨S_, .f32⟩) main_cst_0) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v11) (TRef.of (T := ⟨S8192x8192, .f32⟩) main_call1_v1) (TRef.of (T := ⟨S8192x8192, .f32⟩) main_v6) (TRef.of (T := ⟨S8192x8192, .f32⟩) main_v12) select,
    TRef.nullary (TRef.of (T := ⟨S_, .f32⟩) main_call2_cst) (constant S_ .f32 0xFF800000#32),
    TRef.binary (TRef.of (T := ⟨S8192x8192, .f32⟩) main_v12) (TRef.of (T := ⟨S_, .f32⟩) main_call2_cst) (TRef.of (T := ⟨S8192, .f32⟩) main_call2_v0) (fun x v => Host.reduce FloatOps.maximumf x v reducesTo_S8192x8192_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x8192, .f32⟩) main_call2_v4) (broadcastInDim S8192x8192 ![0, 1] bcast_S8192x1_S8192x8192_0_1),
    TRef.binary (TRef.of (T := ⟨S8192x8192, .f32⟩) main_v12) (TRef.of (T := ⟨S8192x8192, .f32⟩) main_call2_v4) (TRef.of (T := ⟨S8192x8192, .f32⟩) main_call2_v5) subf,
    TRef.unary (TRef.of (T := ⟨S8192x8192, .f32⟩) main_call2_v5) (TRef.of (T := ⟨S8192x8192, .f32⟩) main_call2_v6) Host.exp,
    TRef.nullary (TRef.of (T := ⟨S_, .f32⟩) main_call2_cst_1) (constant S_ .f32 0x00000000#32),
    TRef.binary (TRef.of (T := ⟨S8192x8192, .f32⟩) main_call2_v6) (TRef.of (T := ⟨S_, .f32⟩) main_call2_cst_1) (TRef.of (T := ⟨S8192, .f32⟩) main_call2_v7) (fun x v => Host.reduceAdd x v reducesTo_S8192x8192_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x8192, .f32⟩) main_call2_v10) (broadcastInDim S8192x8192 ![0, 1] bcast_S8192x1_S8192x8192_0_1),
    TRef.binary (TRef.of (T := ⟨S8192x8192, .f32⟩) main_call2_v5) (TRef.of (T := ⟨S8192x8192, .f32⟩) main_call2_v10) (TRef.of (T := ⟨S8192x8192, .f32⟩) main_v13) subf,
    unary main_v13 main_v14 (Host.exp : (⟨S8192x8192, .f32⟩ : BufTy).Contents (Elt F) → (⟨S8192x8192, .f32⟩ : BufTy).Contents (Elt F)),
    unary main_arg1 main_v15 (broadcastInDim S8192x1 ![0] bcast_S8192_S8192x1_0 : (⟨S8192, .i32⟩ : BufTy).Contents (Elt F) → (⟨S8192x1, .i32⟩ : BufTy).Contents (Elt F)),
    unary main_arg1 main_v16 (broadcastInDim S1x8192 ![1] bcast_S8192_S1x8192_1 : (⟨S8192, .i32⟩ : BufTy).Contents (Elt F) → (⟨S1x8192, .i32⟩ : BufTy).Contents (Elt F)),
    unary main_v15 main_v17 (broadcastInDim S8192x8192 ![0, 1] bcast_S8192x1_S8192x8192_0_1 : (⟨S8192x1, .i32⟩ : BufTy).Contents (Elt F) → (⟨S8192x8192, .i32⟩ : BufTy).Contents (Elt F)),
    unary main_v16 main_v18 (broadcastInDim S8192x8192 ![0, 1] bcast_S1x8192_S8192x8192_0_1 : (⟨S1x8192, .i32⟩ : BufTy).Contents (Elt F) → (⟨S8192x8192, .i32⟩ : BufTy).Contents (Elt F)),
    binary main_v17 main_v18 main_v19 (cmpi .eq : (⟨S8192x8192, .i32⟩ : BufTy).Contents (Elt F) → (⟨S8192x8192, .i32⟩ : BufTy).Contents (Elt F) → (⟨S8192x8192, .i1⟩ : BufTy).Contents (Elt F)),
    unary main_v11 main_v20 (noti : (⟨S8192x8192, .i1⟩ : BufTy).Contents (Elt F) → (⟨S8192x8192, .i1⟩ : BufTy).Contents (Elt F)),
    binary main_v19 main_v20 main_v21 (andi : (⟨S8192x8192, .i1⟩ : BufTy).Contents (Elt F) → (⟨S8192x8192, .i1⟩ : BufTy).Contents (Elt F) → (⟨S8192x8192, .i1⟩ : BufTy).Contents (Elt F)),
    nullary main_cst_1 (constant S_ .f32 0x3F800000#32),
    unary main_cst_1 main_v22 (broadcastInDim S8192x8192 ![] bcast_S_S8192x8192 : (⟨S_, .f32⟩ : BufTy).Contents (Elt F) → (⟨S8192x8192, .f32⟩ : BufTy).Contents (Elt F)),
    binary main_v22 main_v14 main_v23 (subf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x40000000#32),
    unary main_cst_2 main_v24 (broadcastInDim S8192x8192 ![] bcast_S_S8192x8192 : (⟨S_, .f32⟩ : BufTy).Contents (Elt F) → (⟨S8192x8192, .f32⟩ : BufTy).Contents (Elt F)),
    binary main_v23 main_v24 main_v25 (Host.powf : (⟨S8192x8192, .f32⟩ : BufTy).Contents (Elt F) → (⟨S8192x8192, .f32⟩ : BufTy).Contents (Elt F) → (⟨S8192x8192, .f32⟩ : BufTy).Contents (Elt F)),
    binary main_v13 main_v25 main_v26 (mulf : (⟨S8192x8192, .f32⟩ : BufTy).Contents (Elt F) → (⟨S8192x8192, .f32⟩ : BufTy).Contents (Elt F) → (⟨S8192x8192, .f32⟩ : BufTy).Contents (Elt F)),
    unary main_v21 main_v27 ((extui 32 · natLt_1_32) : (⟨S8192x8192, .i1⟩ : BufTy).Contents (Elt F) → (⟨S8192x8192, .i32⟩ : BufTy).Contents (Elt F)),
    nullary main_c_3 (constantI S_ 32 0#32),
    binary main_v27 main_c_3 main_v28 ((fun x v => Host.reduce IntOp.addi x v reducesTo_S8192x8192_S8192_d1 h_S_) : (⟨S8192x8192, .i32⟩ : BufTy).Contents (Elt F) → (⟨S_, .i32⟩ : BufTy).Contents (Elt F) → (⟨S8192, .i32⟩ : BufTy).Contents (Elt F)),
    nullary main_cst_4 (constant S_ .f32 0x00000000#32),
    TRef.unary (TRef.of (T := ⟨S_, .f32⟩) main_cst_4) (TRef.of (T := ⟨S_, .f32⟩) main_call3_v0) id,
    TRef.unary (TRef.of (T := ⟨S_, .f32⟩) main_call3_v0) (TRef.of (T := ⟨S8192x8192, .f32⟩) main_call3_v1) (broadcastInDim S8192x8192 ![] bcast_S_S8192x8192),
    TRef.ternary (TRef.of (T := ⟨S8192x8192, .i1⟩) main_v21) (TRef.of (T := ⟨S8192x8192, .f32⟩) main_v26) (TRef.of (T := ⟨S8192x8192, .f32⟩) main_call3_v1) (TRef.of (T := ⟨S8192x8192, .f32⟩) main_v29) select,
    nullary main_cst_5 (constant S_ .f32 0x00000000#32),
    binary main_v29 main_cst_5 main_v30 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_c_6 (constantI S_ 32 1#32),
    unary main_c_6 main_v31 (broadcastInDim S8192 ![] bcast_S_S8192 : (⟨S_, .i32⟩ : BufTy).Contents (Elt F) → (⟨S8192, .i32⟩ : BufTy).Contents (Elt F)),
    binary main_v28 main_v31 main_v32 (maxsi : (⟨S8192, .i32⟩ : BufTy).Contents (Elt F) → (⟨S8192, .i32⟩ : BufTy).Contents (Elt F) → (⟨S8192, .i32⟩ : BufTy).Contents (Elt F)),
    unary main_v32 main_v33 (sitofp .f32 : (⟨S8192, .i32⟩ : BufTy).Contents (Elt F) → (⟨S8192, .f32⟩ : BufTy).Contents (Elt F)),
    binary main_v30 main_v33 main_v34 (Host.divf : (⟨S8192, .f32⟩ : BufTy).Contents (Elt F) → (⟨S8192, .f32⟩ : BufTy).Contents (Elt F) → (⟨S8192, .f32⟩ : BufTy).Contents (Elt F)),
    nullary main_c_7 (constantI S_ 32 0#32),
    unary main_c_7 main_v35 (broadcastInDim S8192 ![] bcast_S_S8192 : (⟨S_, .i32⟩ : BufTy).Contents (Elt F) → (⟨S8192, .i32⟩ : BufTy).Contents (Elt F)),
    binary main_arg1 main_v35 main_v36 (cmpi .slt : (⟨S8192, .i32⟩ : BufTy).Contents (Elt F) → (⟨S8192, .i32⟩ : BufTy).Contents (Elt F) → (⟨S8192, .i1⟩ : BufTy).Contents (Elt F)),
    nullary main_c_8 (constantI S_ 32 9#32),
    unary main_c_8 main_v37 (broadcastInDim S8192 ![] bcast_S_S8192 : (⟨S_, .i32⟩ : BufTy).Contents (Elt F) → (⟨S8192, .i32⟩ : BufTy).Contents (Elt F)),
    binary main_arg1 main_v37 main_v38 (addi : (⟨S8192, .i32⟩ : BufTy).Contents (Elt F) → (⟨S8192, .i32⟩ : BufTy).Contents (Elt F) → (⟨S8192, .i32⟩ : BufTy).Contents (Elt F)),
    ternary main_v36 main_v38 main_arg1 main_v39 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v39 main_v40 (broadcastInDim S8192x1 ![0] bcast_S8192_S8192x1_0 : (⟨S8192, .i32⟩ : BufTy).Contents (Elt F) → (⟨S8192x1, .i32⟩ : BufTy).Contents (Elt F)),
    binary main_arg2 main_v40 main_v41 ((fun x i => Host.gather gather_S9_S8192x1_S8192_n_0_n_n_0_1_1 x i) : (⟨S9, .f32⟩ : BufTy).Contents (Elt F) → (⟨S8192x1, .i32⟩ : BufTy).Contents (Elt F) → (⟨S8192, .f32⟩ : BufTy).Contents (Elt F)),
    nullary main_c_9 (constantI S_ 32 0#32),
    unary main_c_9 main_v42 (broadcastInDim S8192 ![] bcast_S_S8192 : (⟨S_, .i32⟩ : BufTy).Contents (Elt F) → (⟨S8192, .i32⟩ : BufTy).Contents (Elt F)),
    binary main_v28 main_v42 main_v43 (cmpi .sgt : (⟨S8192, .i32⟩ : BufTy).Contents (Elt F) → (⟨S8192, .i32⟩ : BufTy).Contents (Elt F) → (⟨S8192, .i1⟩ : BufTy).Contents (Elt F)),
    binary main_v34 main_v41 main_v44 (mulf : (⟨S8192, .f32⟩ : BufTy).Contents (Elt F) → (⟨S8192, .f32⟩ : BufTy).Contents (Elt F) → (⟨S8192, .f32⟩ : BufTy).Contents (Elt F)),
    nullary main_cst_10 (constant S_ .f32 0x00000000#32),
    TRef.unary (TRef.of (T := ⟨S_, .f32⟩) main_cst_10) (TRef.of (T := ⟨S_, .f32⟩) main_call4_v0) id,
    TRef.unary (TRef.of (T := ⟨S_, .f32⟩) main_call4_v0) (TRef.of (T := ⟨S8192, .f32⟩) main_call4_v1) (broadcastInDim S8192 ![] bcast_S_S8192),
    TRef.ternary (TRef.of (T := ⟨S8192, .i1⟩) main_v43) (TRef.of (T := ⟨S8192, .f32⟩) main_v44) (TRef.of (T := ⟨S8192, .f32⟩) main_call4_v1) (TRef.of (T := ⟨S8192, .f32⟩) main_v45) select,
    nullary main_cst_11 (constant S_ .f32 0x00000000#32),
    binary main_v45 main_cst_11 main_v46 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v46 main_v47 (Host.negf : (⟨S_, .f32⟩ : BufTy).Contents (Elt F) → (⟨S_, .f32⟩ : BufTy).Contents (Elt F)),
    nullary main_cst_12 (constant S_ .f32 0x46000000#32),
    binary main_v47 main_cst_12 main_v48 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., nullary_bufs_sub .., nullary_bufs_sub .., nullary_bufs_sub .., unary_bufs_sub .., binary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., unary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., unary_bufs_sub .., nullary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub .., unary_bufs_sub .., nullary_bufs_sub .., binary_bufs_sub ..⟩

set_option maxRecDepth 8192 in
/-- No operation writes argument 0. -/
theorem keep_main_arg0 (V : Valuation τ sig (Elt F)) : after ops V (Proc.devRef .tc main_arg0) = V (Proc.devRef .tc main_arg0) := by
  after_results_simp

set_option maxRecDepth 8192 in
/-- No operation writes argument 1. -/
theorem keep_main_arg1 (V : Valuation τ sig (Elt F)) : after ops V (Proc.devRef .tc main_arg1) = V (Proc.devRef .tc main_arg1) := by
  after_results_simp

set_option maxRecDepth 8192 in
/-- No operation writes argument 2. -/
theorem keep_main_arg2 (V : Valuation τ sig (Elt F)) : after ops V (Proc.devRef .tc main_arg2) = V (Proc.devRef .tc main_arg2) := by
  after_results_simp

/-! ## The whole list, stage by stage -/

/-- After all of @main's operations the result buffer holds the composed stage of the arguments. -/
theorem after_ops (V : Valuation τ sig (Elt F)) (x0 : (⟨S8192x512, .f32⟩ : BufTy).Contents (Elt F)) (x1 : (⟨S8192, .i32⟩ : BufTy).Contents (Elt F)) (x2 : (⟨S9, .f32⟩ : BufTy).Contents (Elt F))
    (h0 : V (Proc.devRef .tc main_arg0) = x0) (h1 : V (Proc.devRef .tc main_arg1) = x1) (h2 : V (Proc.devRef .tc main_arg2) = x2) :
    after ops V (Proc.devRef .tc main_v48) = val_main_v48 (F := F) x0 x1 x2 := by
  have e : (ops : List (HloOp τ sig (Elt F))) = ops1 ++ (ops2 ++ (ops3 ++ (ops4 ++ (ops5 ++ (ops6 ++ (ops7 ++ (ops8 ++ ops9))))))) := rfl
  rw [e]
  simp only [after_append]
  have a1_main_v0 := seg1_main_v0 V x0 h0
  have k1_main_arg0 := (seg1_keep_main_arg0 V).trans h0
  have k1_main_arg1 := (seg1_keep_main_arg1 V).trans h1
  have k1_main_arg2 := (seg1_keep_main_arg2 V).trans h2
  clear h0 h1 h2
  generalize after ops1 V = W1 at *
  have a2_main_v11 := seg2_main_v11 W1 x0 k1_main_arg0 a1_main_v0
  have a2_main_v12 := seg2_main_v12 W1 x0 k1_main_arg0 a1_main_v0
  have k2_main_arg1 := (seg2_keep_main_arg1 W1).trans k1_main_arg1
  have k2_main_arg2 := (seg2_keep_main_arg2 W1).trans k1_main_arg2
  clear a1_main_v0 k1_main_arg0 k1_main_arg1 k1_main_arg2
  generalize after ops2 W1 = W2 at *
  have a3_main_v13 := seg3_main_v13 W2 x0 a2_main_v12
  have k3_main_v11 := (seg3_keep_main_v11 W2).trans a2_main_v11
  have k3_main_arg1 := (seg3_keep_main_arg1 W2).trans k2_main_arg1
  have k3_main_arg2 := (seg3_keep_main_arg2 W2).trans k2_main_arg2
  clear a2_main_v11 a2_main_v12 k2_main_arg1 k2_main_arg2
  generalize after ops3 W2 = W3 at *
  have a4_main_v14 := seg4_main_v14 W3 x0 x1 a3_main_v13 k3_main_v11 k3_main_arg1
  have a4_main_v21 := seg4_main_v21 W3 x0 x1 a3_main_v13 k3_main_v11 k3_main_arg1
  have k4_main_v13 := (seg4_keep_main_v13 W3).trans a3_main_v13
  have k4_main_arg1 := (seg4_keep_main_arg1 W3).trans k3_main_arg1
  have k4_main_arg2 := (seg4_keep_main_arg2 W3).trans k3_main_arg2
  clear a3_main_v13 k3_main_v11 k3_main_arg1 k3_main_arg2
  generalize after ops4 W3 = W4 at *
  have a5_main_v26 := seg5_main_v26 W4 x0 a4_main_v14 k4_main_v13
  have k5_main_v21 := (seg5_keep_main_v21 W4).trans a4_main_v21
  have k5_main_arg1 := (seg5_keep_main_arg1 W4).trans k4_main_arg1
  have k5_main_arg2 := (seg5_keep_main_arg2 W4).trans k4_main_arg2
  clear a4_main_v14 a4_main_v21 k4_main_v13 k4_main_arg1 k4_main_arg2
  generalize after ops5 W4 = W5 at *
  have a6_main_v28 := seg6_main_v28 W5 x0 x1 k5_main_v21 a5_main_v26
  have a6_main_v30 := seg6_main_v30 W5 x0 x1 k5_main_v21 a5_main_v26
  have k6_main_arg1 := (seg6_keep_main_arg1 W5).trans k5_main_arg1
  have k6_main_arg2 := (seg6_keep_main_arg2 W5).trans k5_main_arg2
  clear a5_main_v26 k5_main_v21 k5_main_arg1 k5_main_arg2
  generalize after ops6 W5 = W6 at *
  have a7_main_v34 := seg7_main_v34 W6 x0 x1 a6_main_v28 a6_main_v30
  have k7_main_v28 := (seg7_keep_main_v28 W6).trans a6_main_v28
  have k7_main_arg1 := (seg7_keep_main_arg1 W6).trans k6_main_arg1
  have k7_main_arg2 := (seg7_keep_main_arg2 W6).trans k6_main_arg2
  clear a6_main_v28 a6_main_v30 k6_main_arg1 k6_main_arg2
  generalize after ops7 W6 = W7 at *
  have a8_main_v41 := seg8_main_v41 W7 x1 x2 k7_main_arg1 k7_main_arg2
  have k8_main_v28 := (seg8_keep_main_v28 W7).trans k7_main_v28
  have k8_main_v34 := (seg8_keep_main_v34 W7).trans a7_main_v34
  clear a7_main_v34 k7_main_v28 k7_main_arg1 k7_main_arg2
  generalize after ops8 W7 = W8 at *
  have a9_main_v48 := seg9_main_v48 W8 x0 x1 x2 k8_main_v28 k8_main_v34 a8_main_v41
  exact a9_main_v48

/-- On every device, from any memory with zero counters: every weakly fair execution of @main terminates with the
    result at the composed stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = val_main_v48 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v48).trans (after_ops (launchContents m c) _ _ _ rfl rfl rfl),
      (h c main_arg0).trans (keep_main_arg0 (launchContents m c)),
      (h c main_arg1).trans (keep_main_arg1 (launchContents m c)),
      (h c main_arg2).trans (keep_main_arg2 (launchContents m c))⟩)
    (run_seq scopedRefs_eq scopedSems_eq defs main (fun _ => ops) main_eq (fun _ => ops_sub) m ρ)

end Cert.ReferenceIdeal.RunH
end
-- ==== Proof.lean ====
/-
  The certificate of the two-region contrastive-loss kernel against its reference.

  Both programs normalise every row of the features by its Euclidean norm, form the similarity of every pair of rows
  (a fixed negative number on the diagonal, the scaled inner product off it), take per row the logarithm of the softmax
  of the similarities, and average over the pairs with equal labels the focal term logp · (1 − exp logp)², weighted by
  the row's class weight. The kernel does this in two grid-blocked passes over 4 row blocks × 16 column blocks: the
  first carries the running row maximum and the running sum of exponentials rescaled to that maximum, the second uses
  them to accumulate the focal sum and the count of positive pairs; the reference does it on the whole 8192 × 8192
  matrix at once. On inputs whose rows all have a non-zero norm every intermediate is a real number, the rescaled
  running sum telescopes (exp (a − b) · exp (b − c) = exp (a − c)), x − (m + log l) = (x − m) − log l, a real squared is
  its product with itself, the float count of positive pairs is the integer count, and a sum over 8192 columns is the
  sum over 16 blocks of 512; so the two results agree.
-/
import proofs.«113668_j72095321030692_1_alg».proof.Defs
import proofs.«113668_j72095321030692_1_alg».proof.Proof.Gen.Kernel
import proofs.«113668_j72095321030692_1_alg».proof.Proof.Gen.KernelIdeal
import proofs.«113668_j72095321030692_1_alg».proof.Proof.Gen.ReferenceIdeal
import proofs.«113668_j72095321030692_1_alg».proof.Proof.Gen.Pre_finite_inputs
import proofs.«113668_j72095321030692_1_alg».proof.Proof.BRegs
import proofs.«113668_j72095321030692_1_alg».proof.Proof.BridgeZ
import proofs.«113668_j72095321030692_1_alg».proof.Proof.RefRunH
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as launched. -/
theorem frame_p : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.HandR.kernel_run (F := Bits) m ρ)

/-- The same of the kernel read over the extended reals. -/
theorem frame_pi : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.HandR.kernel_run (F := Ideal) m ρ)

/-- The reference runs to the end and leaves its arguments as launched. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.RunH.run (F := Ideal) m ρ)

/-- No operation of the kernel was rewritten on the way to the extended reals. -/
theorem preserves : Cert.preserves_Kernel_KernelIdeal := trivial

/-- From memories agreeing on the arguments both programs end at one scalar: the kernel's result buffer is the host tail
    of its second region's outputs, which are the reference's per-row focal sums and counts. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Gen.V7 m (Cert.KernelIdeal.HandR.outs m) c Cert.KernelIdeal.main_v26, Cert.KernelIdeal.HandR.kernel_run (F := Ideal) m ρ, ?_⟩
  refine (θ_run Cert.ReferenceIdeal.defs _ _).mono (fun _ h c => ⟨(h c).1.trans ?_, (h c).2⟩) (Cert.ReferenceIdeal.RunH.run (F := Ideal) m' ρ')
  rw [(hagree c).1, (hagree c).2.1, (hagree c).2.2]
  exact (Cert.KernelIdeal.HandB.bridge m hpre c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
